-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26 : Shape := ⟨2, ![4096, 26]⟩
abbrev S26x100000x16 : Shape := ⟨3, ![26, 100000, 16]⟩
abbrev S_ : Shape := ⟨0, ![]⟩

class Facts : Prop where
  bcast_S_S26x100000x16 : S_.BroadcastsInDim S26x100000x16 (![] : Fin 0 → Fin S26x100000x16.rank)
  reducesTo_S26x100000x16_S_d0_1_2 : S26x100000x16.ReducesTo [0, 1, 2] S_
  h_S_ : 0 < S_.numel
  bcast_S_S4096x26 : S_.BroadcastsInDim S4096x26 (![] : Fin 0 → Fin S4096x26.rank)
  reducesTo_S4096x26_S_d0_1 : S4096x26.ReducesTo [0, 1] S_

variable [Facts]

def fn {F : FTy → Type} [FloatOps F] (main_arg0 : IVec S4096x26 32) (main_arg1 : FVec F S26x100000x16 .f32) : IVec S_ 1 :=
  let main_v0 : FVec F S26x100000x16 .f32 := Host.absf main_arg1
  let main_cst : FVec F S_ .f32 := constant S_ .f32 0x7F800000#32
  let main_v1 : FVec F S26x100000x16 .f32 := broadcastInDim S26x100000x16 ![] bcast_S_S26x100000x16 main_cst
  let main_v2 : IVec S26x100000x16 1 := cmpf .olt main_v0 main_v1
  let main_c : IVec S_ 1 := constantI S_ 1 1#1
  let main_v3 : IVec S_ 1 := (fun x v => Host.reduce IntOp.andi x v reducesTo_S26x100000x16_S_d0_1_2 h_S_) main_v2 main_c
  let main_c_0 : IVec S_ 32 := constantI S_ 32 0#32
  let main_v4 : IVec S4096x26 32 := broadcastInDim S4096x26 ![] bcast_S_S4096x26 main_c_0
  let main_v5 : IVec S4096x26 1 := cmpi .sge main_arg0 main_v4
  let main_c_1 : IVec S_ 32 := constantI S_ 32 99999#32
  let main_v6 : IVec S4096x26 32 := broadcastInDim S4096x26 ![] bcast_S_S4096x26 main_c_1
  let main_v7 : IVec S4096x26 1 := cmpi .sle main_arg0 main_v6
  let main_v8 : IVec S4096x26 1 := andi main_v5 main_v7
  let main_c_2 : IVec S_ 1 := constantI S_ 1 1#1
  let main_v9 : IVec S_ 1 := (fun x v => Host.reduce IntOp.andi x v reducesTo_S4096x26_S_d0_1 h_S_) main_v8 main_c_2
  let main_v10 : IVec S_ 1 := andi main_v3 main_v9
  main_v10
-- ==== Kernel.lean ====
abbrev S4096x26 : Shape := ⟨2, ![4096, 26]⟩
abbrev S26x100000x16 : Shape := ⟨3, ![26, 100000, 16]⟩
abbrev S26x4096 : Shape := ⟨2, ![26, 4096]⟩
abbrev S26x16x100000 : Shape := ⟨3, ![26, 16, 100000]⟩
abbrev S26x16x4096 : Shape := ⟨3, ![26, 16, 4096]⟩
abbrev S4096 : Shape := ⟨1, ![4096]⟩
abbrev S50176 : Shape := ⟨1, ![50176]⟩
abbrev S49824 : Shape := ⟨1, ![49824]⟩
abbrev S_ : Shape := ⟨0, ![]⟩
abbrev S1x1x50176 : Shape := ⟨3, ![1, 1, 50176]⟩
abbrev S1x1x49824 : Shape := ⟨3, ![1, 1, 49824]⟩
abbrev S1x1x4096 : Shape := ⟨3, ![1, 1, 4096]⟩
abbrev S1x4096 : Shape := ⟨2, ![1, 4096]⟩
abbrev S16 : Shape := ⟨1, ![16]⟩
abbrev S4096x26x16 : Shape := ⟨3, ![4096, 26, 16]⟩

abbrev nBuf : Table → Nat
  | .hbm => 6
  | .local .scVector .vmem => 4
  | _ => 0

abbrev bufTy : (tb : Table) → Fin (nBuf tb) → BufTy
  | .hbm, ⟨0, _⟩ => ⟨S4096x26, .i32⟩
  | .hbm, ⟨1, _⟩ => ⟨S26x100000x16, .f32⟩
  | .hbm, ⟨2, _⟩ => ⟨S26x4096, .i32⟩
  | .hbm, ⟨3, _⟩ => ⟨S26x16x100000, .f32⟩
  | .hbm, ⟨4, _⟩ => ⟨S26x16x4096, .f32⟩
  | .hbm, ⟨5, _⟩ => ⟨S4096x26x16, .f32⟩
  | .local .scVector .vmem, ⟨0, _⟩ => ⟨S4096, .i32⟩
  | .local .scVector .vmem, ⟨1, _⟩ => ⟨S4096, .f32⟩
  | .local .scVector .vmem, ⟨2, _⟩ => ⟨S50176, .f32⟩
  | .local .scVector .vmem, ⟨3, _⟩ => ⟨S49824, .f32⟩
  | _, _ => ⟨S4096x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c0_i32_5 : BitVec 32 := 0#32
  ![v19.toNat, v21.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let v20 : BitVec 32 := Scalar.muli v19 c16_i32_4
  let v21 : BitVec 32 := Scalar.subi v2 v20
  let c50176_i32 : BitVec 32 := 50176#32
  ![v19.toNat, v21.toNat, 50176]
@[reducible] def k0_t1_loop : Scf.Loop 32 :=
  let c0_i32_8 : BitVec 32 := 0#32
  let c13_i32_9 : BitVec 32 := 13#32
  let v30 : BitVec 32 := Scalar.addi c0_i32_8 c13_i32_9
  let c1_i32_10 : BitVec 32 := 1#32
  ⟨c0_i32_8, v30, c1_i32_10⟩
def k0_cond1 (k0_t1 : Fin k0_t1_loop.trips) : BitVec 1 :=
  let c0_i32_8 : BitVec 32 := 0#32
  let c1_i32_10 : BitVec 32 := 1#32
  let arg12 : BitVec 32 := Scf.iv c0_i32_8 c1_i32_10 k0_t1
  let c0_i32_41 : BitVec 32 := 0#32
  let v97 : BitVec 1 := Scalar.cmpi .sgt arg12 c0_i32_41
  let v98 : BitVec 32 := Scalar.extui v97
  let c0_i32_42 : BitVec 32 := 0#32
  let v99 : BitVec 1 := Scalar.cmpi .ne v98 c0_i32_42
  v99

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c16_i32_24 : BitVec 32 := 16#32
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let v58 : BitVec 32 := Scalar.divsi v57 c16_i32_24
  let c1_i32_30 : BitVec 32 := 1#32
  let v73 : BitVec 32 := Scalar.subi v58 c1_i32_30
  let v74 : BitVec 32 := Scalar.select v72 v73 v58
  let c16_i32_31 : BitVec 32 := 16#32
  let v75 : BitVec 32 := Scalar.muli v74 c16_i32_31
  let v76 : BitVec 32 := Scalar.subi v57 v75
  let c0_i32_62 : BitVec 32 := 0#32
  ![v74.toNat, v76.toNat, 0]
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c16_i32_24 : BitVec 32 := 16#32
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let v58 : BitVec 32 := Scalar.divsi v57 c16_i32_24
  let c1_i32_30 : BitVec 32 := 1#32
  let v73 : BitVec 32 := Scalar.subi v58 c1_i32_30
  let v74 : BitVec 32 := Scalar.select v72 v73 v58
  let c0_i32_62_r0 : BitVec 32 := 0#32
  ![v74.toNat, 0]
def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c16_i32_24 : BitVec 32 := 16#32
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let v58 : BitVec 32 := Scalar.divsi v57 c16_i32_24
  let c1_i32_30 : BitVec 32 := 1#32
  let v73 : BitVec 32 := Scalar.subi v58 c1_i32_30
  let v74 : BitVec 32 := Scalar.select v72 v73 v58
  let c16_i32_31 : BitVec 32 := 16#32
  let v75 : BitVec 32 := Scalar.muli v74 c16_i32_31
  let v76 : BitVec 32 := Scalar.subi v57 v75
  let c0_i32_44 : BitVec 32 := 0#32
  ![v74.toNat, v76.toNat, 0]
@[reducible] def k0_t2_loop : Scf.Loop 32 :=
  let c0_i32_47 : BitVec 32 := 0#32
  let c64_i32 : BitVec 32 := 64#32
  let v107 : BitVec 32 := Scalar.addi c0_i32_47 c64_i32
  let c1_i32_48 : BitVec 32 := 1#32
  ⟨c0_i32_47, v107, c1_i32_48⟩
def k0_off6 (k0_t2 : Fin k0_t2_loop.trips) : Fin 1 → Nat :=
  let c0_i32_47 : BitVec 32 := 0#32
  let c1_i32_48 : BitVec 32 := 1#32
  let arg14 : BitVec 32 := Scf.iv c0_i32_47 c1_i32_48 k0_t2
  let c64_i32_62 : BitVec 32 := 64#32
  let v123 : BitVec 32 := Scalar.muli arg14 c64_i32_62
  let c0_i32_63 : BitVec 32 := 0#32
  let v124 : BitVec 32 := Scalar.addi v123 c0_i32_63
  let v125 : Index := Scalar.indexCast v124
  ![v125.toNat]

def k0_chk1 (v128 : IVec S16 32) : Prop :=
  (∀ a x, ((![v128] : Fin 1 → IVec S16 32) a x).toNat < S50176.size a)
instance k0_chk1.dec : ∀ (v128 : IVec S16 32), Decidable (k0_chk1 v128) := fun v128 => decidable_of_iff' _ (Iff.of_eq (k0_chk1.eq_1 v128))
theorem k0_idx1_inb : ∀ (v128 : IVec S16 32) (k0_hw1 : k0_chk1 v128), ∀ a x, ((![v128] : Fin 1 → IVec S16 32) a x).toNat < S50176.size a := fun v128 k0_hw1 => k0_hw1
def k0_off7 (k0_t2 : Fin k0_t2_loop.trips) (c0_i32_63 : BitVec 32) : Fin 1 → Nat :=
  let c0_i32_47 : BitVec 32 := 0#32
  let c1_i32_48 : BitVec 32 := 1#32
  let arg14 : BitVec 32 := Scf.iv c0_i32_47 c1_i32_48 k0_t2
  let c64_i32_62 : BitVec 32 := 64#32
  let v123 : BitVec 32 := Scalar.muli arg14 c64_i32_62
  let v124 : BitVec 32 := Scalar.addi v123 c0_i32_63
  let v130 : Index := Scalar.indexCast v124
  ![v130.toNat]

def k0_chk2 (v137 : IVec S16 32) : Prop :=
  (∀ a x, ((![v137] : Fin 1 → IVec S16 32) a x).toNat < S50176.size a)
instance k0_chk2.dec : ∀ (v137 : IVec S16 32), Decidable (k0_chk2 v137) := fun v137 => decidable_of_iff' _ (Iff.of_eq (k0_chk2.eq_1 v137))
theorem k0_idx2_inb : ∀ (v137 : IVec S16 32) (k0_hw2 : k0_chk2 v137), ∀ a x, ((![v137] : Fin 1 → IVec S16 32) a x).toNat < S50176.size a := fun v137 k0_hw2 => k0_hw2
def k0_off8 (k0_t2 : Fin k0_t2_loop.trips) (c16_i32_65 : BitVec 32) : Fin 1 → Nat :=
  let c0_i32_47 : BitVec 32 := 0#32
  let c1_i32_48 : BitVec 32 := 1#32
  let arg14 : BitVec 32 := Scf.iv c0_i32_47 c1_i32_48 k0_t2
  let c64_i32_64 : BitVec 32 := 64#32
  let v132 : BitVec 32 := Scalar.muli arg14 c64_i32_64
  let v133 : BitVec 32 := Scalar.addi v132 c16_i32_65
  let v139 : Index := Scalar.indexCast v133
  ![v139.toNat]

def k0_chk3 (v146 : IVec S16 32) : Prop :=
  (∀ a x, ((![v146] : Fin 1 → IVec S16 32) a x).toNat < S50176.size a)
instance k0_chk3.dec : ∀ (v146 : IVec S16 32), Decidable (k0_chk3 v146) := fun v146 => decidable_of_iff' _ (Iff.of_eq (k0_chk3.eq_1 v146))
theorem k0_idx3_inb : ∀ (v146 : IVec S16 32) (k0_hw3 : k0_chk3 v146), ∀ a x, ((![v146] : Fin 1 → IVec S16 32) a x).toNat < S50176.size a := fun v146 k0_hw3 => k0_hw3
def k0_off9 (k0_t2 : Fin k0_t2_loop.trips) (c32_i32 : BitVec 32) : Fin 1 → Nat :=
  let c0_i32_47 : BitVec 32 := 0#32
  let c1_i32_48 : BitVec 32 := 1#32
  let arg14 : BitVec 32 := Scf.iv c0_i32_47 c1_i32_48 k0_t2
  let c64_i32_67 : BitVec 32 := 64#32
  let v141 : BitVec 32 := Scalar.muli arg14 c64_i32_67
  let v142 : BitVec 32 := Scalar.addi v141 c32_i32
  let v148 : Index := Scalar.indexCast v142
  ![v148.toNat]

def k0_chk4 (v155 : IVec S16 32) : Prop :=
  (∀ a x, ((![v155] : Fin 1 → IVec S16 32) a x).toNat < S50176.size a)
instance k0_chk4.dec : ∀ (v155 : IVec S16 32), Decidable (k0_chk4 v155) := fun v155 => decidable_of_iff' _ (Iff.of_eq (k0_chk4.eq_1 v155))
theorem k0_idx4_inb : ∀ (v155 : IVec S16 32) (k0_hw4 : k0_chk4 v155), ∀ a x, ((![v155] : Fin 1 → IVec S16 32) a x).toNat < S50176.size a := fun v155 k0_hw4 => k0_hw4
def k0_off10 (k0_t2 : Fin k0_t2_loop.trips) : Fin 1 → Nat :=
  let c0_i32_47 : BitVec 32 := 0#32
  let c1_i32_48 : BitVec 32 := 1#32
  let arg14 : BitVec 32 := Scf.iv c0_i32_47 c1_i32_48 k0_t2
  let c64_i32_69 : BitVec 32 := 64#32
  let v150 : BitVec 32 := Scalar.muli arg14 c64_i32_69
  let c48_i32 : BitVec 32 := 48#32
  let v151 : BitVec 32 := Scalar.addi v150 c48_i32
  let v157 : Index := Scalar.indexCast v151
  ![v157.toNat]
def k0_cond3 (k0_t1 : Fin k0_t1_loop.trips) : BitVec 1 :=
  let c0_i32_8 : BitVec 32 := 0#32
  let c1_i32_10 : BitVec 32 := 1#32
  let arg12 : BitVec 32 := Scf.iv c0_i32_8 c1_i32_10 k0_t1
  let c12_i32 : BitVec 32 := 12#32
  let v108 : BitVec 1 := Scalar.cmpi .slt arg12 c12_i32
  let v109 : BitVec 32 := Scalar.extui v108
  let c0_i32_50 : BitVec 32 := 0#32
  let v110 : BitVec 1 := Scalar.cmpi .ne v109 c0_i32_50
  v110

def k0_off11 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c1_i32_32 : BitVec 32 := 1#32
  let v77 : BitVec 32 := Scalar.addi v57 c1_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c16_i32_33 : BitVec 32 := 16#32
  let c0_i32_36 : BitVec 32 := 0#32
  let v84 : BitVec 1 := Scalar.cmpi .sgt c16_i32_33 c0_i32_36
  let v85 : BitVec 32 := Scalar.extui v84
  let c0_i32_37 : BitVec 32 := 0#32
  let v86 : BitVec 1 := Scalar.cmpi .slt c16_i32_33 c0_i32_37
  let v87 : BitVec 32 := Scalar.extui v86
  let v88 : BitVec 32 := Scalar.subi v85 v87
  let v89 : BitVec 1 := Scalar.cmpi .ne v83 v88
  let v90 : BitVec 32 := Scalar.remsi v77 c16_i32_33
  let c0_i32_38 : BitVec 32 := 0#32
  let v91 : BitVec 1 := Scalar.cmpi .ne v90 c0_i32_38
  let v92 : BitVec 1 := Scalar.andi v89 v91
  let v78 : BitVec 32 := Scalar.divsi v77 c16_i32_33
  let c1_i32_39 : BitVec 32 := 1#32
  let v93 : BitVec 32 := Scalar.subi v78 c1_i32_39
  let v94 : BitVec 32 := Scalar.select v92 v93 v78
  let c16_i32_40 : BitVec 32 := 16#32
  let v95 : BitVec 32 := Scalar.muli v94 c16_i32_40
  let v96 : BitVec 32 := Scalar.subi v77 v95
  let c0_i32_62 : BitVec 32 := 0#32
  ![v94.toNat, v96.toNat, 0]
def k0_off12 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c16_i32_24 : BitVec 32 := 16#32
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let v58 : BitVec 32 := Scalar.divsi v57 c16_i32_24
  let c1_i32_30 : BitVec 32 := 1#32
  let v73 : BitVec 32 := Scalar.subi v58 c1_i32_30
  let v74 : BitVec 32 := Scalar.select v72 v73 v58
  let c16_i32_31 : BitVec 32 := 16#32
  let v75 : BitVec 32 := Scalar.muli v74 c16_i32_31
  let v76 : BitVec 32 := Scalar.subi v57 v75
  let c50176_i32_51 : BitVec 32 := 50176#32
  ![v74.toNat, v76.toNat, 50176]
@[reducible] def k0_t3_loop : Scf.Loop 32 :=
  let c0_i32_54 : BitVec 32 := 0#32
  let c64_i32_55 : BitVec 32 := 64#32
  let v115 : BitVec 32 := Scalar.addi c0_i32_54 c64_i32_55
  let c1_i32_56 : BitVec 32 := 1#32
  ⟨c0_i32_54, v115, c1_i32_56⟩
def k0_off13 (k0_t3 : Fin k0_t3_loop.trips) : Fin 1 → Nat :=
  let c0_i32_54 : BitVec 32 := 0#32
  let c1_i32_56 : BitVec 32 := 1#32
  let arg14 : BitVec 32 := Scf.iv c0_i32_54 c1_i32_56 k0_t3
  let c64_i32_62 : BitVec 32 := 64#32
  let v123 : BitVec 32 := Scalar.muli arg14 c64_i32_62
  let c0_i32_63 : BitVec 32 := 0#32
  let v124 : BitVec 32 := Scalar.addi v123 c0_i32_63
  let v125 : Index := Scalar.indexCast v124
  ![v125.toNat]

def k0_chk5 (v130 : IVec S16 32) : Prop :=
  (∀ a x, ((![v130] : Fin 1 → IVec S16 32) a x).toNat < S49824.size a)
instance k0_chk5.dec : ∀ (v130 : IVec S16 32), Decidable (k0_chk5 v130) := fun v130 => decidable_of_iff' _ (Iff.of_eq (k0_chk5.eq_1 v130))
theorem k0_idx5_inb : ∀ (v130 : IVec S16 32) (k0_hw5 : k0_chk5 v130), ∀ a x, ((![v130] : Fin 1 → IVec S16 32) a x).toNat < S49824.size a := fun v130 k0_hw5 => k0_hw5
def k0_off14 (k0_t3 : Fin k0_t3_loop.trips) (c0_i32_63 : BitVec 32) : Fin 1 → Nat :=
  let c0_i32_54 : BitVec 32 := 0#32
  let c1_i32_56 : BitVec 32 := 1#32
  let arg14 : BitVec 32 := Scf.iv c0_i32_54 c1_i32_56 k0_t3
  let c64_i32_62 : BitVec 32 := 64#32
  let v123 : BitVec 32 := Scalar.muli arg14 c64_i32_62
  let v124 : BitVec 32 := Scalar.addi v123 c0_i32_63
  let v134 : Index := Scalar.indexCast v124
  ![v134.toNat]

def k0_chk6 (v146 : IVec S16 32) : Prop :=
  (∀ a x, ((![v146] : Fin 1 → IVec S16 32) a x).toNat < S49824.size a)
instance k0_chk6.dec : ∀ (v146 : IVec S16 32), Decidable (k0_chk6 v146) := fun v146 => decidable_of_iff' _ (Iff.of_eq (k0_chk6.eq_1 v146))
theorem k0_idx6_inb : ∀ (v146 : IVec S16 32) (k0_hw6 : k0_chk6 v146), ∀ a x, ((![v146] : Fin 1 → IVec S16 32) a x).toNat < S49824.size a := fun v146 k0_hw6 => k0_hw6
def k0_off15 (k0_t3 : Fin k0_t3_loop.trips) (c16_i32_68 : BitVec 32) : Fin 1 → Nat :=
  let c0_i32_54 : BitVec 32 := 0#32
  let c1_i32_56 : BitVec 32 := 1#32
  let arg14 : BitVec 32 := Scf.iv c0_i32_54 c1_i32_56 k0_t3
  let c64_i32_67 : BitVec 32 := 64#32
  let v139 : BitVec 32 := Scalar.muli arg14 c64_i32_67
  let v140 : BitVec 32 := Scalar.addi v139 c16_i32_68
  let v150 : Index := Scalar.indexCast v140
  ![v150.toNat]

def k0_chk7 (v162 : IVec S16 32) : Prop :=
  (∀ a x, ((![v162] : Fin 1 → IVec S16 32) a x).toNat < S49824.size a)
instance k0_chk7.dec : ∀ (v162 : IVec S16 32), Decidable (k0_chk7 v162) := fun v162 => decidable_of_iff' _ (Iff.of_eq (k0_chk7.eq_1 v162))
theorem k0_idx7_inb : ∀ (v162 : IVec S16 32) (k0_hw7 : k0_chk7 v162), ∀ a x, ((![v162] : Fin 1 → IVec S16 32) a x).toNat < S49824.size a := fun v162 k0_hw7 => k0_hw7
def k0_off16 (k0_t3 : Fin k0_t3_loop.trips) (c32_i32 : BitVec 32) : Fin 1 → Nat :=
  let c0_i32_54 : BitVec 32 := 0#32
  let c1_i32_56 : BitVec 32 := 1#32
  let arg14 : BitVec 32 := Scf.iv c0_i32_54 c1_i32_56 k0_t3
  let c64_i32_72 : BitVec 32 := 64#32
  let v155 : BitVec 32 := Scalar.muli arg14 c64_i32_72
  let v156 : BitVec 32 := Scalar.addi v155 c32_i32
  let v166 : Index := Scalar.indexCast v156
  ![v166.toNat]

def k0_chk8 (v178 : IVec S16 32) : Prop :=
  (∀ a x, ((![v178] : Fin 1 → IVec S16 32) a x).toNat < S49824.size a)
instance k0_chk8.dec : ∀ (v178 : IVec S16 32), Decidable (k0_chk8 v178) := fun v178 => decidable_of_iff' _ (Iff.of_eq (k0_chk8.eq_1 v178))
theorem k0_idx8_inb : ∀ (v178 : IVec S16 32) (k0_hw8 : k0_chk8 v178), ∀ a x, ((![v178] : Fin 1 → IVec S16 32) a x).toNat < S49824.size a := fun v178 k0_hw8 => k0_hw8
def k0_off17 (k0_t3 : Fin k0_t3_loop.trips) : Fin 1 → Nat :=
  let c0_i32_54 : BitVec 32 := 0#32
  let c1_i32_56 : BitVec 32 := 1#32
  let arg14 : BitVec 32 := Scf.iv c0_i32_54 c1_i32_56 k0_t3
  let c64_i32_76 : BitVec 32 := 64#32
  let v171 : BitVec 32 := Scalar.muli arg14 c64_i32_76
  let c48_i32 : BitVec 32 := 48#32
  let v172 : BitVec 32 := Scalar.addi v171 c48_i32
  let v182 : Index := Scalar.indexCast v172
  ![v182.toNat]
def k0_cond4 (k0_t1 : Fin k0_t1_loop.trips) : BitVec 1 :=
  let c0_i32_8 : BitVec 32 := 0#32
  let c1_i32_10 : BitVec 32 := 1#32
  let arg12 : BitVec 32 := Scf.iv c0_i32_8 c1_i32_10 k0_t1
  let c12_i32_58 : BitVec 32 := 12#32
  let v116 : BitVec 1 := Scalar.cmpi .slt arg12 c12_i32_58
  let v117 : BitVec 32 := Scalar.extui v116
  let c0_i32_59 : BitVec 32 := 0#32
  let v118 : BitVec 1 := Scalar.cmpi .ne v117 c0_i32_59
  v118

def k0_off18 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c1_i32_32 : BitVec 32 := 1#32
  let v77 : BitVec 32 := Scalar.addi v57 c1_i32_32
  let c0_i32_34 : BitVec 32 := 0#32
  let v79 : BitVec 1 := Scalar.cmpi .sgt v77 c0_i32_34
  let v80 : BitVec 32 := Scalar.extui v79
  let c0_i32_35 : BitVec 32 := 0#32
  let v81 : BitVec 1 := Scalar.cmpi .slt v77 c0_i32_35
  let v82 : BitVec 32 := Scalar.extui v81
  let v83 : BitVec 32 := Scalar.subi v80 v82
  let c16_i32_33 : BitVec 32 := 16#32
  let c0_i32_36 : BitVec 32 := 0#32
  let v84 : BitVec 1 := Scalar.cmpi .sgt c16_i32_33 c0_i32_36
  let v85 : BitVec 32 := Scalar.extui v84
  let c0_i32_37 : BitVec 32 := 0#32
  let v86 : BitVec 1 := Scalar.cmpi .slt c16_i32_33 c0_i32_37
  let v87 : BitVec 32 := Scalar.extui v86
  let v88 : BitVec 32 := Scalar.subi v85 v87
  let v89 : BitVec 1 := Scalar.cmpi .ne v83 v88
  let v90 : BitVec 32 := Scalar.remsi v77 c16_i32_33
  let c0_i32_38 : BitVec 32 := 0#32
  let v91 : BitVec 1 := Scalar.cmpi .ne v90 c0_i32_38
  let v92 : BitVec 1 := Scalar.andi v89 v91
  let v78 : BitVec 32 := Scalar.divsi v77 c16_i32_33
  let c1_i32_39 : BitVec 32 := 1#32
  let v93 : BitVec 32 := Scalar.subi v78 c1_i32_39
  let v94 : BitVec 32 := Scalar.select v92 v93 v78
  let c16_i32_40 : BitVec 32 := 16#32
  let v95 : BitVec 32 := Scalar.muli v94 c16_i32_40
  let v96 : BitVec 32 := Scalar.subi v77 v95
  let c50176_i32_62 : BitVec 32 := 50176#32
  ![v94.toNat, v96.toNat, 50176]
def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32_8 : BitVec 32 := 0#32
  let c1_i32_10 : BitVec 32 := 1#32
  let arg12 : BitVec 32 := Scf.iv c0_i32_8 c1_i32_10 k0_t1
  let v57 : BitVec 32 := Scalar.addi v2 arg12
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c16_i32_24 : BitVec 32 := 16#32
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let v58 : BitVec 32 := Scalar.divsi v57 c16_i32_24
  let c1_i32_30 : BitVec 32 := 1#32
  let v73 : BitVec 32 := Scalar.subi v58 c1_i32_30
  let v74 : BitVec 32 := Scalar.select v72 v73 v58
  let c16_i32_31 : BitVec 32 := 16#32
  let v75 : BitVec 32 := Scalar.muli v74 c16_i32_31
  let v76 : BitVec 32 := Scalar.subi v57 v75
  let c0_i32_60 : BitVec 32 := 0#32
  ![v74.toNat, v76.toNat, 0]
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c13_i32_12 : BitVec 32 := 13#32
  let v32 : BitVec 32 := Scalar.addi v2 c13_i32_12
  let c1_i32_13 : BitVec 32 := 1#32
  let v33 : BitVec 32 := Scalar.subi v32 c1_i32_13
  let c0_i32_15 : BitVec 32 := 0#32
  let v35 : BitVec 1 := Scalar.cmpi .sgt v33 c0_i32_15
  let v36 : BitVec 32 := Scalar.extui v35
  let c0_i32_16 : BitVec 32 := 0#32
  let v37 : BitVec 1 := Scalar.cmpi .slt v33 c0_i32_16
  let v38 : BitVec 32 := Scalar.extui v37
  let v39 : BitVec 32 := Scalar.subi v36 v38
  let c16_i32_14 : BitVec 32 := 16#32
  let c0_i32_17 : BitVec 32 := 0#32
  let v40 : BitVec 1 := Scalar.cmpi .sgt c16_i32_14 c0_i32_17
  let v41 : BitVec 32 := Scalar.extui v40
  let c0_i32_18 : BitVec 32 := 0#32
  let v42 : BitVec 1 := Scalar.cmpi .slt c16_i32_14 c0_i32_18
  let v43 : BitVec 32 := Scalar.extui v42
  let v44 : BitVec 32 := Scalar.subi v41 v43
  let v45 : BitVec 1 := Scalar.cmpi .ne v39 v44
  let v46 : BitVec 32 := Scalar.remsi v33 c16_i32_14
  let c0_i32_19 : BitVec 32 := 0#32
  let v47 : BitVec 1 := Scalar.cmpi .ne v46 c0_i32_19
  let v48 : BitVec 1 := Scalar.andi v45 v47
  let v34 : BitVec 32 := Scalar.divsi v33 c16_i32_14
  let c1_i32_20 : BitVec 32 := 1#32
  let v49 : BitVec 32 := Scalar.subi v34 c1_i32_20
  let v50 : BitVec 32 := Scalar.select v48 v49 v34
  let c16_i32_21 : BitVec 32 := 16#32
  let v51 : BitVec 32 := Scalar.muli v50 c16_i32_21
  let v52 : BitVec 32 := Scalar.subi v33 v51
  let c0_i32_22 : BitVec 32 := 0#32
  ![v50.toNat, v52.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x26_S26x4096_1_0 : S4096x26.Transposes [1, 0] S26x4096
  transposes_S26x100000x16_S26x16x100000_0_2_1 : S26x100000x16.Transposes [0, 2, 1] S26x16x100000
  squeezes_S1x1x50176_S50176 : S1x1x50176.Squeezes S50176
  squeezes_S1x1x49824_S49824 : S1x1x49824.Squeezes S49824
  squeezes_S1x1x4096_S4096 : S1x1x4096.Squeezes S4096
  squeezes_S1x4096_S4096 : S1x4096.Squeezes S4096
  h_S16 : 0 < S16.numel
  h_S50176 : 0 < S50176.numel
  h_S49824 : 0 < S49824.numel
  transposes_S26x16x4096_S4096x26x16_2_0_1 : S26x16x4096.Transposes [2, 0, 1] S4096x26x16
  hcc0_scratch4 : 0 + S_.numel ≤ 4
  hcc0_scratch5 : 1 + S_.numel ≤ 4
  hcc0_scratch6 : 2 + S_.numel ≤ 4
  hcc0_scoped0 : 3 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x1x50176.size a ≤ S26x16x100000.size a
  k0_off2_inb : ∀ i : grid0.Coords, ∀ a, (k0_off2 i) a + S1x1x49824.size a ≤ S26x16x100000.size a
  k0_t1_ok : k0_t1_loop.OK
  k0_off3_inb : ∀ (i : grid0.Coords) (k0_t1 : Fin k0_t1_loop.trips), ∀ (k0_h1 : k0_cond1 k0_t1 = 1#1), ∀ a, (k0_off3 i k0_t1) a + S1x1x4096.size a ≤ S26x16x4096.size a
  k0_off4_inb : ∀ (i : grid0.Coords) (k0_t1 : Fin k0_t1_loop.trips), ∀ a, (k0_off4 i k0_t1) a + S1x4096.size a ≤ S26x4096.size a
  k0_off5_inb : ∀ (i : grid0.Coords) (k0_t1 : Fin k0_t1_loop.trips), ∀ a, (k0_off5 i k0_t1) a + S1x1x50176.size a ≤ S26x16x100000.size a
  k0_t2_ok : k0_t2_loop.OK
  k0_off6_inb : ∀ k0_t2 : Fin k0_t2_loop.trips, ∀ a, (k0_off6 k0_t2) a + S16.size a ≤ S4096.size a
  k0_off7_inb : ∀ k0_t2 : Fin k0_t2_loop.trips, ∀ (r : Fin 2), ∀ a, (k0_off7 k0_t2 (BitVec.ofNat 32 (16 * r.val))) a + S16.size a ≤ S4096.size a
  k0_off8_inb : ∀ k0_t2 : Fin k0_t2_loop.trips, ∀ (r : Fin 2), ∀ a, (k0_off8 k0_t2 (BitVec.ofNat 32 (16 + 16 * r.val))) a + S16.size a ≤ S4096.size a
  k0_off9_inb : ∀ k0_t2 : Fin k0_t2_loop.trips, ∀ (r : Fin 2), ∀ a, (k0_off9 k0_t2 (BitVec.ofNat 32 (32 + 16 * r.val))) a + S16.size a ≤ S4096.size a
  k0_off10_inb : ∀ k0_t2 : Fin k0_t2_loop.trips, ∀ a, (k0_off10 k0_t2) a + S16.size a ≤ S4096.size a
  k0_off11_inb : ∀ (i : grid0.Coords) (k0_t1 : Fin k0_t1_loop.trips), ∀ (k0_h3 : k0_cond3 k0_t1 = 1#1), ∀ a, (k0_off11 i k0_t1) a + S1x1x50176.size a ≤ S26x16x100000.size a
  k0_off12_inb : ∀ (i : grid0.Coords) (k0_t1 : Fin k0_t1_loop.trips), ∀ a, (k0_off12 i k0_t1) a + S1x1x49824.size a ≤ S26x16x100000.size a
  k0_t3_ok : k0_t3_loop.OK
  k0_off13_inb : ∀ k0_t3 : Fin k0_t3_loop.trips, ∀ a, (k0_off13 k0_t3) a + S16.size a ≤ S4096.size a
  k0_off14_inb : ∀ k0_t3 : Fin k0_t3_loop.trips, ∀ (r : Fin 2), ∀ a, (k0_off14 k0_t3 (BitVec.ofNat 32 (16 * r.val))) a + S16.size a ≤ S4096.size a
  k0_off15_inb : ∀ k0_t3 : Fin k0_t3_loop.trips, ∀ (r : Fin 2), ∀ a, (k0_off15 k0_t3 (BitVec.ofNat 32 (16 + 16 * r.val))) a + S16.size a ≤ S4096.size a
  k0_off16_inb : ∀ k0_t3 : Fin k0_t3_loop.trips, ∀ (r : Fin 2), ∀ a, (k0_off16 k0_t3 (BitVec.ofNat 32 (32 + 16 * r.val))) a + S16.size a ≤ S4096.size a
  k0_off17_inb : ∀ k0_t3 : Fin k0_t3_loop.trips, ∀ a, (k0_off17 k0_t3) a + S16.size a ≤ S4096.size a
  k0_off18_inb : ∀ (i : grid0.Coords) (k0_t1 : Fin k0_t1_loop.trips), ∀ (k0_h4 : k0_cond4 k0_t1 = 1#1), ∀ a, (k0_off18 i k0_t1) a + S1x1x49824.size a ≤ S26x16x100000.size a
  k0_off19_inb : ∀ (i : grid0.Coords) (k0_t1 : Fin k0_t1_loop.trips), ∀ a, (k0_off19 i k0_t1) a + S1x1x4096.size a ≤ S26x16x4096.size a
  k0_off20_inb : ∀ i : grid0.Coords, ∀ a, (k0_off20 i) a + S1x1x4096.size a ≤ S26x16x4096.size a

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scoped0 : DmaSems sig S_ := SemArray.consecutive 3 S_ hcc0_scoped0

class Facts : Prop extends Facts₀ where

variable [Facts]
-- ==== ReferenceIdeal.lean ====
abbrev S4096x26 : Shape := ⟨2, ![4096, 26]⟩
abbrev S26x100000x16 : Shape := ⟨3, ![26, 100000, 16]⟩
abbrev S26 : Shape := ⟨1, ![26]⟩
abbrev S1x26 : Shape := ⟨2, ![1, 26]⟩
abbrev S_ : Shape := ⟨0, ![]⟩
abbrev S4096x26x1 : Shape := ⟨3, ![4096, 26, 1]⟩
abbrev S4096x26x2 : Shape := ⟨3, ![4096, 26, 2]⟩
abbrev S4096x26x16 : Shape := ⟨3, ![4096, 26, 16]⟩

abbrev nBuf : Space → Nat
  | .hbm => 23
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S26x100000x16, .f32⟩
  | .hbm, ⟨2, _⟩ => ⟨S26, .i32⟩
  | .hbm, ⟨3, _⟩ => ⟨S1x26, .i32⟩
  | .hbm, ⟨4, _⟩ => ⟨S_, .i32⟩
  | .hbm, ⟨5, _⟩ => ⟨S1x26, .i32⟩
  | .hbm, ⟨6, _⟩ => ⟨S1x26, .i1⟩
  | .hbm, ⟨7, _⟩ => ⟨S_, .i32⟩
  | .hbm, ⟨8, _⟩ => ⟨S1x26, .i32⟩
  | .hbm, ⟨9, _⟩ => ⟨S1x26, .i32⟩
  | .hbm, ⟨10, _⟩ => ⟨S1x26, .i32⟩
  | .hbm, ⟨11, _⟩ => ⟨S_, .i32⟩
  | .hbm, ⟨12, _⟩ => ⟨S4096x26, .i32⟩
  | .hbm, ⟨13, _⟩ => ⟨S4096x26, .i1⟩
  | .hbm, ⟨14, _⟩ => ⟨S_, .i32⟩
  | .hbm, ⟨15, _⟩ => ⟨S4096x26, .i32⟩
  | .hbm, ⟨16, _⟩ => ⟨S4096x26, .i32⟩
  | .hbm, ⟨17, _⟩ => ⟨S4096x26, .i32⟩
  | .hbm, ⟨18, _⟩ => ⟨S4096x26, .i32⟩
  | .hbm, ⟨19, _⟩ => ⟨S4096x26x1, .i32⟩
  | .hbm, ⟨20, _⟩ => ⟨S4096x26x1, .i32⟩
  | .hbm, ⟨21, _⟩ => ⟨S4096x26x2, .i32⟩
  | .hbm, ⟨22, _⟩ => ⟨S4096x26x16, .f32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  gather_S26x100000x16_S4096x26x2_S4096x26x16_2_01_n_n_01_2_1116_wf : GatherDims.WF S26x100000x16 S4096x26x2 S4096x26x16 [2] [0, 1] [] [0, 1] [] 2 ![1, 1, 16]

variable [Facts₀]

def gather_S26x100000x16_S4096x26x2_S4096x26x16_2_01_n_n_01_2_1116 : GatherDims S26x100000x16 S4096x26x2 S4096x26x16 where
  offsetDims := [2]
  collapsedSliceDims := [0, 1]
  operandBatchingDims := []
  startIndicesBatchingDims := []
  startIndexMap := [0, 1]
  indexVectorDim := 2
  sliceSizes := ![1, 1, 16]
  wf := gather_S26x100000x16_S4096x26x2_S4096x26x16_2_01_n_n_01_2_1116_wf

class Facts : Prop extends Facts₀ where

variable [Facts]
-- ==== Proof.PreFacts.lean ====
/-
  The precondition read back: the printed predicate is the conjunction of "every table entry is finite"
  and "every index word, read signed, lies in [0, 99999]", each an and-reduction of an elementwise
  comparison over the whole array, and the claim states that the result is the word 1. From the second
  conjunct every index word, read unsigned, is at most 99999.
-/
import proofs.«207324_g17738214933191_cont_8to1_1167_12_alg».proof.Proof.Gen.Pre_input_domain
import Idealize.ShloMosaic.Lib.ReduceAll
import Idealize.ShloMosaic.Lib.Affine

noncomputable section

namespace Cert.Proof.PreFacts

open Idealize.ShloMosaic
open Cert.Pre_input_domain Cert.Pre_input_domain.Gen

instance : Subsingleton S_.Idx := ⟨fun a b => funext fun d => d.elim0⟩

/-- A word that is nonnegative and at most 99999 read signed is at most 99999 read unsigned. -/
theorem toNat_le_of_signed (v : BitVec 32) (h0 : IntOp.cmpi .sge v 0#32 = 1#1) (h1 : IntOp.cmpi .sle v 99999#32 = 1#1) :
    v.toNat ≤ 99999 := by
  rw [IntOp.cmpi_sge] at h0
  rw [IntOp.cmpi_sle] at h1
  simp only [BitVec.toInt_eq_toNat_cond, BitVec.toNat_ofNat, Nat.reducePow, Nat.reduceMod] at h0 h1
  omega

variable {F : FTy → Type} [FloatOps F]

/-- Every index word is in range: the second conjunct of the precondition, read back. -/
theorem idx_range (a0 : IVec S4096x26 32) (a1 : FVec F S26x100000x16 .f32)
    (h : Cert.Pre_input_domain.fn (F := F) a0 a1 = fun _ => 1#1) : ∀ i, (a0 i).toNat ≤ 99999 := by
  intro i
  have e := congrFun h (fun d => d.elim0)
  dsimp only [Cert.Pre_input_domain.fn] at e
  have e2 := (IntOp.andi_eq_one.1 e).2
  have e3 := Host.reduce_andi_all _ _ _ _ _ e2 i
  have e4 := IntOp.andi_eq_one.1 e3
  exact toNat_le_of_signed (a0 i) e4.1 e4.2

end Cert.Proof.PreFacts

end
-- ==== Proof.RefSide.lean ====
/-
  The reference side: the reference program (advanced indexing of the tables by a field counter and the index array,
  lowered to one gather at two-component start indices) computes the lookup G, out[b,f,:] = tables[f, idx[b,f], :],
  whenever every index word is in range; and it runs, leaving its arguments unchanged.
-/
import proofs.«207324_g17738214933191_cont_8to1_1167_12_alg».proof.Defs
import proofs.«207324_g17738214933191_cont_8to1_1167_12_alg».proof.Proof.Gen.ReferenceIdeal
import proofs.«207324_g17738214933191_cont_8to1_1167_12_alg».proof.Proof.Gen.ReferenceIdeal.Read
import proofs.«207324_g17738214933191_cont_8to1_1167_12_alg».proof.Proof.PreFacts
import Idealize.ShloMosaic.Lib.ValueIdx
import Idealize.ShloMosaic.Lib.Pipeline.Value

noncomputable section

namespace Cert.Proof.RefSide

open Cert.ReferenceIdeal Cert.ReferenceIdeal.Gen Cert.ReferenceIdeal.Read
open Idealize.ShloMosaic Idealize.ShloMosaic.ValueIdx Idealize.SL.Sem

variable {F : FTy → Type} [FloatOps F]

/-- The lookup: entry (b, f, e) of the result is entry (f, idx[b,f], e) of the tables (the index word read unsigned,
    capped at the last row so that the term is total). -/
def G (a0 : IVec S4096x26 32) (a1 : FVec F S26x100000x16 .f32) : FVec F S4096x26x16 .f32 :=
  fun j => a1 (ix3 (n0 := 26) (n1 := 100000) (n2 := 16) (j 1)
    ⟨min (a0 (ix2 (n0 := 4096) (n1 := 26) (j 0) (j 1))).toNat 99999, by omega⟩ (j 2))

/-! ## The index columns at an index -/

/-- The field counter column: entry (b, f, 0) is the word f. -/
theorem v13_at (b : Fin 4096) (f : Fin 26) (z : Fin 1) :
    val_main_v13 (F := F) (ix3 (n0 := 4096) (n1 := 26) (n2 := 1) b f z) = BitVec.ofNat 32 f.val := by
  rw [val_main_v13_apply, val_main_v12_apply, val_main_v6_apply, val_main_v3_apply, val_main_v1_apply, val_main_v2_apply,
    val_main_c_apply, val_main_v0_apply]
  have hf : f.val < 26 := f.isLt
  have hc : IntOp.cmpi .slt (BitVec.ofNat 32 f.val) 0#32 = 0#1 := by
    apply eq_zero_of_ne_one
    rw [IntOp.cmpi_slt]
    simp only [BitVec.toInt_eq_toNat_cond, BitVec.toNat_ofNat, Nat.reducePow]
    omega
  exact (congrArg (fun c => Scalar.select c _ _) hc).trans (select_zero _ _)

/-- The index column: entry (b, f, 0) is the index word idx[b,f] itself when that word is in range (the wrap of a
    negative index is not taken). -/
theorem v14_at (x0 : IVec S4096x26 32) (hx : ∀ i, (x0 i).toNat ≤ 99999) (b : Fin 4096) (f : Fin 26) (z : Fin 1) :
    val_main_v14 (F := F) x0 (ix3 (n0 := 4096) (n1 := 26) (n2 := 1) b f z) = x0 (ix2 (n0 := 4096) (n1 := 26) b f) := by
  rw [val_main_v14_apply, val_main_v11_apply, val_main_v8_apply, val_main_v7_apply, val_main_c_1_apply]
  have hi : idx_main_v14 (ix3 (n0 := 4096) (n1 := 26) (n2 := 1) b f z) = ix2 (n0 := 4096) (n1 := 26) b f := by
    funext a; match a with | ⟨0, _⟩ => rfl | ⟨1, _⟩ => rfl
  rw [hi]
  have hb := hx (ix2 (n0 := 4096) (n1 := 26) b f)
  have hc : IntOp.cmpi .slt (x0 (ix2 (n0 := 4096) (n1 := 26) b f)) 0#32 = 0#1 := by
    apply eq_zero_of_ne_one
    rw [IntOp.cmpi_slt]
    simp only [BitVec.toInt_eq_toNat_cond, BitVec.toNat_ofNat, Nat.reducePow]
    omega
  exact (congrArg (fun c => Scalar.select c _ _) hc).trans (select_zero _ _)

/-- The start indices: component 0 of the start index of (b, f) is the field counter f. -/
theorem v15_at0 (x0 : IVec S4096x26 32) (b : Fin 4096) (f : Fin 26) :
    val_main_v15 (F := F) x0 (ix3 (n0 := 4096) (n1 := 26) (n2 := 2) b f 0) = BitVec.ofNat 32 f.val := by
  unfold val_main_v15
  exact (concatenate_pair_apply_left (t := S4096x26x2) (s₁ := S4096x26x1) (s₂ := S4096x26x1) 2 _ _
    concatenates_S4096x26x1_S4096x26x1_S4096x26x2_d2 _ rfl
    (ix3 (n0 := 4096) (n1 := 26) (n2 := 1) b f 0)
    (fun a => by match a with | ⟨0, _⟩ => rfl | ⟨1, _⟩ => rfl | ⟨2, _⟩ => rfl)).trans (v13_at b f 0)

/-- The start indices: component 1 of the start index of (b, f) is the index word idx[b,f], when in range. -/
theorem v15_at1 (x0 : IVec S4096x26 32) (hx : ∀ i, (x0 i).toNat ≤ 99999) (b : Fin 4096) (f : Fin 26) :
    val_main_v15 (F := F) x0 (ix3 (n0 := 4096) (n1 := 26) (n2 := 2) b f 1) = x0 (ix2 (n0 := 4096) (n1 := 26) b f) := by
  unfold val_main_v15
  exact (concatenate_pair_apply_right (t := S4096x26x2) (s₁ := S4096x26x1) (s₂ := S4096x26x1) 2 _ _
    concatenates_S4096x26x1_S4096x26x1_S4096x26x2_d2 _ rfl rfl
    (ix3 (n0 := 4096) (n1 := 26) (n2 := 1) b f 0)
    (fun a => by match a with | ⟨0, _⟩ => intro _; rfl | ⟨1, _⟩ => intro _; rfl | ⟨2, _⟩ => intro h; exact absurd rfl h)
    rfl).trans (v14_at x0 hx b f 0)

/-! ## The gather at an index -/

/-- The gather's dimension numbers: start indices (field, row) along the last axis of the start-index array, the
    table and row axes collapsed, the lane axis the one offset axis. -/
abbrev dG : GatherDims S26x100000x16 S4096x26x2 S4096x26x16 := gather_S26x100000x16_S4096x26x2_S4096x26x16_2_01_n_n_01_2_1116

theorem G_apply (a0 : IVec S4096x26 32) (a1 : FVec F S26x100000x16 .f32) (b : Fin 4096) (f : Fin 26) (e : Fin 16) :
    G a0 a1 (ix3 (n0 := 4096) (n1 := 26) (n2 := 16) b f e)
      = a1 (ix3 (n0 := 26) (n1 := 100000) (n2 := 16) f ⟨min (a0 (ix2 (n0 := 4096) (n1 := 26) b f)).toNat 99999, by omega⟩ e) := rfl

/-- Where the gather reads component c of the start index of result entry (b, f, e): at (b, f, c). -/
theorem siIdx0 (b : Fin 4096) (f : Fin 26) (e : Fin 16) :
    dG.siIdx (ix3 (n0 := 4096) (n1 := 26) (n2 := 16) b f e)
        ⟨List.idxOf (0 : Fin 3) dG.startIndexMap, List.idxOf_lt_length_iff.2 (by decide)⟩
      = ix3 (n0 := 4096) (n1 := 26) (n2 := 2) b f 0 := by
  funext c; refine Fin.ext ?_
  match c with
  | ⟨0, _⟩ => rfl
  | ⟨1, _⟩ => rfl
  | ⟨2, _⟩ => rfl
theorem siIdx1 (b : Fin 4096) (f : Fin 26) (e : Fin 16) :
    dG.siIdx (ix3 (n0 := 4096) (n1 := 26) (n2 := 16) b f e)
        ⟨List.idxOf (1 : Fin 3) dG.startIndexMap, List.idxOf_lt_length_iff.2 (by decide)⟩
      = ix3 (n0 := 4096) (n1 := 26) (n2 := 2) b f 1 := by
  funext c; refine Fin.ext ?_
  match c with
  | ⟨0, _⟩ => rfl
  | ⟨1, _⟩ => rfl
  | ⟨2, _⟩ => rfl

/-- The table axis: the start is the field counter (its clamp to [0, 25] is the identity), nothing is added. -/
theorem coord0 (x0 : IVec S4096x26 32) (b : Fin 4096) (f : Fin 26) (e : Fin 16) :
    dG.start (ix3 (n0 := 4096) (n1 := 26) (n2 := 16) b f e) (val_main_v15 (F := F) x0) (0 : Fin 3)
      + dG.batchCoord (ix3 (n0 := 4096) (n1 := 26) (n2 := 16) b f e) (0 : Fin 3)
      + dG.offCoord (ix3 (n0 := 4096) (n1 := 26) (n2 := 16) b f e) (0 : Fin 3) = f.val := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ dG.startIndexMap from by decide)]
  rw [siIdx0, v15_at0]
  have hf : f.val < 26 := f.isLt
  have h1 : (BitVec.ofNat 32 f.val).toInt.toNat = f.val := by
    simp only [BitVec.toInt_eq_toNat_cond, BitVec.toNat_ofNat, Nat.reducePow]
    omega
  rw [h1]
  show min f.val (26 - 1) = f.val
  omega

/-- The row axis: the start is the index word (in range, so read signed it is itself and the clamp to [0, 99999] is
    the cap G writes), nothing is added. -/
theorem coord1 (x0 : IVec S4096x26 32) (hx : ∀ i, (x0 i).toNat ≤ 99999) (b : Fin 4096) (f : Fin 26) (e : Fin 16) :
    dG.start (ix3 (n0 := 4096) (n1 := 26) (n2 := 16) b f e) (val_main_v15 (F := F) x0) (1 : Fin 3)
      + dG.batchCoord (ix3 (n0 := 4096) (n1 := 26) (n2 := 16) b f e) (1 : Fin 3)
      + dG.offCoord (ix3 (n0 := 4096) (n1 := 26) (n2 := 16) b f e) (1 : Fin 3)
      = min (x0 (ix2 (n0 := 4096) (n1 := 26) b f)).toNat 99999 := by
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ dG.startIndexMap from by decide)]
  rw [siIdx1, v15_at1 x0 hx]
  have hb := hx (ix2 (n0 := 4096) (n1 := 26) b f)
  have h1 : (x0 (ix2 (n0 := 4096) (n1 := 26) b f)).toInt.toNat = (x0 (ix2 (n0 := 4096) (n1 := 26) b f)).toNat := by
    simp only [BitVec.toInt_eq_toNat_cond, Nat.reducePow]
    omega
  rw [h1]
  rfl

/-- The lane axis: no start index names it, the offset is the result's lane coordinate. -/
theorem coord2 (x0 : IVec S4096x26 32) (b : Fin 4096) (f : Fin 26) (e : Fin 16) :
    dG.start (ix3 (n0 := 4096) (n1 := 26) (n2 := 16) b f e) (val_main_v15 (F := F) x0) (2 : Fin 3)
      + dG.batchCoord (ix3 (n0 := 4096) (n1 := 26) (n2 := 16) b f e) (2 : Fin 3)
      + dG.offCoord (ix3 (n0 := 4096) (n1 := 26) (n2 := 16) b f e) (2 : Fin 3) = e.val := by
  rw [GatherDims.batchCoord_eq_zero _ _ _ List.not_mem_nil]
  unfold GatherDims.start
  rw [dif_neg (show ¬ (2 : Fin 3) ∈ dG.startIndexMap from by decide)]
  unfold GatherDims.offCoord
  rw [dif_pos (show (2 : Fin 3) ∈ dG.sKept from by decide)]
  simp only [Nat.zero_add, Nat.add_zero]
  rfl

/-- THE REFERENCE IS THE LOOKUP: with every index word in range, the gather at the two-component start indices
    (field counter, index word) reads the tables at (f, idx[b,f], e). Neither clamp moves a start index: the field
    counter is below 26 and the index word at most 99999. -/
theorem ref_eq_G (x0 : IVec S4096x26 32) (x1 : FVec F S26x100000x16 .f32) (hx : ∀ i, (x0 i).toNat ≤ 99999) :
    val_main_v16 (F := F) x0 x1 = G x0 x1 := by
  funext j
  obtain ⟨b, f, e, rfl⟩ : ∃ (b : Fin 4096) (f : Fin 26) (e : Fin 16), j = ix3 b f e := ⟨j 0, j 1, j 2, eq_ix3 j⟩
  rw [G_apply]
  unfold val_main_v16 Host.gather
  refine congrArg x1 (funext fun a => Fin.ext ?_)
  match a with
  | ⟨0, _⟩ => exact coord0 x0 b f e
  | ⟨1, _⟩ => exact coord1 x0 hx b f e
  | ⟨2, _⟩ => exact coord2 x0 b f e

/-! ## The run -/

/-- The reference runs from any memory satisfying the precondition: every weakly fair execution terminates with the
    result the lookup G of the arguments, the arguments unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v16)
          = G (F := Ideal) (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m' ((c.tc : Thread Cert.ReferenceIdeal.nD Cert.ReferenceIdeal.τ).loc Cert.ReferenceIdeal.main_arg1)) :=
  (θ_run (Cert.ReferenceIdeal.defs (F := Ideal)) _ _).mono
    (fun _ h c => ⟨by
        rw [(h c).1, val_main_v16_eq]
        exact ref_eq_G _ _ (Cert.Proof.PreFacts.idx_range _ _ (hpre c)),
      (h c).2⟩)
    (Cert.ReferenceIdeal.Value.run (F := Ideal) m' ρ')

/-- The reference's frame: it runs and leaves its arguments unchanged. -/
theorem frame_ri : Cert.frame_ReferenceIdeal := fun m g _ =>
  (θ_run (Cert.ReferenceIdeal.defs (F := Ideal)) _ _).mono (fun _ h c => (h c).2)
    (Cert.ReferenceIdeal.Value.run (F := Ideal) m g)

end Cert.Proof.RefSide

end
-- ==== Proof.CommonI.lean ====
/-
  The embedding lookup `out[b, f, :] = tables[f, indices[b, f], :]` as 32 vector-subcore tasks: what every module of the
  idealized kernel's proof shares. Task `(c, s)` (SparseCore `c`, subcore `s`) owns the thirteen consecutive (field,
  column) pairs `q = 13 (2 s + c) + t`, `t < 13`; for pair `q = 16 f + e` it stages the transposed table's row `(f, e)`
  in two halves, gathers it at the indices of field `f` and writes row `(f, e)` of the transposed result. Here: the
  arrays' contents when the call is made (the host's two transposes of the arguments), the transposed result as ONE
  function of them, the rows of the result as sets, and what a task is handed and hands back.
-/
import proofs.«207324_g17738214933191_cont_8to1_1167_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«207324_g17738214933191_cont_8to1_1167_12_alg».proof.Proof.Gen.KernelIdeal
import proofs.«207324_g17738214933191_cont_8to1_1167_12_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The arguments (indices `[4096, 26]`, tables `[26, 100000, 16]`), their transposes (`[26, 4096]`, `[26, 16, 100000]`),
    the call's result (`[26, 16, 4096]`) and its transpose (`[4096, 26, 16]`), as locations of device `d`. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)

variable [FloatOps F]

/-- The host's three transposes. -/
abbrev opI : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opT : HloOp τ sig (Elt F) :=
  StableHlo.unary main_arg1 main_v1 ((transpose S26x16x100000 [0, 2, 1] · transposes_S26x100000x16_S26x16x100000_0_2_1) : (⟨S26x100000x16, .f32⟩ : BufTy).Contents (Elt F) → (⟨S26x16x100000, .f32⟩ : BufTy).Contents (Elt F))
abbrev opO : HloOp τ sig (Elt F) :=
  StableHlo.unary main_v2 main_v3 ((transpose S4096x26x16 [2, 0, 1] · transposes_S26x16x4096_S4096x26x16_2_0_1) : (⟨S26x16x4096, .f32⟩ : BufTy).Contents (Elt F) → (⟨S4096x26x16, .f32⟩ : BufTy).Contents (Elt F))

/-- The launch valuation of device `d`, and the valuation when the call is made: both transposes done. -/
def W0 (d : Dev nD) : Valuation τ sig (Elt F) := fun b => m (d, b)
def W2 (d : Dev nD) : Valuation τ sig (Elt F) := (opT (F := F)).result ((opI (F := F)).result (W0 m d))

/-- The transposed indices `[26, 4096]` and the transposed tables `[26, 16, 100000]` when the call is made. -/
def idxT (d : Dev nD) : Buf (Elt F) (v0Loc d) := W2 m d r0'
def tabT (d : Dev nD) : Buf (Elt F) (v1Loc d) := W2 m d r1'

/-- The call's result `[26, 16, 4096]` as ONE function of those: entry `(f, e, b)` is entry `(f, e, i)` of the transposed
    tables at `i` the index of field `f` in sample `b` (read as a natural number, capped at the last row: under the
    precondition it is a row). -/
def OUT (d : Dev nD) : Buf (Elt F) (v2Loc d) := fun j =>
  tabT m d (ValueIdx.ix3 (n0 := 26) (n1 := 16) (n2 := 100000) (j 0) (j 1)
    ⟨min (idxT m d (ValueIdx.ix2 (n0 := 26) (n1 := 4096) (j 0) (j 2))).toNat 99999, by omega⟩)

/-- The valuation after the call, and the program's result `[4096, 26, 16]`. -/
def W3 (d : Dev nD) : Valuation τ sig (Elt F) := Function.update (W2 m d) r2' (OUT m d)
def RES (d : Dev nD) : Buf (Elt F) (v3Loc d) := (opO (F := F)).result (W3 m d) r3'

/-- What the proof asks of the launch memory: every index names a row of its table. -/
def PreOK : Prop := ∀ (d : Dev nD) (j : S26x4096.Idx), (idxT m d j).toNat ≤ 99999

/-! ## Rows of the result, and what a task holds -/

/-- Row `q = 16 f + e` of the `[26, 16, 4096]` result: the entries `(f, e, ·)`. -/
def rowSet (q : ℕ) : Finset S26x16x4096.Idx := Finset.univ.filter fun j => (j 0).val * 16 + (j 1).val = q

/-- The first pair of task `(c, s)`, and its `t`-th. -/
abbrev qOf (c s t : ℕ) : ℕ := 13 * (2 * s + c) + t

/-- A task's read shares of the two transposed arrays: token `s + 16 c` of thirty-two. -/
abbrev tokOf (c s : ℕ) : PosShare TreeShare := shareTokN fullShare (s + 16 * c)

/-- What task `(c, s)` is handed: a read share of the transposed indices and of the transposed tables, and its thirteen
    rows of the result at their launch contents; -/
def tileIn (d : Dev nD) (c s : ℕ) : sProp 𝕄 :=
  iprop((v0Loc d ↦{tokOf c s} idxT m d) ∗ (v1Loc d ↦{tokOf c s} tabT m d)
    ∗ bigSep Finset.univ fun t : Fin 13 => v2Loc d ↦[rowSet (qOf c s t.val)]{fullShare} m (v2Loc d))
/-- what it hands back: the shares, and the rows at the result. -/
def tileOut (d : Dev nD) (c s : ℕ) : sProp 𝕄 :=
  iprop((v0Loc d ↦{tokOf c s} idxT m d) ∗ (v1Loc d ↦{tokOf c s} tabT m d)
    ∗ bigSep Finset.univ fun t : Fin 13 => v2Loc d ↦[rowSet (qOf c s t.val)]{fullShare} OUT m d)

instance tileIn_storable (d : Dev nD) (c s : ℕ) : BI.Storable (upEmb : UEmb _ 𝕄) (tileIn m d c s) := by unfold tileIn; infer_instance
instance tileOut_storable (d : Dev nD) (c s : ℕ) : BI.Storable (upEmb : UEmb _ 𝕄) (tileOut m d c s) := by unfold tileOut; infer_instance

/-- The call hands SparseCore `c` its sixteen tasks' holdings and takes back what they hand back. -/
def P : (K (F := F)).Pay (nD := nD) (Val := Elt F) (Name := ℕ) (U := UU) where
  st := fun q d c => bigSep Finset.univ fun i : Fin ((K (F := F)).nSub q) => tileIn m d c.val i.val
  dn := fun q d c => bigSep Finset.univ fun i : Fin ((K (F := F)).nSub q) => tileOut m d c.val i.val
  go := fun _ d c i => tileIn m d c.val i.val
  td := fun _ d c i => tileOut m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KI

end
-- ==== Proof.TileBaseI.lean ====
/-
  A vector subcore's task: the thread, its four transfer semaphores and four scratch buffers taken out of what the
  subcore owns, and the arrays respelt through the kernel function's own memrefs (the whole transposed indices, tables
  and result; the index scratch, the row scratch, the two half-row scratches).
-/
import proofs.«207324_g17738214933191_cont_8to1_1167_12_alg».proof.Proof.CommonI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev semA (L : grid0.Coords) : GSem nD τ sig := (thr d L, .dma cc0_scratch4.sem)
abbrev semB (L : grid0.Coords) : GSem nD τ sig := (thr d L, .dma cc0_scratch5.sem)
abbrev semO (L : grid0.Coords) : GSem nD τ sig := (thr d L, .dma cc0_scratch6.sem)
abbrev semI (L : grid0.Coords) : GSem nD τ sig := (thr d L, .dma cc0_scoped0.sem)

omit [FloatOps F] in
theorem ownSems0_V :
    (ownSems0 (thr d L) : sProp 𝕄)
      = iprop(semVal (semA d L) 0 ∗ semVal (semB d L) 0 ∗ semVal (semO d L) 0 ∗ semVal (semI d L) 0
          ∗ bigSep (((((ownCells (thr d L)).erase (semA d L)).erase (semB d L)).erase (semO d L)).erase (semI d L)) fun g => semVal g 0) := by
  unfold SparseCore.Cfg.ownSems0
  rw [SparseCore.bigSep_erase' ((mem_ownCells (g := semA d L)).mpr ⟨rfl, by
      show (SemLoc.dma cc0_scratch4.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch5.sem : SemLoc sig).isScoped .scVector = true; decide⟩⟩),
    SparseCore.bigSep_erase' (Finset.mem_erase.mpr ⟨by simp [semB, semO]; decide, Finset.mem_erase.mpr ⟨by simp [semA, semO]; decide,
      (mem_ownCells (g := semO d L)).mpr ⟨rfl, by show (SemLoc.dma cc0_scratch6.sem : SemLoc sig).isScoped .scVector = true; decide⟩⟩⟩),
    SparseCore.bigSep_erase' (Finset.mem_erase.mpr ⟨by simp [semO, semI]; decide, Finset.mem_erase.mpr ⟨by simp [semB, semI]; decide, Finset.mem_erase.mpr ⟨by simp [semA, semI]; decide,
      (mem_ownCells (g := semI d L)).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_i (q : PosShare TreeShare) (f : Buf (Elt F) (v0Loc d)) :
    ((iW).view.loc (thr d L) ↦{q} f : sProp 𝕄) = v0Loc d ↦{q} f := by
  simp only [Memref.view_whole, View.set_whole]
omit [FloatOps F] in
theorem pts_t (q : PosShare TreeShare) (f : Buf (Elt F) (v1Loc d)) :
    ((tW).view.loc (thr d L) ↦{q} f : sProp 𝕄) = v1Loc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sO (f : Buf (Elt F) ((thr d L).loc cc0_scratch1)) :
    ((sO).view.loc (thr d L) ↦{fullShare} f : sProp 𝕄) = (thr d L).loc cc0_scratch1 ↦{fullShare} f := rfl
omit [FloatOps F] in
theorem pts_sA (f : Buf (Elt F) ((thr d L).loc cc0_scratch2)) :
    ((sA).view.loc (thr d L) ↦{fullShare} f : sProp 𝕄) = (thr d L).loc cc0_scratch2 ↦{fullShare} f := rfl
omit [FloatOps F] in
theorem pts_sB (f : Buf (Elt F) ((thr d L).loc cc0_scratch3)) :
    ((sB).view.loc (thr d L) ↦{fullShare} f : sProp 𝕄) = (thr d L).loc cc0_scratch3 ↦{fullShare} f := rfl

omit [FloatOps F] in
theorem pts_sA_access (f : Buf (Elt F) ((thr d L).loc cc0_scratch2)) :
    (((sA).access (.whole S50176)).loc (thr d L) ↦{fullShare} f : sProp 𝕄) = ((sA).view.loc (thr d L) ↦{fullShare} f) := rfl
omit [FloatOps F] in
theorem pts_sB_access (f : Buf (Elt F) ((thr d L).loc cc0_scratch3)) :
    (((sB).access (.whole S49824)).loc (thr d L) ↦{fullShare} f : sProp 𝕄) = ((sB).view.loc (thr d L) ↦{fullShare} f) := rfl

end Tile

end Cert.Proof.KI

end
-- ==== Proof.OffsetsI.lean ====
/-
  The integer chains of the embedding lookup's vector-subcore body in closed form. Task `(c, s)` starts at pair
  `q0 = 26 s + 13 c`; in trip `t` it handles pair `q = q0 + t`, field `f = q / 16`, column `e = q % 16`. Every
  slice the body takes starts at `(f, e, 0)` or `(f, e, 50176)` of the pair it names: the current pair, the next one
  (staged ahead, in all trips but the last), the first one (staged before the loop) or the last one (awaited after it).
  Each chain takes finitely many values (32 tasks, 13 trips), so each closed form is checked at every one of them.
-/
import proofs.«207324_g17738214933191_cont_8to1_1167_12_alg».proof.Proof.CommonI
import Idealize.ShloMosaic.Lib.Decide

set_option synthInstance.maxSize 4096
set_option Elab.async false

noncomputable section

namespace Cert.Proof.KI

open Cert.KernelIdeal Cert.KernelIdeal.Gen
open Idealize.ShloMosaic

/-- The first pair of the task at grid point `L` (`L 0` the core, `L 1` the subcore). -/
abbrev q0 (L : grid0.Coords) : ℕ := 26 * (L 1).val + 13 * (L 0).val

theorem q0_eq_qOf (L : grid0.Coords) (t : ℕ) : q0 L + t = qOf (L 0).val (L 1).val t := by
  unfold q0 qOf; omega

theorem trips_eq : k0_t1_loop.trips = 13 := by decide +kernel

theorem q0_le (L : grid0.Coords) : q0 L ≤ 403 := by
  have h0 : (L 0).val < 2 := (L 0).isLt
  have h1 : (L 1).val < 16 := (L 1).isLt
  unfold q0; omega

theorem t_lt (t : Fin k0_t1_loop.trips) : t.val < 13 := trips_eq ▸ t.isLt

/-! ## Before and after the loop -/

theorem off1_eq : ∀ L : grid0.Coords, k0_off1 L = ![q0 L / 16, q0 L % 16, 0] := by decide +kernel
theorem off2_eq : ∀ L : grid0.Coords, k0_off2 L = ![q0 L / 16, q0 L % 16, 50176] := by decide +kernel
theorem off20_eq : ∀ L : grid0.Coords, k0_off20 L = ![(q0 L + 12) / 16, (q0 L + 12) % 16, 0] := by decide +kernel

/-! ## The branch conditions of a trip -/

theorem cond1_iff : ∀ t : Fin k0_t1_loop.trips, k0_cond1 t = 1#1 ↔ 0 < t.val := by decide +kernel
theorem cond3_iff : ∀ t : Fin k0_t1_loop.trips, k0_cond3 t = 1#1 ↔ t.val < 12 := by decide +kernel
theorem cond4_iff : ∀ t : Fin k0_t1_loop.trips, k0_cond4 t = 1#1 ↔ t.val < 12 := by decide +kernel

/-! ## The current pair of a trip -/

theorem off3_eq : ∀ (L : grid0.Coords) (t : Fin k0_t1_loop.trips),
    k0_off3 L t = ![(q0 L + t.val) / 16, (q0 L + t.val) % 16, 0] := by decide +kernel
theorem off4_eq : ∀ (L : grid0.Coords) (t : Fin k0_t1_loop.trips),
    k0_off4 L t = ![(q0 L + t.val) / 16, 0] := by decide +kernel
theorem off5_eq : ∀ (L : grid0.Coords) (t : Fin k0_t1_loop.trips),
    k0_off5 L t = ![(q0 L + t.val) / 16, (q0 L + t.val) % 16, 0] := by decide +kernel
theorem off12_eq : ∀ (L : grid0.Coords) (t : Fin k0_t1_loop.trips),
    k0_off12 L t = ![(q0 L + t.val) / 16, (q0 L + t.val) % 16, 50176] := by decide +kernel
theorem off19_eq : ∀ (L : grid0.Coords) (t : Fin k0_t1_loop.trips),
    k0_off19 L t = ![(q0 L + t.val) / 16, (q0 L + t.val) % 16, 0] := by decide +kernel

/-! ## The next pair of a trip (the chains compute it in every trip; the body uses it in all but the last) -/

theorem off11_eq : ∀ (L : grid0.Coords) (t : Fin k0_t1_loop.trips),
    k0_off11 L t = ![(q0 L + t.val + 1) / 16, (q0 L + t.val + 1) % 16, 0] := by decide +kernel
theorem off18_eq : ∀ (L : grid0.Coords) (t : Fin k0_t1_loop.trips),
    k0_off18 L t = ![(q0 L + t.val + 1) / 16, (q0 L + t.val + 1) % 16, 50176] := by decide +kernel

/-! ## The scalars a trip hands on -/

/-- The task's first pair as the body computes it: `(2 s + c) * 13` in 32-bit words. -/
def v2w (L : grid0.Coords) : BitVec 32 :=
  Scalar.muli (Scalar.addi (Scalar.muli (BitVec.ofNat 32 (L 1).val) 2#32) (BitVec.ofNat 32 (L 0).val)) 13#32

/-- The field of the trip's pair as the body computes it: the floor division of `v2 + t` by 16. -/
def fieldW (v2 : BitVec 32) (t : ℕ) : BitVec 32 :=
  let arg12 : BitVec 32 := Scf.iv 0#32 1#32 t
  let v57 : BitVec 32 := Scalar.addi v2 arg12
  let c16_i32_24 : BitVec 32 := 16#32
  let v58 : BitVec 32 := Scalar.divsi v57 c16_i32_24
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  Scalar.select v72 v73 v58

theorem fieldW_eq : ∀ (L : grid0.Coords) (t : Fin k0_t1_loop.trips),
    fieldW (v2w L) t.val = BitVec.ofNat 32 ((q0 L + t.val) / 16) := by decide +kernel

variable {F : FTy → Type} [FloatOps F]

/-- The scalar part of a trip's region performs no memory operation: it returns the induction variable, the field of
    the trip's pair, and whether this is a later trip than the first. -/
theorem part2_eq' (L : grid0.Coords) (a2 : Memref sig .scVector .hbm S26x4096 .i32) (h2 : a2.IsWhole)
    (a3 : Memref sig .scVector .hbm S26x16x100000 .f32) (h3 : a3.IsWhole)
    (a4 : Memref sig .scVector .hbm S26x16x4096 .f32) (h4 : a4.IsWhole)
    (a5 : Memref sig .scVector .vmem S4096 .i32) (h5 : a5.IsWhole)
    (a6 : Memref sig .scVector .vmem S4096 .f32) (h6 : a6.IsWhole)
    (a7 : Memref sig .scVector .vmem S50176 .f32) (h7 : a7.IsWhole)
    (a8 : Memref sig .scVector .vmem S49824 .f32) (h8 : a8.IsWhole)
    (s9 s10 s11 s0 : DmaSems sig S_) (v2 : BitVec 32) (t : Fin k0_t1_loop.trips) :
    k0_part2 (F := F) L a2 h2 a3 h3 a4 h4 a5 h5 a6 h6 a7 h7 a8 h8 s9 s10 s11 s0 v2 0#32 1#32 t
      = pure ⟨Scf.iv 0#32 1#32 t, fieldW v2 t.val, Scalar.cmpi .sgt (Scf.iv 0#32 1#32 t) 0#32⟩ := rfl

theorem part2_eq (L : grid0.Coords) (a2 : Memref sig .scVector .hbm S26x4096 .i32) (h2 : a2.IsWhole)
    (a3 : Memref sig .scVector .hbm S26x16x100000 .f32) (h3 : a3.IsWhole)
    (a4 : Memref sig .scVector .hbm S26x16x4096 .f32) (h4 : a4.IsWhole)
    (a5 : Memref sig .scVector .vmem S4096 .i32) (h5 : a5.IsWhole)
    (a6 : Memref sig .scVector .vmem S4096 .f32) (h6 : a6.IsWhole)
    (a7 : Memref sig .scVector .vmem S50176 .f32) (h7 : a7.IsWhole)
    (a8 : Memref sig .scVector .vmem S49824 .f32) (h8 : a8.IsWhole)
    (s9 s10 s11 s0 : DmaSems sig S_) (t : Fin k0_t1_loop.trips) :
    k0_part2 (F := F) L a2 h2 a3 h3 a4 h4 a5 h5 a6 h6 a7 h7 a8 h8 s9 s10 s11 s0 (v2w L) 0#32 1#32 t
      = pure ⟨Scf.iv 0#32 1#32 t, BitVec.ofNat 32 ((q0 L + t.val) / 16), Scalar.cmpi .sgt (Scf.iv 0#32 1#32 t) 0#32⟩ := by
  rw [part2_eq', fieldW_eq]

/-! ## Comparing the field across trips -/

theorem field_lt (L : grid0.Coords) (t : Fin k0_t1_loop.trips) : (q0 L + t.val) / 16 < 26 := by
  have := q0_le L; have := t_lt t; omega

theorem ofNat32_inj {a b : ℕ} (ha : a < 4294967296) (hb : b < 4294967296) :
    BitVec.ofNat 32 a = BitVec.ofNat 32 b ↔ a = b := by
  constructor
  · intro h
    have := congrArg BitVec.toNat h
    simp only [BitVec.toNat_ofNat] at this
    rwa [Nat.mod_eq_of_lt (by omega), Nat.mod_eq_of_lt (by omega)] at this
  · intro h; rw [h]

/-- The field of a pair is never the word the loop starts from (`-1`). -/
theorem field_ne_init (L : grid0.Coords) (t : Fin k0_t1_loop.trips) :
    BitVec.ofNat 32 ((q0 L + t.val) / 16) ≠ 4294967295#32 := by
  have h := field_lt L t
  intro e
  have := (ofNat32_inj (a := (q0 L + t.val) / 16) (b := 4294967295) (by omega) (by omega)).1 e
  omega

/-- Two consecutive pairs' fields are equal as words exactly when they are equal. -/
theorem field_eq_prev_iff (L : grid0.Coords) (t : Fin k0_t1_loop.trips) :
    (BitVec.ofNat 32 ((q0 L + t.val) / 16) = BitVec.ofNat 32 ((q0 L + t.val - 1) / 16))
      ↔ ((q0 L + t.val) / 16 = (q0 L + t.val - 1) / 16) := by
  have h := field_lt L t
  exact ofNat32_inj (by omega) (by omega)

end Cert.Proof.KI

end
-- ==== Proof.ViewsI.lean ====
/-
  The memrefs the embedding lookup's vector-subcore body slices out of its three arrays in HBM: a slice of a whole array
  at a unit-stride `1 × 1 × n` (or `1 × n`) rectangle, squeezed to a vector of `n` entries. Entry `j` of such a
  vector sits at the rectangle's offsets plus `(0, 0, j)`; the `1 × 1 × 4096` block at `(f, e, 0)` of the result is
  its row `16 f + e`. With the closed forms of the printed offsets this names every memref of the body by the pair it
  belongs to.
-/
import proofs.«207324_g17738214933191_cont_8to1_1167_12_alg».proof.Proof.OffsetsI

noncomputable section

namespace Cert.Proof.KI

open Cert.KernelIdeal Cert.KernelIdeal.Gen
open Idealize.ShloMosaic
open Idealize.ShloMosaic.ValueIdx (ix1 ix2 ix3)

/-! ## Dropping leading axes of size one -/

/-- A vector's index seen as an index of the `1 × 1 × n` block it was squeezed from: `(0, 0, j)`. -/
theorem squeeze3 {n : ℕ} (h : (⟨1, ![n]⟩ : Shape).numel = (⟨3, ![1, 1, n]⟩ : Shape).numel) (j : (⟨1, ![n]⟩ : Shape).Idx) :
    ((Shape.reshapeEquiv h j) 0).val = 0 ∧ ((Shape.reshapeEquiv h j) 1).val = 0
      ∧ ((Shape.reshapeEquiv h j) 2).val = (j 0).val := by
  have h0 : ((Shape.reshapeEquiv h j) 0).val < 1 := (Shape.reshapeEquiv h j 0).isLt
  have h1 : ((Shape.reshapeEquiv h j) 1).val < 1 := (Shape.reshapeEquiv h j 1).isLt
  have e := Shape.rowMajor_reshapeEquiv h j
  rw [Shape.rowMajor_val_three, Shape.rowMajor_val_one] at e
  have e0 : ((Shape.reshapeEquiv h j) 0).val = 0 := by omega
  have e1 : ((Shape.reshapeEquiv h j) 1).val = 0 := by omega
  rw [e0, e1] at e
  refine ⟨e0, e1, ?_⟩
  simpa using e

/-- The same for a `1 × n` block: `(0, j)`. -/
theorem squeeze2 {n : ℕ} (h : (⟨1, ![n]⟩ : Shape).numel = (⟨2, ![1, n]⟩ : Shape).numel) (j : (⟨1, ![n]⟩ : Shape).Idx) :
    ((Shape.reshapeEquiv h j) 0).val = 0 ∧ ((Shape.reshapeEquiv h j) 1).val = (j 0).val := by
  have h0 : ((Shape.reshapeEquiv h j) 0).val < 1 := (Shape.reshapeEquiv h j 0).isLt
  have e := Shape.rowMajor_reshapeEquiv h j
  rw [Shape.rowMajor_val_two, Shape.rowMajor_val_one] at e
  have e0 : ((Shape.reshapeEquiv h j) 0).val = 0 := by omega
  rw [e0] at e
  refine ⟨e0, ?_⟩
  simpa using e

/-- Where entry `j` of the squeezed `1 × 1 × n` block at `(f, e, base)` of a rank-three array sits: `(f, e, base + j)`. -/
theorem emb3 {d0 d1 d2 n : ℕ} {off : Fin 3 → ℕ}
    {inb : ∀ a, off a + (⟨3, ![1, 1, n]⟩ : Shape).size a ≤ (⟨3, ![d0, d1, d2]⟩ : Shape).size a}
    (h : (⟨1, ![n]⟩ : Shape).numel = (⟨3, ![1, 1, n]⟩ : Shape).numel) (j : (⟨1, ![n]⟩ : Shape).Idx)
    {f e base : ℕ} (ho : off = ![f, e, base]) (hf : f < d0) (he : e < d1) (c : Fin d2) (hc : c.val = base + (j 0).val) :
    (Rect.unit (s := ⟨3, ![d0, d1, d2]⟩) off (⟨3, ![1, 1, n]⟩ : Shape).size inb).emb (Shape.reshapeEquiv h j)
      = ix3 ⟨f, hf⟩ ⟨e, he⟩ c := by
  obtain ⟨e0, e1, e2⟩ := squeeze3 h j
  subst ho
  funext a
  apply Fin.ext
  rw [Rect.emb_apply]
  match a with
  | ⟨0, _⟩ => simpa using e0
  | ⟨1, _⟩ => simpa using e1
  | ⟨2, _⟩ => simpa [hc] using e2

/-- Where entry `j` of the squeezed `1 × n` block at `(f, base)` of a matrix sits: `(f, base + j)`. -/
theorem emb2 {d0 d1 n : ℕ} {off : Fin 2 → ℕ}
    {inb : ∀ a, off a + (⟨2, ![1, n]⟩ : Shape).size a ≤ (⟨2, ![d0, d1]⟩ : Shape).size a}
    (h : (⟨1, ![n]⟩ : Shape).numel = (⟨2, ![1, n]⟩ : Shape).numel) (j : (⟨1, ![n]⟩ : Shape).Idx)
    {f base : ℕ} (ho : off = ![f, base]) (hf : f < d0) (c : Fin d1) (hc : c.val = base + (j 0).val) :
    (Rect.unit (s := ⟨2, ![d0, d1]⟩) off (⟨2, ![1, n]⟩ : Shape).size inb).emb (Shape.reshapeEquiv h j)
      = ix2 ⟨f, hf⟩ c := by
  obtain ⟨e0, e1⟩ := squeeze2 h j
  subst ho
  funext a
  apply Fin.ext
  rw [Rect.emb_apply]
  match a with
  | ⟨0, _⟩ => simpa using e0
  | ⟨1, _⟩ => simpa [hc] using e1

/-- A squeezed slice of a whole array places its entries where the slice's rectangle does, -/
theorem view_emb_eq (b : Ref sig .scVector) (r : Rect b.ty.shape) (hr : ∀ a, r.stride a = 1) (S' : Shape)
    (hsq : r.shape.Squeezes S') (j : S'.Idx) :
    (((Memref.whole b).slice r hr).squeeze S' hsq).view.emb j = r.emb (Shape.reshapeEquiv hsq.numel_eq j) := rfl

/-- and holds exactly the rectangle's entries. -/
theorem view_set_eq (b : Ref sig .scVector) (r : Rect b.ty.shape) (hr : ∀ a, r.stride a = 1) (S' : Shape)
    (hsq : r.shape.Squeezes S') :
    (((Memref.whole b).slice r hr).squeeze S' hsq).view.set = r.set :=
  (View.set_reshape (v := (View.whole b).slice r) hsq.numel_eq).trans (View.set_slice_whole b r)

/-- Slices at equal offsets are the same memref. -/
theorem sliceSq_congr (b : Ref sig .scVector) {off off' : Fin b.ty.shape.rank → ℕ} (size : Fin b.ty.shape.rank → ℕ)
    (inb : ∀ a, off a + size a ≤ b.ty.shape.size a) (inb' : ∀ a, off' a + size a ≤ b.ty.shape.size a) (S' : Shape)
    (hsq : (⟨b.ty.shape.rank, size⟩ : Shape).Squeezes S') (ho : off = off') :
    ((Memref.whole b).slice (Rect.unit off size inb) (fun _ => rfl)).squeeze S' hsq
      = ((Memref.whole b).slice (Rect.unit off' size inb') (fun _ => rfl)).squeeze S' hsq := by
  subst ho; rfl

/-- The `1 × 1 × 4096` block at `(f, e, 0)` of the `[26, 16, 4096]` array is its row `16 f + e`. -/
theorem unit_set_row {off : Fin 3 → ℕ} {inb : ∀ a, off a + S1x1x4096.size a ≤ S26x16x4096.size a} {f e : ℕ}
    (ho : off = ![f, e, 0]) (he : e < 16) :
    (Rect.unit (s := S26x16x4096) off S1x1x4096.size inb).set = rowSet (16 * f + e) := by
  subst ho
  ext i
  rw [Rect.mem_set_unit]
  unfold rowSet
  simp only [Finset.mem_filter, Finset.mem_univ, true_and, Fin.forall_fin_succ, Fin.forall_fin_zero_pi]
  have h1 : (i 1).val < 16 := (i 1).isLt
  have h2 : (i 2).val < 4096 := (i 2).isLt
  simp
  omega

/-! ## The memrefs the body slices, at the printed offsets -/

/-- Trip `t`'s pair, low and high half of its row of the transposed tables. -/
abbrev tabLo (L : grid0.Coords) (t : Fin k0_t1_loop.trips) : Memref sig .scVector .hbm S50176 .f32 :=
  ((Memref.whole main_v1_scv).slice (Rect.unit (s := S26x16x100000) (k0_off5 L t) S1x1x50176.size (k0_off5_inb L t)) (fun _ => rfl)).squeeze S50176 squeezes_S1x1x50176_S50176
abbrev tabHi (L : grid0.Coords) (t : Fin k0_t1_loop.trips) : Memref sig .scVector .hbm S49824 .f32 :=
  ((Memref.whole main_v1_scv).slice (Rect.unit (s := S26x16x100000) (k0_off12 L t) S1x1x49824.size (k0_off12_inb L t)) (fun _ => rfl)).squeeze S49824 squeezes_S1x1x49824_S49824
/-- The first pair's halves, staged before the loop. -/
abbrev tabLo0 (L : grid0.Coords) : Memref sig .scVector .hbm S50176 .f32 :=
  ((Memref.whole main_v1_scv).slice (Rect.unit (s := S26x16x100000) (k0_off1 L) S1x1x50176.size (k0_off1_inb L)) (fun _ => rfl)).squeeze S50176 squeezes_S1x1x50176_S50176
abbrev tabHi0 (L : grid0.Coords) : Memref sig .scVector .hbm S49824 .f32 :=
  ((Memref.whole main_v1_scv).slice (Rect.unit (s := S26x16x100000) (k0_off2 L) S1x1x49824.size (k0_off2_inb L)) (fun _ => rfl)).squeeze S49824 squeezes_S1x1x49824_S49824
/-- The next pair's halves, staged ahead in all trips but the last. -/
abbrev tabLoN (L : grid0.Coords) (t : Fin k0_t1_loop.trips) (h3 : k0_cond3 t = 1#1) : Memref sig .scVector .hbm S50176 .f32 :=
  ((Memref.whole main_v1_scv).slice (Rect.unit (s := S26x16x100000) (k0_off11 L t) S1x1x50176.size (k0_off11_inb L t h3)) (fun _ => rfl)).squeeze S50176 squeezes_S1x1x50176_S50176
abbrev tabHiN (L : grid0.Coords) (t : Fin k0_t1_loop.trips) (h4 : k0_cond4 t = 1#1) : Memref sig .scVector .hbm S49824 .f32 :=
  ((Memref.whole main_v1_scv).slice (Rect.unit (s := S26x16x100000) (k0_off18 L t) S1x1x49824.size (k0_off18_inb L t h4)) (fun _ => rfl)).squeeze S49824 squeezes_S1x1x49824_S49824
/-- The indices of trip `t`'s field. -/
abbrev idxRow (L : grid0.Coords) (t : Fin k0_t1_loop.trips) : Memref sig .scVector .hbm S4096 .i32 :=
  ((Memref.whole main_v0_scv).slice (Rect.unit (s := S26x4096) (k0_off4 L t) S1x4096.size (k0_off4_inb L t)) (fun _ => rfl)).squeeze S4096 squeezes_S1x4096_S4096
/-- Trip `t`'s row of the result: as written, as awaited at the start of a later trip, and as awaited after the loop. -/
abbrev outRow (L : grid0.Coords) (t : Fin k0_t1_loop.trips) : Memref sig .scVector .hbm S4096 .f32 :=
  ((Memref.whole main_v2_scv).slice (Rect.unit (s := S26x16x4096) (k0_off19 L t) S1x1x4096.size (k0_off19_inb L t)) (fun _ => rfl)).squeeze S4096 squeezes_S1x1x4096_S4096
abbrev outRowW (L : grid0.Coords) (t : Fin k0_t1_loop.trips) (h1 : k0_cond1 t = 1#1) : Memref sig .scVector .hbm S4096 .f32 :=
  ((Memref.whole main_v2_scv).slice (Rect.unit (s := S26x16x4096) (k0_off3 L t) S1x1x4096.size (k0_off3_inb L t h1)) (fun _ => rfl)).squeeze S4096 squeezes_S1x1x4096_S4096
abbrev outRowZ (L : grid0.Coords) : Memref sig .scVector .hbm S4096 .f32 :=
  ((Memref.whole main_v2_scv).slice (Rect.unit (s := S26x16x4096) (k0_off20 L) S1x1x4096.size (k0_off20_inb L)) (fun _ => rfl)).squeeze S4096 squeezes_S1x1x4096_S4096

/-! ### Coordinates in range -/

theorem col_lt (q : ℕ) : q % 16 < 16 := Nat.mod_lt _ (by omega)
theorem lo_lt (j : S50176.Idx) : (j 0).val < 100000 := by have : (j 0).val < 50176 := (j 0).isLt; omega
theorem hi_lt (j : S49824.Idx) : 50176 + (j 0).val < 100000 := by have : (j 0).val < 49824 := (j 0).isLt; omega
theorem b_lt (j : S4096.Idx) : (j 0).val < 4096 := (j 0).isLt
theorem field0_lt (L : grid0.Coords) : q0 L / 16 < 26 := by have := q0_le L; omega
theorem field12_lt (L : grid0.Coords) : (q0 L + 12) / 16 < 26 := by have := q0_le L; omega
theorem fieldN_lt (L : grid0.Coords) (t : Fin k0_t1_loop.trips) (h : t.val < 12) : (q0 L + t.val + 1) / 16 < 26 := by
  have := q0_le L; omega

/-! ### Where their entries sit -/

theorem tabLo_emb (L : grid0.Coords) (t : Fin k0_t1_loop.trips) (j : S50176.Idx) :
    (tabLo L t).view.emb j
      = (ix3 ⟨(q0 L + t.val) / 16, field_lt L t⟩ ⟨(q0 L + t.val) % 16, col_lt _⟩ ⟨(j 0).val, lo_lt j⟩ : S26x16x100000.Idx) :=
  emb3 _ j (off5_eq L t) _ _ _ (Nat.zero_add _).symm
theorem tabHi_emb (L : grid0.Coords) (t : Fin k0_t1_loop.trips) (j : S49824.Idx) :
    (tabHi L t).view.emb j
      = (ix3 ⟨(q0 L + t.val) / 16, field_lt L t⟩ ⟨(q0 L + t.val) % 16, col_lt _⟩ ⟨50176 + (j 0).val, hi_lt j⟩ : S26x16x100000.Idx) :=
  emb3 _ j (off12_eq L t) _ _ _ rfl
theorem tabLo0_emb (L : grid0.Coords) (j : S50176.Idx) :
    (tabLo0 L).view.emb j
      = (ix3 ⟨q0 L / 16, field0_lt L⟩ ⟨q0 L % 16, col_lt _⟩ ⟨(j 0).val, lo_lt j⟩ : S26x16x100000.Idx) :=
  emb3 _ j (off1_eq L) _ _ _ (Nat.zero_add _).symm
theorem tabHi0_emb (L : grid0.Coords) (j : S49824.Idx) :
    (tabHi0 L).view.emb j
      = (ix3 ⟨q0 L / 16, field0_lt L⟩ ⟨q0 L % 16, col_lt _⟩ ⟨50176 + (j 0).val, hi_lt j⟩ : S26x16x100000.Idx) :=
  emb3 _ j (off2_eq L) _ _ _ rfl
theorem tabLoN_emb (L : grid0.Coords) (t : Fin k0_t1_loop.trips) (h3 : k0_cond3 t = 1#1) (j : S50176.Idx) :
    (tabLoN L t h3).view.emb j
      = (ix3 ⟨(q0 L + t.val + 1) / 16, fieldN_lt L t ((cond3_iff t).1 h3)⟩ ⟨(q0 L + t.val + 1) % 16, col_lt _⟩ ⟨(j 0).val, lo_lt j⟩ : S26x16x100000.Idx) :=
  emb3 _ j (off11_eq L t) _ _ _ (Nat.zero_add _).symm
theorem tabHiN_emb (L : grid0.Coords) (t : Fin k0_t1_loop.trips) (h4 : k0_cond4 t = 1#1) (j : S49824.Idx) :
    (tabHiN L t h4).view.emb j
      = (ix3 ⟨(q0 L + t.val + 1) / 16, fieldN_lt L t ((cond4_iff t).1 h4)⟩ ⟨(q0 L + t.val + 1) % 16, col_lt _⟩ ⟨50176 + (j 0).val, hi_lt j⟩ : S26x16x100000.Idx) :=
  emb3 _ j (off18_eq L t) _ _ _ rfl
theorem idxRow_emb (L : grid0.Coords) (t : Fin k0_t1_loop.trips) (j : S4096.Idx) :
    (idxRow L t).view.emb j = (ix2 ⟨(q0 L + t.val) / 16, field_lt L t⟩ ⟨(j 0).val, b_lt j⟩ : S26x4096.Idx) :=
  emb2 _ j (off4_eq L t) _ _ (Nat.zero_add _).symm
theorem outRow_emb (L : grid0.Coords) (t : Fin k0_t1_loop.trips) (j : S4096.Idx) :
    (outRow L t).view.emb j
      = (ix3 ⟨(q0 L + t.val) / 16, field_lt L t⟩ ⟨(q0 L + t.val) % 16, col_lt _⟩ ⟨(j 0).val, b_lt j⟩ : S26x16x4096.Idx) :=
  emb3 _ j (off19_eq L t) _ _ _ (Nat.zero_add _).symm

/-! ### Which of them coincide -/

theorem tabLo0_eq (L : grid0.Coords) (t : Fin k0_t1_loop.trips) (ht : t.val = 0) : tabLo0 L = tabLo L t :=
  sliceSq_congr main_v1_scv _ _ _ _ _ (by rw [off1_eq, off5_eq, ht]; rfl)
theorem tabHi0_eq (L : grid0.Coords) (t : Fin k0_t1_loop.trips) (ht : t.val = 0) : tabHi0 L = tabHi L t :=
  sliceSq_congr main_v1_scv _ _ _ _ _ (by rw [off2_eq, off12_eq, ht]; rfl)
theorem tabLoN_eq (L : grid0.Coords) (t : Fin k0_t1_loop.trips) (h3 : k0_cond3 t = 1#1) (t' : Fin k0_t1_loop.trips)
    (ht : t'.val = t.val + 1) : tabLoN L t h3 = tabLo L t' :=
  sliceSq_congr main_v1_scv _ _ _ _ _ (by rw [off11_eq, off5_eq, ht]; rfl)
theorem tabHiN_eq (L : grid0.Coords) (t : Fin k0_t1_loop.trips) (h4 : k0_cond4 t = 1#1) (t' : Fin k0_t1_loop.trips)
    (ht : t'.val = t.val + 1) : tabHiN L t h4 = tabHi L t' :=
  sliceSq_congr main_v1_scv _ _ _ _ _ (by rw [off18_eq, off12_eq, ht]; rfl)
theorem outRowW_eq (L : grid0.Coords) (t : Fin k0_t1_loop.trips) (h1 : k0_cond1 t = 1#1) : outRowW L t h1 = outRow L t :=
  sliceSq_congr main_v2_scv _ _ _ _ _ (by rw [off3_eq, off19_eq])
theorem outRowZ_eq (L : grid0.Coords) (t : Fin k0_t1_loop.trips) (ht : t.val = 12) : outRowZ L = outRow L t :=
  sliceSq_congr main_v2_scv _ _ _ _ _ (by rw [off20_eq, off19_eq, ht])

/-! ### The rows of the result they cover -/

theorem outRow_set (L : grid0.Coords) (t : Fin k0_t1_loop.trips) :
    (outRow L t).view.set = rowSet (qOf (L 0).val (L 1).val t.val) := by
  rw [← q0_eq_qOf, ← Nat.div_add_mod (q0 L + t.val) 16]
  exact (view_set_eq main_v2_scv _ _ _ _).trans (unit_set_row (off19_eq L t) (col_lt _))
theorem outRowW_set (L : grid0.Coords) (t : Fin k0_t1_loop.trips) (h1 : k0_cond1 t = 1#1) :
    (outRowW L t h1).view.set = rowSet (qOf (L 0).val (L 1).val t.val) := by
  rw [← q0_eq_qOf, ← Nat.div_add_mod (q0 L + t.val) 16]
  exact (view_set_eq main_v2_scv _ _ _ _).trans (unit_set_row (off3_eq L t) (col_lt _))
theorem outRowZ_set (L : grid0.Coords) : (outRowZ L).view.set = rowSet (qOf (L 0).val (L 1).val 12) := by
  rw [← q0_eq_qOf, ← Nat.div_add_mod (q0 L + 12) 16]
  exact (view_set_eq main_v2_scv _ _ _ _).trans (unit_set_row (off20_eq L) (col_lt _))

end Cert.Proof.KI

end
-- ==== Proof.SpecI.lean ====
/-
  What the two inner gather loops leave in the staged row, as functions of the staged indices and the two staged
  halves of the table row: the low half read at the index capped at its last entry; then, where the index reaches the
  split, the high half read at the index less the split.
-/
import proofs.«207324_g17738214933191_cont_8to1_1167_12_alg».proof.Proof.CommonI

noncomputable section

namespace Cert.Proof.KI

open Cert.KernelIdeal Cert.KernelIdeal.Gen
open Idealize.ShloMosaic

variable {F : FTy → Type} [FloatOps F]

theorem size_S50176 (a : Fin 1) : S50176.size a = 50176 := by cases Fin.fin_one_eq_zero a; rfl
theorem size_S49824 (a : Fin 1) : S49824.size a = 49824 := by cases Fin.fin_one_eq_zero a; rfl

/-- The gather of the low half: entry `j` is the half's entry at index `j`, capped at its last. -/
def loSpec (gI : IVec S4096 32) (gA : Vec F S50176 .f32) : Vec F S4096 .f32 :=
  fun j => gA (fun a => ⟨min (gI j).toNat 50175, by rw [size_S50176 a]; omega⟩)

/-- The gather of the high half laid over it: where index `j` reaches the split, the high half's entry at the index
    less the split (capped at its last); elsewhere what was there. -/
def hiSpec (gI : IVec S4096 32) (gB : Vec F S49824 .f32) (prev : Vec F S4096 .f32) : Vec F S4096 .f32 :=
  fun j => if 50176 ≤ (gI j).toNat then gB (fun a => ⟨min ((gI j).toNat - 50176) 49823, by rw [size_S49824 a]; omega⟩) else prev j

end Cert.Proof.KI

end
-- ==== Proof.LibRangePool.lean ====
/-
  A family of assertions over `Fin N` held on a RANGE of indices — all from `lo` on, or all below `hi` — gains or
  loses its boundary member. These are the steps by which a loop's invariant moves members one at a time between a
  pool of members not yet used (a range `lo ≤ g`) and a pool of members done with (a range `g < hi`), with the
  empty and full ranges at the two ends of the loop.
-/
import Idealize.ShloMosaic.Lib.SparseCore.Cells

noncomputable section

namespace Cert.Lib.RangePool

open Idealize.ShloMosaic
open Idealize.SL Idealize.SL.RA Idealize.SL.BI
open scoped Idealize.SL.BI
open Idealize.SL.BI.BIBase Idealize.SL.BI.Laws Idealize.SL.ProofMode

variable {M : Type} [URA M] {N : ℕ}

/-- The indices of `Fin N` from `lo` on. -/
abbrev fromIdx (N lo : ℕ) : Finset (Fin N) := Finset.univ.filter fun g => lo ≤ g.val
/-- The indices of `Fin N` below `hi`. -/
abbrev belowIdx (N hi : ℕ) : Finset (Fin N) := Finset.univ.filter fun g => g.val < hi

/-- The range from `lo` on is its first member and the range from `lo + 1` on. -/
theorem bigSep_from_head (Φ : Fin N → sProp M) (lo : ℕ) (h : lo < N) :
    bigSep (fromIdx N lo) Φ = iprop(Φ ⟨lo, h⟩ ∗ bigSep (fromIdx N (lo + 1)) Φ) := by
  have e : fromIdx N lo = insert (⟨lo, h⟩ : Fin N) (fromIdx N (lo + 1)) := by
    ext g
    simp only [Finset.mem_filter, Finset.mem_univ, true_and, Finset.mem_insert, Fin.ext_iff]
    omega
  have hn : (⟨lo, h⟩ : Fin N) ∉ fromIdx N (lo + 1) := by
    simp only [Finset.mem_filter, Finset.mem_univ, true_and]; omega
  rw [e, SparseCore.bigSep_insert' hn]

/-- The range below `hi + 1` is its last member and the range below `hi`. -/
theorem bigSep_below_last (Φ : Fin N → sProp M) (hi : ℕ) (h : hi < N) :
    bigSep (belowIdx N (hi + 1)) Φ = iprop(Φ ⟨hi, h⟩ ∗ bigSep (belowIdx N hi) Φ) := by
  have e : belowIdx N (hi + 1) = insert (⟨hi, h⟩ : Fin N) (belowIdx N hi) := by
    ext g
    simp only [Finset.mem_filter, Finset.mem_univ, true_and, Finset.mem_insert, Fin.ext_iff]
    omega
  have hn : (⟨hi, h⟩ : Fin N) ∉ belowIdx N hi := by
    simp only [Finset.mem_filter, Finset.mem_univ, true_and]; omega
  rw [e, SparseCore.bigSep_insert' hn]

/-- From index 0 on is every index. -/
theorem fromIdx_zero : fromIdx N 0 = Finset.univ := by
  ext g; simp only [Finset.mem_filter, Finset.mem_univ, true_and, Nat.zero_le]
/-- From `N` on (or later) is no index. -/
theorem fromIdx_end {lo : ℕ} (h : N ≤ lo) : fromIdx N lo = ∅ := by
  ext g; simp only [Finset.mem_filter, Finset.mem_univ, true_and, Finset.notMem_empty, iff_false]; have := g.isLt; omega
/-- Below 0 is no index. -/
theorem belowIdx_zero : belowIdx N 0 = ∅ := by
  ext g; simp only [Finset.mem_filter, Finset.mem_univ, true_and, Finset.notMem_empty, iff_false]; omega
/-- Below `N` (or more) is every index. -/
theorem belowIdx_all {hi : ℕ} (h : N ≤ hi) : belowIdx N hi = Finset.univ := by
  ext g; simp only [Finset.mem_filter, Finset.mem_univ, true_and, iff_true]; have := g.isLt; omega

end Cert.Lib.RangePool

end
-- ==== Proof.OuterDefsI.lean ====
/-
  The task's loop over its thirteen (field, column) pairs: what the task holds between two pairs, and at the cuts
  inside one pair's work. Pair `t` finds the two halves of its table row in flight (started by the pair before, or
  before the loop), the row of the pair before on its way out, and the index scratch at the field of the pair before.
  It waits for the row before to have left; fetches the field's indices if the field changed; waits for the low half,
  gathers it, starts the next pair's low half; waits for the high half, gathers it over the first, starts the next
  pair's high half; and sends its row out.
-/
import proofs.«207324_g17738214933191_cont_8to1_1167_12_alg».proof.Proof.TileBaseI
import proofs.«207324_g17738214933191_cont_8to1_1167_12_alg».proof.Proof.ViewsI
import proofs.«207324_g17738214933191_cont_8to1_1167_12_alg».proof.Proof.SpecI
import proofs.«207324_g17738214933191_cont_8to1_1167_12_alg».proof.Proof.LibRangePool

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section Outer

variable (d : Dev nD) (L : grid0.Coords) (O : CellTallies nD τ sig (HIx 1)) (W : Waits sig (HIx 1))

/-- The number of pairs of a task. -/
abbrev TR : ℕ := k0_t1_loop.trips
/-- The task's read share of the transposed tables, cut in two: one piece for the low halves' transfers, one for the
    high halves'. -/
abbrev tok (L : grid0.Coords) : PosShare TreeShare := tokOf (L 0).val (L 1).val
abbrev tokA (L : grid0.Coords) : PosShare TreeShare := shareTokN (tok L) 0
abbrev tokB (L : grid0.Coords) : PosShare TreeShare := shareTokN (tok L) 1

/-- What the three staged buffers hold once pair `t`'s transfers have landed. -/
abbrev rdLo (t : Fin TR) : Buf (Elt F) ((thr d L).loc cc0_scratch2) := (tabLo L t).view.read (Elt F) (tabT m d)
abbrev rdHi (t : Fin TR) : Buf (Elt F) ((thr d L).loc cc0_scratch3) := (tabHi L t).view.read (Elt F) (tabT m d)
abbrev rdIx (t : Fin TR) : Buf (Elt F) ((thr d L).loc cc0_scratch0) := (idxRow L t).view.read (Elt F) (idxT m d)

/-- Row `t` of the task's thirteen, not yet written, and written. -/
def rowTodo (t : Fin 13) : sProp 𝕄 := v2Loc d ↦[rowSet (qOf (L 0).val (L 1).val t.val)]{fullShare} m (v2Loc d)
def rowDone (t : Fin 13) : sProp 𝕄 := v2Loc d ↦[rowSet (qOf (L 0).val (L 1).val t.val)]{fullShare} OUT m d

/-- The low half of pair `t`'s table row in flight into its scratch, -/
def flA (t : Fin TR) : sProp 𝕄 :=
  Transfers.Flight countersEmb (thr d L) (SemLoc.dma cc0_scratch4.sem) (default : HIx 1) 1605632
    iprop(((sA).view.loc (thr d L) ↦{fullShare} rdLo m d L t) ∗ ((tW).view.loc (thr d L) ↦[(tabLo L t).view.set]{tokA L} tabT m d))
/-- the high half, -/
def flB (t : Fin TR) : sProp 𝕄 :=
  Transfers.Flight countersEmb (thr d L) (SemLoc.dma cc0_scratch5.sem) (default : HIx 1) 1594368
    iprop(((sB).view.loc (thr d L) ↦{fullShare} rdHi m d L t) ∗ ((tW).view.loc (thr d L) ↦[(tabHi L t).view.set]{tokB L} tabT m d))
/-- and pair `t`'s finished row on its way out of the row scratch. -/
def flO (t : Fin 13) : sProp 𝕄 :=
  Transfers.Flight countersEmb (thr d L) (SemLoc.dma cc0_scratch6.sem) (default : HIx 1) 131072
    iprop(rowDone m d L t ∗ ∃ g, (sO).view.loc (thr d L) ↦{fullShare} g)

/-- The low-half side before pair `k`: its transfer in flight and the rest of that share of the tables; after the last
    pair, the semaphore at zero, the scratch and the share whole. -/
def stA (k : ℕ) : sProp 𝕄 :=
  if h : k < TR then iprop(flA m d L ⟨k, h⟩ ∗ ((tW).view.loc (thr d L) ↦[Finset.univ \ (tabLo L ⟨k, h⟩).view.set]{tokA L} tabT m d))
  else iprop(semVal (semA d L) 0 ∗ (∃ g, (sA).view.loc (thr d L) ↦{fullShare} g) ∗ ((tW).view.loc (thr d L) ↦{tokA L} tabT m d))
def stB (k : ℕ) : sProp 𝕄 :=
  if h : k < TR then iprop(flB m d L ⟨k, h⟩ ∗ ((tW).view.loc (thr d L) ↦[Finset.univ \ (tabHi L ⟨k, h⟩).view.set]{tokB L} tabT m d))
  else iprop(semVal (semB d L) 0 ∗ (∃ g, (sB).view.loc (thr d L) ↦{fullShare} g) ∗ ((tW).view.loc (thr d L) ↦{tokB L} tabT m d))
/-- The row scratch before pair `k`: free before the first, else the row before on its way out. -/
def stO (k : ℕ) : sProp 𝕄 :=
  if h : 0 < k ∧ k - 1 < 13 then flO m d L ⟨k - 1, h.2⟩
  else iprop(semVal (semO d L) 0 ∗ ∃ g, (sO).view.loc (thr d L) ↦{fullShare} g)
/-- The index scratch before pair `k` with the loop's carried field `acc`: before the first pair anything, the
    carried word the sentinel; else the indices of the field of the pair before, the carried word that field. -/
def stI (k : ℕ) (acc : BitVec 32) : sProp 𝕄 :=
  iprop(semVal (semI d L) 0 ∗ ∃ g, ((sI).view.loc (thr d L) ↦{fullShare} g)
    ∗ ⌜(k = 0 ∧ acc = 4294967295#32) ∨ (∃ h : 0 < k ∧ k - 1 < TR, acc = BitVec.ofNat 32 ((q0 L + (k - 1)) / 16) ∧ g = rdIx m d L ⟨k - 1, h.2⟩)⌝)

/-- What the task owes, with the waits it has made recorded. -/
def owesW : sProp 𝕄 := iprop(∃ W', ⌜∀ p ∈ W', p ∈ W ∨ p.2 = none⌝ ∗ owes (thr d L) O W')

/-- Between pairs: before pair `k`, the carried field `acc`. -/
def Inv (k : ℕ) (acc : BitVec 32) : sProp 𝕄 :=
  iprop(Transfers.MayWaits (thr d L) (none : HIx 1) O
    ∗ ((iW).view.loc (thr d L) ↦{tok L} idxT m d)
    ∗ stI m d L k acc ∗ stA m d L k ∗ stB m d L k ∗ stO m d L k
    ∗ bigSep (fromIdx 13 k) (rowTodo m d L) ∗ bigSep (belowIdx 13 (k - 1)) (rowDone m d L)
    ∗ owesW d L O W)

/-! ### The cuts inside pair `t` -/

/-- After the wait for the row before: the row scratch free, the rows before `t` all written. -/
def Cut1 (t : Fin TR) (acc : BitVec 32) : sProp 𝕄 :=
  iprop(Transfers.MayWaits (thr d L) (none : HIx 1) O
    ∗ ((iW).view.loc (thr d L) ↦{tok L} idxT m d)
    ∗ stI m d L t.val acc ∗ stA m d L t.val ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the indices' fetch (if any): the index scratch at pair `t`'s field. -/
def Cut2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L t.val ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the low half's gather and the next low half's start: the row scratch at the low gather. -/
def Cut3 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1) ∗ stB m d L t.val
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)
/-- After the high half's gather and the next high half's start: the row scratch at the pair's row. -/
def Cut4 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1) ∗ stB m d L (t.val + 1)
    ∗ (semVal (semO d L) 0 ∗ ((sO).view.loc (thr d L) ↦{fullShare} hiSpec (rdIx m d L t) (rdHi m d L t) (loSpec (rdIx m d L t) (rdLo m d L t))))
    ∗ bigSep (fromIdx 13 t.val) (rowTodo m d L) ∗ bigSep (belowIdx 13 t.val) (rowDone m d L)
    ∗ owesW d L O W)

end Outer

/-! ### Sequencing -/

section Seq

variable {M : Type} [URA M] {Mask : Type} {E : Type → Type} (Fr : Mask → sProp M) (wpE : Mask → ∀ ⦃β : Type⦄, E β → sWPT M β) (Es : Mask)

/-- A program then its continuation, through a stated cut. -/
theorem wp_seq {α β : Type} {A : Prog E α} {Kk : α → Prog E β} {P : sProp M} (U : α → sProp M) {Q : β → sProp M}
    (hA : P ⊢ wp Fr wpE Es A U) (hK : ∀ a, U a ⊢ wp Fr wpE Es (Kk a) Q) : P ⊢ wp Fr wpE Es (A >>= Kk) Q := by
  rw [wp_bind]; exact hA.trans (wp_mono Fr wpE Es hK)

/-- A conditional by its two arms. -/
theorem wp_ite {α : Type} {c : Prop} [Decidable c] {A B : Prog E α} {P : sProp M} {Q : α → sProp M}
    (hA : c → P ⊢ wp Fr wpE Es A Q) (hB : ¬ c → P ⊢ wp Fr wpE Es B Q) : P ⊢ wp Fr wpE Es (if c then A else B) Q := by
  by_cases h : c
  · rw [if_pos h]; exact hA h
  · rw [if_neg h]; exact hB h
theorem wp_dite {α : Type} {c : Prop} [Decidable c] {A : c → Prog E α} {B : ¬ c → Prog E α} {P : sProp M} {Q : α → sProp M}
    (hA : ∀ h : c, P ⊢ wp Fr wpE Es (A h) Q) (hB : ∀ h : ¬ c, P ⊢ wp Fr wpE Es (B h) Q) : P ⊢ wp Fr wpE Es (dite c A B) Q := by
  by_cases h : c
  · rw [dif_pos h]; exact hA h
  · rw [dif_neg h]; exact hB h

end Seq

end Cert.Proof.KI

end
-- ==== Proof.OuterSegI.lean ====
/-
  One pair's work cut at its conditionals: each conditional's extra transfer, and what follows it, as programs of their
  own. The kernel function's loop body, at the field its first statements compute, is the first of them.
-/
import proofs.«207324_g17738214933191_cont_8to1_1167_12_alg».proof.Proof.Gen.KernelIdeal
import proofs.«207324_g17738214933191_cont_8to1_1167_12_alg».proof.Proof.Gen.KernelIdeal.Skeleton

set_option synthInstance.maxSize 4096

noncomputable section

namespace Cert.Proof.KI

open Cert.KernelIdeal Cert.KernelIdeal.Gen
open Idealize.ShloMosaic Idealize.SL.Sem

variable {F : FTy → Type} [FloatOps F]

set_option cleanup.letToHave false

/-- The last part: the row scratch sent out to the pair's row of the result. -/
noncomputable def segE (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v121 : Memref sig .scVector .hbm S1x1x4096 .f32 := arg4.slice (Rect.unit (s := S26x16x4096) (k0_off19 i k0_t1) S1x1x4096.size (k0_off19_inb i k0_t1)) (fun _ => rfl)
  let v122 : Memref sig .scVector .hbm S4096 .f32 := v121.squeeze S4096 squeezes_S1x1x4096_S4096
  Prog.lift (.enqueueDma arg6 (.here v122) (.dma arg11.sem) harg6.wordExact ((View.wordExact_bits rfl).reshape _ _) ⟨Or.inl rfl, trivial⟩)
  pure v74

/-- The next pair's high half started. -/
noncomputable def armD (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h4 : k0_cond4 k0_t1 = 1#1) : Prog (TpuEff nD τ sig (Elt F) Λ₀ (.scVector ((i 0).castLE hcore0) ((i 1).castLE hsub0))) PUnit :=
  let v125 : Memref sig .scVector .hbm S1x1x49824 .f32 := arg3.slice (Rect.unit (s := S26x16x100000) (k0_off18 i k0_t1) S1x1x49824.size (k0_off18_inb i k0_t1 k0_h4)) (fun _ => rfl)
  let v126 : Memref sig .scVector .hbm S49824 .f32 := v125.squeeze S49824 squeezes_S1x1x49824_S49824
  Prog.lift (.enqueueDma v126 (.here arg8) (.dma arg10.sem) ((View.wordExact_bits rfl).reshape _ _) harg8.wordExact ⟨Or.inl rfl, trivial⟩)

/-- The wait for the high half, its gather, the next pair's high half if there is a next pair, then the last part. -/
noncomputable def segD (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v113 : Memref sig .scVector .hbm S1x1x49824 .f32 := arg3.slice (Rect.unit (s := S26x16x100000) (k0_off12 i k0_t1) S1x1x49824.size (k0_off12_inb i k0_t1)) (fun _ => rfl)
  let v114 : Memref sig .scVector .hbm S49824 .f32 := v113.squeeze S49824 squeezes_S1x1x49824_S49824
  Prog.lift (.waitDma2 arg10.sem v114 arg8 ((View.wordExact_bits rfl).reshape _ _) harg8.wordExact)
  Scf.Loop.for k0_t3_loop k0_t3_ok ⟨⟩ (k0_t3_body i arg2 harg2 arg3 harg3 arg4 harg4 arg5 harg5 arg6 harg6 arg7 harg7 arg8 harg8 arg9 arg10 arg11 v123_r0)
  if k0_h4 : k0_cond4 k0_t1 = 1#1 then do
    armD i arg2 harg2 arg3 harg3 arg4 harg4 arg5 harg5 arg6 harg6 arg7 harg7 arg8 harg8 arg9 arg10 arg11 v123_r0 k0_t1 k0_h4
    segE i arg2 harg2 arg3 harg3 arg4 harg4 arg5 harg5 arg6 harg6 arg7 harg7 arg8 harg8 arg9 arg10 arg11 v123_r0 k0_t1 v74
  else segE i arg2 harg2 arg3 harg3 arg4 harg4 arg5 harg5 arg6 harg6 arg7 harg7 arg8 harg8 arg9 arg10 arg11 v123_r0 k0_t1 v74

/-- The next pair's low half started. -/
noncomputable def armC (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h3 : k0_cond3 k0_t1 = 1#1) : Prog (TpuEff nD τ sig (Elt F) Λ₀ (.scVector ((i 0).castLE hcore0) ((i 1).castLE hsub0))) PUnit :=
  let v125 : Memref sig .scVector .hbm S1x1x50176 .f32 := arg3.slice (Rect.unit (s := S26x16x100000) (k0_off11 i k0_t1) S1x1x50176.size (k0_off11_inb i k0_t1 k0_h3)) (fun _ => rfl)
  let v126 : Memref sig .scVector .hbm S50176 .f32 := v125.squeeze S50176 squeezes_S1x1x50176_S50176
  Prog.lift (.enqueueDma v126 (.here arg7) (.dma arg9.sem) ((View.wordExact_bits rfl).reshape _ _) harg7.wordExact ⟨Or.inl rfl, trivial⟩)

/-- The wait for the low half, its gather, the next pair's low half if there is a next pair, then the high half's part. -/
noncomputable def segC (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v105 : Memref sig .scVector .hbm S1x1x50176 .f32 := arg3.slice (Rect.unit (s := S26x16x100000) (k0_off5 i k0_t1) S1x1x50176.size (k0_off5_inb i k0_t1)) (fun _ => rfl)
  let v106 : Memref sig .scVector .hbm S50176 .f32 := v105.squeeze S50176 squeezes_S1x1x50176_S50176
  Prog.lift (.waitDma2 arg9.sem v106 arg7 ((View.wordExact_bits rfl).reshape _ _) harg7.wordExact)
  Scf.Loop.for k0_t2_loop k0_t2_ok ⟨⟩ (k0_t2_body i arg2 harg2 arg3 harg3 arg4 harg4 arg5 harg5 arg6 harg6 arg7 harg7 arg8 harg8 arg9 arg10 arg11 v123_r0)
  if k0_h3 : k0_cond3 k0_t1 = 1#1 then do
    armC i arg2 harg2 arg3 harg3 arg4 harg4 arg5 harg5 arg6 harg6 arg7 harg7 arg8 harg8 arg9 arg10 arg11 v123_r0 k0_t1 k0_h3
    segD i arg2 harg2 arg3 harg3 arg4 harg4 arg5 harg5 arg6 harg6 arg7 harg7 arg8 harg8 arg9 arg10 arg11 v123_r0 k0_t1 v74
  else segD i arg2 harg2 arg3 harg3 arg4 harg4 arg5 harg5 arg6 harg6 arg7 harg7 arg8 harg8 arg9 arg10 arg11 v123_r0 k0_t1 v74

/-- The field's indices fetched into the index scratch, and waited for. -/
noncomputable def armB (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) : Prog (TpuEff nD τ sig (Elt F) Λ₀ (.scVector ((i 0).castLE hcore0) ((i 1).castLE hsub0))) PUnit := do
  let v126_r0 : Memref sig .scVector .hbm S1x4096 .i32 := arg2.slice (Rect.unit (s := S26x4096) (k0_off4 i k0_t1) S1x4096.size (k0_off4_inb i k0_t1)) (fun _ => rfl)
  let v127_r0 : Memref sig .scVector .hbm S4096 .i32 := v126_r0.squeeze S4096 squeezes_S1x4096_S4096
  Prog.lift (.enqueueDma v127_r0 (.here arg5) (.dma v123_r0.sem) ((View.wordExact_bits rfl).reshape _ _) harg5.wordExact ⟨Or.inl rfl, trivial⟩)
  let v130_r0 : Memref sig .scVector .hbm S1x4096 .i32 := arg2.slice (Rect.unit (s := S26x4096) (k0_off4 i k0_t1) S1x4096.size (k0_off4_inb i k0_t1)) (fun _ => rfl)
  let v131_r0 : Memref sig .scVector .hbm S4096 .i32 := v130_r0.squeeze S4096 squeezes_S1x4096_S4096
  Prog.lift (.waitDma2 v123_r0.sem v131_r0 arg5 ((View.wordExact_bits rfl).reshape _ _) harg5.wordExact)

/-- The fetch of the indices if the pair's field `v74` is not the carried one, then the low half's part. -/
noncomputable def segB (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 arg13 : BitVec 32) : Prog (TpuEff nD τ sig (Elt F) Λ₀ (.scVector ((i 0).castLE hcore0) ((i 1).castLE hsub0))) (BitVec 32) :=
  let v100 : BitVec 1 := Scalar.cmpi .ne v74 arg13
  let v101 : BitVec 32 := Scalar.extui v100
  let v102 : BitVec 1 := Scalar.cmpi .ne v101 0#32
  if v102 = 1#1 then do
    armB i arg2 harg2 arg3 harg3 arg4 harg4 arg5 harg5 arg6 harg6 arg7 harg7 arg8 harg8 arg9 arg10 arg11 v123_r0 k0_t1
    segC i arg2 harg2 arg3 harg3 arg4 harg4 arg5 harg5 arg6 harg6 arg7 harg7 arg8 harg8 arg9 arg10 arg11 v123_r0 k0_t1 v74
  else segC i arg2 harg2 arg3 harg3 arg4 harg4 arg5 harg5 arg6 harg6 arg7 harg7 arg8 harg8 arg9 arg10 arg11 v123_r0 k0_t1 v74

/-- The wait for the row of the pair before to have left the row scratch. -/
noncomputable def armA (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h1 : k0_cond1 k0_t1 = 1#1) : Prog (TpuEff nD τ sig (Elt F) Λ₀ (.scVector ((i 0).castLE hcore0) ((i 1).castLE hsub0))) PUnit :=
  let v125 : Memref sig .scVector .hbm S1x1x4096 .f32 := arg4.slice (Rect.unit (s := S26x16x4096) (k0_off3 i k0_t1) S1x1x4096.size (k0_off3_inb i k0_t1 k0_h1)) (fun _ => rfl)
  let v126 : Memref sig .scVector .hbm S4096 .f32 := v125.squeeze S4096 squeezes_S1x1x4096_S4096
  Prog.lift (.waitDma2 arg11.sem arg6 v126 harg6.wordExact ((View.wordExact_bits rfl).reshape _ _))

/-- That wait unless the pair is the first, then the indices' part. -/
noncomputable def segA (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 arg13 : BitVec 32) : Prog (TpuEff nD τ sig (Elt F) Λ₀ (.scVector ((i 0).castLE hcore0) ((i 1).castLE hsub0))) (BitVec 32) :=
  if k0_h1 : k0_cond1 k0_t1 = 1#1 then do
    armA i arg2 harg2 arg3 harg3 arg4 harg4 arg5 harg5 arg6 harg6 arg7 harg7 arg8 harg8 arg9 arg10 arg11 v123_r0 k0_t1 k0_h1
    segB i arg2 harg2 arg3 harg3 arg4 harg4 arg5 harg5 arg6 harg6 arg7 harg7 arg8 harg8 arg9 arg10 arg11 v123_r0 k0_t1 v74 arg13
  else segB i arg2 harg2 arg3 harg3 arg4 harg4 arg5 harg5 arg6 harg6 arg7 harg7 arg8 harg8 arg9 arg10 arg11 v123_r0 k0_t1 v74 arg13

set_option maxRecDepth 65536 in
/-- The loop's body is its first statements' tuple handed to the first segment at the field they compute. -/
theorem t1_body_eq (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (v2 : BitVec 32) (k0_t1 : Fin k0_t1_loop.trips) (arg13 : BitVec 32) :
    k0_t1_body (F := F) i arg2 harg2 arg3 harg3 arg4 harg4 arg5 harg5 arg6 harg6 arg7 harg7 arg8 harg8 arg9 arg10 arg11 v123_r0 v2 k0_t1 arg13
      = (k0_part2 (F := F) i arg2 harg2 arg3 harg3 arg4 harg4 arg5 harg5 arg6 harg6 arg7 harg7 arg8 harg8 arg9 arg10 arg11 v123_r0 v2 0#32 1#32 k0_t1 >>= fun p => segA (F := F) i arg2 harg2 arg3 harg3 arg4 harg4 arg5 harg5 arg6 harg6 arg7 harg7 arg8 harg8 arg9 arg10 arg11 v123_r0 k0_t1 p.2.1 arg13) := rfl

end Cert.Proof.KI

end
-- ==== Proof.OuterStmtI.lean ====
/-
  The segments of one pair's work at the kernel function's own arguments (the whole arrays, the four scratches, the
  four transfer semaphores), and the pair's field as a word.
-/
import proofs.«207324_g17738214933191_cont_8to1_1167_12_alg».proof.Proof.OuterDefsI
import proofs.«207324_g17738214933191_cont_8to1_1167_12_alg».proof.Proof.OuterSegI
import proofs.«207324_g17738214933191_cont_8to1_1167_12_alg».proof.Proof.OffsetsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section Stmt

variable (L : grid0.Coords)

/-- Pair `t`'s field as the loop carries it. -/
abbrev fld (t : Fin TR) : BitVec 32 := BitVec.ofNat 32 ((q0 L + t.val) / 16)

abbrev SEGA (t : Fin TR) (v74 acc : BitVec 32) : Prog (TpuEff nD τ sig (Elt F) Λ₀ (.scVector ((L 0).castLE hcore0) ((L 1).castLE hsub0))) (BitVec 32) := segA (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74 acc
abbrev SEGB (t : Fin TR) (v74 acc : BitVec 32) : Prog (TpuEff nD τ sig (Elt F) Λ₀ (.scVector ((L 0).castLE hcore0) ((L 1).castLE hsub0))) (BitVec 32) := segB (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74 acc
abbrev SEGC (t : Fin TR) (v74 : BitVec 32) : Prog (TpuEff nD τ sig (Elt F) Λ₀ (.scVector ((L 0).castLE hcore0) ((L 1).castLE hsub0))) (BitVec 32) := segC (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev SEGD (t : Fin TR) (v74 : BitVec 32) : Prog (TpuEff nD τ sig (Elt F) Λ₀ (.scVector ((L 0).castLE hcore0) ((L 1).castLE hsub0))) (BitVec 32) := segD (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev SEGE (t : Fin TR) (v74 : BitVec 32) : Prog (TpuEff nD τ sig (Elt F) Λ₀ (.scVector ((L 0).castLE hcore0) ((L 1).castLE hsub0))) (BitVec 32) := segE (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev ARMA (t : Fin TR) (h : k0_cond1 t = 1#1) : Prog (TpuEff nD τ sig (Elt F) Λ₀ (.scVector ((L 0).castLE hcore0) ((L 1).castLE hsub0))) PUnit := armA (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h
abbrev ARMB (t : Fin TR) : Prog (TpuEff nD τ sig (Elt F) Λ₀ (.scVector ((L 0).castLE hcore0) ((L 1).castLE hsub0))) PUnit := armB (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t
abbrev ARMC (t : Fin TR) (h : k0_cond3 t = 1#1) : Prog (TpuEff nD τ sig (Elt F) Λ₀ (.scVector ((L 0).castLE hcore0) ((L 1).castLE hsub0))) PUnit := armC (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h
abbrev ARMD (t : Fin TR) (h : k0_cond4 t = 1#1) : Prog (TpuEff nD τ sig (Elt F) Λ₀ (.scVector ((L 0).castLE hcore0) ((L 1).castLE hsub0))) PUnit := armD (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h

end Stmt

end Cert.Proof.KI

end
-- ==== Proof.OuterAI.lean ====
/-
  The start of a pair: unless it is the first, the wait for the row of the pair before to have left the row scratch;
  that row then counts among the written ones.
-/
import proofs.«207324_g17738214933191_cont_8to1_1167_12_alg».proof.Proof.OuterStmtI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section SegA

variable (d : Dev nD) (L : grid0.Coords) (O : CellTallies nD τ sig (HIx 1)) (W : Waits sig (HIx 1))

theorem stO_pos (k : ℕ) (h : 0 < k ∧ k - 1 < 13) : stO m d L k = flO m d L ⟨k - 1, h.2⟩ := by
  unfold stO; rw [dif_pos h]
theorem stO_zero : stO m d L 0 = iprop(semVal (semO d L) 0 ∗ ∃ g, (sO).view.loc (thr d L) ↦{fullShare} g) := by
  unfold stO; rw [dif_neg (by omega)]

theorem segA_arm (t : Fin TR) (acc : BitVec 32) (h1 : k0_cond1 t = 1#1) :
    Inv m d L O W t.val acc ⊢ wp frame (wpE (defs₀ (F := F)) 𝒱₀ (thr d L) none) Set.univ (ARMA (F := F) L t h1) (fun _ => Cut1 m d L O W t acc) := by
  have h0 : 0 < t.val := (cond1_iff t).1 h1
  have h13 := t_lt t
  unfold Inv Cut1 owesW ARMA armA
  rw [stO_pos m d L t.val ⟨h0, by omega⟩]; unfold flO
  iintro ⟨#Hmw, Hi, HI, HstA, HstB, Hfl, Htodo, Hdone, %W', %hW', HO⟩
  ihave Hmw1 := (Transfers.MayWaits.elim (SemLoc.dma cc0_scratch6.sem)) $$ Hmw
  iapply (Transfers.wp_waitLocalO countersEmb 𝒱₀ (thr d L) none (default : HIx 1) (N := 131072) rfl) $$ [Hfl HO Hmw1]
  · isplitl [Hfl]; · iexact Hfl
    isplitl [HO]; · iexact HO
    iexact Hmw1
  iintro ⟨⟨Hrow, HsO⟩, HsemO, HO⟩
  rw [wp_ret]; imodintro
  isplitr; · iexact Hmw
  isplitl [Hi]; · iexact Hi
  isplitl [HI]; · iexact HI
  isplitl [HstA]; · iexact HstA
  isplitl [HstB]; · iexact HstB
  isplitl [HsemO HsO]
  · isplitl [HsemO]; · iexact HsemO
    iexact HsO
  isplitl [Htodo]; · iexact Htodo
  isplitl [Hdone Hrow]
  · rw [show bigSep (belowIdx 13 t.val) (rowDone m d L) = bigSep (belowIdx 13 ((t.val - 1) + 1)) (rowDone m d L) by
        rw [Nat.sub_add_cancel h0], bigSep_below_last (rowDone m d L) (t.val - 1) (by omega)]
    isplitl [Hrow]; · iexact Hrow
    iexact Hdone
  iexists (insert ((SemLoc.dma cc0_scratch6.sem : SemLoc sig), (default : HIx 1)) W'); isplitr
  · ipureintro; intro p hp
    rcases Finset.mem_insert.mp hp with hp | hp
    · exact .inr (hp ▸ rfl)
    · exact hW' p hp
  · iexact HO

theorem inv_first (t : Fin TR) (acc : BitVec 32) (h1 : ¬ k0_cond1 t = 1#1) : Inv m d L O W t.val acc ⊢ Cut1 m d L O W t acc := by
  have h0 : t.val = 0 := by have := mt (cond1_iff t).2 h1; omega
  unfold Inv Cut1
  rw [h0, stO_zero]

/-- The start of pair `t`, given the rest of its work. -/
theorem thA (t : Fin TR) (acc : BitVec 32)
    (hB : Cut1 m d L O W t acc ⊢ wp frame (wpE (defs₀ (F := F)) 𝒱₀ (thr d L) none) Set.univ (SEGB (F := F) L t (fld L t) acc) (Inv m d L O W (t.val + 1))) :
    Inv m d L O W t.val acc ⊢ wp frame (wpE (defs₀ (F := F)) 𝒱₀ (thr d L) none) Set.univ (SEGA (F := F) L t (fld L t) acc) (Inv m d L O W (t.val + 1)) := by
  unfold SEGA segA
  refine wp_dite _ _ _ (fun h1 => ?_) (fun h1 => ?_)
  · exact wp_seq _ _ _ (fun _ => Cut1 m d L O W t acc) (segA_arm m d L O W t acc h1) (fun _ => hB)
  · exact (inv_first m d L O W t acc h1).trans hB

end SegA

end Cert.Proof.KI

end
-- ==== Proof.OuterBI.lean ====
/-
  One pair's work, the indices' part: if the pair's field is not the one the index scratch holds, the field's row of
  the transposed indices is fetched into the scratch and waited for; if it is, the scratch already holds that row.
  Either way the scratch then holds the indices of the pair's field.
-/
import proofs.«207324_g17738214933191_cont_8to1_1167_12_alg».proof.Proof.OuterStmtI
import proofs.«207324_g17738214933191_cont_8to1_1167_12_alg».proof.Proof.ViewsI
import proofs.«207324_g17738214933191_cont_8to1_1167_12_alg».proof.Proof.OffsetsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section OuterB

variable (d : Dev nD) (L : grid0.Coords) (O : CellTallies nD τ sig (HIx 1)) (W : Waits sig (HIx 1))

/-- The fetch: from the cut after the wait for the row before, the index scratch at anything, to the cut with the
    scratch at the pair's field's indices. -/
theorem armB_run (t : Fin TR) (acc : BitVec 32) :
    Cut1 m d L O W t acc ⊢ wp frame (wpE (defs₀ (F := F)) 𝒱₀ (thr d L) none) Set.univ (ARMB (F := F) L t) (fun _ => Cut2 m d L O W t) := by
  unfold Cut1 Cut2 stI owesW ARMB armB
  iintro ⟨#Hmw, Hi, ⟨HsemI, %g, HsI, -⟩, HA, HB, HsO, Htodo, Hdone, %W', %hW', HO⟩
  -- the row of the transposed indices copied into the scratch, and the copy waited for
  sl_exec
  rw [wp_ret, View.write_whole_univ]; imodintro
  isplitr; · iexact Hmw
  isplitl [Hi]; · iexact Hi
  isplitl [HsemI HsI]
  · isplitl [HsemI]; · iexact HsemI
    iexact HsI
  isplitl [HA]; · iexact HA
  isplitl [HB]; · iexact HB
  isplitl [HsO]; · iexact HsO
  isplitl [Htodo]; · iexact Htodo
  isplitl [Hdone]; · iexact Hdone
  iexists (insert ((SemLoc.dma cc0_scoped0.sem : SemLoc sig), (default : HIx 1)) W'); isplitr
  · ipureintro; intro p hp
    rcases Finset.mem_insert.mp hp with rfl | hp
    · exact Or.inr rfl
    · exact hW' p hp
  iexact HO

/-- The word the conditional tests is set exactly when the pair's field is not the carried one. -/
theorem word_of_bit : ∀ c : BitVec 1, Scalar.cmpi .ne (Scalar.extui c) 0#32 = c := by decide
theorem fetch_iff (a b : BitVec 32) : Scalar.cmpi .ne (Scalar.extui (Scalar.cmpi .ne a b)) 0#32 = 1#1 ↔ a ≠ b := by
  rw [word_of_bit]; exact IntOp.cmpi_ne

/-- Two pairs of one field read the same row of the transposed indices. -/
theorem rdIx_congr (t t' : Fin TR) (h : (q0 L + t'.val) / 16 = (q0 L + t.val) / 16) : rdIx m d L t' = rdIx m d L t := by
  have ho : k0_off4 L t' = k0_off4 L t := by rw [off4_eq, off4_eq, h]
  show (((Memref.whole main_v0_scv).slice (Rect.unit (s := S26x4096) (k0_off4 L t') S1x4096.size (k0_off4_inb L t')) (fun _ => rfl)).squeeze S4096 squeezes_S1x4096_S4096).view.read (Elt F) (idxT m d)
    = (((Memref.whole main_v0_scv).slice (Rect.unit (s := S26x4096) (k0_off4 L t) S1x4096.size (k0_off4_inb L t)) (fun _ => rfl)).squeeze S4096 squeezes_S1x4096_S4096).view.read (Elt F) (idxT m d)
  generalize k0_off4_inb L t' = i1
  generalize k0_off4_inb L t = i2
  revert i1 i2
  rw [ho]
  intro i1 i2; rfl

/-- No fetch: the carried field is the pair's, so the scratch holds the pair's field's indices already. -/
theorem keepB (t : Fin TR) (acc : BitVec 32) (he : fld L t = acc) : Cut1 m d L O W t acc ⊢ Cut2 m d L O W t := by
  unfold Cut1 Cut2 stI
  iintro ⟨#Hmw, Hi, ⟨HsemI, %g, HsI, %hg⟩, HA, HB, HsO, Htodo, Hdone, HO⟩
  have hgt : g = rdIx m d L t := by
    rcases hg with ⟨_, h0⟩ | ⟨h, hacc, hg⟩
    · exact absurd (he.trans h0) (field_ne_init L t)
    · have hf : (q0 L + t.val) / 16 = (q0 L + t.val - 1) / 16 := (field_eq_prev_iff L t).1 (by
        rw [show q0 L + t.val - 1 = q0 L + (t.val - 1) by omega]; exact he.trans hacc)
      rw [hg]
      exact rdIx_congr m d L t ⟨t.val - 1, h.2⟩ (by show (q0 L + (t.val - 1)) / 16 = _; rw [hf]; congr 1; omega)
  subst hgt
  isplitr; · iexact Hmw
  isplitl [Hi]; · iexact Hi
  isplitl [HsemI HsI]
  · isplitl [HsemI]; · iexact HsemI
    iexact HsI
  isplitl [HA]; · iexact HA
  isplitl [HB]; · iexact HB
  isplitl [HsO]; · iexact HsO
  isplitl [Htodo]; · iexact Htodo
  isplitl [Hdone]; · iexact Hdone
  iexact HO

/-- The indices' part of pair `t`'s work, then the rest of the pair (`hC`). -/
theorem thB (t : Fin TR) (acc : BitVec 32)
    (hC : Cut2 m d L O W t ⊢ wp frame (wpE (defs₀ (F := F)) 𝒱₀ (thr d L) none) Set.univ (SEGC (F := F) L t (fld L t)) (Inv m d L O W (t.val + 1))) :
    Cut1 m d L O W t acc ⊢ wp frame (wpE (defs₀ (F := F)) 𝒱₀ (thr d L) none) Set.univ (SEGB (F := F) L t (fld L t) acc) (Inv m d L O W (t.val + 1)) := by
  unfold SEGB segB
  refine wp_ite _ _ _ (fun _ => ?_) (fun hc => ?_)
  · exact wp_seq _ _ _ (fun _ => Cut2 m d L O W t) (armB_run m d L O W t acc) (fun _ => hC)
  · have he : fld L t = acc := by
      by_contra hne
      exact hc ((fetch_iff _ _).2 hne)
    exact (keepB m d L O W t acc he).trans hC

end OuterB

end Cert.Proof.KI

end
-- ==== Proof.LanesI.lean ====
/-
  The body's pure payloads, lane by lane. The staged table row is held in two halves, entries 0 … 50175 and
  50176 … 99999; for an index word v in range the body reads the first half at min(v, 50175), the second half at
  max(v − 50176, 0), and keeps the second reading exactly when v ≥ 50176. Here: those three words as natural
  numbers, that both readings are inside their halves, and each payload at a lane.
-/
import proofs.«207324_g17738214933191_cont_8to1_1167_12_alg».proof.Proof.CommonI
import Idealize.ShloMosaic.Lib.Affine
import Idealize.ShloMosaic.Lib.ValueIdx

noncomputable section

namespace Cert.Proof.KI

open Cert.KernelIdeal Cert.KernelIdeal.Gen
open Idealize.ShloMosaic Idealize.ShloMosaic.ValueIdx

/-! ## The words -/

/-- The signed minimum with 50175 of a word in range is the minimum of the numbers. -/
theorem lo_word (v : BitVec 32) (hv : v.toNat ≤ 99999) : (IntOp.minsi v 50175#32).toNat = min v.toNat 50175 := by
  unfold IntOp.minsi
  by_cases h : v.toNat < 50175
  · have hs : v.slt 50175#32 = true := by
      rw [BitVec.slt_iff_toInt_lt]
      simp only [BitVec.toInt_eq_toNat_cond, BitVec.toNat_ofNat, Nat.reducePow, Nat.reduceMod]
      omega
    rw [if_pos hs]; omega
  · have hs : ¬ v.slt 50175#32 = true := by
      rw [BitVec.slt_iff_toInt_lt]
      simp only [BitVec.toInt_eq_toNat_cond, BitVec.toNat_ofNat, Nat.reducePow, Nat.reduceMod]
      omega
    rw [if_neg hs]
    show 50175 % 2 ^ 32 = _
    omega

/-- The signed maximum with 0 of a word in range less 50176 is the truncated difference of the numbers. -/
theorem hi_word (v : BitVec 32) (hv : v.toNat ≤ 99999) :
    (IntOp.maxsi (IntOp.subi v 50176#32) 0#32).toNat = v.toNat - 50176 := by
  unfold IntOp.maxsi IntOp.subi
  have hx : (v - 50176#32).toNat = (2 ^ 32 - 50176 + v.toNat) % 2 ^ 32 := by
    rw [BitVec.toNat_sub]; rfl
  by_cases h : 50176 < v.toNat
  · have hs : (0#32 : BitVec 32).slt (v - 50176#32) = true := by
      rw [BitVec.slt_iff_toInt_lt]
      simp only [BitVec.toInt_eq_toNat_cond, hx, BitVec.toNat_ofNat, Nat.reducePow, Nat.reduceMod, Nat.zero_mod]
      omega
    rw [if_pos hs, hx]; omega
  · have hs : ¬ (0#32 : BitVec 32).slt (v - 50176#32) = true := by
      rw [BitVec.slt_iff_toInt_lt]
      simp only [BitVec.toInt_eq_toNat_cond, hx, BitVec.toNat_ofNat, Nat.reducePow, Nat.reduceMod, Nat.zero_mod]
      omega
    rw [if_neg hs]
    show 0 % 2 ^ 32 = _
    omega

/-- The signed test v ≥ 50176 of a word in range is the test of the numbers. -/
theorem ge_word (v : BitVec 32) (hv : v.toNat ≤ 99999) : IntOp.cmpi .sge v 50176#32 = 1#1 ↔ 50176 ≤ v.toNat := by
  rw [IntOp.cmpi_sge]
  simp only [BitVec.toInt_eq_toNat_cond, BitVec.toNat_ofNat, Nat.reducePow, Nat.reduceMod]
  omega

variable {F : FTy → Type} [FloatOps F]

/-! ## The index vectors name entries of their halves -/

/-- A vector of first-half readings min(v, 50175) names entries of the 50176-long half. -/
theorem lo_inb (v w : IVec S16 32) (hv : ∀ x, (v x).toNat ≤ 99999) (hw : ∀ x, w x = IntOp.minsi (v x) 50175#32) :
    ∀ a x, ((![w] : Fin 1 → IVec S16 32) a x).toNat < S50176.size a := by
  intro a x
  match a with
  | ⟨0, _⟩ =>
    show (w x).toNat < 50176
    rw [hw x, lo_word _ (hv x)]; omega

/-- A vector of second-half readings max(v − 50176, 0) names entries of the 49824-long half. -/
theorem hi_inb (v w : IVec S16 32) (hv : ∀ x, (v x).toNat ≤ 99999)
    (hw : ∀ x, w x = IntOp.maxsi (IntOp.subi (v x) 50176#32) 0#32) :
    ∀ a x, ((![w] : Fin 1 → IVec S16 32) a x).toNat < S49824.size a := by
  intro a x
  match a with
  | ⟨0, _⟩ =>
    show (w x).toNat < 49824
    rw [hw x, hi_word _ (hv x)]; have := hv x; omega

theorem chk1_pay6 (v : Vec F S16 .i32) (hv : ∀ x, (v x).toNat ≤ 99999) : k0_chk1 (k0_pay6 (F := F) v) :=
  lo_inb v _ hv (fun _ => rfl)
theorem chk2_pay7 (v : Vec F S16 .i32) (hv : ∀ x, (v x).toNat ≤ 99999) : k0_chk2 (k0_pay7 (F := F) v) :=
  lo_inb v _ hv (fun _ => rfl)
theorem chk3_pay8 (v : Vec F S16 .i32) (hv : ∀ x, (v x).toNat ≤ 99999) : k0_chk3 (k0_pay8 (F := F) v) :=
  lo_inb v _ hv (fun _ => rfl)
theorem chk4_pay9 (v : Vec F S16 .i32) (hv : ∀ x, (v x).toNat ≤ 99999) : k0_chk4 (k0_pay9 (F := F) v) :=
  lo_inb v _ hv (fun _ => rfl)
theorem chk5_pay1 (v : Vec F S16 .i32) (hv : ∀ x, (v x).toNat ≤ 99999) : k0_chk5 (k0_pay1 (F := F) v) :=
  hi_inb v _ hv (fun _ => rfl)
theorem chk6_pay3 (v : Vec F S16 .i32) (hv : ∀ x, (v x).toNat ≤ 99999) : k0_chk6 (k0_pay3 (F := F) v) :=
  hi_inb v _ hv (fun _ => rfl)
theorem chk7_pay5 (v : Vec F S16 .i32) (hv : ∀ x, (v x).toNat ≤ 99999) : k0_chk7 (k0_pay5 (F := F) v) :=
  hi_inb v _ hv (fun _ => rfl)
theorem chk8_pay11 (v : Vec F S16 .i32) (hv : ∀ x, (v x).toNat ≤ 99999) : k0_chk8 (k0_pay11 (F := F) v) :=
  hi_inb v _ hv (fun _ => rfl)

/-! ## The indexed loads at a lane -/

/-- The first half read at a vector of readings min(v, 50175): lane x is entry min(v x, 50175). -/
theorem lo_lane_of (g : Vec F S50176 .f32) (v w : IVec S16 32) (hv : ∀ x, (v x).toNat ≤ 99999)
    (hw : ∀ x, w x = IntOp.minsi (v x) 50175#32)
    (h : ∀ a x, ((![w] : Fin 1 → IVec S16 32) a x).toNat < S50176.size a) (x : S16.Idx) :
    loadIdx g ![w] h x = g (ix1 (n := 50176) ⟨min (v x).toNat 50175, by omega⟩) := by
  unfold loadIdx idxAt
  refine congrArg g (funext fun a => Fin.ext ?_)
  match a with
  | ⟨0, _⟩ =>
    show (w x).toNat = min (v x).toNat 50175
    rw [hw x, lo_word _ (hv x)]

/-- The second half read at a vector of readings max(v − 50176, 0): lane x is entry v x − 50176 (entry 0 when
    v x < 50176). -/
theorem hi_lane_of (g : Vec F S49824 .f32) (v w : IVec S16 32) (hv : ∀ x, (v x).toNat ≤ 99999)
    (hw : ∀ x, w x = IntOp.maxsi (IntOp.subi (v x) 50176#32) 0#32)
    (h : ∀ a x, ((![w] : Fin 1 → IVec S16 32) a x).toNat < S49824.size a) (x : S16.Idx) :
    loadIdx g ![w] h x = g (ix1 (n := 49824) ⟨(v x).toNat - 50176, by have := hv x; omega⟩) := by
  unfold loadIdx idxAt
  refine congrArg g (funext fun a => Fin.ext ?_)
  match a with
  | ⟨0, _⟩ =>
    show (w x).toNat = (v x).toNat - 50176
    rw [hw x, hi_word _ (hv x)]

theorem lo_lane6 (g : Vec F S50176 .f32) (v : Vec F S16 .i32) (hv : ∀ x, (v x).toNat ≤ 99999)
    (h : ∀ a x, ((![k0_pay6 (F := F) v] : Fin 1 → IVec S16 32) a x).toNat < S50176.size a) (x : S16.Idx) :
    loadIdx g ![k0_pay6 (F := F) v] h x = g (ix1 (n := 50176) ⟨min (v x).toNat 50175, by omega⟩) :=
  lo_lane_of g v _ hv (fun _ => rfl) h x
theorem lo_lane7 (g : Vec F S50176 .f32) (v : Vec F S16 .i32) (hv : ∀ x, (v x).toNat ≤ 99999)
    (h : ∀ a x, ((![k0_pay7 (F := F) v] : Fin 1 → IVec S16 32) a x).toNat < S50176.size a) (x : S16.Idx) :
    loadIdx g ![k0_pay7 (F := F) v] h x = g (ix1 (n := 50176) ⟨min (v x).toNat 50175, by omega⟩) :=
  lo_lane_of g v _ hv (fun _ => rfl) h x
theorem lo_lane8 (g : Vec F S50176 .f32) (v : Vec F S16 .i32) (hv : ∀ x, (v x).toNat ≤ 99999)
    (h : ∀ a x, ((![k0_pay8 (F := F) v] : Fin 1 → IVec S16 32) a x).toNat < S50176.size a) (x : S16.Idx) :
    loadIdx g ![k0_pay8 (F := F) v] h x = g (ix1 (n := 50176) ⟨min (v x).toNat 50175, by omega⟩) :=
  lo_lane_of g v _ hv (fun _ => rfl) h x
theorem lo_lane9 (g : Vec F S50176 .f32) (v : Vec F S16 .i32) (hv : ∀ x, (v x).toNat ≤ 99999)
    (h : ∀ a x, ((![k0_pay9 (F := F) v] : Fin 1 → IVec S16 32) a x).toNat < S50176.size a) (x : S16.Idx) :
    loadIdx g ![k0_pay9 (F := F) v] h x = g (ix1 (n := 50176) ⟨min (v x).toNat 50175, by omega⟩) :=
  lo_lane_of g v _ hv (fun _ => rfl) h x

theorem hi_lane1 (g : Vec F S49824 .f32) (v : Vec F S16 .i32) (hv : ∀ x, (v x).toNat ≤ 99999)
    (h : ∀ a x, ((![k0_pay1 (F := F) v] : Fin 1 → IVec S16 32) a x).toNat < S49824.size a) (x : S16.Idx) :
    loadIdx g ![k0_pay1 (F := F) v] h x = g (ix1 (n := 49824) ⟨(v x).toNat - 50176, by have := hv x; omega⟩) :=
  hi_lane_of g v _ hv (fun _ => rfl) h x
theorem hi_lane3 (g : Vec F S49824 .f32) (v : Vec F S16 .i32) (hv : ∀ x, (v x).toNat ≤ 99999)
    (h : ∀ a x, ((![k0_pay3 (F := F) v] : Fin 1 → IVec S16 32) a x).toNat < S49824.size a) (x : S16.Idx) :
    loadIdx g ![k0_pay3 (F := F) v] h x = g (ix1 (n := 49824) ⟨(v x).toNat - 50176, by have := hv x; omega⟩) :=
  hi_lane_of g v _ hv (fun _ => rfl) h x
theorem hi_lane5 (g : Vec F S49824 .f32) (v : Vec F S16 .i32) (hv : ∀ x, (v x).toNat ≤ 99999)
    (h : ∀ a x, ((![k0_pay5 (F := F) v] : Fin 1 → IVec S16 32) a x).toNat < S49824.size a) (x : S16.Idx) :
    loadIdx g ![k0_pay5 (F := F) v] h x = g (ix1 (n := 49824) ⟨(v x).toNat - 50176, by have := hv x; omega⟩) :=
  hi_lane_of g v _ hv (fun _ => rfl) h x
theorem hi_lane11 (g : Vec F S49824 .f32) (v : Vec F S16 .i32) (hv : ∀ x, (v x).toNat ≤ 99999)
    (h : ∀ a x, ((![k0_pay11 (F := F) v] : Fin 1 → IVec S16 32) a x).toNat < S49824.size a) (x : S16.Idx) :
    loadIdx g ![k0_pay11 (F := F) v] h x = g (ix1 (n := 49824) ⟨(v x).toNat - 50176, by have := hv x; omega⟩) :=
  hi_lane_of g v _ hv (fun _ => rfl) h x

/-! ## The selects at a lane -/

/-- The select on the test v ≥ 50176, at a lane: the second-half reading when v x ≥ 50176, else the first-half one. -/
theorem sel_word {α : Type} (v : BitVec 32) (hv : v.toNat ≤ 99999) (p q : α) :
    Scalar.select (IntOp.cmpi .sge v 50176#32) p q = if 50176 ≤ v.toNat then p else q := by
  unfold Scalar.select
  by_cases h : 50176 ≤ v.toNat
  · rw [if_pos (show IntOp.cmpi .sge v 50176#32 = 1 from (ge_word v hv).2 h), if_pos h]
  · rw [if_neg (show ¬ IntOp.cmpi .sge v 50176#32 = 1 from fun e => h ((ge_word v hv).1 e)), if_neg h]

theorem sel_lane2 (v : Vec F S16 .i32) (hv : ∀ x, (v x).toNat ≤ 99999) (a b : Vec F S16 .f32) (x : S16.Idx) :
    k0_pay2 (F := F) v a b x = if 50176 ≤ (v x).toNat then a x else b x := sel_word (v x) (hv x) (a x) (b x)
theorem sel_lane4 (v : Vec F S16 .i32) (hv : ∀ x, (v x).toNat ≤ 99999) (a b : Vec F S16 .f32) (x : S16.Idx) :
    k0_pay4 (F := F) v a b x = if 50176 ≤ (v x).toNat then a x else b x := sel_word (v x) (hv x) (a x) (b x)
theorem sel_lane10 (v : Vec F S16 .i32) (hv : ∀ x, (v x).toNat ≤ 99999) (a b : Vec F S16 .f32) (x : S16.Idx) :
    k0_pay10 (F := F) v a b x = if 50176 ≤ (v x).toNat then a x else b x := sel_word (v x) (hv x) (a x) (b x)
theorem sel_lane12 (v : Vec F S16 .i32) (hv : ∀ x, (v x).toNat ≤ 99999) (a b : Vec F S16 .f32) (x : S16.Idx) :
    k0_pay12 (F := F) v a b x = if 50176 ≤ (v x).toNat then a x else b x := sel_word (v x) (hv x) (a x) (b x)

end Cert.Proof.KI

end
-- ==== Proof.InnerI.lean ====
/-
  The two inner gather loops of a trip, as separation-logic lemmas about the subcore's four scratches. The first loop
  reads the staged indices sixteen at a time, gathers the staged low half of the table row at the indices capped at
  the half's last entry and stores the sixteen values in the staged row; the second does the same with the high half
  at the index less the split, keeping the earlier value where the index is below the split. One trip of either loop
  rewrites sixty-four consecutive entries of the staged row; sixty-four trips rewrite all 4096.
-/
import proofs.«207324_g17738214933191_cont_8to1_1167_12_alg».proof.Proof.TileBaseI
import proofs.«207324_g17738214933191_cont_8to1_1167_12_alg».proof.Proof.LanesI
import proofs.«207324_g17738214933191_cont_8to1_1167_12_alg».proof.Proof.SpecI
import Idealize.ShloMosaic.Lib.Writes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.ValueIdx (ix1)

variable {F : FTy → Type}

local notation "𝕄" => MT nD τ sig (HIx 1) (Elt F) ℕ UU ℕ

variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section Inner

variable (d : Dev nD) (L : grid0.Coords)

omit [FloatOps F] in
theorem readI_le (gI : Buf (Elt F) ((thr d L).loc cc0_scratch0)) (hI : ∀ x, (gI x).toNat ≤ 99999) (off : Fin 1 → Nat) (inb : ∀ a, off a + S16.size a ≤ S4096.size a) :
    ∀ x : S16.Idx, ((sI).view.readAt (Elt F) (Rect.unit (s := S4096) off S16.size inb).toLoadRect gI x).toNat ≤ 99999 :=
  fun x => hI _

/-- An entry of the 4096-long scratch lies in the sixteen-lane rectangle at offset o exactly when its coordinate is
    in [o, o + 16). -/
theorem mem_unit16 (o : Fin 1 → Nat) (inb : ∀ a, o a + S16.size a ≤ S4096.size a) (j : S4096.Idx) :
    j ∈ (Rect.unit (s := S4096) o S16.size inb).set ↔ o 0 ≤ (j 0).val ∧ (j 0).val < o 0 + 16 := by
  rw [Rect.mem_set_unit]
  constructor
  · intro h; exact h 0
  · intro h a
    match a with
    | ⟨0, _⟩ => exact h

/-- Two sixteen-lane rectangles at the same offset place a lane at the same entry. -/
theorem emb_unit16_congr (oI oO : Fin 1 → Nat) (iI : ∀ a, oI a + S16.size a ≤ S4096.size a)
    (iO : ∀ a, oO a + S16.size a ≤ S4096.size a) (hoff : oI 0 = oO 0) (x : S16.Idx) :
    (Rect.unit (s := S4096) oI S16.size iI).emb x = (Rect.unit (s := S4096) oO S16.size iO).emb x := by
  funext a; refine Fin.ext ?_
  match a with
  | ⟨0, _⟩ =>
    show oI 0 + 1 * (x 0).val = oO 0 + 1 * (x 0).val
    rw [hoff]

/-- Four stores of sixteen lanes at offsets 64 k, 64 k + 16, 64 k + 32, 64 k + 48, each of the values of one function
    G of the entry, leave G on [64 k, 64 k + 64) and the earlier contents elsewhere. -/
theorem writes4_val (gO : Buf (Elt F) ((thr d L).loc cc0_scratch1)) (G : S4096.Idx → Elt F .f32) (k : ℕ)
    (o1 o2 o3 o4 : Fin 1 → Nat) (i1 : ∀ a, o1 a + S16.size a ≤ S4096.size a) (i2 : ∀ a, o2 a + S16.size a ≤ S4096.size a)
    (i3 : ∀ a, o3 a + S16.size a ≤ S4096.size a) (i4 : ∀ a, o4 a + S16.size a ≤ S4096.size a)
    (ho1 : o1 0 = 64 * k) (ho2 : o2 0 = 64 * k + 16) (ho3 : o3 0 = 64 * k + 32) (ho4 : o4 0 = 64 * k + 48)
    (w1 w2 w3 w4 : S16.Idx → Elt F .f32)
    (hw1 : ∀ x, w1 x = G ((Rect.unit (s := S4096) o1 S16.size i1).emb x))
    (hw2 : ∀ x, w2 x = G ((Rect.unit (s := S4096) o2 S16.size i2).emb x))
    (hw3 : ∀ x, w3 x = G ((Rect.unit (s := S4096) o3 S16.size i3).emb x))
    (hw4 : ∀ x, w4 x = G ((Rect.unit (s := S4096) o4 S16.size i4).emb x)) (j : S4096.Idx) :
    (sO).view.writes (Elt F) gO
        [⟨Rect.unit (s := S4096) o4 S16.size i4, w4⟩, ⟨Rect.unit (s := S4096) o3 S16.size i3, w3⟩,
         ⟨Rect.unit (s := S4096) o2 S16.size i2, w2⟩, ⟨Rect.unit (s := S4096) o1 S16.size i1, w1⟩] j
      = if 64 * k ≤ (j 0).val ∧ (j 0).val < 64 * k + 64 then G j else gO j := by
  have hr : ∀ g : Buf (Elt F) ((thr d L).loc cc0_scratch1), (sO).view.read (Elt F) g j = g j := fun g => rfl
  refine (hr _).symm.trans ?_
  by_cases h : 64 * k ≤ (j 0).val ∧ (j 0).val < 64 * k + 64
  · rw [if_pos h]
    refine View.read_writes_apply_of_pieces _ _ G _ ?_ j ?_
    · intro p hp x
      simp only [List.mem_cons, List.not_mem_nil, or_false] at hp
      rcases hp with rfl | rfl | rfl | rfl
      · exact hw4 x
      · exact hw3 x
      · exact hw2 x
      · exact hw1 x
    · by_cases h1 : (j 0).val < 64 * k + 16
      · exact ⟨_, List.mem_cons_of_mem _ (List.mem_cons_of_mem _ (List.mem_cons_of_mem _ List.mem_cons_self)),
          (mem_unit16 o1 i1 j).2 (by omega)⟩
      by_cases h2 : (j 0).val < 64 * k + 32
      · exact ⟨_, List.mem_cons_of_mem _ (List.mem_cons_of_mem _ List.mem_cons_self), (mem_unit16 o2 i2 j).2 (by omega)⟩
      by_cases h3 : (j 0).val < 64 * k + 48
      · exact ⟨_, List.mem_cons_of_mem _ List.mem_cons_self, (mem_unit16 o3 i3 j).2 (by omega)⟩
      · exact ⟨_, List.mem_cons_self, (mem_unit16 o4 i4 j).2 (by omega)⟩
  · rw [if_neg h]
    refine (View.read_writes_apply_of_forall_not_mem _ _ j _ ?_).trans rfl
    intro p hp hm
    simp only [List.mem_cons, List.not_mem_nil, or_false] at hp
    rcases hp with rfl | rfl | rfl | rfl
    · rw [mem_unit16] at hm; omega
    · rw [mem_unit16] at hm; omega
    · rw [mem_unit16] at hm; omega
    · rw [mem_unit16] at hm; omega

/-- A gather of the low half at the capped indices read from sixteen lanes of the staged indices is the low-half
    specification at those lanes' entries. -/
theorem lo_piece (gI : Buf (Elt F) ((thr d L).loc cc0_scratch0)) (gA : Buf (Elt F) ((thr d L).loc cc0_scratch2))
    (hI : ∀ x, (gI x).toNat ≤ 99999)
    (oI oO : Fin 1 → Nat) (iI : ∀ a, oI a + S16.size a ≤ S4096.size a) (iO : ∀ a, oO a + S16.size a ≤ S4096.size a)
    (hoff : oI 0 = oO 0) (w : IVec S16 32)
    (hw : ∀ x, w x = IntOp.minsi (gI ((Rect.unit (s := S4096) oI S16.size iI).emb x)) 50175#32)
    (h : ∀ a x, ((![w] : Fin 1 → IVec S16 32) a x).toNat < S50176.size a) (x : S16.Idx) :
    loadIdx (F := F) (e := .f32) gA ![w] h x = loSpec gI gA ((Rect.unit (s := S4096) oO S16.size iO).emb x) := by
  unfold loSpec loadIdx idxAt
  refine congrArg gA (funext fun a => Fin.ext ?_)
  match a with
  | ⟨0, _⟩ =>
    show (w x).toNat = min (gI ((Rect.unit (s := S4096) oO S16.size iO).emb x)).toNat 50175
    rw [hw x, lo_word _ (hI _), emb_unit16_congr oI oO iI iO hoff x]

theorem grp0_trip (k2 : Fin k0_t2_loop.trips) (gI : Buf (Elt F) ((thr d L).loc cc0_scratch0)) (gA : Buf (Elt F) ((thr d L).loc cc0_scratch2))
    (gO : Buf (Elt F) ((thr d L).loc cc0_scratch1)) (hI : ∀ x, (gI x).toNat ≤ 99999) :
    (iprop(((sI).view.loc (thr d L) ↦{fullShare} gI) ∗ ((sA).view.loc (thr d L) ↦{fullShare} gA) ∗ ((sO).view.loc (thr d L) ↦{fullShare} gO)) : sProp 𝕄)
      ⊢ wp frame (wpE (defs₀ (F := F)) 𝒱₀ (thr d L) none) Set.univ
          (k0_t2_body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0 k2 ())
          fun _ => iprop(((sI).view.loc (thr d L) ↦{fullShare} gI) ∗ ((sA).view.loc (thr d L) ↦{fullShare} gA) ∗ ∃ gO', ((sO).view.loc (thr d L) ↦{fullShare} gO')
            ∗ ⌜∀ j : S4096.Idx, gO' j = if 64 * k2.val ≤ (j 0).val ∧ (j 0).val < 64 * k2.val + 64 then loSpec gI gA j else gO j⌝) := by
  unfold k0_t2_body
  iintro ⟨HsI, HsA, HsO⟩
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec
  sl_step
  isplitl [HsI]; · iexact HsI
  isplitl [HsA]; · iexact HsA
  iexists _
  isplitl [HsO]; · iexact HsO
  ipureintro
  intro j
  simp only [Memref.read_access_whole]
  exact writes4_val d L gO (loSpec gI gA) k2.val _ _ _ _ _ _ _ _
    (congrFun (k0_off7_eq k2 0) 0) (congrFun (k0_off8_eq k2 0) 0) (congrFun (k0_off9_eq k2 0) 0) (congrFun (k0_off10_eq k2) 0)
    _ _ _ _
    (fun x => lo_piece d L gI gA hI _ _ _ _ ((congrFun (k0_off6_eq k2) 0).trans (congrFun (k0_off7_eq k2 0) 0).symm) _ (fun _ => rfl) _ x)
    (fun x => lo_piece d L gI gA hI _ _ _ _ ((congrFun (k0_off7_eq k2 1) 0).trans (congrFun (k0_off8_eq k2 0) 0).symm) _ (fun _ => rfl) _ x)
    (fun x => lo_piece d L gI gA hI _ _ _ _ ((congrFun (k0_off8_eq k2 1) 0).trans (congrFun (k0_off9_eq k2 0) 0).symm) _ (fun _ => rfl) _ x)
    (fun x => lo_piece d L gI gA hI _ _ _ _ ((congrFun (k0_off9_eq k2 1) 0).trans (congrFun (k0_off10_eq k2) 0).symm) _ (fun _ => rfl) _ x)
    j

theorem t2_trips : k0_t2_loop.trips = 64 := by decide

/-- Before trip k of the first loop: the staged row holds the low-half gather below entry 64 k. -/
def invLo (gI : Buf (Elt F) ((thr d L).loc cc0_scratch0)) (gA : Buf (Elt F) ((thr d L).loc cc0_scratch2)) (k : ℕ) (_ : Unit) : sProp 𝕄 :=
  iprop(((sI).view.loc (thr d L) ↦{fullShare} gI) ∗ ((sA).view.loc (thr d L) ↦{fullShare} gA)
    ∗ ∃ g, ((sO).view.loc (thr d L) ↦{fullShare} g) ∗ ⌜∀ j : S4096.Idx, (j 0).val < 64 * k → g j = loSpec gI gA j⌝)

theorem grp0_loop (gI : Buf (Elt F) ((thr d L).loc cc0_scratch0)) (gA : Buf (Elt F) ((thr d L).loc cc0_scratch2))
    (gO : Buf (Elt F) ((thr d L).loc cc0_scratch1)) (hI : ∀ x, (gI x).toNat ≤ 99999) :
    (iprop(((sI).view.loc (thr d L) ↦{fullShare} gI) ∗ ((sA).view.loc (thr d L) ↦{fullShare} gA) ∗ ((sO).view.loc (thr d L) ↦{fullShare} gO)) : sProp 𝕄)
      ⊢ wp frame (wpE (defs₀ (F := F)) 𝒱₀ (thr d L) none) Set.univ
          (Scf.Loop.for k0_t2_loop k0_t2_ok ⟨⟩
            (k0_t2_body L iW (Memref.isWhole_whole _) tW (Memref.isWhole_whole _) oW (Memref.isWhole_whole _)
              sI (Memref.isWhole_whole _) sO (Memref.isWhole_whole _) sA (Memref.isWhole_whole _) sB (Memref.isWhole_whole _)
              cc0_scratch4 cc0_scratch5 cc0_scratch6 cc0_scoped0))
          fun _ => iprop(((sI).view.loc (thr d L) ↦{fullShare} gI) ∗ ((sA).view.loc (thr d L) ↦{fullShare} gA) ∗ ∃ gO', ((sO).view.loc (thr d L) ↦{fullShare} gO')
            ∗ ⌜gO' = loSpec gI gA⌝) := by
  iintro ⟨HsI, HsA, HsO⟩
  sl_for (invLo d L gI gA) $$ [HsI HsA HsO]
  case region =>
    intro k acc
    unfold invLo
    iintro ⟨HsI, HsA, %g, HsO, %hg⟩
    iapply (wp_wand_r frame (wpE (defs₀ (F := F)) 𝒱₀ (thr d L) none) Set.univ)
    isplitl [HsI HsA HsO]
    · iapply (grp0_trip d L k gI gA g hI)
      isplitl [HsI]; · iexact HsI
      isplitl [HsA]; · iexact HsA
      iexact HsO
    · iintro %a ⟨HsI, HsA, %g', HsO, %hg'⟩
      isplitl [HsI]; · iexact HsI
      isplitl [HsA]; · iexact HsA
      iexists g'
      isplitl [HsO]; · iexact HsO
      ipureintro
      intro j hj
      rw [hg' j]
      split
      · rfl
      · exact hg j (by omega)
  isplitl [HsI HsA HsO]
  · unfold invLo
    isplitl [HsI]; · iexact HsI
    isplitl [HsA]; · iexact HsA
    iexists gO
    isplitl [HsO]; · iexact HsO
    ipureintro
    intro j hj
    omega
  · iintro %_ HI
    unfold invLo
    icases HI with ⟨HsI, HsA, %g, HsO, %hg⟩
    isplitl [HsI]; · iexact HsI
    isplitl [HsA]; · iexact HsA
    iexists g
    isplitl [HsO]; · iexact HsO
    ipureintro
    funext j
    refine hg j ?_
    have := (j 0).isLt
    have h64 : Scf.trips k0_t2_loop.lb k0_t2_loop.ub k0_t2_loop.st = 64 := t2_trips
    rw [h64]
    exact this

/-- The high-half specification at an entry depends on the earlier contents at that entry only. -/
theorem hiSpec_congr (gI : IVec S4096 32) (gB : Vec F S49824 .f32) (p p' : Vec F S4096 .f32) (j : S4096.Idx) (h : p j = p' j) :
    hiSpec gI gB p j = hiSpec gI gB p' j := by
  unfold hiSpec
  split
  · rfl
  · exact h

/-- One group of the second loop: the select between the gather of the high half at the index less the split and the
    staged row's earlier value, over sixteen lanes of the staged indices, is the high-half specification at those lanes'
    entries. -/
theorem hi_piece (gI : Buf (Elt F) ((thr d L).loc cc0_scratch0)) (gB : Buf (Elt F) ((thr d L).loc cc0_scratch3))
    (gO : Buf (Elt F) ((thr d L).loc cc0_scratch1)) (hI : ∀ x, (gI x).toNat ≤ 99999)
    (oI oO oP : Fin 1 → Nat) (iI : ∀ a, oI a + S16.size a ≤ S4096.size a) (iO : ∀ a, oO a + S16.size a ≤ S4096.size a)
    (iP : ∀ a, oP a + S16.size a ≤ S4096.size a) (hoff : oI 0 = oO 0) (hoffP : oP 0 = oO 0)
    (h : ∀ a x, ((![maxsi (subi ((sI).view.readAt (Elt F) (Rect.unit (s := S4096) oI S16.size iI).toLoadRect gI : IVec S16 32)
        (broadcast S16 50176#32)) (broadcast S16 0#32)] : Fin 1 → IVec S16 32) a x).toNat < S49824.size a)
    (x : S16.Idx) :
    select (cmpi .sge ((sI).view.readAt (Elt F) (Rect.unit (s := S4096) oI S16.size iI).toLoadRect gI : IVec S16 32) (broadcast S16 50176#32))
        (loadIdx (F := F) (e := .f32) (View.read (Elt F) ((sB).access (Rect.whole S49824)) gB)
          ![maxsi (subi ((sI).view.readAt (Elt F) (Rect.unit (s := S4096) oI S16.size iI).toLoadRect gI : IVec S16 32)
            (broadcast S16 50176#32)) (broadcast S16 0#32)] h)
        ((sO).view.readAt (Elt F) (Rect.unit (s := S4096) oP S16.size iP).toLoadRect gO) x
      = hiSpec gI gB gO ((Rect.unit (s := S4096) oO S16.size iO).emb x) := by
  have hB : View.read (Elt F) ((sB).access (Rect.whole S49824)) gB = gB := Memref.read_access_whole (Elt F) cc0_scratch3 gB
  have hvj : gI ((Rect.unit (s := S4096) oI S16.size iI).emb x) = gI ((Rect.unit (s := S4096) oO S16.size iO).emb x) := by
    rw [emb_unit16_congr oI oO iI iO hoff x]
  have hvx : (gI ((Rect.unit (s := S4096) oI S16.size iI).emb x)).toNat ≤ 99999 := hI _
  show Scalar.select (IntOp.cmpi .sge (gI ((Rect.unit (s := S4096) oI S16.size iI).emb x)) 50176#32)
      (loadIdx (F := F) (e := .f32) (View.read (Elt F) ((sB).access (Rect.whole S49824)) gB) _ h x)
      (gO ((Rect.unit (s := S4096) oP S16.size iP).emb x)) = _
  rw [sel_word _ hvx, hB]
  unfold hiSpec
  by_cases hc : 50176 ≤ (gI ((Rect.unit (s := S4096) oI S16.size iI).emb x)).toNat
  · rw [if_pos hc, if_pos (by rw [← hvj]; exact hc)]
    unfold loadIdx idxAt
    refine congrArg gB (funext fun a => Fin.ext ?_)
    match a with
    | ⟨0, _⟩ =>
      show (IntOp.maxsi (IntOp.subi (gI ((Rect.unit (s := S4096) oI S16.size iI).emb x)) 50176#32) 0#32).toNat
        = min ((gI ((Rect.unit (s := S4096) oO S16.size iO).emb x)).toNat - 50176) 49823
      rw [hi_word _ hvx, ← hvj]; omega
  · rw [if_neg hc, if_neg (by rw [← hvj]; exact hc)]
    exact congrArg gO (emb_unit16_congr oP oO iP iO hoffP x)

theorem grp1_trip (k3 : Fin k0_t3_loop.trips) (gI : Buf (Elt F) ((thr d L).loc cc0_scratch0)) (gB : Buf (Elt F) ((thr d L).loc cc0_scratch3))
    (gO : Buf (Elt F) ((thr d L).loc cc0_scratch1)) (hI : ∀ x, (gI x).toNat ≤ 99999) :
    (iprop(((sI).view.loc (thr d L) ↦{fullShare} gI) ∗ ((sB).view.loc (thr d L) ↦{fullShare} gB) ∗ ((sO).view.loc (thr d L) ↦{fullShare} gO)) : sProp 𝕄)
      ⊢ wp frame (wpE (defs₀ (F := F)) 𝒱₀ (thr d L) none) Set.univ
          (k0_t3_body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0 k3 ())
          fun _ => iprop(((sI).view.loc (thr d L) ↦{fullShare} gI) ∗ ((sB).view.loc (thr d L) ↦{fullShare} gB) ∗ ∃ gO', ((sO).view.loc (thr d L) ↦{fullShare} gO')
            ∗ ⌜∀ j : S4096.Idx, gO' j = if 64 * k3.val ≤ (j 0).val ∧ (j 0).val < 64 * k3.val + 64 then hiSpec gI gB gO j else gO j⌝) := by
  unfold k0_t3_body
  iintro ⟨HsI, HsB, HsO⟩
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec
  sl_step
  isplitl [HsI]; · iexact HsI
  isplitl [HsB]; · iexact HsB
  iexists _
  isplitl [HsO]; · iexact HsO
  ipureintro
  intro j
  exact writes4_val d L gO (hiSpec gI gB gO) k3.val _ _ _ _ _ _ _ _
    (congrFun (k0_off14_eq k3 0) 0) (congrFun (k0_off15_eq k3 0) 0) (congrFun (k0_off16_eq k3 0) 0) (congrFun (k0_off17_eq k3) 0)
    _ _ _ _
    (fun x => hi_piece d L gI gB gO hI (k0_off13 k3) (k0_off14 k3 0#32) (k0_off14 k3 0#32) _ _ _
      ((congrFun (k0_off13_eq k3) 0).trans (congrFun (k0_off14_eq k3 0) 0).symm) rfl _ x)
    (fun x => hi_piece d L gI gB gO hI (k0_off14 k3 16#32) (k0_off15 k3 16#32) (k0_off15 k3 16#32) _ _ _
      ((congrFun (k0_off14_eq k3 1) 0).trans (congrFun (k0_off15_eq k3 0) 0).symm) rfl _ x)
    (fun x => hi_piece d L gI gB gO hI (k0_off15 k3 32#32) (k0_off16 k3 32#32) (k0_off16 k3 32#32) _ _ _
      ((congrFun (k0_off15_eq k3 1) 0).trans (congrFun (k0_off16_eq k3 0) 0).symm) rfl _ x)
    (fun x => hi_piece d L gI gB gO hI (k0_off16 k3 48#32) (k0_off17 k3) (k0_off17 k3) _ _ _
      ((congrFun (k0_off16_eq k3 1) 0).trans (congrFun (k0_off17_eq k3) 0).symm) rfl _ x)
    j

theorem t3_trips : k0_t3_loop.trips = 64 := by decide

/-- Before trip k of the second loop: the staged row holds the high-half overlay below entry 64 k and its contents at
    the loop's entry from there on. -/
def invHi (gI : Buf (Elt F) ((thr d L).loc cc0_scratch0)) (gB : Buf (Elt F) ((thr d L).loc cc0_scratch3))
    (gO : Buf (Elt F) ((thr d L).loc cc0_scratch1)) (k : ℕ) (_ : Unit) : sProp 𝕄 :=
  iprop(((sI).view.loc (thr d L) ↦{fullShare} gI) ∗ ((sB).view.loc (thr d L) ↦{fullShare} gB)
    ∗ ∃ g, ((sO).view.loc (thr d L) ↦{fullShare} g)
      ∗ ⌜∀ j : S4096.Idx, g j = if (j 0).val < 64 * k then hiSpec gI gB gO j else gO j⌝)

theorem grp1_loop (gI : Buf (Elt F) ((thr d L).loc cc0_scratch0)) (gB : Buf (Elt F) ((thr d L).loc cc0_scratch3))
    (gO : Buf (Elt F) ((thr d L).loc cc0_scratch1)) (hI : ∀ x, (gI x).toNat ≤ 99999) :
    (iprop(((sI).view.loc (thr d L) ↦{fullShare} gI) ∗ ((sB).view.loc (thr d L) ↦{fullShare} gB) ∗ ((sO).view.loc (thr d L) ↦{fullShare} gO)) : sProp 𝕄)
      ⊢ wp frame (wpE (defs₀ (F := F)) 𝒱₀ (thr d L) none) Set.univ
          (Scf.Loop.for k0_t3_loop k0_t3_ok ⟨⟩
            (k0_t3_body L iW (Memref.isWhole_whole _) tW (Memref.isWhole_whole _) oW (Memref.isWhole_whole _)
              sI (Memref.isWhole_whole _) sO (Memref.isWhole_whole _) sA (Memref.isWhole_whole _) sB (Memref.isWhole_whole _)
              cc0_scratch4 cc0_scratch5 cc0_scratch6 cc0_scoped0))
          fun _ => iprop(((sI).view.loc (thr d L) ↦{fullShare} gI) ∗ ((sB).view.loc (thr d L) ↦{fullShare} gB) ∗ ∃ gO', ((sO).view.loc (thr d L) ↦{fullShare} gO')
            ∗ ⌜gO' = hiSpec gI gB gO⌝) := by
  iintro ⟨HsI, HsB, HsO⟩
  sl_for (invHi d L gI gB gO) $$ [HsI HsB HsO]
  case region =>
    intro k acc
    unfold invHi
    iintro ⟨HsI, HsB, %g, HsO, %hg⟩
    iapply (wp_wand_r frame (wpE (defs₀ (F := F)) 𝒱₀ (thr d L) none) Set.univ)
    isplitl [HsI HsB HsO]
    · iapply (grp1_trip d L k gI gB g hI)
      isplitl [HsI]; · iexact HsI
      isplitl [HsB]; · iexact HsB
      iexact HsO
    · iintro %a ⟨HsI, HsB, %g', HsO, %hg'⟩
      isplitl [HsI]; · iexact HsI
      isplitl [HsB]; · iexact HsB
      iexists g'
      isplitl [HsO]; · iexact HsO
      ipureintro
      intro j
      rw [hg' j]
      by_cases hr : 64 * k.val ≤ (j 0).val ∧ (j 0).val < 64 * k.val + 64
      · have hgj : g j = gO j := by rw [hg j, if_neg (by omega)]
        rw [if_pos hr, hiSpec_congr gI gB g gO j hgj, if_pos (by omega)]
      · rw [if_neg hr, hg j]
        by_cases hlt : (j 0).val < 64 * k.val
        · rw [if_pos hlt, if_pos (by omega)]
        · rw [if_neg hlt, if_neg (by omega)]
  isplitl [HsI HsB HsO]
  · unfold invHi
    isplitl [HsI]; · iexact HsI
    isplitl [HsB]; · iexact HsB
    iexists gO
    isplitl [HsO]; · iexact HsO
    ipureintro
    intro j
    rw [if_neg (by omega)]
  · iintro %_ HI
    unfold invHi
    icases HI with ⟨HsI, HsB, %g, HsO, %hg⟩
    isplitl [HsI]; · iexact HsI
    isplitl [HsB]; · iexact HsB
    iexists g
    isplitl [HsO]; · iexact HsO
    ipureintro
    funext j
    have h64 : Scf.trips k0_t3_loop.lb k0_t3_loop.ub k0_t3_loop.st = 64 := t3_trips
    rw [hg j, h64]
    exact if_pos (show (j 0).val < 64 * 64 from (j 0).isLt)

end Inner

end Cert.Proof.KI

end
-- ==== Proof.RowValI.lean ====
/-
  What one trip leaves in the staged row, and why it is the row of the result. A trip gathers the low half of its pair's
  row of the transposed tables at the indices capped at the half's last entry, then overwrites, where the index lies in
  the high half, with the gather of the high half at the index less the split. Every index names a row of its table, so
  the two cases cover it and the outcome is the table's row at the index: the entry of the result.
-/
import proofs.«207324_g17738214933191_cont_8to1_1167_12_alg».proof.Proof.ViewsI
import proofs.«207324_g17738214933191_cont_8to1_1167_12_alg».proof.Proof.SpecI

noncomputable section

namespace Cert.Proof.KI

open Cert.KernelIdeal Cert.KernelIdeal.Gen
open Idealize.ShloMosaic
open Idealize.ShloMosaic.ValueIdx (ix1 ix2 ix3)

variable {F : FTy → Type} [FloatOps F]

variable (m : (ℓ : Loc nD τ sig) → Buf (Elt F) ℓ) (d : Dev nD)

/-! ## What the body's memrefs read off the arrays at the call -/

theorem idxRow_read (L : grid0.Coords) (t : Fin k0_t1_loop.trips) (b : S4096.Idx) :
    (idxRow L t).view.read (Elt F) (idxT m d) b
      = idxT m d (ix2 ⟨(q0 L + t.val) / 16, field_lt L t⟩ ⟨(b 0).val, b_lt b⟩) := by
  rw [View.read_apply, idxRow_emb]; rfl

theorem tabLo_read (L : grid0.Coords) (t : Fin k0_t1_loop.trips) (j : S50176.Idx) :
    (tabLo L t).view.read (Elt F) (tabT m d) j
      = tabT m d (ix3 ⟨(q0 L + t.val) / 16, field_lt L t⟩ ⟨(q0 L + t.val) % 16, col_lt _⟩ ⟨(j 0).val, lo_lt j⟩) := by
  rw [View.read_apply, tabLo_emb]; rfl

theorem tabHi_read (L : grid0.Coords) (t : Fin k0_t1_loop.trips) (j : S49824.Idx) :
    (tabHi L t).view.read (Elt F) (tabT m d) j
      = tabT m d (ix3 ⟨(q0 L + t.val) / 16, field_lt L t⟩ ⟨(q0 L + t.val) % 16, col_lt _⟩ ⟨50176 + (j 0).val, hi_lt j⟩) := by
  rw [View.read_apply, tabHi_emb]; rfl

/-! ## The two halves cover a row -/

theorem halves_aux (T : S26x16x100000.Idx → Elt F .f32) (a : Fin 26) (e : Fin 16) (I : BitVec 32) (hI : I.toNat ≤ 99999) :
    (if 50176 ≤ I.toNat then T (ix3 a e ⟨50176 + min (I.toNat - 50176) 49823, by omega⟩)
      else T (ix3 a e ⟨min I.toNat 50175, by omega⟩))
      = T (ix3 a e ⟨min I.toNat 99999, by omega⟩) := by
  split
  · rename_i h
    have e1 : (⟨50176 + min (I.toNat - 50176) 49823, by omega⟩ : Fin 100000) = ⟨min I.toNat 99999, by omega⟩ :=
      Fin.ext (by show 50176 + min (I.toNat - 50176) 49823 = min I.toNat 99999; omega)
    rw [e1]
  · rename_i h
    have e1 : (⟨min I.toNat 50175, by omega⟩ : Fin 100000) = ⟨min I.toNat 99999, by omega⟩ :=
      Fin.ext (by show min I.toNat 50175 = min I.toNat 99999; omega)
    rw [e1]

/-- Every index of the field's row names a row of the table. -/
theorem idx_row_le (hpre : PreOK m) (L : grid0.Coords) (t : Fin k0_t1_loop.trips) :
    ∀ b, ((idxRow L t).view.read (Elt F) (idxT m d) b).toNat ≤ 99999 := by
  intro b
  rw [idxRow_read]
  exact hpre d _

/-- The staged row after both gathers is the trip's row of the result. -/
theorem row_val (hpre : PreOK m) (L : grid0.Coords) (t : Fin k0_t1_loop.trips) (b : S4096.Idx) :
    hiSpec ((idxRow L t).view.read (Elt F) (idxT m d)) ((tabHi L t).view.read (Elt F) (tabT m d))
        (loSpec ((idxRow L t).view.read (Elt F) (idxT m d)) ((tabLo L t).view.read (Elt F) (tabT m d))) b
      = OUT m d ((outRow L t).view.emb b) := by
  have hI := hpre d (ix2 ⟨(q0 L + t.val) / 16, field_lt L t⟩ ⟨(b 0).val, b_lt b⟩)
  have hIdx := idxRow_read m d L t
  have hLo := tabLo_read m d L t
  have hHi := tabHi_read m d L t
  rw [outRow_emb]
  generalize (idxRow L t).view.read (Elt F) (idxT m d) = gI at hIdx ⊢
  generalize (tabLo L t).view.read (Elt F) (tabT m d) = gA at hLo ⊢
  generalize (tabHi L t).view.read (Elt F) (tabT m d) = gB at hHi ⊢
  unfold hiSpec loSpec
  simp only [hIdx, hLo, hHi]
  exact halves_aux (tabT m d) _ _ _ hI

end Cert.Proof.KI

end
-- ==== Proof.OuterCI.lean ====
/-
  The low half of a pair: the wait for its transfer, its gather into the row scratch, and the next pair's low half
  started if there is a next pair.
-/
import proofs.«207324_g17738214933191_cont_8to1_1167_12_alg».proof.Proof.OuterStmtI
import proofs.«207324_g17738214933191_cont_8to1_1167_12_alg».proof.Proof.InnerI
import proofs.«207324_g17738214933191_cont_8to1_1167_12_alg».proof.Proof.RowValI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section SegC

variable (d : Dev nD) (L : grid0.Coords) (O : CellTallies nD τ sig (HIx 1)) (W : Waits sig (HIx 1))

theorem stA_pos (t : Fin TR) : stA m d L t.val
    = iprop(flA m d L t ∗ ((tW).view.loc (thr d L) ↦[Finset.univ \ (tabLo L t).view.set]{tokA L} tabT m d)) := by
  unfold stA; rw [dif_pos t.isLt]
theorem stA_next (t : Fin TR) (h : t.val + 1 < TR) : stA m d L (t.val + 1)
    = iprop(flA m d L ⟨t.val + 1, h⟩ ∗ ((tW).view.loc (thr d L) ↦[Finset.univ \ (tabLo L ⟨t.val + 1, h⟩).view.set]{tokA L} tabT m d)) := by
  unfold stA; rw [dif_pos h]
theorem stA_last (t : Fin TR) (h : ¬ t.val + 1 < TR) : stA m d L (t.val + 1)
    = iprop(semVal (semA d L) 0 ∗ (∃ g, (sA).view.loc (thr d L) ↦{fullShare} g) ∗ ((tW).view.loc (thr d L) ↦{tokA L} tabT m d)) := by
  unfold stA; rw [dif_neg h]

/-- The low-half side with a transfer in flight, by the offsets of the half-row it reads: the transfer and the rest of
    that share of the tables. -/
def stAp (off : Fin 3 → ℕ) (inb : ∀ a, off a + S1x1x50176.size a ≤ S26x16x100000.size a) : sProp 𝕄 :=
  iprop(Transfers.Flight countersEmb (thr d L) (SemLoc.dma cc0_scratch4.sem) (default : HIx 1) 1605632
      iprop(((sA).view.loc (thr d L) ↦{fullShare}
          (((tW).slice (Rect.unit (s := S26x16x100000) off S1x1x50176.size inb) (fun _ => rfl)).squeeze S50176 squeezes_S1x1x50176_S50176).view.read (Elt F) (tabT m d))
        ∗ ((tW).view.loc (thr d L) ↦[(((tW).slice (Rect.unit (s := S26x16x100000) off S1x1x50176.size inb) (fun _ => rfl)).squeeze S50176 squeezes_S1x1x50176_S50176).view.set]{tokA L} tabT m d))
    ∗ ((tW).view.loc (thr d L) ↦[Finset.univ \ (((tW).slice (Rect.unit (s := S26x16x100000) off S1x1x50176.size inb) (fun _ => rfl)).squeeze S50176 squeezes_S1x1x50176_S50176).view.set]{tokA L} tabT m d))

theorem stAp_congr {off off' : Fin 3 → ℕ} (inb : ∀ a, off a + S1x1x50176.size a ≤ S26x16x100000.size a)
    (inb' : ∀ a, off' a + S1x1x50176.size a ≤ S26x16x100000.size a) (h : off = off') : stAp m d L off inb = stAp m d L off' inb' := by
  subst h; rfl

theorem stA_eq_stAp (t : Fin TR) : stA m d L t.val = stAp m d L (k0_off5 L t) (k0_off5_inb L t) := by
  rw [stA_pos]; rfl

theorem stA_nextN (t : Fin TR) (h3 : k0_cond3 t = 1#1) (hlt : t.val + 1 < TR) :
    stA m d L (t.val + 1) = stAp m d L (k0_off11 L t) (k0_off11_inb L t h3) := by
  rw [show stA m d L (t.val + 1) = stA m d L (⟨t.val + 1, hlt⟩ : Fin TR).val from rfl, stA_eq_stAp]
  exact stAp_congr m d L _ _ (by rw [off5_eq, off11_eq]; show ![(q0 L + (t.val + 1)) / 16, (q0 L + (t.val + 1)) % 16, 0] = _; rw [show q0 L + (t.val + 1) = q0 L + t.val + 1 from (Nat.add_assoc _ _ _).symm])

/-- After the wait: the low half landed, that share of the tables whole again. -/
def MidC1 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ (semVal (semA d L) 0 ∗ ((sA).view.loc (thr d L) ↦{fullShare} rdLo m d L t) ∗ ((tW).view.loc (thr d L) ↦{tokA L} tabT m d))
    ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the gather: the row scratch at the low gather. -/
def MidC2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ (semVal (semA d L) 0 ∗ ((sA).view.loc (thr d L) ↦{fullShare} rdLo m d L t) ∗ ((tW).view.loc (thr d L) ↦{tokA L} tabT m d))
    ∗ stB m d L t.val
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)

theorem segC_wait (t : Fin TR) :
    Cut2 m d L O W t ⊢ wp frame (wpE (defs₀ (F := F)) 𝒱₀ (thr d L) none) Set.univ
      (Prog.lift (.waitDma2 cc0_scratch4.sem (tabLo L t) (sA) ((View.wordExact_bits rfl).reshape _ _) (Memref.isWhole_whole _).wordExact))
      (fun _ => MidC1 m d L O W t) := by
  unfold Cut2 MidC1 owesW
  rw [stA_pos]; unfold flA
  iintro ⟨#Hmw, Hi, HI, ⟨Hfl, Hrest⟩, HstB, HsO, Htodo, Hdone, %W', %hW', HO⟩
  ihave Hmw1 := (Transfers.MayWaits.elim (SemLoc.dma cc0_scratch4.sem)) $$ Hmw
  iapply (Transfers.wp_waitLocalO countersEmb 𝒱₀ (thr d L) none (default : HIx 1) (N := 1605632) rfl) $$ [Hfl HO Hmw1]
  · isplitl [Hfl]; · iexact Hfl
    isplitl [HO]; · iexact HO
    iexact Hmw1
  iintro ⟨⟨HsA, Hlo⟩, HsemA, HO⟩
  rw [wp_ret]; imodintro
  ihave Ht := (pointsTo_split_subset (Finset.subset_univ _)).2 $$ [Hlo Hrest]
  · isplitl [Hlo]; · iexact Hlo
    iexact Hrest
  isplitr; · iexact Hmw
  isplitl [Hi]; · iexact Hi
  isplitl [HI]; · iexact HI
  isplitl [HsemA HsA Ht]
  · isplitl [HsemA]; · iexact HsemA
    isplitl [HsA]; · iexact HsA
    iexact Ht
  isplitl [HstB]; · iexact HstB
  isplitl [HsO]; · iexact HsO
  isplitl [Htodo]; · iexact Htodo
  isplitl [Hdone]; · iexact Hdone
  iexists (insert (SemLoc.dma cc0_scratch4.sem, (default : HIx 1)) W'); isplitr
  · ipureintro; intro p hp
    rcases Finset.mem_insert.mp hp with hp | hp
    · exact .inr (hp ▸ rfl)
    · exact hW' p hp
  · iexact HO

theorem segC_loop (hpre : PreOK m) (t : Fin TR) :
    MidC1 m d L O W t ⊢ wp frame (wpE (defs₀ (F := F)) 𝒱₀ (thr d L) none) Set.univ
      (Scf.Loop.for k0_t2_loop k0_t2_ok ⟨⟩
        (k0_t2_body L iW (Memref.isWhole_whole _) tW (Memref.isWhole_whole _) oW (Memref.isWhole_whole _)
          sI (Memref.isWhole_whole _) sO (Memref.isWhole_whole _) sA (Memref.isWhole_whole _) sB (Memref.isWhole_whole _)
          cc0_scratch4 cc0_scratch5 cc0_scratch6 cc0_scoped0))
      (fun _ => MidC2 m d L O W t) := by
  unfold MidC1 MidC2
  iintro ⟨#Hmw, Hi, ⟨HsemI, HsI⟩, ⟨HsemA, HsA, Ht⟩, HstB, ⟨HsemO, %gO, HsO⟩, Htodo, Hdone, Howes⟩
  iapply (wp_wand _ _ _) $$ [HsI HsA HsO]
  · iapply (grp0_loop d L (rdIx m d L t) (rdLo m d L t) gO (idx_row_le m d hpre L t))
    isplitl [HsI]; · iexact HsI
    isplitl [HsA]; · iexact HsA
    iexact HsO
  iintro %_ ⟨HsI, HsA, %g, HsO, %hg⟩
  subst hg
  isplitr; · iexact Hmw
  isplitl [Hi]; · iexact Hi
  isplitl [HsemI HsI]; · isplitl [HsemI]; · iexact HsemI
                         iexact HsI
  isplitl [HsemA HsA Ht]
  · isplitl [HsemA]; · iexact HsemA
    isplitl [HsA]; · iexact HsA
    iexact Ht
  isplitl [HstB]; · iexact HstB
  isplitl [HsemO HsO]; · isplitl [HsemO]; · iexact HsemO
                         iexact HsO
  isplitl [Htodo]; · iexact Htodo
  isplitl [Hdone]; · iexact Hdone
  iexact Howes

theorem segC_arm (t : Fin TR) (h3 : k0_cond3 t = 1#1) :
    MidC2 m d L O W t ⊢ wp frame (wpE (defs₀ (F := F)) 𝒱₀ (thr d L) none) Set.univ (ARMC (F := F) L t h3) (fun _ => Cut3 m d L O W t) := by
  have hlt : t.val + 1 < TR := by have h := (cond3_iff t).1 h3; show t.val + 1 < k0_t1_loop.trips; rw [trips_eq]; omega
  unfold MidC2 Cut3 ARMC armC
  rw [stA_nextN m d L t h3 hlt]; unfold stAp
  iintro ⟨#Hmw, Hi, HI, ⟨HsemA, HsA, Ht⟩, HstB, HsO, Htodo, Hdone, Howes⟩
  sl_exec
  rw [wp_ret]; imodintro
  ihave Hfl := (Transfers.Flight_mono _ _ (D' := iprop(((sA).view.loc (thr d L) ↦{fullShare} (tabLoN L t h3).view.read (Elt F) (tabT m d))
      ∗ ((tW).view.loc (thr d L) ↦[(tabLoN L t h3).view.set]{tokA L} tabT m d))) (by rw [View.write_whole_univ]; exact .rfl)) $$ HsemA
  isplitr; · iexact Hmw
  isplitl [Hi]; · iexact Hi
  isplitl [HI]; · iexact HI
  isplitl [Hfl Ht]
  · isplitl [Hfl]; · iexact Hfl
    iexact Ht
  isplitl [HstB]; · iexact HstB
  isplitl [HsO]; · iexact HsO
  isplitl [Htodo]; · iexact Htodo
  isplitl [Hdone]; · iexact Hdone
  iexact Howes

theorem midC2_last (t : Fin TR) (h3 : ¬ k0_cond3 t = 1#1) : MidC2 m d L O W t ⊢ Cut3 m d L O W t := by
  have hlt : ¬ t.val + 1 < TR := by
    have h := mt (cond3_iff t).2 h3; have ht := t_lt t; show ¬ t.val + 1 < k0_t1_loop.trips; rw [trips_eq]; omega
  unfold MidC2 Cut3
  rw [stA_last m d L t hlt]
  iintro ⟨#Hmw, Hi, HI, ⟨HsemA, HsA, Ht⟩, HstB, HsO, Htodo, Hdone, Howes⟩
  isplitr; · iexact Hmw
  isplitl [Hi]; · iexact Hi
  isplitl [HI]; · iexact HI
  isplitl [HsemA HsA Ht]
  · isplitl [HsemA]; · iexact HsemA
    isplitl [HsA]; · iexists _; iexact HsA
    iexact Ht
  isplitl [HstB]; · iexact HstB
  isplitl [HsO]; · iexact HsO
  isplitl [Htodo]; · iexact Htodo
  isplitl [Hdone]; · iexact Hdone
  iexact Howes

/-- The low half's part of pair `t`, given the high half's. -/
theorem thC (hpre : PreOK m) (t : Fin TR)
    (hD : Cut3 m d L O W t ⊢ wp frame (wpE (defs₀ (F := F)) 𝒱₀ (thr d L) none) Set.univ (SEGD (F := F) L t (fld L t)) (Inv m d L O W (t.val + 1))) :
    Cut2 m d L O W t ⊢ wp frame (wpE (defs₀ (F := F)) 𝒱₀ (thr d L) none) Set.univ (SEGC (F := F) L t (fld L t)) (Inv m d L O W (t.val + 1)) := by
  unfold SEGC segC
  refine wp_seq _ _ _ (fun _ => MidC1 m d L O W t) (segC_wait m d L O W t) (fun _ => ?_)
  refine wp_seq _ _ _ (fun _ => MidC2 m d L O W t) (segC_loop m d L O W hpre t) (fun _ => ?_)
  refine wp_dite _ _ _ (fun h3 => ?_) (fun h3 => ?_)
  · exact wp_seq _ _ _ (fun _ => Cut3 m d L O W t) (segC_arm m d L O W t h3) (fun _ => hD)
  · exact (midC2_last m d L O W t h3).trans hD

end SegC

end Cert.Proof.KI

end
-- ==== Proof.OuterDI.lean ====
/-
  The high half of a pair: the wait for its transfer, its gather laid over the low half's in the row scratch, and the
  next pair's high half started if there is a next pair.
-/
import proofs.«207324_g17738214933191_cont_8to1_1167_12_alg».proof.Proof.OuterStmtI
import proofs.«207324_g17738214933191_cont_8to1_1167_12_alg».proof.Proof.InnerI
import proofs.«207324_g17738214933191_cont_8to1_1167_12_alg».proof.Proof.RowValI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section SegD

variable (d : Dev nD) (L : grid0.Coords) (O : CellTallies nD τ sig (HIx 1)) (W : Waits sig (HIx 1))

theorem stB_pos (t : Fin TR) : stB m d L t.val
    = iprop(flB m d L t ∗ ((tW).view.loc (thr d L) ↦[Finset.univ \ (tabHi L t).view.set]{tokB L} tabT m d)) := by
  unfold stB; rw [dif_pos t.isLt]
theorem stB_last (t : Fin TR) (h : ¬ t.val + 1 < TR) : stB m d L (t.val + 1)
    = iprop(semVal (semB d L) 0 ∗ (∃ g, (sB).view.loc (thr d L) ↦{fullShare} g) ∗ ((tW).view.loc (thr d L) ↦{tokB L} tabT m d)) := by
  unfold stB; rw [dif_neg h]

/-- The high-half side with a transfer in flight, by the offsets of the half-row it reads: the transfer and the rest of
    that share of the tables. -/
def stBp (off : Fin 3 → ℕ) (inb : ∀ a, off a + S1x1x49824.size a ≤ S26x16x100000.size a) : sProp 𝕄 :=
  iprop(Transfers.Flight countersEmb (thr d L) (SemLoc.dma cc0_scratch5.sem) (default : HIx 1) 1594368
      iprop(((sB).view.loc (thr d L) ↦{fullShare}
          (((tW).slice (Rect.unit (s := S26x16x100000) off S1x1x49824.size inb) (fun _ => rfl)).squeeze S49824 squeezes_S1x1x49824_S49824).view.read (Elt F) (tabT m d))
        ∗ ((tW).view.loc (thr d L) ↦[(((tW).slice (Rect.unit (s := S26x16x100000) off S1x1x49824.size inb) (fun _ => rfl)).squeeze S49824 squeezes_S1x1x49824_S49824).view.set]{tokB L} tabT m d))
    ∗ ((tW).view.loc (thr d L) ↦[Finset.univ \ (((tW).slice (Rect.unit (s := S26x16x100000) off S1x1x49824.size inb) (fun _ => rfl)).squeeze S49824 squeezes_S1x1x49824_S49824).view.set]{tokB L} tabT m d))

theorem stBp_congr {off off' : Fin 3 → ℕ} (inb : ∀ a, off a + S1x1x49824.size a ≤ S26x16x100000.size a)
    (inb' : ∀ a, off' a + S1x1x49824.size a ≤ S26x16x100000.size a) (h : off = off') : stBp m d L off inb = stBp m d L off' inb' := by
  subst h; rfl

theorem stB_eq_stBp (t : Fin TR) : stB m d L t.val = stBp m d L (k0_off12 L t) (k0_off12_inb L t) := by
  rw [stB_pos]; rfl

theorem stB_nextN (t : Fin TR) (h4 : k0_cond4 t = 1#1) (hlt : t.val + 1 < TR) :
    stB m d L (t.val + 1) = stBp m d L (k0_off18 L t) (k0_off18_inb L t h4) := by
  rw [show stB m d L (t.val + 1) = stB m d L (⟨t.val + 1, hlt⟩ : Fin TR).val from rfl, stB_eq_stBp]
  exact stBp_congr m d L _ _ (by rw [off12_eq, off18_eq]; show ![(q0 L + (t.val + 1)) / 16, (q0 L + (t.val + 1)) % 16, 50176] = _; rw [show q0 L + (t.val + 1) = q0 L + t.val + 1 from (Nat.add_assoc _ _ _).symm])

/-- After the wait: the high half landed, that share of the tables whole again. -/
def MidD1 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1)
    ∗ (semVal (semB d L) 0 ∗ ((sB).view.loc (thr d L) ↦{fullShare} rdHi m d L t) ∗ ((tW).view.loc (thr d L) ↦{tokB L} tabT m d))
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)
/-- After the gather: the row scratch at the pair's row. -/
def MidD2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1)
    ∗ (semVal (semB d L) 0 ∗ ((sB).view.loc (thr d L) ↦{fullShare} rdHi m d L t) ∗ ((tW).view.loc (thr d L) ↦{tokB L} tabT m d))
    ∗ (semVal (semO d L) 0 ∗ ((sO).view.loc (thr d L) ↦{fullShare} hiSpec (rdIx m d L t) (rdHi m d L t) (loSpec (rdIx m d L t) (rdLo m d L t))))
    ∗ bigSep (fromIdx 13 t.val) (rowTodo m d L) ∗ bigSep (belowIdx 13 t.val) (rowDone m d L)
    ∗ owesW d L O W)

theorem segD_wait (t : Fin TR) :
    Cut3 m d L O W t ⊢ wp frame (wpE (defs₀ (F := F)) 𝒱₀ (thr d L) none) Set.univ
      (Prog.lift (.waitDma2 cc0_scratch5.sem (tabHi L t) (sB) ((View.wordExact_bits rfl).reshape _ _) (Memref.isWhole_whole _).wordExact))
      (fun _ => MidD1 m d L O W t) := by
  unfold Cut3 MidD1 owesW
  rw [stB_pos]; unfold flB
  iintro ⟨#Hmw, Hi, HI, HstA, ⟨Hfl, Hrest⟩, HsO, Htodo, Hdone, %W', %hW', HO⟩
  ihave Hmw1 := (Transfers.MayWaits.elim (SemLoc.dma cc0_scratch5.sem)) $$ Hmw
  iapply (Transfers.wp_waitLocalO countersEmb 𝒱₀ (thr d L) none (default : HIx 1) (N := 1594368) rfl) $$ [Hfl HO Hmw1]
  · isplitl [Hfl]; · iexact Hfl
    isplitl [HO]; · iexact HO
    iexact Hmw1
  iintro ⟨⟨HsB, Hhi⟩, HsemB, HO⟩
  rw [wp_ret]; imodintro
  ihave Ht := (pointsTo_split_subset (Finset.subset_univ _)).2 $$ [Hhi Hrest]
  · isplitl [Hhi]; · iexact Hhi
    iexact Hrest
  isplitr; · iexact Hmw
  isplitl [Hi]; · iexact Hi
  isplitl [HI]; · iexact HI
  isplitl [HstA]; · iexact HstA
  isplitl [HsemB HsB Ht]
  · isplitl [HsemB]; · iexact HsemB
    isplitl [HsB]; · iexact HsB
    iexact Ht
  isplitl [HsO]; · iexact HsO
  isplitl [Htodo]; · iexact Htodo
  isplitl [Hdone]; · iexact Hdone
  iexists (insert (SemLoc.dma cc0_scratch5.sem, (default : HIx 1)) W'); isplitr
  · ipureintro; intro p hp
    rcases Finset.mem_insert.mp hp with hp | hp
    · exact .inr (hp ▸ rfl)
    · exact hW' p hp
  · iexact HO

theorem segD_loop (hpre : PreOK m) (t : Fin TR) :
    MidD1 m d L O W t ⊢ wp frame (wpE (defs₀ (F := F)) 𝒱₀ (thr d L) none) Set.univ
      (Scf.Loop.for k0_t3_loop k0_t3_ok ⟨⟩
        (k0_t3_body L iW (Memref.isWhole_whole _) tW (Memref.isWhole_whole _) oW (Memref.isWhole_whole _)
          sI (Memref.isWhole_whole _) sO (Memref.isWhole_whole _) sA (Memref.isWhole_whole _) sB (Memref.isWhole_whole _)
          cc0_scratch4 cc0_scratch5 cc0_scratch6 cc0_scoped0))
      (fun _ => MidD2 m d L O W t) := by
  unfold MidD1 MidD2
  iintro ⟨#Hmw, Hi, ⟨HsemI, HsI⟩, HstA, ⟨HsemB, HsB, Ht⟩, ⟨HsemO, HsO⟩, Htodo, Hdone, Howes⟩
  iapply (wp_wand _ _ _) $$ [HsI HsB HsO]
  · iapply (grp1_loop d L (rdIx m d L t) (rdHi m d L t) (loSpec (rdIx m d L t) (rdLo m d L t)) (idx_row_le m d hpre L t))
    isplitl [HsI]; · iexact HsI
    isplitl [HsB]; · iexact HsB
    iexact HsO
  iintro %_ ⟨HsI, HsB, %g, HsO, %hg⟩
  subst hg
  isplitr; · iexact Hmw
  isplitl [Hi]; · iexact Hi
  isplitl [HsemI HsI]; · isplitl [HsemI]; · iexact HsemI
                         iexact HsI
  isplitl [HstA]; · iexact HstA
  isplitl [HsemB HsB Ht]
  · isplitl [HsemB]; · iexact HsemB
    isplitl [HsB]; · iexact HsB
    iexact Ht
  isplitl [HsemO HsO]; · isplitl [HsemO]; · iexact HsemO
                         iexact HsO
  isplitl [Htodo]; · iexact Htodo
  isplitl [Hdone]; · iexact Hdone
  iexact Howes

theorem segD_arm (t : Fin TR) (h4 : k0_cond4 t = 1#1) :
    MidD2 m d L O W t ⊢ wp frame (wpE (defs₀ (F := F)) 𝒱₀ (thr d L) none) Set.univ (ARMD (F := F) L t h4) (fun _ => Cut4 m d L O W t) := by
  have hlt : t.val + 1 < TR := by have h := (cond4_iff t).1 h4; show t.val + 1 < k0_t1_loop.trips; rw [trips_eq]; omega
  unfold MidD2 Cut4 ARMD armD
  rw [stB_nextN m d L t h4 hlt]; unfold stBp
  iintro ⟨#Hmw, Hi, HI, HstA, ⟨HsemB, HsB, Ht⟩, HsO, Htodo, Hdone, Howes⟩
  sl_exec
  rw [wp_ret]; imodintro
  ihave Hfl := (Transfers.Flight_mono _ _ (D' := iprop(((sB).view.loc (thr d L) ↦{fullShare} (tabHiN L t h4).view.read (Elt F) (tabT m d))
      ∗ ((tW).view.loc (thr d L) ↦[(tabHiN L t h4).view.set]{tokB L} tabT m d))) (by rw [View.write_whole_univ]; exact .rfl)) $$ HsemB
  isplitr; · iexact Hmw
  isplitl [Hi]; · iexact Hi
  isplitl [HI]; · iexact HI
  isplitl [HstA]; · iexact HstA
  isplitl [Hfl Ht]
  · isplitl [Hfl]; · iexact Hfl
    iexact Ht
  isplitl [HsO]; · iexact HsO
  isplitl [Htodo]; · iexact Htodo
  isplitl [Hdone]; · iexact Hdone
  iexact Howes

theorem midD2_last (t : Fin TR) (h4 : ¬ k0_cond4 t = 1#1) : MidD2 m d L O W t ⊢ Cut4 m d L O W t := by
  have hlt : ¬ t.val + 1 < TR := by
    have h := mt (cond4_iff t).2 h4; have ht := t_lt t; show ¬ t.val + 1 < k0_t1_loop.trips; rw [trips_eq]; omega
  unfold MidD2 Cut4
  rw [stB_last m d L t hlt]
  iintro ⟨#Hmw, Hi, HI, HstA, ⟨HsemB, HsB, Ht⟩, HsO, Htodo, Hdone, Howes⟩
  isplitr; · iexact Hmw
  isplitl [Hi]; · iexact Hi
  isplitl [HI]; · iexact HI
  isplitl [HstA]; · iexact HstA
  isplitl [HsemB HsB Ht]
  · isplitl [HsemB]; · iexact HsemB
    isplitl [HsB]; · iexists _; iexact HsB
    iexact Ht
  isplitl [HsO]; · iexact HsO
  isplitl [Htodo]; · iexact Htodo
  isplitl [Hdone]; · iexact Hdone
  iexact Howes

/-- The high half's part of pair `t`, given the last part. -/
theorem thD (hpre : PreOK m) (t : Fin TR)
    (hE : Cut4 m d L O W t ⊢ wp frame (wpE (defs₀ (F := F)) 𝒱₀ (thr d L) none) Set.univ (SEGE (F := F) L t (fld L t)) (Inv m d L O W (t.val + 1))) :
    Cut3 m d L O W t ⊢ wp frame (wpE (defs₀ (F := F)) 𝒱₀ (thr d L) none) Set.univ (SEGD (F := F) L t (fld L t)) (Inv m d L O W (t.val + 1)) := by
  unfold SEGD segD
  refine wp_seq _ _ _ (fun _ => MidD1 m d L O W t) (segD_wait m d L O W t) (fun _ => ?_)
  refine wp_seq _ _ _ (fun _ => MidD2 m d L O W t) (segD_loop m d L O W hpre t) (fun _ => ?_)
  refine wp_dite _ _ _ (fun h4 => ?_) (fun h4 => ?_)
  · exact wp_seq _ _ _ (fun _ => Cut4 m d L O W t) (segD_arm m d L O W t h4) (fun _ => hE)
  · exact (midD2_last m d L O W t h4).trans hE

end SegD

end Cert.Proof.KI

end
-- ==== Proof.OuterEI.lean ====
/-
  The last part of a pair's work: the row scratch, holding the pair's row of the result, is sent out to that row. The
  row is taken out of the rows not yet written; the transfer, once it lands, leaves there the row scratch's contents,
  which are the result's closed form on that row (the two gathers cover every index, each naming a row of its table);
  the row scratch comes back with it. With the two next halves already in flight this is what the task holds before
  the next pair, the carried field being this pair's.
-/
import proofs.«207324_g17738214933191_cont_8to1_1167_12_alg».proof.Proof.OuterStmtI
import proofs.«207324_g17738214933191_cont_8to1_1167_12_alg».proof.Proof.RowValI
import proofs.«207324_g17738214933191_cont_8to1_1167_12_alg».proof.Proof.ViewsI
import proofs.«207324_g17738214933191_cont_8to1_1167_12_alg».proof.Proof.OffsetsI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section SegE

variable (d : Dev nD) (L : grid0.Coords) (O : CellTallies nD τ sig (HIx 1)) (W : Waits sig (HIx 1))

omit [FloatOps F] in
/-- Row `t` of the result, not yet written, as the memref of the row holds it. -/
theorem rowTodo_eq (t : Fin TR) :
    (rowTodo m d L ⟨t.val, t_lt t⟩ : sProp 𝕄)
      = ((outRow L t).view.loc (thr d L) ↦[(outRow L t).view.set]{fullShare} m (v2Loc d)) := by
  unfold rowTodo
  rw [outRow_set]

/-- What the row's transfer delivers: the row scratch written over the row of the result leaves there the row of the
    result's closed form (every index names a row of its table), and the row scratch comes back. -/
theorem deliverE (hpre : PreOK m) (t : Fin TR) (w : (Rect.whole S4096).shape.Idx → Elt F .f32)
    (hw : w = hiSpec (rdIx m d L t) (rdHi m d L t) (loSpec (rdIx m d L t) (rdLo m d L t)))
    (G : Buf (Elt F) ((thr d L).loc cc0_scratch1)) :
    (iprop(((outRow L t).view.loc (thr d L) ↦[(outRow L t).view.set]{fullShare}
          (outRow L t).view.writes (Elt F) (m (v2Loc d)) [⟨Rect.whole S4096, w⟩])
        ∗ ((sO).view.loc (thr d L) ↦[(sO).view.set]{fullShare} G)) : sProp 𝕄)
      ⊢ iprop(rowDone m d L ⟨t.val, t_lt t⟩ ∗ ∃ g, (sO).view.loc (thr d L) ↦{fullShare} g) := by
  have hc : ∀ i ∈ (outRow L t).view.set,
      (outRow L t).view.writes (Elt F) (m (v2Loc d)) [⟨Rect.whole S4096, w⟩] i = OUT m d i := by
    intro i hi
    obtain ⟨b, -, rfl⟩ := Finset.mem_map.mp hi
    have h1 := View.read_writes_cons_emb (v := (outRow L t).view) (f := m (v2Loc d)) (Rect.whole S4096) w [] b
    rw [Rect.emb_whole_apply, View.read_apply] at h1
    have h3 := row_val m d hpre L t b
    generalize (outRow L t).view.writes (Elt F) (m (v2Loc d)) [⟨Rect.whole S4096, w⟩] ((outRow L t).view.emb b) = X at h1 ⊢
    generalize OUT m d ((outRow L t).view.emb b) = Y at h3 ⊢
    rw [cast_eq] at h1
    rw [h1, hw]
    exact h3
  rw [pointsTo_congr hc]
  unfold rowDone
  rw [← outRow_set L t, View.set_whole]
  iintro ⟨Hr, Hs⟩
  isplitl [Hr]; · iexact Hr
  iexists G
  iexact Hs

theorem thE (hpre : PreOK m) (t : Fin TR) :
    Cut4 m d L O W t ⊢ wp frame (wpE (defs₀ (F := F)) 𝒱₀ (thr d L) none) Set.univ (SEGE (F := F) L t (fld L t)) (Inv m d L O W (t.val + 1)) := by
  unfold Cut4
  rw [bigSep_from_head (rowTodo m d L) t.val (t_lt t), rowTodo_eq]
  unfold SEGE segE
  iintro ⟨Hmw, Hi, ⟨HsemI, HsI⟩, HstA, HstB, ⟨HsemO, HsO⟩, ⟨Hrow, Htodo⟩, Hdone, HO⟩
  sl_exec
  iapply (Idealize.SL.Sem.le_wp_ret _ _)
  ihave Hfl := (Transfers.Flight_mono countersEmb (thr d L) (deliverE m d L hpre t (thE.sl.dma0 m d L t)
      (by unfold thE.sl.dma0; rw [ReadAs.apply_same]; rfl) _)) $$ HsemO
  iclear HsO
  unfold Inv
  isplitl [Hmw]; · iexact Hmw
  isplitl [Hi]; · iexact Hi
  isplitl [HsemI HsI]
  · unfold stI
    isplitl [HsemI]; · iexact HsemI
    iexists rdIx m d L t
    isplitl [HsI]; · iexact HsI
    ipureintro
    exact Or.inr ⟨⟨Nat.succ_pos _, t.isLt⟩, rfl, rfl⟩
  isplitl [HstA]; · iexact HstA
  isplitl [HstB]; · iexact HstB
  isplitl [Hfl]
  · unfold stO
    rw [dif_pos (⟨Nat.succ_pos _, t_lt t⟩ : 0 < t.val + 1 ∧ t.val + 1 - 1 < 13)]
    unfold flO
    iexact Hfl
  isplitl [Htodo]; · iexact Htodo
  isplitl [Hdone]; · iexact Hdone
  iexact HO

end SegE

end Cert.Proof.KI

end
-- ==== Proof.TileI.lean ====
/-
  A vector subcore's whole task: both halves of its first pair's table row started, the loop over its thirteen pairs by
  the invariant, the wait for the last row to have left, and what the task hands back: its shares of the transposed
  indices and tables, and its thirteen rows of the result at the lookup's values.
-/
import proofs.«207324_g17738214933191_cont_8to1_1167_12_alg».proof.Proof.OuterAI
import proofs.«207324_g17738214933191_cont_8to1_1167_12_alg».proof.Proof.OuterBI
import proofs.«207324_g17738214933191_cont_8to1_1167_12_alg».proof.Proof.OuterCI
import proofs.«207324_g17738214933191_cont_8to1_1167_12_alg».proof.Proof.OuterDI
import proofs.«207324_g17738214933191_cont_8to1_1167_12_alg».proof.Proof.OuterEI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.KernelIdeal.main_v0_scv : Memref Cert.KernelIdeal.sig Kind.scVector Space.hbm Cert.KernelIdeal.S26x4096 EltTy.i32)
local notation "tW" => (Memref.whole Cert.KernelIdeal.main_v1_scv : Memref Cert.KernelIdeal.sig Kind.scVector Space.hbm Cert.KernelIdeal.S26x16x100000 EltTy.f32)
local notation "oW" => (Memref.whole Cert.KernelIdeal.main_v2_scv : Memref Cert.KernelIdeal.sig Kind.scVector Space.hbm Cert.KernelIdeal.S26x16x4096 EltTy.f32)
local notation "sI" => (Memref.whole Cert.KernelIdeal.cc0_scratch0 : Memref Cert.KernelIdeal.sig Kind.scVector Space.vmem Cert.KernelIdeal.S4096 EltTy.i32)
local notation "sO" => (Memref.whole Cert.KernelIdeal.cc0_scratch1 : Memref Cert.KernelIdeal.sig Kind.scVector Space.vmem Cert.KernelIdeal.S4096 EltTy.f32)
local notation "sA" => (Memref.whole Cert.KernelIdeal.cc0_scratch2 : Memref Cert.KernelIdeal.sig Kind.scVector Space.vmem Cert.KernelIdeal.S50176 EltTy.f32)
local notation "sB" => (Memref.whole Cert.KernelIdeal.cc0_scratch3 : Memref Cert.KernelIdeal.sig Kind.scVector Space.vmem Cert.KernelIdeal.S49824 EltTy.f32)

section Task

variable (d : Dev nD) (L : grid0.Coords) (O : CellTallies nD τ sig (HIx 1)) (W : Waits sig (HIx 1))

omit [FloatOps F] in
/-- A share of an array cut in three: what is kept aside, and two pieces to lend. -/
theorem share_three (q : PosShare TreeShare) (ℓ : Loc nD τ sig) (f : Buf (Elt F) ℓ) :
    (ℓ ↦{q} f : sProp 𝕄) ⊣⊢ iprop((ℓ ↦{shareDrop q 2} f) ∗ (ℓ ↦{shareTokN q 0} f) ∗ (ℓ ↦{shareTokN q 1} f)) := by
  have h := Transfers.pointsTo_toks_range (nD := nD) (τ := τ) (sig := sig) (Ix := HIx 1) (Val := Elt F) (Name := ℕ) (U := UU) (Lvl := ℕ)
    (ℓ := ℓ) (S := Finset.univ) (f := f) q 2
  rw [show Finset.range 2 = insert 0 {1} from by decide, SparseCore.bigSep_insert' (by decide), bigSep_singleton] at h
  exact h

theorem stA_zero : stA m d L 0 = stAp m d L (k0_off1 L) (k0_off1_inb L) := by
  have h0 : 0 < TR := by show 0 < k0_t1_loop.trips; rw [trips_eq]; omega
  rw [show stA m d L 0 = stA m d L (⟨0, h0⟩ : Fin TR).val from rfl, stA_eq_stAp]
  exact stAp_congr m d L _ _ (by rw [off5_eq, off1_eq]; rfl)
theorem stB_zero : stB m d L 0 = stBp m d L (k0_off2 L) (k0_off2_inb L) := by
  have h0 : 0 < TR := by show 0 < k0_t1_loop.trips; rw [trips_eq]; omega
  rw [show stB m d L 0 = stB m d L (⟨0, h0⟩ : Fin TR).val from rfl, stB_eq_stBp]
  exact stBp_congr m d L _ _ (by rw [off12_eq, off2_eq]; rfl)
theorem stA_end : stA m d L TR
    = iprop(semVal (semA d L) 0 ∗ (∃ g, (sA).view.loc (thr d L) ↦{fullShare} g) ∗ ((tW).view.loc (thr d L) ↦{tokA L} tabT m d)) := by
  unfold stA; rw [dif_neg (Nat.lt_irrefl _)]
theorem stB_end : stB m d L TR
    = iprop(semVal (semB d L) 0 ∗ (∃ g, (sB).view.loc (thr d L) ↦{fullShare} g) ∗ ((tW).view.loc (thr d L) ↦{tokB L} tabT m d)) := by
  unfold stB; rw [dif_neg (Nat.lt_irrefl _)]

/-- One pair's work takes the invariant before it to the invariant after it. -/
theorem outer_trip (hpre : PreOK m) (t : Fin TR) (acc : BitVec 32) :
    Inv m d L O W t.val acc ⊢ wp frame (wpE (defs₀ (F := F)) 𝒱₀ (thr d L) none) Set.univ
      (k0_t1_body L iW (Memref.isWhole_whole _) tW (Memref.isWhole_whole _) oW (Memref.isWhole_whole _)
        sI (Memref.isWhole_whole _) sO (Memref.isWhole_whole _) sA (Memref.isWhole_whole _) sB (Memref.isWhole_whole _)
        cc0_scratch4 cc0_scratch5 cc0_scratch6 cc0_scoped0 (v2w L) t acc)
      (Inv m d L O W (t.val + 1)) := by
  rw [t1_body_eq, part2_eq]
  exact thA m d L O W t acc (thB m d L O W t acc (thC m d L O W hpre t (thD m d L O W hpre t (thE m d L O W hpre t))))

theorem tile_body (hF : (K (F := F)).Facts) (hpre : PreOK m) (hO : ∀ g, O g none = 0) :
    iprop(levAts (K (F := F)).L (K (F := F)).lev ∗ emp ∗ tileIn m d (L 0).val (L 1).val
        ∗ scopedBufs (thr d L) ∗ scopedSems0 (thr d L) ∗ owes (thr d L) O W)
      ⊢ wp frame (wpE (defs₀ (F := F)) 𝒱₀ (thr d L) none) Set.univ
          (cc0__body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0)
          fun _ => iprop(tileOut m d (L 0).val (L 1).val ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  simp only [k0_part3_eq_skeleton]; unfold k0_part3_skel
  rw [(K (F := F)).scopedBufs_V hF d (cV L) (jV L), SparseCore.Cfg.scopedSems0_V (Val := Elt F) d (cV L) (jV L), ownSems0_V, ownBufs_V]
  unfold tileIn
  iintro ⟨#Hlv, -, ⟨Hi, Ht, Ho⟩, ⟨⟨%fI, HsI⟩, ⟨%fO, HsO⟩, ⟨%fA, HsA⟩, ⟨%fB, HsB⟩, Hbufs⟩, ⟨HsemA, HsemB, HsemO, HsemI, Hsems⟩, HO⟩
  ihave Hmw := ((K (F := F)).mayWaits_none (thr := thr d L) hO) $$ Hlv
  ihave Ht3 := (share_three (F := F) (tok L) (v1Loc d) (tabT m d)).1 $$ Ht
  icases Ht3 with ⟨HtD, HtA, HtB⟩
  ihave Hi' := (Entails.of_eq (pts_i (F := F) d L (tok L) (idxT m d)).symm) $$ Hi
  ihave HtA' := (Entails.of_eq (pts_t (F := F) d L (shareTokN (tok L) 0) (tabT m d)).symm) $$ HtA
  ihave HtB' := (Entails.of_eq (pts_t (F := F) d L (shareTokN (tok L) 1) (tabT m d)).symm) $$ HtB
  ihave HsI' := (Entails.of_eq (pts_sI (F := F) d L fI).symm) $$ HsI
  ihave HsO' := (Entails.of_eq (pts_sO (F := F) d L fO).symm) $$ HsO
  ihave HsA' := (Entails.of_eq (pts_sA (F := F) d L fA).symm) $$ HsA
  ihave HsB' := (Entails.of_eq (pts_sB (F := F) d L fB).symm) $$ HsB
  sl_exec
  rw [bind_assoc]
  ihave HflA := (Transfers.Flight_mono _ _ (D' := iprop(((sA).view.loc (thr d L) ↦{fullShare} (tabLo0 L).view.read (Elt F) (tabT m d))
      ∗ ((tW).view.loc (thr d L) ↦[(tabLo0 L).view.set]{tokA L} tabT m d))) (by rw [View.write_whole_univ]; exact .rfl)) $$ HsemA
  ihave HflB := (Transfers.Flight_mono _ _ (D' := iprop(((sB).view.loc (thr d L) ↦{fullShare} (tabHi0 L).view.read (Elt F) (tabT m d))
      ∗ ((tW).view.loc (thr d L) ↦[(tabHi0 L).view.set]{tokB L} tabT m d))) (by rw [View.write_whole_univ]; exact .rfl)) $$ HsemB
  sl_for (Inv m d L O W) $$ [Hmw Hi' HsI' HsemI HflA HtA' HflB HtB' HsemO HsO' Ho HO]
  case region =>
    intro t acc
    exact outer_trip m d L O W hpre t acc
  · unfold Inv
    isplitr; · iexact Hmw
    isplitl [Hi']; · iexact Hi'
    isplitl [HsemI HsI']
    · unfold stI
      isplitl [HsemI]; · iexact HsemI
      iexists fI
      isplitl [HsI']; · iexact HsI'
      ipureintro; exact .inl ⟨rfl, rfl⟩
    isplitl [HflA HtA']
    · rw [stA_zero]; unfold stAp
      isplitl [HflA]
      · iexact HflA
      · iexact HtA'
    isplitl [HflB HtB']
    · rw [stB_zero]; unfold stBp
      isplitl [HflB]
      · iexact HflB
      · iexact HtB'
    isplitl [HsemO HsO']
    · rw [stO_zero]
      isplitl [HsemO]; · iexact HsemO
      iexists fO; iexact HsO'
    isplitl [Ho]
    · rw [fromIdx_zero]; unfold rowTodo; iexact Ho
    isplitr
    · rw [show (0 : ℕ) - 1 = 0 from rfl, belowIdx_zero, bigSep_empty]; iempintro
    unfold owesW
    iexists W; isplitr
    · ipureintro; exact fun p hp => .inl hp
    · iexact HO
  iintro %acc HI
  have h13 : TR = 13 := trips_eq
  rw [show Scf.trips k0_t1_loop.lb k0_t1_loop.ub k0_t1_loop.st = TR from rfl]
  unfold Inv
  rw [stA_end, stB_end, stO_pos m d L TR ⟨by omega, by omega⟩]
  unfold stI flO owesW
  icases HI with ⟨-, Hi, ⟨HsemI, %gI, HsI, -⟩, ⟨HsemA, ⟨%gA, HsA⟩, HtA⟩, ⟨HsemB, ⟨%gB, HsB⟩, HtB⟩, Hfl, -, Hdone, %W', %hW', HO⟩
  sl_exec
  ihave Hmw1 := (Transfers.MayWaits.elim (SemLoc.dma cc0_scratch6.sem)) $$ Hmw
  iapply (Transfers.wp_waitLocalO countersEmb 𝒱₀ (thr d L) none (default : HIx 1) (N := 131072) rfl) $$ [Hfl HO Hmw1]
  · isplitl [Hfl]; · iexact Hfl
    isplitl [HO]; · iexact HO
    iexact Hmw1
  iintro ⟨⟨Hrow, %gO, HsO⟩, HsemO, HO⟩
  rw [Prog.pure_eq_ret, wp_ret]; imodintro
  unfold tileOut
  isplitl [Hi HtD HtA HtB Hdone Hrow]
  · isplitl [Hi]; · iapply (Entails.of_eq (pts_i (F := F) d L (tok L) (idxT m d))); iexact Hi
    isplitl [HtD HtA HtB]
    · iapply (share_three (F := F) (tok L) (v1Loc d) (tabT m d)).2
      isplitl [HtD]; · iexact HtD
      isplitl [HtA]; · iapply (Entails.of_eq (pts_t (F := F) d L (shareTokN (tok L) 0) (tabT m d))); iexact HtA
      iapply (Entails.of_eq (pts_t (F := F) d L (shareTokN (tok L) 1) (tabT m d))); iexact HtB
    · iapply (Entails.of_eq (show iprop(rowDone m d L ⟨TR - 1, by omega⟩ ∗ bigSep (belowIdx 13 (TR - 1)) (rowDone m d L))
          = bigSep Finset.univ (fun t : Fin 13 => v2Loc d ↦[rowSet (qOf (L 0).val (L 1).val t.val)]{fullShare} OUT m d) from by
            rw [← bigSep_below_last (rowDone m d L) (TR - 1) (by omega), belowIdx_all (by omega)]; rfl))
      isplitl [Hrow]; · iexact Hrow
      iexact Hdone
  isplitl [HsI HsO HsA HsB Hbufs]
  · isplitl [HsI]; · iexists gI; iexact HsI
    isplitl [HsO]; · iexists gO; iexact HsO
    isplitl [HsA]; · iexists gA; iexact HsA
    isplitl [HsB]; · iexists gB; iexact HsB
    iexact Hbufs
  isplitl [HsemA HsemB HsemO HsemI Hsems]
  · isplitl [HsemA]; · iexact HsemA
    isplitl [HsemB]; · iexact HsemB
    isplitl [HsemO]; · iexact HsemO
    isplitl [HsemI]; · iexact HsemI
    iexact Hsems
  iexists (insert ((SemLoc.dma cc0_scratch6.sem : SemLoc sig), (default : HIx 1)) W'); isplitr
  · ipureintro; intro p hp
    rcases Finset.mem_insert.mp hp with hp | hp
    · exact .inr (hp ▸ rfl)
    · exact hW' p hp
  · iexact HO

end Task

end Cert.Proof.KI

end
-- ==== Proof.CommonB.lean ====
/-
  The embedding lookup `out[b, f, :] = tables[f, indices[b, f], :]` as 32 vector-subcore tasks: what every module of the
  idealized kernel's proof shares. Task `(c, s)` (SparseCore `c`, subcore `s`) owns the thirteen consecutive (field,
  column) pairs `q = 13 (2 s + c) + t`, `t < 13`; for pair `q = 16 f + e` it stages the transposed table's row `(f, e)`
  in two halves, gathers it at the indices of field `f` and writes row `(f, e)` of the transposed result. Here: the
  arrays' contents when the call is made (the host's two transposes of the arguments), the transposed result as ONE
  function of them, the rows of the result as sets, and what a task is handed and hands back.
-/
import proofs.«207324_g17738214933191_cont_8to1_1167_12_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«207324_g17738214933191_cont_8to1_1167_12_alg».proof.Proof.Gen.Kernel
import proofs.«207324_g17738214933191_cont_8to1_1167_12_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The arguments (indices `[4096, 26]`, tables `[26, 100000, 16]`), their transposes (`[26, 4096]`, `[26, 16, 100000]`),
    the call's result (`[26, 16, 4096]`) and its transpose (`[4096, 26, 16]`), as locations of device `d`. -/
abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)

variable [FloatOps F]

/-- The host's three transposes. -/
abbrev opI : HloOp τ sig (Elt F) :=
  StableHlo.unary main_arg0 main_v0 ((transpose S26x4096 [1, 0] · transposes_S4096x26_S26x4096_1_0) : (⟨S4096x26, .i32⟩ : BufTy).Contents (Elt F) → (⟨S26x4096, .i32⟩ : BufTy).Contents (Elt F))
abbrev opT : HloOp τ sig (Elt F) :=
  StableHlo.unary main_arg1 main_v1 ((transpose S26x16x100000 [0, 2, 1] · transposes_S26x100000x16_S26x16x100000_0_2_1) : (⟨S26x100000x16, .f32⟩ : BufTy).Contents (Elt F) → (⟨S26x16x100000, .f32⟩ : BufTy).Contents (Elt F))
abbrev opO : HloOp τ sig (Elt F) :=
  StableHlo.unary main_v2 main_v3 ((transpose S4096x26x16 [2, 0, 1] · transposes_S26x16x4096_S4096x26x16_2_0_1) : (⟨S26x16x4096, .f32⟩ : BufTy).Contents (Elt F) → (⟨S4096x26x16, .f32⟩ : BufTy).Contents (Elt F))

/-- The launch valuation of device `d`, and the valuation when the call is made: both transposes done. -/
def W0 (d : Dev nD) : Valuation τ sig (Elt F) := fun b => m (d, b)
def W2 (d : Dev nD) : Valuation τ sig (Elt F) := (opT (F := F)).result ((opI (F := F)).result (W0 m d))

/-- The transposed indices `[26, 4096]` and the transposed tables `[26, 16, 100000]` when the call is made. -/
def idxT (d : Dev nD) : Buf (Elt F) (v0Loc d) := W2 m d r0'
def tabT (d : Dev nD) : Buf (Elt F) (v1Loc d) := W2 m d r1'

/-- The call's result `[26, 16, 4096]` as ONE function of those: entry `(f, e, b)` is entry `(f, e, i)` of the transposed
    tables at `i` the index of field `f` in sample `b` (read as a natural number, capped at the last row: under the
    precondition it is a row). -/
def OUT (d : Dev nD) : Buf (Elt F) (v2Loc d) := fun j =>
  tabT m d (ValueIdx.ix3 (n0 := 26) (n1 := 16) (n2 := 100000) (j 0) (j 1)
    ⟨min (idxT m d (ValueIdx.ix2 (n0 := 26) (n1 := 4096) (j 0) (j 2))).toNat 99999, by omega⟩)

/-- The valuation after the call, and the program's result `[4096, 26, 16]`. -/
def W3 (d : Dev nD) : Valuation τ sig (Elt F) := Function.update (W2 m d) r2' (OUT m d)
def RES (d : Dev nD) : Buf (Elt F) (v3Loc d) := (opO (F := F)).result (W3 m d) r3'

/-- What the proof asks of the launch memory: every index names a row of its table. -/
def PreOK : Prop := ∀ (d : Dev nD) (j : S26x4096.Idx), (idxT m d j).toNat ≤ 99999

/-! ## Rows of the result, and what a task holds -/

/-- Row `q = 16 f + e` of the `[26, 16, 4096]` result: the entries `(f, e, ·)`. -/
def rowSet (q : ℕ) : Finset S26x16x4096.Idx := Finset.univ.filter fun j => (j 0).val * 16 + (j 1).val = q

/-- The first pair of task `(c, s)`, and its `t`-th. -/
abbrev qOf (c s t : ℕ) : ℕ := 13 * (2 * s + c) + t

/-- A task's read shares of the two transposed arrays: token `s + 16 c` of thirty-two. -/
abbrev tokOf (c s : ℕ) : PosShare TreeShare := shareTokN fullShare (s + 16 * c)

/-- What task `(c, s)` is handed: a read share of the transposed indices and of the transposed tables, and its thirteen
    rows of the result at their launch contents; -/
def tileIn (d : Dev nD) (c s : ℕ) : sProp 𝕄 :=
  iprop((v0Loc d ↦{tokOf c s} idxT m d) ∗ (v1Loc d ↦{tokOf c s} tabT m d)
    ∗ bigSep Finset.univ fun t : Fin 13 => v2Loc d ↦[rowSet (qOf c s t.val)]{fullShare} m (v2Loc d))
/-- what it hands back: the shares, and the rows at the result. -/
def tileOut (d : Dev nD) (c s : ℕ) : sProp 𝕄 :=
  iprop((v0Loc d ↦{tokOf c s} idxT m d) ∗ (v1Loc d ↦{tokOf c s} tabT m d)
    ∗ bigSep Finset.univ fun t : Fin 13 => v2Loc d ↦[rowSet (qOf c s t.val)]{fullShare} OUT m d)

instance tileIn_storable (d : Dev nD) (c s : ℕ) : BI.Storable (upEmb : UEmb _ 𝕄) (tileIn m d c s) := by unfold tileIn; infer_instance
instance tileOut_storable (d : Dev nD) (c s : ℕ) : BI.Storable (upEmb : UEmb _ 𝕄) (tileOut m d c s) := by unfold tileOut; infer_instance

/-- The call hands SparseCore `c` its sixteen tasks' holdings and takes back what they hand back. -/
def P : (K (F := F)).Pay (nD := nD) (Val := Elt F) (Name := ℕ) (U := UU) where
  st := fun q d c => bigSep Finset.univ fun i : Fin ((K (F := F)).nSub q) => tileIn m d c.val i.val
  dn := fun q d c => bigSep Finset.univ fun i : Fin ((K (F := F)).nSub q) => tileOut m d c.val i.val
  go := fun _ d c i => tileIn m d c.val i.val
  td := fun _ d c i => tileOut m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.KB

end
-- ==== Proof.TileBaseB.lean ====
/-
  A vector subcore's task: the thread, its four transfer semaphores and four scratch buffers taken out of what the
  subcore owns, and the arrays respelt through the kernel function's own memrefs (the whole transposed indices, tables
  and result; the index scratch, the row scratch, the two half-row scratches).
-/
import proofs.«207324_g17738214933191_cont_8to1_1167_12_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev semA (L : grid0.Coords) : GSem nD τ sig := (thr d L, .dma cc0_scratch4.sem)
abbrev semB (L : grid0.Coords) : GSem nD τ sig := (thr d L, .dma cc0_scratch5.sem)
abbrev semO (L : grid0.Coords) : GSem nD τ sig := (thr d L, .dma cc0_scratch6.sem)
abbrev semI (L : grid0.Coords) : GSem nD τ sig := (thr d L, .dma cc0_scoped0.sem)

omit [FloatOps F] in
theorem ownSems0_V :
    (ownSems0 (thr d L) : sProp 𝕄)
      = iprop(semVal (semA d L) 0 ∗ semVal (semB d L) 0 ∗ semVal (semO d L) 0 ∗ semVal (semI d L) 0
          ∗ bigSep (((((ownCells (thr d L)).erase (semA d L)).erase (semB d L)).erase (semO d L)).erase (semI d L)) fun g => semVal g 0) := by
  unfold SparseCore.Cfg.ownSems0
  rw [SparseCore.bigSep_erase' ((mem_ownCells (g := semA d L)).mpr ⟨rfl, by
      show (SemLoc.dma cc0_scratch4.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch5.sem : SemLoc sig).isScoped .scVector = true; decide⟩⟩),
    SparseCore.bigSep_erase' (Finset.mem_erase.mpr ⟨by simp [semB, semO]; decide, Finset.mem_erase.mpr ⟨by simp [semA, semO]; decide,
      (mem_ownCells (g := semO d L)).mpr ⟨rfl, by show (SemLoc.dma cc0_scratch6.sem : SemLoc sig).isScoped .scVector = true; decide⟩⟩⟩),
    SparseCore.bigSep_erase' (Finset.mem_erase.mpr ⟨by simp [semO, semI]; decide, Finset.mem_erase.mpr ⟨by simp [semB, semI]; decide, Finset.mem_erase.mpr ⟨by simp [semA, semI]; decide,
      (mem_ownCells (g := semI d L)).mpr ⟨rfl, by show (SemLoc.dma cc0_scoped0.sem : SemLoc sig).isScoped .scVector = true; decide⟩⟩⟩⟩)]

omit [FloatOps F] in
/-- The four scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide),
      Finset.mem_erase.mpr ⟨fun e => absurd (Proc.devRef_injective _ e) (show (cc0_scratch3 : Ref sig .scVector) ≠ cc0_scratch1 by decide),
      Finset.mem_erase.mpr ⟨fun e => absurd (Proc.devRef_injective _ e) (show (cc0_scratch3 : Ref sig .scVector) ≠ cc0_scratch0 by decide),
    SparseCore.Cfg.mem_ownRefs_of_owner (p := Proc.scVector (cV L) (jV L)) (b := (Proc.scVector (cV L) (jV L)).devRef cc0_scratch3) rfl⟩⟩⟩)]

omit [FloatOps F] in
theorem pts_i (q : PosShare TreeShare) (f : Buf (Elt F) (v0Loc d)) :
    ((iW).view.loc (thr d L) ↦{q} f : sProp 𝕄) = v0Loc d ↦{q} f := by
  simp only [Memref.view_whole, View.set_whole]
omit [FloatOps F] in
theorem pts_t (q : PosShare TreeShare) (f : Buf (Elt F) (v1Loc d)) :
    ((tW).view.loc (thr d L) ↦{q} f : sProp 𝕄) = v1Loc d ↦{q} f := by
  simp only [Memref.view_whole, View.set_whole]
omit [FloatOps F] in
theorem pts_sI (f : Buf (Elt F) ((thr d L).loc cc0_scratch0)) :
    ((sI).view.loc (thr d L) ↦{fullShare} f : sProp 𝕄) = (thr d L).loc cc0_scratch0 ↦{fullShare} f := rfl
omit [FloatOps F] in
theorem pts_sO (f : Buf (Elt F) ((thr d L).loc cc0_scratch1)) :
    ((sO).view.loc (thr d L) ↦{fullShare} f : sProp 𝕄) = (thr d L).loc cc0_scratch1 ↦{fullShare} f := rfl
omit [FloatOps F] in
theorem pts_sA (f : Buf (Elt F) ((thr d L).loc cc0_scratch2)) :
    ((sA).view.loc (thr d L) ↦{fullShare} f : sProp 𝕄) = (thr d L).loc cc0_scratch2 ↦{fullShare} f := rfl
omit [FloatOps F] in
theorem pts_sB (f : Buf (Elt F) ((thr d L).loc cc0_scratch3)) :
    ((sB).view.loc (thr d L) ↦{fullShare} f : sProp 𝕄) = (thr d L).loc cc0_scratch3 ↦{fullShare} f := rfl

omit [FloatOps F] in
theorem pts_sA_access (f : Buf (Elt F) ((thr d L).loc cc0_scratch2)) :
    (((sA).access (.whole S50176)).loc (thr d L) ↦{fullShare} f : sProp 𝕄) = ((sA).view.loc (thr d L) ↦{fullShare} f) := rfl
omit [FloatOps F] in
theorem pts_sB_access (f : Buf (Elt F) ((thr d L).loc cc0_scratch3)) :
    (((sB).access (.whole S49824)).loc (thr d L) ↦{fullShare} f : sProp 𝕄) = ((sB).view.loc (thr d L) ↦{fullShare} f) := rfl

end Tile

end Cert.Proof.KB

end
-- ==== Proof.OffsetsB.lean ====
/-
  The integer chains of the embedding lookup's vector-subcore body in closed form. Task `(c, s)` starts at pair
  `q0 = 26 s + 13 c`; in trip `t` it handles pair `q = q0 + t`, field `f = q / 16`, column `e = q % 16`. Every
  slice the body takes starts at `(f, e, 0)` or `(f, e, 50176)` of the pair it names: the current pair, the next one
  (staged ahead, in all trips but the last), the first one (staged before the loop) or the last one (awaited after it).
  Each chain takes finitely many values (32 tasks, 13 trips), so each closed form is checked at every one of them.
-/
import proofs.«207324_g17738214933191_cont_8to1_1167_12_alg».proof.Proof.CommonB
import Idealize.ShloMosaic.Lib.Decide

set_option synthInstance.maxSize 4096
set_option Elab.async false

noncomputable section

namespace Cert.Proof.KB

open Cert.Kernel Cert.Kernel.Gen
open Idealize.ShloMosaic

/-- The first pair of the task at grid point `L` (`L 0` the core, `L 1` the subcore). -/
abbrev q0 (L : grid0.Coords) : ℕ := 26 * (L 1).val + 13 * (L 0).val

theorem q0_eq_qOf (L : grid0.Coords) (t : ℕ) : q0 L + t = qOf (L 0).val (L 1).val t := by
  unfold q0 qOf; omega

theorem trips_eq : k0_t1_loop.trips = 13 := by decide +kernel

theorem q0_le (L : grid0.Coords) : q0 L ≤ 403 := by
  have h0 : (L 0).val < 2 := (L 0).isLt
  have h1 : (L 1).val < 16 := (L 1).isLt
  unfold q0; omega

theorem t_lt (t : Fin k0_t1_loop.trips) : t.val < 13 := trips_eq ▸ t.isLt

/-! ## Before and after the loop -/

theorem off1_eq : ∀ L : grid0.Coords, k0_off1 L = ![q0 L / 16, q0 L % 16, 0] := by decide +kernel
theorem off2_eq : ∀ L : grid0.Coords, k0_off2 L = ![q0 L / 16, q0 L % 16, 50176] := by decide +kernel
theorem off20_eq : ∀ L : grid0.Coords, k0_off20 L = ![(q0 L + 12) / 16, (q0 L + 12) % 16, 0] := by decide +kernel

/-! ## The branch conditions of a trip -/

theorem cond1_iff : ∀ t : Fin k0_t1_loop.trips, k0_cond1 t = 1#1 ↔ 0 < t.val := by decide +kernel
theorem cond3_iff : ∀ t : Fin k0_t1_loop.trips, k0_cond3 t = 1#1 ↔ t.val < 12 := by decide +kernel
theorem cond4_iff : ∀ t : Fin k0_t1_loop.trips, k0_cond4 t = 1#1 ↔ t.val < 12 := by decide +kernel

/-! ## The current pair of a trip -/

theorem off3_eq : ∀ (L : grid0.Coords) (t : Fin k0_t1_loop.trips),
    k0_off3 L t = ![(q0 L + t.val) / 16, (q0 L + t.val) % 16, 0] := by decide +kernel
theorem off4_eq : ∀ (L : grid0.Coords) (t : Fin k0_t1_loop.trips),
    k0_off4 L t = ![(q0 L + t.val) / 16, 0] := by decide +kernel
theorem off5_eq : ∀ (L : grid0.Coords) (t : Fin k0_t1_loop.trips),
    k0_off5 L t = ![(q0 L + t.val) / 16, (q0 L + t.val) % 16, 0] := by decide +kernel
theorem off12_eq : ∀ (L : grid0.Coords) (t : Fin k0_t1_loop.trips),
    k0_off12 L t = ![(q0 L + t.val) / 16, (q0 L + t.val) % 16, 50176] := by decide +kernel
theorem off19_eq : ∀ (L : grid0.Coords) (t : Fin k0_t1_loop.trips),
    k0_off19 L t = ![(q0 L + t.val) / 16, (q0 L + t.val) % 16, 0] := by decide +kernel

/-! ## The next pair of a trip (the chains compute it in every trip; the body uses it in all but the last) -/

theorem off11_eq : ∀ (L : grid0.Coords) (t : Fin k0_t1_loop.trips),
    k0_off11 L t = ![(q0 L + t.val + 1) / 16, (q0 L + t.val + 1) % 16, 0] := by decide +kernel
theorem off18_eq : ∀ (L : grid0.Coords) (t : Fin k0_t1_loop.trips),
    k0_off18 L t = ![(q0 L + t.val + 1) / 16, (q0 L + t.val + 1) % 16, 50176] := by decide +kernel

/-! ## The scalars a trip hands on -/

/-- The task's first pair as the body computes it: `(2 s + c) * 13` in 32-bit words. -/
def v2w (L : grid0.Coords) : BitVec 32 :=
  Scalar.muli (Scalar.addi (Scalar.muli (BitVec.ofNat 32 (L 1).val) 2#32) (BitVec.ofNat 32 (L 0).val)) 13#32

/-- The field of the trip's pair as the body computes it: the floor division of `v2 + t` by 16. -/
def fieldW (v2 : BitVec 32) (t : ℕ) : BitVec 32 :=
  let arg12 : BitVec 32 := Scf.iv 0#32 1#32 t
  let v57 : BitVec 32 := Scalar.addi v2 arg12
  let c16_i32_24 : BitVec 32 := 16#32
  let v58 : BitVec 32 := Scalar.divsi v57 c16_i32_24
  let c0_i32_25 : BitVec 32 := 0#32
  let v59 : BitVec 1 := Scalar.cmpi .sgt v57 c0_i32_25
  let v60 : BitVec 32 := Scalar.extui v59
  let c0_i32_26 : BitVec 32 := 0#32
  let v61 : BitVec 1 := Scalar.cmpi .slt v57 c0_i32_26
  let v62 : BitVec 32 := Scalar.extui v61
  let v63 : BitVec 32 := Scalar.subi v60 v62
  let c0_i32_27 : BitVec 32 := 0#32
  let v64 : BitVec 1 := Scalar.cmpi .sgt c16_i32_24 c0_i32_27
  let v65 : BitVec 32 := Scalar.extui v64
  let c0_i32_28 : BitVec 32 := 0#32
  let v66 : BitVec 1 := Scalar.cmpi .slt c16_i32_24 c0_i32_28
  let v67 : BitVec 32 := Scalar.extui v66
  let v68 : BitVec 32 := Scalar.subi v65 v67
  let v69 : BitVec 1 := Scalar.cmpi .ne v63 v68
  let v70 : BitVec 32 := Scalar.remsi v57 c16_i32_24
  let c0_i32_29 : BitVec 32 := 0#32
  let v71 : BitVec 1 := Scalar.cmpi .ne v70 c0_i32_29
  let v72 : BitVec 1 := Scalar.andi v69 v71
  let c1_i32_30 : BitVec 32 := 1#32
  let v73 : BitVec 32 := Scalar.subi v58 c1_i32_30
  Scalar.select v72 v73 v58

theorem fieldW_eq : ∀ (L : grid0.Coords) (t : Fin k0_t1_loop.trips),
    fieldW (v2w L) t.val = BitVec.ofNat 32 ((q0 L + t.val) / 16) := by decide +kernel

variable {F : FTy → Type} [FloatOps F]

/-- The scalar part of a trip's region performs no memory operation: it returns the induction variable, the field of
    the trip's pair, and whether this is a later trip than the first. -/
theorem part2_eq' (L : grid0.Coords) (a2 : Memref sig .scVector .hbm S26x4096 .i32) (h2 : a2.IsWhole)
    (a3 : Memref sig .scVector .hbm S26x16x100000 .f32) (h3 : a3.IsWhole)
    (a4 : Memref sig .scVector .hbm S26x16x4096 .f32) (h4 : a4.IsWhole)
    (a5 : Memref sig .scVector .vmem S4096 .i32) (h5 : a5.IsWhole)
    (a6 : Memref sig .scVector .vmem S4096 .f32) (h6 : a6.IsWhole)
    (a7 : Memref sig .scVector .vmem S50176 .f32) (h7 : a7.IsWhole)
    (a8 : Memref sig .scVector .vmem S49824 .f32) (h8 : a8.IsWhole)
    (s9 s10 s11 s0 : DmaSems sig S_) (v2 : BitVec 32) (t : Fin k0_t1_loop.trips) :
    k0_part2 (F := F) L a2 h2 a3 h3 a4 h4 a5 h5 a6 h6 a7 h7 a8 h8 s9 s10 s11 s0 v2 0#32 1#32 t
      = pure ⟨Scf.iv 0#32 1#32 t, fieldW v2 t.val, Scalar.cmpi .sgt (Scf.iv 0#32 1#32 t) 0#32⟩ := rfl

theorem part2_eq (L : grid0.Coords) (a2 : Memref sig .scVector .hbm S26x4096 .i32) (h2 : a2.IsWhole)
    (a3 : Memref sig .scVector .hbm S26x16x100000 .f32) (h3 : a3.IsWhole)
    (a4 : Memref sig .scVector .hbm S26x16x4096 .f32) (h4 : a4.IsWhole)
    (a5 : Memref sig .scVector .vmem S4096 .i32) (h5 : a5.IsWhole)
    (a6 : Memref sig .scVector .vmem S4096 .f32) (h6 : a6.IsWhole)
    (a7 : Memref sig .scVector .vmem S50176 .f32) (h7 : a7.IsWhole)
    (a8 : Memref sig .scVector .vmem S49824 .f32) (h8 : a8.IsWhole)
    (s9 s10 s11 s0 : DmaSems sig S_) (t : Fin k0_t1_loop.trips) :
    k0_part2 (F := F) L a2 h2 a3 h3 a4 h4 a5 h5 a6 h6 a7 h7 a8 h8 s9 s10 s11 s0 (v2w L) 0#32 1#32 t
      = pure ⟨Scf.iv 0#32 1#32 t, BitVec.ofNat 32 ((q0 L + t.val) / 16), Scalar.cmpi .sgt (Scf.iv 0#32 1#32 t) 0#32⟩ := by
  rw [part2_eq', fieldW_eq]

/-! ## Comparing the field across trips -/

theorem field_lt (L : grid0.Coords) (t : Fin k0_t1_loop.trips) : (q0 L + t.val) / 16 < 26 := by
  have := q0_le L; have := t_lt t; omega

theorem ofNat32_inj {a b : ℕ} (ha : a < 4294967296) (hb : b < 4294967296) :
    BitVec.ofNat 32 a = BitVec.ofNat 32 b ↔ a = b := by
  constructor
  · intro h
    have := congrArg BitVec.toNat h
    simp only [BitVec.toNat_ofNat] at this
    rwa [Nat.mod_eq_of_lt (by omega), Nat.mod_eq_of_lt (by omega)] at this
  · intro h; rw [h]

/-- The field of a pair is never the word the loop starts from (`-1`). -/
theorem field_ne_init (L : grid0.Coords) (t : Fin k0_t1_loop.trips) :
    BitVec.ofNat 32 ((q0 L + t.val) / 16) ≠ 4294967295#32 := by
  have h := field_lt L t
  intro e
  have := (ofNat32_inj (a := (q0 L + t.val) / 16) (b := 4294967295) (by omega) (by omega)).1 e
  omega

/-- Two consecutive pairs' fields are equal as words exactly when they are equal. -/
theorem field_eq_prev_iff (L : grid0.Coords) (t : Fin k0_t1_loop.trips) :
    (BitVec.ofNat 32 ((q0 L + t.val) / 16) = BitVec.ofNat 32 ((q0 L + t.val - 1) / 16))
      ↔ ((q0 L + t.val) / 16 = (q0 L + t.val - 1) / 16) := by
  have h := field_lt L t
  exact ofNat32_inj (by omega) (by omega)

end Cert.Proof.KB

end
-- ==== Proof.ViewsB.lean ====
/-
  The memrefs the embedding lookup's vector-subcore body slices out of its three arrays in HBM: a slice of a whole array
  at a unit-stride `1 × 1 × n` (or `1 × n`) rectangle, squeezed to a vector of `n` entries. Entry `j` of such a
  vector sits at the rectangle's offsets plus `(0, 0, j)`; the `1 × 1 × 4096` block at `(f, e, 0)` of the result is
  its row `16 f + e`. With the closed forms of the printed offsets this names every memref of the body by the pair it
  belongs to.
-/
import proofs.«207324_g17738214933191_cont_8to1_1167_12_alg».proof.Proof.OffsetsB

noncomputable section

namespace Cert.Proof.KB

open Cert.Kernel Cert.Kernel.Gen
open Idealize.ShloMosaic
open Idealize.ShloMosaic.ValueIdx (ix1 ix2 ix3)

/-! ## Dropping leading axes of size one -/

/-- A vector's index seen as an index of the `1 × 1 × n` block it was squeezed from: `(0, 0, j)`. -/
theorem squeeze3 {n : ℕ} (h : (⟨1, ![n]⟩ : Shape).numel = (⟨3, ![1, 1, n]⟩ : Shape).numel) (j : (⟨1, ![n]⟩ : Shape).Idx) :
    ((Shape.reshapeEquiv h j) 0).val = 0 ∧ ((Shape.reshapeEquiv h j) 1).val = 0
      ∧ ((Shape.reshapeEquiv h j) 2).val = (j 0).val := by
  have h0 : ((Shape.reshapeEquiv h j) 0).val < 1 := (Shape.reshapeEquiv h j 0).isLt
  have h1 : ((Shape.reshapeEquiv h j) 1).val < 1 := (Shape.reshapeEquiv h j 1).isLt
  have e := Shape.rowMajor_reshapeEquiv h j
  rw [Shape.rowMajor_val_three, Shape.rowMajor_val_one] at e
  have e0 : ((Shape.reshapeEquiv h j) 0).val = 0 := by omega
  have e1 : ((Shape.reshapeEquiv h j) 1).val = 0 := by omega
  rw [e0, e1] at e
  refine ⟨e0, e1, ?_⟩
  simpa using e

/-- The same for a `1 × n` block: `(0, j)`. -/
theorem squeeze2 {n : ℕ} (h : (⟨1, ![n]⟩ : Shape).numel = (⟨2, ![1, n]⟩ : Shape).numel) (j : (⟨1, ![n]⟩ : Shape).Idx) :
    ((Shape.reshapeEquiv h j) 0).val = 0 ∧ ((Shape.reshapeEquiv h j) 1).val = (j 0).val := by
  have h0 : ((Shape.reshapeEquiv h j) 0).val < 1 := (Shape.reshapeEquiv h j 0).isLt
  have e := Shape.rowMajor_reshapeEquiv h j
  rw [Shape.rowMajor_val_two, Shape.rowMajor_val_one] at e
  have e0 : ((Shape.reshapeEquiv h j) 0).val = 0 := by omega
  rw [e0] at e
  refine ⟨e0, ?_⟩
  simpa using e

/-- Where entry `j` of the squeezed `1 × 1 × n` block at `(f, e, base)` of a rank-three array sits: `(f, e, base + j)`. -/
theorem emb3 {d0 d1 d2 n : ℕ} {off : Fin 3 → ℕ}
    {inb : ∀ a, off a + (⟨3, ![1, 1, n]⟩ : Shape).size a ≤ (⟨3, ![d0, d1, d2]⟩ : Shape).size a}
    (h : (⟨1, ![n]⟩ : Shape).numel = (⟨3, ![1, 1, n]⟩ : Shape).numel) (j : (⟨1, ![n]⟩ : Shape).Idx)
    {f e base : ℕ} (ho : off = ![f, e, base]) (hf : f < d0) (he : e < d1) (c : Fin d2) (hc : c.val = base + (j 0).val) :
    (Rect.unit (s := ⟨3, ![d0, d1, d2]⟩) off (⟨3, ![1, 1, n]⟩ : Shape).size inb).emb (Shape.reshapeEquiv h j)
      = ix3 ⟨f, hf⟩ ⟨e, he⟩ c := by
  obtain ⟨e0, e1, e2⟩ := squeeze3 h j
  subst ho
  funext a
  apply Fin.ext
  rw [Rect.emb_apply]
  match a with
  | ⟨0, _⟩ => simpa using e0
  | ⟨1, _⟩ => simpa using e1
  | ⟨2, _⟩ => simpa [hc] using e2

/-- Where entry `j` of the squeezed `1 × n` block at `(f, base)` of a matrix sits: `(f, base + j)`. -/
theorem emb2 {d0 d1 n : ℕ} {off : Fin 2 → ℕ}
    {inb : ∀ a, off a + (⟨2, ![1, n]⟩ : Shape).size a ≤ (⟨2, ![d0, d1]⟩ : Shape).size a}
    (h : (⟨1, ![n]⟩ : Shape).numel = (⟨2, ![1, n]⟩ : Shape).numel) (j : (⟨1, ![n]⟩ : Shape).Idx)
    {f base : ℕ} (ho : off = ![f, base]) (hf : f < d0) (c : Fin d1) (hc : c.val = base + (j 0).val) :
    (Rect.unit (s := ⟨2, ![d0, d1]⟩) off (⟨2, ![1, n]⟩ : Shape).size inb).emb (Shape.reshapeEquiv h j)
      = ix2 ⟨f, hf⟩ c := by
  obtain ⟨e0, e1⟩ := squeeze2 h j
  subst ho
  funext a
  apply Fin.ext
  rw [Rect.emb_apply]
  match a with
  | ⟨0, _⟩ => simpa using e0
  | ⟨1, _⟩ => simpa [hc] using e1

/-- A squeezed slice of a whole array places its entries where the slice's rectangle does, -/
theorem view_emb_eq (b : Ref sig .scVector) (r : Rect b.ty.shape) (hr : ∀ a, r.stride a = 1) (S' : Shape)
    (hsq : r.shape.Squeezes S') (j : S'.Idx) :
    (((Memref.whole b).slice r hr).squeeze S' hsq).view.emb j = r.emb (Shape.reshapeEquiv hsq.numel_eq j) := rfl

/-- and holds exactly the rectangle's entries. -/
theorem view_set_eq (b : Ref sig .scVector) (r : Rect b.ty.shape) (hr : ∀ a, r.stride a = 1) (S' : Shape)
    (hsq : r.shape.Squeezes S') :
    (((Memref.whole b).slice r hr).squeeze S' hsq).view.set = r.set :=
  (View.set_reshape (v := (View.whole b).slice r) hsq.numel_eq).trans (View.set_slice_whole b r)

/-- Slices at equal offsets are the same memref. -/
theorem sliceSq_congr (b : Ref sig .scVector) {off off' : Fin b.ty.shape.rank → ℕ} (size : Fin b.ty.shape.rank → ℕ)
    (inb : ∀ a, off a + size a ≤ b.ty.shape.size a) (inb' : ∀ a, off' a + size a ≤ b.ty.shape.size a) (S' : Shape)
    (hsq : (⟨b.ty.shape.rank, size⟩ : Shape).Squeezes S') (ho : off = off') :
    ((Memref.whole b).slice (Rect.unit off size inb) (fun _ => rfl)).squeeze S' hsq
      = ((Memref.whole b).slice (Rect.unit off' size inb') (fun _ => rfl)).squeeze S' hsq := by
  subst ho; rfl

/-- The `1 × 1 × 4096` block at `(f, e, 0)` of the `[26, 16, 4096]` array is its row `16 f + e`. -/
theorem unit_set_row {off : Fin 3 → ℕ} {inb : ∀ a, off a + S1x1x4096.size a ≤ S26x16x4096.size a} {f e : ℕ}
    (ho : off = ![f, e, 0]) (he : e < 16) :
    (Rect.unit (s := S26x16x4096) off S1x1x4096.size inb).set = rowSet (16 * f + e) := by
  subst ho
  ext i
  rw [Rect.mem_set_unit]
  unfold rowSet
  simp only [Finset.mem_filter, Finset.mem_univ, true_and, Fin.forall_fin_succ, Fin.forall_fin_zero_pi]
  have h1 : (i 1).val < 16 := (i 1).isLt
  have h2 : (i 2).val < 4096 := (i 2).isLt
  simp
  omega

/-! ## The memrefs the body slices, at the printed offsets -/

/-- Trip `t`'s pair, low and high half of its row of the transposed tables. -/
abbrev tabLo (L : grid0.Coords) (t : Fin k0_t1_loop.trips) : Memref sig .scVector .hbm S50176 .f32 :=
  ((Memref.whole main_v1_scv).slice (Rect.unit (s := S26x16x100000) (k0_off5 L t) S1x1x50176.size (k0_off5_inb L t)) (fun _ => rfl)).squeeze S50176 squeezes_S1x1x50176_S50176
abbrev tabHi (L : grid0.Coords) (t : Fin k0_t1_loop.trips) : Memref sig .scVector .hbm S49824 .f32 :=
  ((Memref.whole main_v1_scv).slice (Rect.unit (s := S26x16x100000) (k0_off12 L t) S1x1x49824.size (k0_off12_inb L t)) (fun _ => rfl)).squeeze S49824 squeezes_S1x1x49824_S49824
/-- The first pair's halves, staged before the loop. -/
abbrev tabLo0 (L : grid0.Coords) : Memref sig .scVector .hbm S50176 .f32 :=
  ((Memref.whole main_v1_scv).slice (Rect.unit (s := S26x16x100000) (k0_off1 L) S1x1x50176.size (k0_off1_inb L)) (fun _ => rfl)).squeeze S50176 squeezes_S1x1x50176_S50176
abbrev tabHi0 (L : grid0.Coords) : Memref sig .scVector .hbm S49824 .f32 :=
  ((Memref.whole main_v1_scv).slice (Rect.unit (s := S26x16x100000) (k0_off2 L) S1x1x49824.size (k0_off2_inb L)) (fun _ => rfl)).squeeze S49824 squeezes_S1x1x49824_S49824
/-- The next pair's halves, staged ahead in all trips but the last. -/
abbrev tabLoN (L : grid0.Coords) (t : Fin k0_t1_loop.trips) (h3 : k0_cond3 t = 1#1) : Memref sig .scVector .hbm S50176 .f32 :=
  ((Memref.whole main_v1_scv).slice (Rect.unit (s := S26x16x100000) (k0_off11 L t) S1x1x50176.size (k0_off11_inb L t h3)) (fun _ => rfl)).squeeze S50176 squeezes_S1x1x50176_S50176
abbrev tabHiN (L : grid0.Coords) (t : Fin k0_t1_loop.trips) (h4 : k0_cond4 t = 1#1) : Memref sig .scVector .hbm S49824 .f32 :=
  ((Memref.whole main_v1_scv).slice (Rect.unit (s := S26x16x100000) (k0_off18 L t) S1x1x49824.size (k0_off18_inb L t h4)) (fun _ => rfl)).squeeze S49824 squeezes_S1x1x49824_S49824
/-- The indices of trip `t`'s field. -/
abbrev idxRow (L : grid0.Coords) (t : Fin k0_t1_loop.trips) : Memref sig .scVector .hbm S4096 .i32 :=
  ((Memref.whole main_v0_scv).slice (Rect.unit (s := S26x4096) (k0_off4 L t) S1x4096.size (k0_off4_inb L t)) (fun _ => rfl)).squeeze S4096 squeezes_S1x4096_S4096
/-- Trip `t`'s row of the result: as written, as awaited at the start of a later trip, and as awaited after the loop. -/
abbrev outRow (L : grid0.Coords) (t : Fin k0_t1_loop.trips) : Memref sig .scVector .hbm S4096 .f32 :=
  ((Memref.whole main_v2_scv).slice (Rect.unit (s := S26x16x4096) (k0_off19 L t) S1x1x4096.size (k0_off19_inb L t)) (fun _ => rfl)).squeeze S4096 squeezes_S1x1x4096_S4096
abbrev outRowW (L : grid0.Coords) (t : Fin k0_t1_loop.trips) (h1 : k0_cond1 t = 1#1) : Memref sig .scVector .hbm S4096 .f32 :=
  ((Memref.whole main_v2_scv).slice (Rect.unit (s := S26x16x4096) (k0_off3 L t) S1x1x4096.size (k0_off3_inb L t h1)) (fun _ => rfl)).squeeze S4096 squeezes_S1x1x4096_S4096
abbrev outRowZ (L : grid0.Coords) : Memref sig .scVector .hbm S4096 .f32 :=
  ((Memref.whole main_v2_scv).slice (Rect.unit (s := S26x16x4096) (k0_off20 L) S1x1x4096.size (k0_off20_inb L)) (fun _ => rfl)).squeeze S4096 squeezes_S1x1x4096_S4096

/-! ### Coordinates in range -/

theorem col_lt (q : ℕ) : q % 16 < 16 := Nat.mod_lt _ (by omega)
theorem lo_lt (j : S50176.Idx) : (j 0).val < 100000 := by have : (j 0).val < 50176 := (j 0).isLt; omega
theorem hi_lt (j : S49824.Idx) : 50176 + (j 0).val < 100000 := by have : (j 0).val < 49824 := (j 0).isLt; omega
theorem b_lt (j : S4096.Idx) : (j 0).val < 4096 := (j 0).isLt
theorem field0_lt (L : grid0.Coords) : q0 L / 16 < 26 := by have := q0_le L; omega
theorem field12_lt (L : grid0.Coords) : (q0 L + 12) / 16 < 26 := by have := q0_le L; omega
theorem fieldN_lt (L : grid0.Coords) (t : Fin k0_t1_loop.trips) (h : t.val < 12) : (q0 L + t.val + 1) / 16 < 26 := by
  have := q0_le L; omega

/-! ### Where their entries sit -/

theorem tabLo_emb (L : grid0.Coords) (t : Fin k0_t1_loop.trips) (j : S50176.Idx) :
    (tabLo L t).view.emb j
      = (ix3 ⟨(q0 L + t.val) / 16, field_lt L t⟩ ⟨(q0 L + t.val) % 16, col_lt _⟩ ⟨(j 0).val, lo_lt j⟩ : S26x16x100000.Idx) :=
  emb3 _ j (off5_eq L t) _ _ _ (Nat.zero_add _).symm
theorem tabHi_emb (L : grid0.Coords) (t : Fin k0_t1_loop.trips) (j : S49824.Idx) :
    (tabHi L t).view.emb j
      = (ix3 ⟨(q0 L + t.val) / 16, field_lt L t⟩ ⟨(q0 L + t.val) % 16, col_lt _⟩ ⟨50176 + (j 0).val, hi_lt j⟩ : S26x16x100000.Idx) :=
  emb3 _ j (off12_eq L t) _ _ _ rfl
theorem tabLo0_emb (L : grid0.Coords) (j : S50176.Idx) :
    (tabLo0 L).view.emb j
      = (ix3 ⟨q0 L / 16, field0_lt L⟩ ⟨q0 L % 16, col_lt _⟩ ⟨(j 0).val, lo_lt j⟩ : S26x16x100000.Idx) :=
  emb3 _ j (off1_eq L) _ _ _ (Nat.zero_add _).symm
theorem tabHi0_emb (L : grid0.Coords) (j : S49824.Idx) :
    (tabHi0 L).view.emb j
      = (ix3 ⟨q0 L / 16, field0_lt L⟩ ⟨q0 L % 16, col_lt _⟩ ⟨50176 + (j 0).val, hi_lt j⟩ : S26x16x100000.Idx) :=
  emb3 _ j (off2_eq L) _ _ _ rfl
theorem tabLoN_emb (L : grid0.Coords) (t : Fin k0_t1_loop.trips) (h3 : k0_cond3 t = 1#1) (j : S50176.Idx) :
    (tabLoN L t h3).view.emb j
      = (ix3 ⟨(q0 L + t.val + 1) / 16, fieldN_lt L t ((cond3_iff t).1 h3)⟩ ⟨(q0 L + t.val + 1) % 16, col_lt _⟩ ⟨(j 0).val, lo_lt j⟩ : S26x16x100000.Idx) :=
  emb3 _ j (off11_eq L t) _ _ _ (Nat.zero_add _).symm
theorem tabHiN_emb (L : grid0.Coords) (t : Fin k0_t1_loop.trips) (h4 : k0_cond4 t = 1#1) (j : S49824.Idx) :
    (tabHiN L t h4).view.emb j
      = (ix3 ⟨(q0 L + t.val + 1) / 16, fieldN_lt L t ((cond4_iff t).1 h4)⟩ ⟨(q0 L + t.val + 1) % 16, col_lt _⟩ ⟨50176 + (j 0).val, hi_lt j⟩ : S26x16x100000.Idx) :=
  emb3 _ j (off18_eq L t) _ _ _ rfl
theorem idxRow_emb (L : grid0.Coords) (t : Fin k0_t1_loop.trips) (j : S4096.Idx) :
    (idxRow L t).view.emb j = (ix2 ⟨(q0 L + t.val) / 16, field_lt L t⟩ ⟨(j 0).val, b_lt j⟩ : S26x4096.Idx) :=
  emb2 _ j (off4_eq L t) _ _ (Nat.zero_add _).symm
theorem outRow_emb (L : grid0.Coords) (t : Fin k0_t1_loop.trips) (j : S4096.Idx) :
    (outRow L t).view.emb j
      = (ix3 ⟨(q0 L + t.val) / 16, field_lt L t⟩ ⟨(q0 L + t.val) % 16, col_lt _⟩ ⟨(j 0).val, b_lt j⟩ : S26x16x4096.Idx) :=
  emb3 _ j (off19_eq L t) _ _ _ (Nat.zero_add _).symm

/-! ### Which of them coincide -/

theorem tabLo0_eq (L : grid0.Coords) (t : Fin k0_t1_loop.trips) (ht : t.val = 0) : tabLo0 L = tabLo L t :=
  sliceSq_congr main_v1_scv _ _ _ _ _ (by rw [off1_eq, off5_eq, ht]; rfl)
theorem tabHi0_eq (L : grid0.Coords) (t : Fin k0_t1_loop.trips) (ht : t.val = 0) : tabHi0 L = tabHi L t :=
  sliceSq_congr main_v1_scv _ _ _ _ _ (by rw [off2_eq, off12_eq, ht]; rfl)
theorem tabLoN_eq (L : grid0.Coords) (t : Fin k0_t1_loop.trips) (h3 : k0_cond3 t = 1#1) (t' : Fin k0_t1_loop.trips)
    (ht : t'.val = t.val + 1) : tabLoN L t h3 = tabLo L t' :=
  sliceSq_congr main_v1_scv _ _ _ _ _ (by rw [off11_eq, off5_eq, ht]; rfl)
theorem tabHiN_eq (L : grid0.Coords) (t : Fin k0_t1_loop.trips) (h4 : k0_cond4 t = 1#1) (t' : Fin k0_t1_loop.trips)
    (ht : t'.val = t.val + 1) : tabHiN L t h4 = tabHi L t' :=
  sliceSq_congr main_v1_scv _ _ _ _ _ (by rw [off18_eq, off12_eq, ht]; rfl)
theorem outRowW_eq (L : grid0.Coords) (t : Fin k0_t1_loop.trips) (h1 : k0_cond1 t = 1#1) : outRowW L t h1 = outRow L t :=
  sliceSq_congr main_v2_scv _ _ _ _ _ (by rw [off3_eq, off19_eq])
theorem outRowZ_eq (L : grid0.Coords) (t : Fin k0_t1_loop.trips) (ht : t.val = 12) : outRowZ L = outRow L t :=
  sliceSq_congr main_v2_scv _ _ _ _ _ (by rw [off20_eq, off19_eq, ht])

/-! ### The rows of the result they cover -/

theorem outRow_set (L : grid0.Coords) (t : Fin k0_t1_loop.trips) :
    (outRow L t).view.set = rowSet (qOf (L 0).val (L 1).val t.val) := by
  rw [← q0_eq_qOf, ← Nat.div_add_mod (q0 L + t.val) 16]
  exact (view_set_eq main_v2_scv _ _ _ _).trans (unit_set_row (off19_eq L t) (col_lt _))
theorem outRowW_set (L : grid0.Coords) (t : Fin k0_t1_loop.trips) (h1 : k0_cond1 t = 1#1) :
    (outRowW L t h1).view.set = rowSet (qOf (L 0).val (L 1).val t.val) := by
  rw [← q0_eq_qOf, ← Nat.div_add_mod (q0 L + t.val) 16]
  exact (view_set_eq main_v2_scv _ _ _ _).trans (unit_set_row (off3_eq L t) (col_lt _))
theorem outRowZ_set (L : grid0.Coords) : (outRowZ L).view.set = rowSet (qOf (L 0).val (L 1).val 12) := by
  rw [← q0_eq_qOf, ← Nat.div_add_mod (q0 L + 12) 16]
  exact (view_set_eq main_v2_scv _ _ _ _).trans (unit_set_row (off20_eq L) (col_lt _))

end Cert.Proof.KB

end
-- ==== Proof.SpecB.lean ====
/-
  What the two inner gather loops leave in the staged row, as functions of the staged indices and the two staged
  halves of the table row: the low half read at the index capped at its last entry; then, where the index reaches the
  split, the high half read at the index less the split.
-/
import proofs.«207324_g17738214933191_cont_8to1_1167_12_alg».proof.Proof.CommonB

noncomputable section

namespace Cert.Proof.KB

open Cert.Kernel Cert.Kernel.Gen
open Idealize.ShloMosaic

variable {F : FTy → Type} [FloatOps F]

theorem size_S50176 (a : Fin 1) : S50176.size a = 50176 := by cases Fin.fin_one_eq_zero a; rfl
theorem size_S49824 (a : Fin 1) : S49824.size a = 49824 := by cases Fin.fin_one_eq_zero a; rfl

/-- The gather of the low half: entry `j` is the half's entry at index `j`, capped at its last. -/
def loSpec (gI : IVec S4096 32) (gA : Vec F S50176 .f32) : Vec F S4096 .f32 :=
  fun j => gA (fun a => ⟨min (gI j).toNat 50175, by rw [size_S50176 a]; omega⟩)

/-- The gather of the high half laid over it: where index `j` reaches the split, the high half's entry at the index
    less the split (capped at its last); elsewhere what was there. -/
def hiSpec (gI : IVec S4096 32) (gB : Vec F S49824 .f32) (prev : Vec F S4096 .f32) : Vec F S4096 .f32 :=
  fun j => if 50176 ≤ (gI j).toNat then gB (fun a => ⟨min ((gI j).toNat - 50176) 49823, by rw [size_S49824 a]; omega⟩) else prev j

end Cert.Proof.KB

end
-- ==== Proof.OuterDefsB.lean ====
/-
  The task's loop over its thirteen (field, column) pairs: what the task holds between two pairs, and at the cuts
  inside one pair's work. Pair `t` finds the two halves of its table row in flight (started by the pair before, or
  before the loop), the row of the pair before on its way out, and the index scratch at the field of the pair before.
  It waits for the row before to have left; fetches the field's indices if the field changed; waits for the low half,
  gathers it, starts the next pair's low half; waits for the high half, gathers it over the first, starts the next
  pair's high half; and sends its row out.
-/
import proofs.«207324_g17738214933191_cont_8to1_1167_12_alg».proof.Proof.TileBaseB
import proofs.«207324_g17738214933191_cont_8to1_1167_12_alg».proof.Proof.ViewsB
import proofs.«207324_g17738214933191_cont_8to1_1167_12_alg».proof.Proof.SpecB
import proofs.«207324_g17738214933191_cont_8to1_1167_12_alg».proof.Proof.LibRangePool

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section Outer

variable (d : Dev nD) (L : grid0.Coords) (O : CellTallies nD τ sig (HIx 1)) (W : Waits sig (HIx 1))

/-- The number of pairs of a task. -/
abbrev TR : ℕ := k0_t1_loop.trips
/-- The task's read share of the transposed tables, cut in two: one piece for the low halves' transfers, one for the
    high halves'. -/
abbrev tok (L : grid0.Coords) : PosShare TreeShare := tokOf (L 0).val (L 1).val
abbrev tokA (L : grid0.Coords) : PosShare TreeShare := shareTokN (tok L) 0
abbrev tokB (L : grid0.Coords) : PosShare TreeShare := shareTokN (tok L) 1

/-- What the three staged buffers hold once pair `t`'s transfers have landed. -/
abbrev rdLo (t : Fin TR) : Buf (Elt F) ((thr d L).loc cc0_scratch2) := (tabLo L t).view.read (Elt F) (tabT m d)
abbrev rdHi (t : Fin TR) : Buf (Elt F) ((thr d L).loc cc0_scratch3) := (tabHi L t).view.read (Elt F) (tabT m d)
abbrev rdIx (t : Fin TR) : Buf (Elt F) ((thr d L).loc cc0_scratch0) := (idxRow L t).view.read (Elt F) (idxT m d)

/-- Row `t` of the task's thirteen, not yet written, and written. -/
def rowTodo (t : Fin 13) : sProp 𝕄 := v2Loc d ↦[rowSet (qOf (L 0).val (L 1).val t.val)]{fullShare} m (v2Loc d)
def rowDone (t : Fin 13) : sProp 𝕄 := v2Loc d ↦[rowSet (qOf (L 0).val (L 1).val t.val)]{fullShare} OUT m d

/-- The low half of pair `t`'s table row in flight into its scratch, -/
def flA (t : Fin TR) : sProp 𝕄 :=
  Transfers.Flight countersEmb (thr d L) (SemLoc.dma cc0_scratch4.sem) (default : HIx 1) 1605632
    iprop(((sA).view.loc (thr d L) ↦{fullShare} rdLo m d L t) ∗ ((tW).view.loc (thr d L) ↦[(tabLo L t).view.set]{tokA L} tabT m d))
/-- the high half, -/
def flB (t : Fin TR) : sProp 𝕄 :=
  Transfers.Flight countersEmb (thr d L) (SemLoc.dma cc0_scratch5.sem) (default : HIx 1) 1594368
    iprop(((sB).view.loc (thr d L) ↦{fullShare} rdHi m d L t) ∗ ((tW).view.loc (thr d L) ↦[(tabHi L t).view.set]{tokB L} tabT m d))
/-- and pair `t`'s finished row on its way out of the row scratch. -/
def flO (t : Fin 13) : sProp 𝕄 :=
  Transfers.Flight countersEmb (thr d L) (SemLoc.dma cc0_scratch6.sem) (default : HIx 1) 131072
    iprop(rowDone m d L t ∗ ∃ g, (sO).view.loc (thr d L) ↦{fullShare} g)

/-- The low-half side before pair `k`: its transfer in flight and the rest of that share of the tables; after the last
    pair, the semaphore at zero, the scratch and the share whole. -/
def stA (k : ℕ) : sProp 𝕄 :=
  if h : k < TR then iprop(flA m d L ⟨k, h⟩ ∗ ((tW).view.loc (thr d L) ↦[Finset.univ \ (tabLo L ⟨k, h⟩).view.set]{tokA L} tabT m d))
  else iprop(semVal (semA d L) 0 ∗ (∃ g, (sA).view.loc (thr d L) ↦{fullShare} g) ∗ ((tW).view.loc (thr d L) ↦{tokA L} tabT m d))
def stB (k : ℕ) : sProp 𝕄 :=
  if h : k < TR then iprop(flB m d L ⟨k, h⟩ ∗ ((tW).view.loc (thr d L) ↦[Finset.univ \ (tabHi L ⟨k, h⟩).view.set]{tokB L} tabT m d))
  else iprop(semVal (semB d L) 0 ∗ (∃ g, (sB).view.loc (thr d L) ↦{fullShare} g) ∗ ((tW).view.loc (thr d L) ↦{tokB L} tabT m d))
/-- The row scratch before pair `k`: free before the first, else the row before on its way out. -/
def stO (k : ℕ) : sProp 𝕄 :=
  if h : 0 < k ∧ k - 1 < 13 then flO m d L ⟨k - 1, h.2⟩
  else iprop(semVal (semO d L) 0 ∗ ∃ g, (sO).view.loc (thr d L) ↦{fullShare} g)
/-- The index scratch before pair `k` with the loop's carried field `acc`: before the first pair anything, the
    carried word the sentinel; else the indices of the field of the pair before, the carried word that field. -/
def stI (k : ℕ) (acc : BitVec 32) : sProp 𝕄 :=
  iprop(semVal (semI d L) 0 ∗ ∃ g, ((sI).view.loc (thr d L) ↦{fullShare} g)
    ∗ ⌜(k = 0 ∧ acc = 4294967295#32) ∨ (∃ h : 0 < k ∧ k - 1 < TR, acc = BitVec.ofNat 32 ((q0 L + (k - 1)) / 16) ∧ g = rdIx m d L ⟨k - 1, h.2⟩)⌝)

/-- What the task owes, with the waits it has made recorded. -/
def owesW : sProp 𝕄 := iprop(∃ W', ⌜∀ p ∈ W', p ∈ W ∨ p.2 = none⌝ ∗ owes (thr d L) O W')

/-- Between pairs: before pair `k`, the carried field `acc`. -/
def Inv (k : ℕ) (acc : BitVec 32) : sProp 𝕄 :=
  iprop(Transfers.MayWaits (thr d L) (none : HIx 1) O
    ∗ ((iW).view.loc (thr d L) ↦{tok L} idxT m d)
    ∗ stI m d L k acc ∗ stA m d L k ∗ stB m d L k ∗ stO m d L k
    ∗ bigSep (fromIdx 13 k) (rowTodo m d L) ∗ bigSep (belowIdx 13 (k - 1)) (rowDone m d L)
    ∗ owesW d L O W)

/-! ### The cuts inside pair `t` -/

/-- After the wait for the row before: the row scratch free, the rows before `t` all written. -/
def Cut1 (t : Fin TR) (acc : BitVec 32) : sProp 𝕄 :=
  iprop(Transfers.MayWaits (thr d L) (none : HIx 1) O
    ∗ ((iW).view.loc (thr d L) ↦{tok L} idxT m d)
    ∗ stI m d L t.val acc ∗ stA m d L t.val ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the indices' fetch (if any): the index scratch at pair `t`'s field. -/
def Cut2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L t.val ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the low half's gather and the next low half's start: the row scratch at the low gather. -/
def Cut3 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1) ∗ stB m d L t.val
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)
/-- After the high half's gather and the next high half's start: the row scratch at the pair's row. -/
def Cut4 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1) ∗ stB m d L (t.val + 1)
    ∗ (semVal (semO d L) 0 ∗ ((sO).view.loc (thr d L) ↦{fullShare} hiSpec (rdIx m d L t) (rdHi m d L t) (loSpec (rdIx m d L t) (rdLo m d L t))))
    ∗ bigSep (fromIdx 13 t.val) (rowTodo m d L) ∗ bigSep (belowIdx 13 t.val) (rowDone m d L)
    ∗ owesW d L O W)

end Outer

/-! ### Sequencing -/

section Seq

variable {M : Type} [URA M] {Mask : Type} {E : Type → Type} (Fr : Mask → sProp M) (wpE : Mask → ∀ ⦃β : Type⦄, E β → sWPT M β) (Es : Mask)

/-- A program then its continuation, through a stated cut. -/
theorem wp_seq {α β : Type} {A : Prog E α} {Kk : α → Prog E β} {P : sProp M} (U : α → sProp M) {Q : β → sProp M}
    (hA : P ⊢ wp Fr wpE Es A U) (hK : ∀ a, U a ⊢ wp Fr wpE Es (Kk a) Q) : P ⊢ wp Fr wpE Es (A >>= Kk) Q := by
  rw [wp_bind]; exact hA.trans (wp_mono Fr wpE Es hK)

/-- A conditional by its two arms. -/
theorem wp_ite {α : Type} {c : Prop} [Decidable c] {A B : Prog E α} {P : sProp M} {Q : α → sProp M}
    (hA : c → P ⊢ wp Fr wpE Es A Q) (hB : ¬ c → P ⊢ wp Fr wpE Es B Q) : P ⊢ wp Fr wpE Es (if c then A else B) Q := by
  by_cases h : c
  · rw [if_pos h]; exact hA h
  · rw [if_neg h]; exact hB h
theorem wp_dite {α : Type} {c : Prop} [Decidable c] {A : c → Prog E α} {B : ¬ c → Prog E α} {P : sProp M} {Q : α → sProp M}
    (hA : ∀ h : c, P ⊢ wp Fr wpE Es (A h) Q) (hB : ∀ h : ¬ c, P ⊢ wp Fr wpE Es (B h) Q) : P ⊢ wp Fr wpE Es (dite c A B) Q := by
  by_cases h : c
  · rw [dif_pos h]; exact hA h
  · rw [dif_neg h]; exact hB h

end Seq

end Cert.Proof.KB

end
-- ==== Proof.OuterSegB.lean ====
/-
  One pair's work cut at its conditionals: each conditional's extra transfer, and what follows it, as programs of their
  own. The kernel function's loop body, at the field its first statements compute, is the first of them.
-/
import proofs.«207324_g17738214933191_cont_8to1_1167_12_alg».proof.Proof.Gen.Kernel
import proofs.«207324_g17738214933191_cont_8to1_1167_12_alg».proof.Proof.Gen.Kernel.Skeleton

set_option synthInstance.maxSize 4096

noncomputable section

namespace Cert.Proof.KB

open Cert.Kernel Cert.Kernel.Gen
open Idealize.ShloMosaic Idealize.SL.Sem

variable {F : FTy → Type} [FloatOps F]

set_option cleanup.letToHave false

/-- The last part: the row scratch sent out to the pair's row of the result. -/
noncomputable def segE (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v121 : Memref sig .scVector .hbm S1x1x4096 .f32 := arg4.slice (Rect.unit (s := S26x16x4096) (k0_off19 i k0_t1) S1x1x4096.size (k0_off19_inb i k0_t1)) (fun _ => rfl)
  let v122 : Memref sig .scVector .hbm S4096 .f32 := v121.squeeze S4096 squeezes_S1x1x4096_S4096
  Prog.lift (.enqueueDma arg6 (.here v122) (.dma arg11.sem) harg6.wordExact ((View.wordExact_bits rfl).reshape _ _) ⟨Or.inl rfl, trivial⟩)
  pure v74

/-- The next pair's high half started. -/
noncomputable def armD (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h4 : k0_cond4 k0_t1 = 1#1) : Prog (TpuEff nD τ sig (Elt F) Λ₀ (.scVector ((i 0).castLE hcore0) ((i 1).castLE hsub0))) PUnit :=
  let v125 : Memref sig .scVector .hbm S1x1x49824 .f32 := arg3.slice (Rect.unit (s := S26x16x100000) (k0_off18 i k0_t1) S1x1x49824.size (k0_off18_inb i k0_t1 k0_h4)) (fun _ => rfl)
  let v126 : Memref sig .scVector .hbm S49824 .f32 := v125.squeeze S49824 squeezes_S1x1x49824_S49824
  Prog.lift (.enqueueDma v126 (.here arg8) (.dma arg10.sem) ((View.wordExact_bits rfl).reshape _ _) harg8.wordExact ⟨Or.inl rfl, trivial⟩)

/-- The wait for the high half, its gather, the next pair's high half if there is a next pair, then the last part. -/
noncomputable def segD (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v113 : Memref sig .scVector .hbm S1x1x49824 .f32 := arg3.slice (Rect.unit (s := S26x16x100000) (k0_off12 i k0_t1) S1x1x49824.size (k0_off12_inb i k0_t1)) (fun _ => rfl)
  let v114 : Memref sig .scVector .hbm S49824 .f32 := v113.squeeze S49824 squeezes_S1x1x49824_S49824
  Prog.lift (.waitDma2 arg10.sem v114 arg8 ((View.wordExact_bits rfl).reshape _ _) harg8.wordExact)
  Scf.Loop.for k0_t3_loop k0_t3_ok ⟨⟩ (k0_t3_body i arg2 harg2 arg3 harg3 arg4 harg4 arg5 harg5 arg6 harg6 arg7 harg7 arg8 harg8 arg9 arg10 arg11 v123_r0)
  if k0_h4 : k0_cond4 k0_t1 = 1#1 then do
    armD i arg2 harg2 arg3 harg3 arg4 harg4 arg5 harg5 arg6 harg6 arg7 harg7 arg8 harg8 arg9 arg10 arg11 v123_r0 k0_t1 k0_h4
    segE i arg2 harg2 arg3 harg3 arg4 harg4 arg5 harg5 arg6 harg6 arg7 harg7 arg8 harg8 arg9 arg10 arg11 v123_r0 k0_t1 v74
  else segE i arg2 harg2 arg3 harg3 arg4 harg4 arg5 harg5 arg6 harg6 arg7 harg7 arg8 harg8 arg9 arg10 arg11 v123_r0 k0_t1 v74

/-- The next pair's low half started. -/
noncomputable def armC (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h3 : k0_cond3 k0_t1 = 1#1) : Prog (TpuEff nD τ sig (Elt F) Λ₀ (.scVector ((i 0).castLE hcore0) ((i 1).castLE hsub0))) PUnit :=
  let v125 : Memref sig .scVector .hbm S1x1x50176 .f32 := arg3.slice (Rect.unit (s := S26x16x100000) (k0_off11 i k0_t1) S1x1x50176.size (k0_off11_inb i k0_t1 k0_h3)) (fun _ => rfl)
  let v126 : Memref sig .scVector .hbm S50176 .f32 := v125.squeeze S50176 squeezes_S1x1x50176_S50176
  Prog.lift (.enqueueDma v126 (.here arg7) (.dma arg9.sem) ((View.wordExact_bits rfl).reshape _ _) harg7.wordExact ⟨Or.inl rfl, trivial⟩)

/-- The wait for the low half, its gather, the next pair's low half if there is a next pair, then the high half's part. -/
noncomputable def segC (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 : BitVec 32) : Prog (TpuEff nD τ sig (Elt F) Λ₀ (.scVector ((i 0).castLE hcore0) ((i 1).castLE hsub0))) (BitVec 32) := do
  let v105 : Memref sig .scVector .hbm S1x1x50176 .f32 := arg3.slice (Rect.unit (s := S26x16x100000) (k0_off5 i k0_t1) S1x1x50176.size (k0_off5_inb i k0_t1)) (fun _ => rfl)
  let v106 : Memref sig .scVector .hbm S50176 .f32 := v105.squeeze S50176 squeezes_S1x1x50176_S50176
  Prog.lift (.waitDma2 arg9.sem v106 arg7 ((View.wordExact_bits rfl).reshape _ _) harg7.wordExact)
  Scf.Loop.for k0_t2_loop k0_t2_ok ⟨⟩ (k0_t2_body i arg2 harg2 arg3 harg3 arg4 harg4 arg5 harg5 arg6 harg6 arg7 harg7 arg8 harg8 arg9 arg10 arg11 v123_r0)
  if k0_h3 : k0_cond3 k0_t1 = 1#1 then do
    armC i arg2 harg2 arg3 harg3 arg4 harg4 arg5 harg5 arg6 harg6 arg7 harg7 arg8 harg8 arg9 arg10 arg11 v123_r0 k0_t1 k0_h3
    segD i arg2 harg2 arg3 harg3 arg4 harg4 arg5 harg5 arg6 harg6 arg7 harg7 arg8 harg8 arg9 arg10 arg11 v123_r0 k0_t1 v74
  else segD i arg2 harg2 arg3 harg3 arg4 harg4 arg5 harg5 arg6 harg6 arg7 harg7 arg8 harg8 arg9 arg10 arg11 v123_r0 k0_t1 v74

/-- The field's indices fetched into the index scratch, and waited for. -/
noncomputable def armB (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) : Prog (TpuEff nD τ sig (Elt F) Λ₀ (.scVector ((i 0).castLE hcore0) ((i 1).castLE hsub0))) PUnit := do
  let v126_r0 : Memref sig .scVector .hbm S1x4096 .i32 := arg2.slice (Rect.unit (s := S26x4096) (k0_off4 i k0_t1) S1x4096.size (k0_off4_inb i k0_t1)) (fun _ => rfl)
  let v127_r0 : Memref sig .scVector .hbm S4096 .i32 := v126_r0.squeeze S4096 squeezes_S1x4096_S4096
  Prog.lift (.enqueueDma v127_r0 (.here arg5) (.dma v123_r0.sem) ((View.wordExact_bits rfl).reshape _ _) harg5.wordExact ⟨Or.inl rfl, trivial⟩)
  let v130_r0 : Memref sig .scVector .hbm S1x4096 .i32 := arg2.slice (Rect.unit (s := S26x4096) (k0_off4 i k0_t1) S1x4096.size (k0_off4_inb i k0_t1)) (fun _ => rfl)
  let v131_r0 : Memref sig .scVector .hbm S4096 .i32 := v130_r0.squeeze S4096 squeezes_S1x4096_S4096
  Prog.lift (.waitDma2 v123_r0.sem v131_r0 arg5 ((View.wordExact_bits rfl).reshape _ _) harg5.wordExact)

/-- The fetch of the indices if the pair's field `v74` is not the carried one, then the low half's part. -/
noncomputable def segB (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 arg13 : BitVec 32) : Prog (TpuEff nD τ sig (Elt F) Λ₀ (.scVector ((i 0).castLE hcore0) ((i 1).castLE hsub0))) (BitVec 32) :=
  let v100 : BitVec 1 := Scalar.cmpi .ne v74 arg13
  let v101 : BitVec 32 := Scalar.extui v100
  let v102 : BitVec 1 := Scalar.cmpi .ne v101 0#32
  if v102 = 1#1 then do
    armB i arg2 harg2 arg3 harg3 arg4 harg4 arg5 harg5 arg6 harg6 arg7 harg7 arg8 harg8 arg9 arg10 arg11 v123_r0 k0_t1
    segC i arg2 harg2 arg3 harg3 arg4 harg4 arg5 harg5 arg6 harg6 arg7 harg7 arg8 harg8 arg9 arg10 arg11 v123_r0 k0_t1 v74
  else segC i arg2 harg2 arg3 harg3 arg4 harg4 arg5 harg5 arg6 harg6 arg7 harg7 arg8 harg8 arg9 arg10 arg11 v123_r0 k0_t1 v74

/-- The wait for the row of the pair before to have left the row scratch. -/
noncomputable def armA (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (k0_h1 : k0_cond1 k0_t1 = 1#1) : Prog (TpuEff nD τ sig (Elt F) Λ₀ (.scVector ((i 0).castLE hcore0) ((i 1).castLE hsub0))) PUnit :=
  let v125 : Memref sig .scVector .hbm S1x1x4096 .f32 := arg4.slice (Rect.unit (s := S26x16x4096) (k0_off3 i k0_t1) S1x1x4096.size (k0_off3_inb i k0_t1 k0_h1)) (fun _ => rfl)
  let v126 : Memref sig .scVector .hbm S4096 .f32 := v125.squeeze S4096 squeezes_S1x1x4096_S4096
  Prog.lift (.waitDma2 arg11.sem arg6 v126 harg6.wordExact ((View.wordExact_bits rfl).reshape _ _))

/-- That wait unless the pair is the first, then the indices' part. -/
noncomputable def segA (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (k0_t1 : Fin k0_t1_loop.trips) (v74 arg13 : BitVec 32) : Prog (TpuEff nD τ sig (Elt F) Λ₀ (.scVector ((i 0).castLE hcore0) ((i 1).castLE hsub0))) (BitVec 32) :=
  if k0_h1 : k0_cond1 k0_t1 = 1#1 then do
    armA i arg2 harg2 arg3 harg3 arg4 harg4 arg5 harg5 arg6 harg6 arg7 harg7 arg8 harg8 arg9 arg10 arg11 v123_r0 k0_t1 k0_h1
    segB i arg2 harg2 arg3 harg3 arg4 harg4 arg5 harg5 arg6 harg6 arg7 harg7 arg8 harg8 arg9 arg10 arg11 v123_r0 k0_t1 v74 arg13
  else segB i arg2 harg2 arg3 harg3 arg4 harg4 arg5 harg5 arg6 harg6 arg7 harg7 arg8 harg8 arg9 arg10 arg11 v123_r0 k0_t1 v74 arg13

set_option maxRecDepth 65536 in
/-- The loop's body is its first statements' tuple handed to the first segment at the field they compute. -/
theorem t1_body_eq (i : grid0.Coords) (arg2 : Memref sig .scVector .hbm S26x4096 .i32) (harg2 : arg2.IsWhole) (arg3 : Memref sig .scVector .hbm S26x16x100000 .f32) (harg3 : arg3.IsWhole) (arg4 : Memref sig .scVector .hbm S26x16x4096 .f32) (harg4 : arg4.IsWhole) (arg5 : Memref sig .scVector .vmem S4096 .i32) (harg5 : arg5.IsWhole) (arg6 : Memref sig .scVector .vmem S4096 .f32) (harg6 : arg6.IsWhole) (arg7 : Memref sig .scVector .vmem S50176 .f32) (harg7 : arg7.IsWhole) (arg8 : Memref sig .scVector .vmem S49824 .f32) (harg8 : arg8.IsWhole) (arg9 : DmaSems sig S_) (arg10 : DmaSems sig S_) (arg11 : DmaSems sig S_) (v123_r0 : DmaSems sig S_) (v2 : BitVec 32) (k0_t1 : Fin k0_t1_loop.trips) (arg13 : BitVec 32) :
    k0_t1_body (F := F) i arg2 harg2 arg3 harg3 arg4 harg4 arg5 harg5 arg6 harg6 arg7 harg7 arg8 harg8 arg9 arg10 arg11 v123_r0 v2 k0_t1 arg13
      = (k0_part2 (F := F) i arg2 harg2 arg3 harg3 arg4 harg4 arg5 harg5 arg6 harg6 arg7 harg7 arg8 harg8 arg9 arg10 arg11 v123_r0 v2 0#32 1#32 k0_t1 >>= fun p => segA (F := F) i arg2 harg2 arg3 harg3 arg4 harg4 arg5 harg5 arg6 harg6 arg7 harg7 arg8 harg8 arg9 arg10 arg11 v123_r0 k0_t1 p.2.1 arg13) := rfl

end Cert.Proof.KB

end
-- ==== Proof.OuterStmtB.lean ====
/-
  The segments of one pair's work at the kernel function's own arguments (the whole arrays, the four scratches, the
  four transfer semaphores), and the pair's field as a word.
-/
import proofs.«207324_g17738214933191_cont_8to1_1167_12_alg».proof.Proof.OuterDefsB
import proofs.«207324_g17738214933191_cont_8to1_1167_12_alg».proof.Proof.OuterSegB
import proofs.«207324_g17738214933191_cont_8to1_1167_12_alg».proof.Proof.OffsetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section Stmt

variable (L : grid0.Coords)

/-- Pair `t`'s field as the loop carries it. -/
abbrev fld (t : Fin TR) : BitVec 32 := BitVec.ofNat 32 ((q0 L + t.val) / 16)

abbrev SEGA (t : Fin TR) (v74 acc : BitVec 32) : Prog (TpuEff nD τ sig (Elt F) Λ₀ (.scVector ((L 0).castLE hcore0) ((L 1).castLE hsub0))) (BitVec 32) := segA (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74 acc
abbrev SEGB (t : Fin TR) (v74 acc : BitVec 32) : Prog (TpuEff nD τ sig (Elt F) Λ₀ (.scVector ((L 0).castLE hcore0) ((L 1).castLE hsub0))) (BitVec 32) := segB (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74 acc
abbrev SEGC (t : Fin TR) (v74 : BitVec 32) : Prog (TpuEff nD τ sig (Elt F) Λ₀ (.scVector ((L 0).castLE hcore0) ((L 1).castLE hsub0))) (BitVec 32) := segC (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev SEGD (t : Fin TR) (v74 : BitVec 32) : Prog (TpuEff nD τ sig (Elt F) Λ₀ (.scVector ((L 0).castLE hcore0) ((L 1).castLE hsub0))) (BitVec 32) := segD (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev SEGE (t : Fin TR) (v74 : BitVec 32) : Prog (TpuEff nD τ sig (Elt F) Λ₀ (.scVector ((L 0).castLE hcore0) ((L 1).castLE hsub0))) (BitVec 32) := segE (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t v74
abbrev ARMA (t : Fin TR) (h : k0_cond1 t = 1#1) : Prog (TpuEff nD τ sig (Elt F) Λ₀ (.scVector ((L 0).castLE hcore0) ((L 1).castLE hsub0))) PUnit := armA (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h
abbrev ARMB (t : Fin TR) : Prog (TpuEff nD τ sig (Elt F) Λ₀ (.scVector ((L 0).castLE hcore0) ((L 1).castLE hsub0))) PUnit := armB (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t
abbrev ARMC (t : Fin TR) (h : k0_cond3 t = 1#1) : Prog (TpuEff nD τ sig (Elt F) Λ₀ (.scVector ((L 0).castLE hcore0) ((L 1).castLE hsub0))) PUnit := armC (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h
abbrev ARMD (t : Fin TR) (h : k0_cond4 t = 1#1) : Prog (TpuEff nD τ sig (Elt F) Λ₀ (.scVector ((L 0).castLE hcore0) ((L 1).castLE hsub0))) PUnit := armD (F := F) L iW (Memref.isWhole_whole _) tW (Memref.isWhole_whole _) oW (Memref.isWhole_whole _) sI (Memref.isWhole_whole _) sO (Memref.isWhole_whole _) sA (Memref.isWhole_whole _) sB (Memref.isWhole_whole _) cc0_scratch4 cc0_scratch5 cc0_scratch6 cc0_scoped0 t h

end Stmt

end Cert.Proof.KB

end
-- ==== Proof.OuterAB.lean ====
/-
  The start of a pair: unless it is the first, the wait for the row of the pair before to have left the row scratch;
  that row then counts among the written ones.
-/
import proofs.«207324_g17738214933191_cont_8to1_1167_12_alg».proof.Proof.OuterStmtB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section SegA

variable (d : Dev nD) (L : grid0.Coords) (O : CellTallies nD τ sig (HIx 1)) (W : Waits sig (HIx 1))

theorem stO_pos (k : ℕ) (h : 0 < k ∧ k - 1 < 13) : stO m d L k = flO m d L ⟨k - 1, h.2⟩ := by
  unfold stO; rw [dif_pos h]
theorem stO_zero : stO m d L 0 = iprop(semVal (semO d L) 0 ∗ ∃ g, (sO).view.loc (thr d L) ↦{fullShare} g) := by
  unfold stO; rw [dif_neg (by omega)]

theorem segA_arm (t : Fin TR) (acc : BitVec 32) (h1 : k0_cond1 t = 1#1) :
    Inv m d L O W t.val acc ⊢ wp frame (wpE (defs₀ (F := F)) 𝒱₀ (thr d L) none) Set.univ (ARMA (F := F) L t h1) (fun _ => Cut1 m d L O W t acc) := by
  have h0 : 0 < t.val := (cond1_iff t).1 h1
  have h13 := t_lt t
  unfold Inv Cut1 owesW ARMA armA
  rw [stO_pos m d L t.val ⟨h0, by omega⟩]; unfold flO
  iintro ⟨#Hmw, Hi, HI, HstA, HstB, Hfl, Htodo, Hdone, %W', %hW', HO⟩
  ihave Hmw1 := (Transfers.MayWaits.elim (SemLoc.dma cc0_scratch6.sem)) $$ Hmw
  iapply (Transfers.wp_waitLocalO countersEmb 𝒱₀ (thr d L) none (default : HIx 1) (N := 131072) rfl) $$ [Hfl HO Hmw1]
  · isplitl [Hfl]; · iexact Hfl
    isplitl [HO]; · iexact HO
    iexact Hmw1
  iintro ⟨⟨Hrow, HsO⟩, HsemO, HO⟩
  rw [wp_ret]; imodintro
  isplitr; · iexact Hmw
  isplitl [Hi]; · iexact Hi
  isplitl [HI]; · iexact HI
  isplitl [HstA]; · iexact HstA
  isplitl [HstB]; · iexact HstB
  isplitl [HsemO HsO]
  · isplitl [HsemO]; · iexact HsemO
    iexact HsO
  isplitl [Htodo]; · iexact Htodo
  isplitl [Hdone Hrow]
  · rw [show bigSep (belowIdx 13 t.val) (rowDone m d L) = bigSep (belowIdx 13 ((t.val - 1) + 1)) (rowDone m d L) by
        rw [Nat.sub_add_cancel h0], bigSep_below_last (rowDone m d L) (t.val - 1) (by omega)]
    isplitl [Hrow]; · iexact Hrow
    iexact Hdone
  iexists (insert ((SemLoc.dma cc0_scratch6.sem : SemLoc sig), (default : HIx 1)) W'); isplitr
  · ipureintro; intro p hp
    rcases Finset.mem_insert.mp hp with hp | hp
    · exact .inr (hp ▸ rfl)
    · exact hW' p hp
  · iexact HO

theorem inv_first (t : Fin TR) (acc : BitVec 32) (h1 : ¬ k0_cond1 t = 1#1) : Inv m d L O W t.val acc ⊢ Cut1 m d L O W t acc := by
  have h0 : t.val = 0 := by have := mt (cond1_iff t).2 h1; omega
  unfold Inv Cut1
  rw [h0, stO_zero]

/-- The start of pair `t`, given the rest of its work. -/
theorem thA (t : Fin TR) (acc : BitVec 32)
    (hB : Cut1 m d L O W t acc ⊢ wp frame (wpE (defs₀ (F := F)) 𝒱₀ (thr d L) none) Set.univ (SEGB (F := F) L t (fld L t) acc) (Inv m d L O W (t.val + 1))) :
    Inv m d L O W t.val acc ⊢ wp frame (wpE (defs₀ (F := F)) 𝒱₀ (thr d L) none) Set.univ (SEGA (F := F) L t (fld L t) acc) (Inv m d L O W (t.val + 1)) := by
  unfold SEGA segA
  refine wp_dite _ _ _ (fun h1 => ?_) (fun h1 => ?_)
  · exact wp_seq _ _ _ (fun _ => Cut1 m d L O W t acc) (segA_arm m d L O W t acc h1) (fun _ => hB)
  · exact (inv_first m d L O W t acc h1).trans hB

end SegA

end Cert.Proof.KB

end
-- ==== Proof.OuterBB.lean ====
/-
  One pair's work, the indices' part: if the pair's field is not the one the index scratch holds, the field's row of
  the transposed indices is fetched into the scratch and waited for; if it is, the scratch already holds that row.
  Either way the scratch then holds the indices of the pair's field.
-/
import proofs.«207324_g17738214933191_cont_8to1_1167_12_alg».proof.Proof.OuterStmtB
import proofs.«207324_g17738214933191_cont_8to1_1167_12_alg».proof.Proof.ViewsB
import proofs.«207324_g17738214933191_cont_8to1_1167_12_alg».proof.Proof.OffsetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section OuterB

variable (d : Dev nD) (L : grid0.Coords) (O : CellTallies nD τ sig (HIx 1)) (W : Waits sig (HIx 1))

/-- The fetch: from the cut after the wait for the row before, the index scratch at anything, to the cut with the
    scratch at the pair's field's indices. -/
theorem armB_run (t : Fin TR) (acc : BitVec 32) :
    Cut1 m d L O W t acc ⊢ wp frame (wpE (defs₀ (F := F)) 𝒱₀ (thr d L) none) Set.univ (ARMB (F := F) L t) (fun _ => Cut2 m d L O W t) := by
  unfold Cut1 Cut2 stI owesW ARMB armB
  iintro ⟨#Hmw, Hi, ⟨HsemI, %g, HsI, -⟩, HA, HB, HsO, Htodo, Hdone, %W', %hW', HO⟩
  -- the row of the transposed indices copied into the scratch, and the copy waited for
  sl_exec
  rw [wp_ret, View.write_whole_univ]; imodintro
  isplitr; · iexact Hmw
  isplitl [Hi]; · iexact Hi
  isplitl [HsemI HsI]
  · isplitl [HsemI]; · iexact HsemI
    iexact HsI
  isplitl [HA]; · iexact HA
  isplitl [HB]; · iexact HB
  isplitl [HsO]; · iexact HsO
  isplitl [Htodo]; · iexact Htodo
  isplitl [Hdone]; · iexact Hdone
  iexists (insert ((SemLoc.dma cc0_scoped0.sem : SemLoc sig), (default : HIx 1)) W'); isplitr
  · ipureintro; intro p hp
    rcases Finset.mem_insert.mp hp with rfl | hp
    · exact Or.inr rfl
    · exact hW' p hp
  iexact HO

/-- The word the conditional tests is set exactly when the pair's field is not the carried one. -/
theorem word_of_bit : ∀ c : BitVec 1, Scalar.cmpi .ne (Scalar.extui c) 0#32 = c := by decide
theorem fetch_iff (a b : BitVec 32) : Scalar.cmpi .ne (Scalar.extui (Scalar.cmpi .ne a b)) 0#32 = 1#1 ↔ a ≠ b := by
  rw [word_of_bit]; exact IntOp.cmpi_ne

/-- Two pairs of one field read the same row of the transposed indices. -/
theorem rdIx_congr (t t' : Fin TR) (h : (q0 L + t'.val) / 16 = (q0 L + t.val) / 16) : rdIx m d L t' = rdIx m d L t := by
  have ho : k0_off4 L t' = k0_off4 L t := by rw [off4_eq, off4_eq, h]
  show (((Memref.whole main_v0_scv).slice (Rect.unit (s := S26x4096) (k0_off4 L t') S1x4096.size (k0_off4_inb L t')) (fun _ => rfl)).squeeze S4096 squeezes_S1x4096_S4096).view.read (Elt F) (idxT m d)
    = (((Memref.whole main_v0_scv).slice (Rect.unit (s := S26x4096) (k0_off4 L t) S1x4096.size (k0_off4_inb L t)) (fun _ => rfl)).squeeze S4096 squeezes_S1x4096_S4096).view.read (Elt F) (idxT m d)
  generalize k0_off4_inb L t' = i1
  generalize k0_off4_inb L t = i2
  revert i1 i2
  rw [ho]
  intro i1 i2; rfl

/-- No fetch: the carried field is the pair's, so the scratch holds the pair's field's indices already. -/
theorem keepB (t : Fin TR) (acc : BitVec 32) (he : fld L t = acc) : Cut1 m d L O W t acc ⊢ Cut2 m d L O W t := by
  unfold Cut1 Cut2 stI
  iintro ⟨#Hmw, Hi, ⟨HsemI, %g, HsI, %hg⟩, HA, HB, HsO, Htodo, Hdone, HO⟩
  have hgt : g = rdIx m d L t := by
    rcases hg with ⟨_, h0⟩ | ⟨h, hacc, hg⟩
    · exact absurd (he.trans h0) (field_ne_init L t)
    · have hf : (q0 L + t.val) / 16 = (q0 L + t.val - 1) / 16 := (field_eq_prev_iff L t).1 (by
        rw [show q0 L + t.val - 1 = q0 L + (t.val - 1) by omega]; exact he.trans hacc)
      rw [hg]
      exact rdIx_congr m d L t ⟨t.val - 1, h.2⟩ (by show (q0 L + (t.val - 1)) / 16 = _; rw [hf]; congr 1; omega)
  subst hgt
  isplitr; · iexact Hmw
  isplitl [Hi]; · iexact Hi
  isplitl [HsemI HsI]
  · isplitl [HsemI]; · iexact HsemI
    iexact HsI
  isplitl [HA]; · iexact HA
  isplitl [HB]; · iexact HB
  isplitl [HsO]; · iexact HsO
  isplitl [Htodo]; · iexact Htodo
  isplitl [Hdone]; · iexact Hdone
  iexact HO

/-- The indices' part of pair `t`'s work, then the rest of the pair (`hC`). -/
theorem thB (t : Fin TR) (acc : BitVec 32)
    (hC : Cut2 m d L O W t ⊢ wp frame (wpE (defs₀ (F := F)) 𝒱₀ (thr d L) none) Set.univ (SEGC (F := F) L t (fld L t)) (Inv m d L O W (t.val + 1))) :
    Cut1 m d L O W t acc ⊢ wp frame (wpE (defs₀ (F := F)) 𝒱₀ (thr d L) none) Set.univ (SEGB (F := F) L t (fld L t) acc) (Inv m d L O W (t.val + 1)) := by
  unfold SEGB segB
  refine wp_ite _ _ _ (fun _ => ?_) (fun hc => ?_)
  · exact wp_seq _ _ _ (fun _ => Cut2 m d L O W t) (armB_run m d L O W t acc) (fun _ => hC)
  · have he : fld L t = acc := by
      by_contra hne
      exact hc ((fetch_iff _ _).2 hne)
    exact (keepB m d L O W t acc he).trans hC

end OuterB

end Cert.Proof.KB

end
-- ==== Proof.LanesB.lean ====
/-
  The body's pure payloads, lane by lane. The staged table row is held in two halves, entries 0 … 50175 and
  50176 … 99999; for an index word v in range the body reads the first half at min(v, 50175), the second half at
  max(v − 50176, 0), and keeps the second reading exactly when v ≥ 50176. Here: those three words as natural
  numbers, that both readings are inside their halves, and each payload at a lane.
-/
import proofs.«207324_g17738214933191_cont_8to1_1167_12_alg».proof.Proof.CommonB
import Idealize.ShloMosaic.Lib.Affine
import Idealize.ShloMosaic.Lib.ValueIdx

noncomputable section

namespace Cert.Proof.KB

open Cert.Kernel Cert.Kernel.Gen
open Idealize.ShloMosaic Idealize.ShloMosaic.ValueIdx

/-! ## The words -/

/-- The signed minimum with 50175 of a word in range is the minimum of the numbers. -/
theorem lo_word (v : BitVec 32) (hv : v.toNat ≤ 99999) : (IntOp.minsi v 50175#32).toNat = min v.toNat 50175 := by
  unfold IntOp.minsi
  by_cases h : v.toNat < 50175
  · have hs : v.slt 50175#32 = true := by
      rw [BitVec.slt_iff_toInt_lt]
      simp only [BitVec.toInt_eq_toNat_cond, BitVec.toNat_ofNat, Nat.reducePow, Nat.reduceMod]
      omega
    rw [if_pos hs]; omega
  · have hs : ¬ v.slt 50175#32 = true := by
      rw [BitVec.slt_iff_toInt_lt]
      simp only [BitVec.toInt_eq_toNat_cond, BitVec.toNat_ofNat, Nat.reducePow, Nat.reduceMod]
      omega
    rw [if_neg hs]
    show 50175 % 2 ^ 32 = _
    omega

/-- The signed maximum with 0 of a word in range less 50176 is the truncated difference of the numbers. -/
theorem hi_word (v : BitVec 32) (hv : v.toNat ≤ 99999) :
    (IntOp.maxsi (IntOp.subi v 50176#32) 0#32).toNat = v.toNat - 50176 := by
  unfold IntOp.maxsi IntOp.subi
  have hx : (v - 50176#32).toNat = (2 ^ 32 - 50176 + v.toNat) % 2 ^ 32 := by
    rw [BitVec.toNat_sub]; rfl
  by_cases h : 50176 < v.toNat
  · have hs : (0#32 : BitVec 32).slt (v - 50176#32) = true := by
      rw [BitVec.slt_iff_toInt_lt]
      simp only [BitVec.toInt_eq_toNat_cond, hx, BitVec.toNat_ofNat, Nat.reducePow, Nat.reduceMod, Nat.zero_mod]
      omega
    rw [if_pos hs, hx]; omega
  · have hs : ¬ (0#32 : BitVec 32).slt (v - 50176#32) = true := by
      rw [BitVec.slt_iff_toInt_lt]
      simp only [BitVec.toInt_eq_toNat_cond, hx, BitVec.toNat_ofNat, Nat.reducePow, Nat.reduceMod, Nat.zero_mod]
      omega
    rw [if_neg hs]
    show 0 % 2 ^ 32 = _
    omega

/-- The signed test v ≥ 50176 of a word in range is the test of the numbers. -/
theorem ge_word (v : BitVec 32) (hv : v.toNat ≤ 99999) : IntOp.cmpi .sge v 50176#32 = 1#1 ↔ 50176 ≤ v.toNat := by
  rw [IntOp.cmpi_sge]
  simp only [BitVec.toInt_eq_toNat_cond, BitVec.toNat_ofNat, Nat.reducePow, Nat.reduceMod]
  omega

variable {F : FTy → Type} [FloatOps F]

/-! ## The index vectors name entries of their halves -/

/-- A vector of first-half readings min(v, 50175) names entries of the 50176-long half. -/
theorem lo_inb (v w : IVec S16 32) (hv : ∀ x, (v x).toNat ≤ 99999) (hw : ∀ x, w x = IntOp.minsi (v x) 50175#32) :
    ∀ a x, ((![w] : Fin 1 → IVec S16 32) a x).toNat < S50176.size a := by
  intro a x
  match a with
  | ⟨0, _⟩ =>
    show (w x).toNat < 50176
    rw [hw x, lo_word _ (hv x)]; omega

/-- A vector of second-half readings max(v − 50176, 0) names entries of the 49824-long half. -/
theorem hi_inb (v w : IVec S16 32) (hv : ∀ x, (v x).toNat ≤ 99999)
    (hw : ∀ x, w x = IntOp.maxsi (IntOp.subi (v x) 50176#32) 0#32) :
    ∀ a x, ((![w] : Fin 1 → IVec S16 32) a x).toNat < S49824.size a := by
  intro a x
  match a with
  | ⟨0, _⟩ =>
    show (w x).toNat < 49824
    rw [hw x, hi_word _ (hv x)]; have := hv x; omega

theorem chk1_pay6 (v : Vec F S16 .i32) (hv : ∀ x, (v x).toNat ≤ 99999) : k0_chk1 (k0_pay6 (F := F) v) :=
  lo_inb v _ hv (fun _ => rfl)
theorem chk2_pay7 (v : Vec F S16 .i32) (hv : ∀ x, (v x).toNat ≤ 99999) : k0_chk2 (k0_pay7 (F := F) v) :=
  lo_inb v _ hv (fun _ => rfl)
theorem chk3_pay8 (v : Vec F S16 .i32) (hv : ∀ x, (v x).toNat ≤ 99999) : k0_chk3 (k0_pay8 (F := F) v) :=
  lo_inb v _ hv (fun _ => rfl)
theorem chk4_pay9 (v : Vec F S16 .i32) (hv : ∀ x, (v x).toNat ≤ 99999) : k0_chk4 (k0_pay9 (F := F) v) :=
  lo_inb v _ hv (fun _ => rfl)
theorem chk5_pay1 (v : Vec F S16 .i32) (hv : ∀ x, (v x).toNat ≤ 99999) : k0_chk5 (k0_pay1 (F := F) v) :=
  hi_inb v _ hv (fun _ => rfl)
theorem chk6_pay3 (v : Vec F S16 .i32) (hv : ∀ x, (v x).toNat ≤ 99999) : k0_chk6 (k0_pay3 (F := F) v) :=
  hi_inb v _ hv (fun _ => rfl)
theorem chk7_pay5 (v : Vec F S16 .i32) (hv : ∀ x, (v x).toNat ≤ 99999) : k0_chk7 (k0_pay5 (F := F) v) :=
  hi_inb v _ hv (fun _ => rfl)
theorem chk8_pay11 (v : Vec F S16 .i32) (hv : ∀ x, (v x).toNat ≤ 99999) : k0_chk8 (k0_pay11 (F := F) v) :=
  hi_inb v _ hv (fun _ => rfl)

/-! ## The indexed loads at a lane -/

/-- The first half read at a vector of readings min(v, 50175): lane x is entry min(v x, 50175). -/
theorem lo_lane_of (g : Vec F S50176 .f32) (v w : IVec S16 32) (hv : ∀ x, (v x).toNat ≤ 99999)
    (hw : ∀ x, w x = IntOp.minsi (v x) 50175#32)
    (h : ∀ a x, ((![w] : Fin 1 → IVec S16 32) a x).toNat < S50176.size a) (x : S16.Idx) :
    loadIdx g ![w] h x = g (ix1 (n := 50176) ⟨min (v x).toNat 50175, by omega⟩) := by
  unfold loadIdx idxAt
  refine congrArg g (funext fun a => Fin.ext ?_)
  match a with
  | ⟨0, _⟩ =>
    show (w x).toNat = min (v x).toNat 50175
    rw [hw x, lo_word _ (hv x)]

/-- The second half read at a vector of readings max(v − 50176, 0): lane x is entry v x − 50176 (entry 0 when
    v x < 50176). -/
theorem hi_lane_of (g : Vec F S49824 .f32) (v w : IVec S16 32) (hv : ∀ x, (v x).toNat ≤ 99999)
    (hw : ∀ x, w x = IntOp.maxsi (IntOp.subi (v x) 50176#32) 0#32)
    (h : ∀ a x, ((![w] : Fin 1 → IVec S16 32) a x).toNat < S49824.size a) (x : S16.Idx) :
    loadIdx g ![w] h x = g (ix1 (n := 49824) ⟨(v x).toNat - 50176, by have := hv x; omega⟩) := by
  unfold loadIdx idxAt
  refine congrArg g (funext fun a => Fin.ext ?_)
  match a with
  | ⟨0, _⟩ =>
    show (w x).toNat = (v x).toNat - 50176
    rw [hw x, hi_word _ (hv x)]

theorem lo_lane6 (g : Vec F S50176 .f32) (v : Vec F S16 .i32) (hv : ∀ x, (v x).toNat ≤ 99999)
    (h : ∀ a x, ((![k0_pay6 (F := F) v] : Fin 1 → IVec S16 32) a x).toNat < S50176.size a) (x : S16.Idx) :
    loadIdx g ![k0_pay6 (F := F) v] h x = g (ix1 (n := 50176) ⟨min (v x).toNat 50175, by omega⟩) :=
  lo_lane_of g v _ hv (fun _ => rfl) h x
theorem lo_lane7 (g : Vec F S50176 .f32) (v : Vec F S16 .i32) (hv : ∀ x, (v x).toNat ≤ 99999)
    (h : ∀ a x, ((![k0_pay7 (F := F) v] : Fin 1 → IVec S16 32) a x).toNat < S50176.size a) (x : S16.Idx) :
    loadIdx g ![k0_pay7 (F := F) v] h x = g (ix1 (n := 50176) ⟨min (v x).toNat 50175, by omega⟩) :=
  lo_lane_of g v _ hv (fun _ => rfl) h x
theorem lo_lane8 (g : Vec F S50176 .f32) (v : Vec F S16 .i32) (hv : ∀ x, (v x).toNat ≤ 99999)
    (h : ∀ a x, ((![k0_pay8 (F := F) v] : Fin 1 → IVec S16 32) a x).toNat < S50176.size a) (x : S16.Idx) :
    loadIdx g ![k0_pay8 (F := F) v] h x = g (ix1 (n := 50176) ⟨min (v x).toNat 50175, by omega⟩) :=
  lo_lane_of g v _ hv (fun _ => rfl) h x
theorem lo_lane9 (g : Vec F S50176 .f32) (v : Vec F S16 .i32) (hv : ∀ x, (v x).toNat ≤ 99999)
    (h : ∀ a x, ((![k0_pay9 (F := F) v] : Fin 1 → IVec S16 32) a x).toNat < S50176.size a) (x : S16.Idx) :
    loadIdx g ![k0_pay9 (F := F) v] h x = g (ix1 (n := 50176) ⟨min (v x).toNat 50175, by omega⟩) :=
  lo_lane_of g v _ hv (fun _ => rfl) h x

theorem hi_lane1 (g : Vec F S49824 .f32) (v : Vec F S16 .i32) (hv : ∀ x, (v x).toNat ≤ 99999)
    (h : ∀ a x, ((![k0_pay1 (F := F) v] : Fin 1 → IVec S16 32) a x).toNat < S49824.size a) (x : S16.Idx) :
    loadIdx g ![k0_pay1 (F := F) v] h x = g (ix1 (n := 49824) ⟨(v x).toNat - 50176, by have := hv x; omega⟩) :=
  hi_lane_of g v _ hv (fun _ => rfl) h x
theorem hi_lane3 (g : Vec F S49824 .f32) (v : Vec F S16 .i32) (hv : ∀ x, (v x).toNat ≤ 99999)
    (h : ∀ a x, ((![k0_pay3 (F := F) v] : Fin 1 → IVec S16 32) a x).toNat < S49824.size a) (x : S16.Idx) :
    loadIdx g ![k0_pay3 (F := F) v] h x = g (ix1 (n := 49824) ⟨(v x).toNat - 50176, by have := hv x; omega⟩) :=
  hi_lane_of g v _ hv (fun _ => rfl) h x
theorem hi_lane5 (g : Vec F S49824 .f32) (v : Vec F S16 .i32) (hv : ∀ x, (v x).toNat ≤ 99999)
    (h : ∀ a x, ((![k0_pay5 (F := F) v] : Fin 1 → IVec S16 32) a x).toNat < S49824.size a) (x : S16.Idx) :
    loadIdx g ![k0_pay5 (F := F) v] h x = g (ix1 (n := 49824) ⟨(v x).toNat - 50176, by have := hv x; omega⟩) :=
  hi_lane_of g v _ hv (fun _ => rfl) h x
theorem hi_lane11 (g : Vec F S49824 .f32) (v : Vec F S16 .i32) (hv : ∀ x, (v x).toNat ≤ 99999)
    (h : ∀ a x, ((![k0_pay11 (F := F) v] : Fin 1 → IVec S16 32) a x).toNat < S49824.size a) (x : S16.Idx) :
    loadIdx g ![k0_pay11 (F := F) v] h x = g (ix1 (n := 49824) ⟨(v x).toNat - 50176, by have := hv x; omega⟩) :=
  hi_lane_of g v _ hv (fun _ => rfl) h x

/-! ## The selects at a lane -/

/-- The select on the test v ≥ 50176, at a lane: the second-half reading when v x ≥ 50176, else the first-half one. -/
theorem sel_word {α : Type} (v : BitVec 32) (hv : v.toNat ≤ 99999) (p q : α) :
    Scalar.select (IntOp.cmpi .sge v 50176#32) p q = if 50176 ≤ v.toNat then p else q := by
  unfold Scalar.select
  by_cases h : 50176 ≤ v.toNat
  · rw [if_pos (show IntOp.cmpi .sge v 50176#32 = 1 from (ge_word v hv).2 h), if_pos h]
  · rw [if_neg (show ¬ IntOp.cmpi .sge v 50176#32 = 1 from fun e => h ((ge_word v hv).1 e)), if_neg h]

theorem sel_lane2 (v : Vec F S16 .i32) (hv : ∀ x, (v x).toNat ≤ 99999) (a b : Vec F S16 .f32) (x : S16.Idx) :
    k0_pay2 (F := F) v a b x = if 50176 ≤ (v x).toNat then a x else b x := sel_word (v x) (hv x) (a x) (b x)
theorem sel_lane4 (v : Vec F S16 .i32) (hv : ∀ x, (v x).toNat ≤ 99999) (a b : Vec F S16 .f32) (x : S16.Idx) :
    k0_pay4 (F := F) v a b x = if 50176 ≤ (v x).toNat then a x else b x := sel_word (v x) (hv x) (a x) (b x)
theorem sel_lane10 (v : Vec F S16 .i32) (hv : ∀ x, (v x).toNat ≤ 99999) (a b : Vec F S16 .f32) (x : S16.Idx) :
    k0_pay10 (F := F) v a b x = if 50176 ≤ (v x).toNat then a x else b x := sel_word (v x) (hv x) (a x) (b x)
theorem sel_lane12 (v : Vec F S16 .i32) (hv : ∀ x, (v x).toNat ≤ 99999) (a b : Vec F S16 .f32) (x : S16.Idx) :
    k0_pay12 (F := F) v a b x = if 50176 ≤ (v x).toNat then a x else b x := sel_word (v x) (hv x) (a x) (b x)

end Cert.Proof.KB

end
-- ==== Proof.InnerB.lean ====
/-
  The two inner gather loops of a trip, as separation-logic lemmas about the subcore's four scratches. The first loop
  reads the staged indices sixteen at a time, gathers the staged low half of the table row at the indices capped at
  the half's last entry and stores the sixteen values in the staged row; the second does the same with the high half
  at the index less the split, keeping the earlier value where the index is below the split. One trip of either loop
  rewrites sixty-four consecutive entries of the staged row; sixty-four trips rewrite all 4096.
-/
import proofs.«207324_g17738214933191_cont_8to1_1167_12_alg».proof.Proof.TileBaseB
import proofs.«207324_g17738214933191_cont_8to1_1167_12_alg».proof.Proof.LanesB
import proofs.«207324_g17738214933191_cont_8to1_1167_12_alg».proof.Proof.SpecB
import Idealize.ShloMosaic.Lib.Writes

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Idealize.ShloMosaic.ValueIdx (ix1)

variable {F : FTy → Type}

local notation "𝕄" => MT nD τ sig (HIx 1) (Elt F) ℕ UU ℕ

variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section Inner

variable (d : Dev nD) (L : grid0.Coords)

omit [FloatOps F] in
theorem readI_le (gI : Buf (Elt F) ((thr d L).loc cc0_scratch0)) (hI : ∀ x, (gI x).toNat ≤ 99999) (off : Fin 1 → Nat) (inb : ∀ a, off a + S16.size a ≤ S4096.size a) :
    ∀ x : S16.Idx, ((sI).view.readAt (Elt F) (Rect.unit (s := S4096) off S16.size inb).toLoadRect gI x).toNat ≤ 99999 :=
  fun x => hI _

/-- An entry of the 4096-long scratch lies in the sixteen-lane rectangle at offset o exactly when its coordinate is
    in [o, o + 16). -/
theorem mem_unit16 (o : Fin 1 → Nat) (inb : ∀ a, o a + S16.size a ≤ S4096.size a) (j : S4096.Idx) :
    j ∈ (Rect.unit (s := S4096) o S16.size inb).set ↔ o 0 ≤ (j 0).val ∧ (j 0).val < o 0 + 16 := by
  rw [Rect.mem_set_unit]
  constructor
  · intro h; exact h 0
  · intro h a
    match a with
    | ⟨0, _⟩ => exact h

/-- Two sixteen-lane rectangles at the same offset place a lane at the same entry. -/
theorem emb_unit16_congr (oI oO : Fin 1 → Nat) (iI : ∀ a, oI a + S16.size a ≤ S4096.size a)
    (iO : ∀ a, oO a + S16.size a ≤ S4096.size a) (hoff : oI 0 = oO 0) (x : S16.Idx) :
    (Rect.unit (s := S4096) oI S16.size iI).emb x = (Rect.unit (s := S4096) oO S16.size iO).emb x := by
  funext a; refine Fin.ext ?_
  match a with
  | ⟨0, _⟩ =>
    show oI 0 + 1 * (x 0).val = oO 0 + 1 * (x 0).val
    rw [hoff]

/-- Four stores of sixteen lanes at offsets 64 k, 64 k + 16, 64 k + 32, 64 k + 48, each of the values of one function
    G of the entry, leave G on [64 k, 64 k + 64) and the earlier contents elsewhere. -/
theorem writes4_val (gO : Buf (Elt F) ((thr d L).loc cc0_scratch1)) (G : S4096.Idx → Elt F .f32) (k : ℕ)
    (o1 o2 o3 o4 : Fin 1 → Nat) (i1 : ∀ a, o1 a + S16.size a ≤ S4096.size a) (i2 : ∀ a, o2 a + S16.size a ≤ S4096.size a)
    (i3 : ∀ a, o3 a + S16.size a ≤ S4096.size a) (i4 : ∀ a, o4 a + S16.size a ≤ S4096.size a)
    (ho1 : o1 0 = 64 * k) (ho2 : o2 0 = 64 * k + 16) (ho3 : o3 0 = 64 * k + 32) (ho4 : o4 0 = 64 * k + 48)
    (w1 w2 w3 w4 : S16.Idx → Elt F .f32)
    (hw1 : ∀ x, w1 x = G ((Rect.unit (s := S4096) o1 S16.size i1).emb x))
    (hw2 : ∀ x, w2 x = G ((Rect.unit (s := S4096) o2 S16.size i2).emb x))
    (hw3 : ∀ x, w3 x = G ((Rect.unit (s := S4096) o3 S16.size i3).emb x))
    (hw4 : ∀ x, w4 x = G ((Rect.unit (s := S4096) o4 S16.size i4).emb x)) (j : S4096.Idx) :
    (sO).view.writes (Elt F) gO
        [⟨Rect.unit (s := S4096) o4 S16.size i4, w4⟩, ⟨Rect.unit (s := S4096) o3 S16.size i3, w3⟩,
         ⟨Rect.unit (s := S4096) o2 S16.size i2, w2⟩, ⟨Rect.unit (s := S4096) o1 S16.size i1, w1⟩] j
      = if 64 * k ≤ (j 0).val ∧ (j 0).val < 64 * k + 64 then G j else gO j := by
  have hr : ∀ g : Buf (Elt F) ((thr d L).loc cc0_scratch1), (sO).view.read (Elt F) g j = g j := fun g => rfl
  refine (hr _).symm.trans ?_
  by_cases h : 64 * k ≤ (j 0).val ∧ (j 0).val < 64 * k + 64
  · rw [if_pos h]
    refine View.read_writes_apply_of_pieces _ _ G _ ?_ j ?_
    · intro p hp x
      simp only [List.mem_cons, List.not_mem_nil, or_false] at hp
      rcases hp with rfl | rfl | rfl | rfl
      · exact hw4 x
      · exact hw3 x
      · exact hw2 x
      · exact hw1 x
    · by_cases h1 : (j 0).val < 64 * k + 16
      · exact ⟨_, List.mem_cons_of_mem _ (List.mem_cons_of_mem _ (List.mem_cons_of_mem _ List.mem_cons_self)),
          (mem_unit16 o1 i1 j).2 (by omega)⟩
      by_cases h2 : (j 0).val < 64 * k + 32
      · exact ⟨_, List.mem_cons_of_mem _ (List.mem_cons_of_mem _ List.mem_cons_self), (mem_unit16 o2 i2 j).2 (by omega)⟩
      by_cases h3 : (j 0).val < 64 * k + 48
      · exact ⟨_, List.mem_cons_of_mem _ List.mem_cons_self, (mem_unit16 o3 i3 j).2 (by omega)⟩
      · exact ⟨_, List.mem_cons_self, (mem_unit16 o4 i4 j).2 (by omega)⟩
  · rw [if_neg h]
    refine (View.read_writes_apply_of_forall_not_mem _ _ j _ ?_).trans rfl
    intro p hp hm
    simp only [List.mem_cons, List.not_mem_nil, or_false] at hp
    rcases hp with rfl | rfl | rfl | rfl
    · rw [mem_unit16] at hm; omega
    · rw [mem_unit16] at hm; omega
    · rw [mem_unit16] at hm; omega
    · rw [mem_unit16] at hm; omega

/-- A gather of the low half at the capped indices read from sixteen lanes of the staged indices is the low-half
    specification at those lanes' entries. -/
theorem lo_piece (gI : Buf (Elt F) ((thr d L).loc cc0_scratch0)) (gA : Buf (Elt F) ((thr d L).loc cc0_scratch2))
    (hI : ∀ x, (gI x).toNat ≤ 99999)
    (oI oO : Fin 1 → Nat) (iI : ∀ a, oI a + S16.size a ≤ S4096.size a) (iO : ∀ a, oO a + S16.size a ≤ S4096.size a)
    (hoff : oI 0 = oO 0) (w : IVec S16 32)
    (hw : ∀ x, w x = IntOp.minsi (gI ((Rect.unit (s := S4096) oI S16.size iI).emb x)) 50175#32)
    (h : ∀ a x, ((![w] : Fin 1 → IVec S16 32) a x).toNat < S50176.size a) (x : S16.Idx) :
    loadIdx (F := F) (e := .f32) gA ![w] h x = loSpec gI gA ((Rect.unit (s := S4096) oO S16.size iO).emb x) := by
  unfold loSpec loadIdx idxAt
  refine congrArg gA (funext fun a => Fin.ext ?_)
  match a with
  | ⟨0, _⟩ =>
    show (w x).toNat = min (gI ((Rect.unit (s := S4096) oO S16.size iO).emb x)).toNat 50175
    rw [hw x, lo_word _ (hI _), emb_unit16_congr oI oO iI iO hoff x]

theorem grp0_trip (k2 : Fin k0_t2_loop.trips) (gI : Buf (Elt F) ((thr d L).loc cc0_scratch0)) (gA : Buf (Elt F) ((thr d L).loc cc0_scratch2))
    (gO : Buf (Elt F) ((thr d L).loc cc0_scratch1)) (hI : ∀ x, (gI x).toNat ≤ 99999) :
    (iprop(((sI).view.loc (thr d L) ↦{fullShare} gI) ∗ ((sA).view.loc (thr d L) ↦{fullShare} gA) ∗ ((sO).view.loc (thr d L) ↦{fullShare} gO)) : sProp 𝕄)
      ⊢ wp frame (wpE (defs₀ (F := F)) 𝒱₀ (thr d L) none) Set.univ
          (k0_t2_body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0 k2 ())
          fun _ => iprop(((sI).view.loc (thr d L) ↦{fullShare} gI) ∗ ((sA).view.loc (thr d L) ↦{fullShare} gA) ∗ ∃ gO', ((sO).view.loc (thr d L) ↦{fullShare} gO')
            ∗ ⌜∀ j : S4096.Idx, gO' j = if 64 * k2.val ≤ (j 0).val ∧ (j 0).val < 64 * k2.val + 64 then loSpec gI gA j else gO j⌝) := by
  unfold k0_t2_body
  iintro ⟨HsI, HsA, HsO⟩
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec (disch := first | exact chk1_pay6 _ (readI_le d L gI hI _ _) | exact chk2_pay7 _ (readI_le d L gI hI _ _) | exact chk3_pay8 _ (readI_le d L gI hI _ _) | exact chk4_pay9 _ (readI_le d L gI hI _ _))
  ihave HsA' := (Entails.of_eq (pts_sA_access (F := F) d L gA).symm) $$ HsA
  iapply (SparseCore.wp_vectorLoadIdx 𝒱₀ (thr d L) none Set.univ (base := (sA)) (S := Finset.univ) (q := fullShare) (Finset.subset_univ _)) $$ HsA'; iintro HsA'
  ihave HsA := (Entails.of_eq (pts_sA_access (F := F) d L gA)) $$ HsA'
  sl_exec
  sl_step
  isplitl [HsI]; · iexact HsI
  isplitl [HsA]; · iexact HsA
  iexists _
  isplitl [HsO]; · iexact HsO
  ipureintro
  intro j
  simp only [Memref.read_access_whole]
  exact writes4_val d L gO (loSpec gI gA) k2.val _ _ _ _ _ _ _ _
    (congrFun (k0_off7_eq k2 0) 0) (congrFun (k0_off8_eq k2 0) 0) (congrFun (k0_off9_eq k2 0) 0) (congrFun (k0_off10_eq k2) 0)
    _ _ _ _
    (fun x => lo_piece d L gI gA hI _ _ _ _ ((congrFun (k0_off6_eq k2) 0).trans (congrFun (k0_off7_eq k2 0) 0).symm) _ (fun _ => rfl) _ x)
    (fun x => lo_piece d L gI gA hI _ _ _ _ ((congrFun (k0_off7_eq k2 1) 0).trans (congrFun (k0_off8_eq k2 0) 0).symm) _ (fun _ => rfl) _ x)
    (fun x => lo_piece d L gI gA hI _ _ _ _ ((congrFun (k0_off8_eq k2 1) 0).trans (congrFun (k0_off9_eq k2 0) 0).symm) _ (fun _ => rfl) _ x)
    (fun x => lo_piece d L gI gA hI _ _ _ _ ((congrFun (k0_off9_eq k2 1) 0).trans (congrFun (k0_off10_eq k2) 0).symm) _ (fun _ => rfl) _ x)
    j

theorem t2_trips : k0_t2_loop.trips = 64 := by decide

/-- Before trip k of the first loop: the staged row holds the low-half gather below entry 64 k. -/
def invLo (gI : Buf (Elt F) ((thr d L).loc cc0_scratch0)) (gA : Buf (Elt F) ((thr d L).loc cc0_scratch2)) (k : ℕ) (_ : Unit) : sProp 𝕄 :=
  iprop(((sI).view.loc (thr d L) ↦{fullShare} gI) ∗ ((sA).view.loc (thr d L) ↦{fullShare} gA)
    ∗ ∃ g, ((sO).view.loc (thr d L) ↦{fullShare} g) ∗ ⌜∀ j : S4096.Idx, (j 0).val < 64 * k → g j = loSpec gI gA j⌝)

theorem grp0_loop (gI : Buf (Elt F) ((thr d L).loc cc0_scratch0)) (gA : Buf (Elt F) ((thr d L).loc cc0_scratch2))
    (gO : Buf (Elt F) ((thr d L).loc cc0_scratch1)) (hI : ∀ x, (gI x).toNat ≤ 99999) :
    (iprop(((sI).view.loc (thr d L) ↦{fullShare} gI) ∗ ((sA).view.loc (thr d L) ↦{fullShare} gA) ∗ ((sO).view.loc (thr d L) ↦{fullShare} gO)) : sProp 𝕄)
      ⊢ wp frame (wpE (defs₀ (F := F)) 𝒱₀ (thr d L) none) Set.univ
          (Scf.Loop.for k0_t2_loop k0_t2_ok ⟨⟩
            (k0_t2_body L iW (Memref.isWhole_whole _) tW (Memref.isWhole_whole _) oW (Memref.isWhole_whole _)
              sI (Memref.isWhole_whole _) sO (Memref.isWhole_whole _) sA (Memref.isWhole_whole _) sB (Memref.isWhole_whole _)
              cc0_scratch4 cc0_scratch5 cc0_scratch6 cc0_scoped0))
          fun _ => iprop(((sI).view.loc (thr d L) ↦{fullShare} gI) ∗ ((sA).view.loc (thr d L) ↦{fullShare} gA) ∗ ∃ gO', ((sO).view.loc (thr d L) ↦{fullShare} gO')
            ∗ ⌜gO' = loSpec gI gA⌝) := by
  iintro ⟨HsI, HsA, HsO⟩
  sl_for (invLo d L gI gA) $$ [HsI HsA HsO]
  case region =>
    intro k acc
    unfold invLo
    iintro ⟨HsI, HsA, %g, HsO, %hg⟩
    iapply (wp_wand_r frame (wpE (defs₀ (F := F)) 𝒱₀ (thr d L) none) Set.univ)
    isplitl [HsI HsA HsO]
    · iapply (grp0_trip d L k gI gA g hI)
      isplitl [HsI]; · iexact HsI
      isplitl [HsA]; · iexact HsA
      iexact HsO
    · iintro %a ⟨HsI, HsA, %g', HsO, %hg'⟩
      isplitl [HsI]; · iexact HsI
      isplitl [HsA]; · iexact HsA
      iexists g'
      isplitl [HsO]; · iexact HsO
      ipureintro
      intro j hj
      rw [hg' j]
      split
      · rfl
      · exact hg j (by omega)
  isplitl [HsI HsA HsO]
  · unfold invLo
    isplitl [HsI]; · iexact HsI
    isplitl [HsA]; · iexact HsA
    iexists gO
    isplitl [HsO]; · iexact HsO
    ipureintro
    intro j hj
    omega
  · iintro %_ HI
    unfold invLo
    icases HI with ⟨HsI, HsA, %g, HsO, %hg⟩
    isplitl [HsI]; · iexact HsI
    isplitl [HsA]; · iexact HsA
    iexists g
    isplitl [HsO]; · iexact HsO
    ipureintro
    funext j
    refine hg j ?_
    have := (j 0).isLt
    have h64 : Scf.trips k0_t2_loop.lb k0_t2_loop.ub k0_t2_loop.st = 64 := t2_trips
    rw [h64]
    exact this

/-- The high-half specification at an entry depends on the earlier contents at that entry only. -/
theorem hiSpec_congr (gI : IVec S4096 32) (gB : Vec F S49824 .f32) (p p' : Vec F S4096 .f32) (j : S4096.Idx) (h : p j = p' j) :
    hiSpec gI gB p j = hiSpec gI gB p' j := by
  unfold hiSpec
  split
  · rfl
  · exact h

/-- One group of the second loop: the select between the gather of the high half at the index less the split and the
    staged row's earlier value, over sixteen lanes of the staged indices, is the high-half specification at those lanes'
    entries. -/
theorem hi_piece (gI : Buf (Elt F) ((thr d L).loc cc0_scratch0)) (gB : Buf (Elt F) ((thr d L).loc cc0_scratch3))
    (gO : Buf (Elt F) ((thr d L).loc cc0_scratch1)) (hI : ∀ x, (gI x).toNat ≤ 99999)
    (oI oO oP : Fin 1 → Nat) (iI : ∀ a, oI a + S16.size a ≤ S4096.size a) (iO : ∀ a, oO a + S16.size a ≤ S4096.size a)
    (iP : ∀ a, oP a + S16.size a ≤ S4096.size a) (hoff : oI 0 = oO 0) (hoffP : oP 0 = oO 0)
    (h : ∀ a x, ((![maxsi (subi ((sI).view.readAt (Elt F) (Rect.unit (s := S4096) oI S16.size iI).toLoadRect gI : IVec S16 32)
        (broadcast S16 50176#32)) (broadcast S16 0#32)] : Fin 1 → IVec S16 32) a x).toNat < S49824.size a)
    (x : S16.Idx) :
    select (cmpi .sge ((sI).view.readAt (Elt F) (Rect.unit (s := S4096) oI S16.size iI).toLoadRect gI : IVec S16 32) (broadcast S16 50176#32))
        (loadIdx (F := F) (e := .f32) (View.read (Elt F) ((sB).access (Rect.whole S49824)) gB)
          ![maxsi (subi ((sI).view.readAt (Elt F) (Rect.unit (s := S4096) oI S16.size iI).toLoadRect gI : IVec S16 32)
            (broadcast S16 50176#32)) (broadcast S16 0#32)] h)
        ((sO).view.readAt (Elt F) (Rect.unit (s := S4096) oP S16.size iP).toLoadRect gO) x
      = hiSpec gI gB gO ((Rect.unit (s := S4096) oO S16.size iO).emb x) := by
  have hB : View.read (Elt F) ((sB).access (Rect.whole S49824)) gB = gB := Memref.read_access_whole (Elt F) cc0_scratch3 gB
  have hvj : gI ((Rect.unit (s := S4096) oI S16.size iI).emb x) = gI ((Rect.unit (s := S4096) oO S16.size iO).emb x) := by
    rw [emb_unit16_congr oI oO iI iO hoff x]
  have hvx : (gI ((Rect.unit (s := S4096) oI S16.size iI).emb x)).toNat ≤ 99999 := hI _
  show Scalar.select (IntOp.cmpi .sge (gI ((Rect.unit (s := S4096) oI S16.size iI).emb x)) 50176#32)
      (loadIdx (F := F) (e := .f32) (View.read (Elt F) ((sB).access (Rect.whole S49824)) gB) _ h x)
      (gO ((Rect.unit (s := S4096) oP S16.size iP).emb x)) = _
  rw [sel_word _ hvx, hB]
  unfold hiSpec
  by_cases hc : 50176 ≤ (gI ((Rect.unit (s := S4096) oI S16.size iI).emb x)).toNat
  · rw [if_pos hc, if_pos (by rw [← hvj]; exact hc)]
    unfold loadIdx idxAt
    refine congrArg gB (funext fun a => Fin.ext ?_)
    match a with
    | ⟨0, _⟩ =>
      show (IntOp.maxsi (IntOp.subi (gI ((Rect.unit (s := S4096) oI S16.size iI).emb x)) 50176#32) 0#32).toNat
        = min ((gI ((Rect.unit (s := S4096) oO S16.size iO).emb x)).toNat - 50176) 49823
      rw [hi_word _ hvx, ← hvj]; omega
  · rw [if_neg hc, if_neg (by rw [← hvj]; exact hc)]
    exact congrArg gO (emb_unit16_congr oP oO iP iO hoffP x)

theorem grp1_trip (k3 : Fin k0_t3_loop.trips) (gI : Buf (Elt F) ((thr d L).loc cc0_scratch0)) (gB : Buf (Elt F) ((thr d L).loc cc0_scratch3))
    (gO : Buf (Elt F) ((thr d L).loc cc0_scratch1)) (hI : ∀ x, (gI x).toNat ≤ 99999) :
    (iprop(((sI).view.loc (thr d L) ↦{fullShare} gI) ∗ ((sB).view.loc (thr d L) ↦{fullShare} gB) ∗ ((sO).view.loc (thr d L) ↦{fullShare} gO)) : sProp 𝕄)
      ⊢ wp frame (wpE (defs₀ (F := F)) 𝒱₀ (thr d L) none) Set.univ
          (k0_t3_body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0 k3 ())
          fun _ => iprop(((sI).view.loc (thr d L) ↦{fullShare} gI) ∗ ((sB).view.loc (thr d L) ↦{fullShare} gB) ∗ ∃ gO', ((sO).view.loc (thr d L) ↦{fullShare} gO')
            ∗ ⌜∀ j : S4096.Idx, gO' j = if 64 * k3.val ≤ (j 0).val ∧ (j 0).val < 64 * k3.val + 64 then hiSpec gI gB gO j else gO j⌝) := by
  unfold k0_t3_body
  iintro ⟨HsI, HsB, HsO⟩
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec (disch := first | exact chk5_pay1 _ (readI_le d L gI hI _ _) | exact chk6_pay3 _ (readI_le d L gI hI _ _) | exact chk7_pay5 _ (readI_le d L gI hI _ _) | exact chk8_pay11 _ (readI_le d L gI hI _ _))
  ihave HsB' := (Entails.of_eq (pts_sB_access (F := F) d L gB).symm) $$ HsB
  iapply (SparseCore.wp_vectorLoadIdx 𝒱₀ (thr d L) none Set.univ (base := (sB)) (S := Finset.univ) (q := fullShare) (Finset.subset_univ _)) $$ HsB'; iintro HsB'
  ihave HsB := (Entails.of_eq (pts_sB_access (F := F) d L gB)) $$ HsB'
  sl_exec
  sl_step
  isplitl [HsI]; · iexact HsI
  isplitl [HsB]; · iexact HsB
  iexists _
  isplitl [HsO]; · iexact HsO
  ipureintro
  intro j
  exact writes4_val d L gO (hiSpec gI gB gO) k3.val _ _ _ _ _ _ _ _
    (congrFun (k0_off14_eq k3 0) 0) (congrFun (k0_off15_eq k3 0) 0) (congrFun (k0_off16_eq k3 0) 0) (congrFun (k0_off17_eq k3) 0)
    _ _ _ _
    (fun x => hi_piece d L gI gB gO hI (k0_off13 k3) (k0_off14 k3 0#32) (k0_off14 k3 0#32) _ _ _
      ((congrFun (k0_off13_eq k3) 0).trans (congrFun (k0_off14_eq k3 0) 0).symm) rfl _ x)
    (fun x => hi_piece d L gI gB gO hI (k0_off14 k3 16#32) (k0_off15 k3 16#32) (k0_off15 k3 16#32) _ _ _
      ((congrFun (k0_off14_eq k3 1) 0).trans (congrFun (k0_off15_eq k3 0) 0).symm) rfl _ x)
    (fun x => hi_piece d L gI gB gO hI (k0_off15 k3 32#32) (k0_off16 k3 32#32) (k0_off16 k3 32#32) _ _ _
      ((congrFun (k0_off15_eq k3 1) 0).trans (congrFun (k0_off16_eq k3 0) 0).symm) rfl _ x)
    (fun x => hi_piece d L gI gB gO hI (k0_off16 k3 48#32) (k0_off17 k3) (k0_off17 k3) _ _ _
      ((congrFun (k0_off16_eq k3 1) 0).trans (congrFun (k0_off17_eq k3) 0).symm) rfl _ x)
    j

theorem t3_trips : k0_t3_loop.trips = 64 := by decide

/-- Before trip k of the second loop: the staged row holds the high-half overlay below entry 64 k and its contents at
    the loop's entry from there on. -/
def invHi (gI : Buf (Elt F) ((thr d L).loc cc0_scratch0)) (gB : Buf (Elt F) ((thr d L).loc cc0_scratch3))
    (gO : Buf (Elt F) ((thr d L).loc cc0_scratch1)) (k : ℕ) (_ : Unit) : sProp 𝕄 :=
  iprop(((sI).view.loc (thr d L) ↦{fullShare} gI) ∗ ((sB).view.loc (thr d L) ↦{fullShare} gB)
    ∗ ∃ g, ((sO).view.loc (thr d L) ↦{fullShare} g)
      ∗ ⌜∀ j : S4096.Idx, g j = if (j 0).val < 64 * k then hiSpec gI gB gO j else gO j⌝)

theorem grp1_loop (gI : Buf (Elt F) ((thr d L).loc cc0_scratch0)) (gB : Buf (Elt F) ((thr d L).loc cc0_scratch3))
    (gO : Buf (Elt F) ((thr d L).loc cc0_scratch1)) (hI : ∀ x, (gI x).toNat ≤ 99999) :
    (iprop(((sI).view.loc (thr d L) ↦{fullShare} gI) ∗ ((sB).view.loc (thr d L) ↦{fullShare} gB) ∗ ((sO).view.loc (thr d L) ↦{fullShare} gO)) : sProp 𝕄)
      ⊢ wp frame (wpE (defs₀ (F := F)) 𝒱₀ (thr d L) none) Set.univ
          (Scf.Loop.for k0_t3_loop k0_t3_ok ⟨⟩
            (k0_t3_body L iW (Memref.isWhole_whole _) tW (Memref.isWhole_whole _) oW (Memref.isWhole_whole _)
              sI (Memref.isWhole_whole _) sO (Memref.isWhole_whole _) sA (Memref.isWhole_whole _) sB (Memref.isWhole_whole _)
              cc0_scratch4 cc0_scratch5 cc0_scratch6 cc0_scoped0))
          fun _ => iprop(((sI).view.loc (thr d L) ↦{fullShare} gI) ∗ ((sB).view.loc (thr d L) ↦{fullShare} gB) ∗ ∃ gO', ((sO).view.loc (thr d L) ↦{fullShare} gO')
            ∗ ⌜gO' = hiSpec gI gB gO⌝) := by
  iintro ⟨HsI, HsB, HsO⟩
  sl_for (invHi d L gI gB gO) $$ [HsI HsB HsO]
  case region =>
    intro k acc
    unfold invHi
    iintro ⟨HsI, HsB, %g, HsO, %hg⟩
    iapply (wp_wand_r frame (wpE (defs₀ (F := F)) 𝒱₀ (thr d L) none) Set.univ)
    isplitl [HsI HsB HsO]
    · iapply (grp1_trip d L k gI gB g hI)
      isplitl [HsI]; · iexact HsI
      isplitl [HsB]; · iexact HsB
      iexact HsO
    · iintro %a ⟨HsI, HsB, %g', HsO, %hg'⟩
      isplitl [HsI]; · iexact HsI
      isplitl [HsB]; · iexact HsB
      iexists g'
      isplitl [HsO]; · iexact HsO
      ipureintro
      intro j
      rw [hg' j]
      by_cases hr : 64 * k.val ≤ (j 0).val ∧ (j 0).val < 64 * k.val + 64
      · have hgj : g j = gO j := by rw [hg j, if_neg (by omega)]
        rw [if_pos hr, hiSpec_congr gI gB g gO j hgj, if_pos (by omega)]
      · rw [if_neg hr, hg j]
        by_cases hlt : (j 0).val < 64 * k.val
        · rw [if_pos hlt, if_pos (by omega)]
        · rw [if_neg hlt, if_neg (by omega)]
  isplitl [HsI HsB HsO]
  · unfold invHi
    isplitl [HsI]; · iexact HsI
    isplitl [HsB]; · iexact HsB
    iexists gO
    isplitl [HsO]; · iexact HsO
    ipureintro
    intro j
    rw [if_neg (by omega)]
  · iintro %_ HI
    unfold invHi
    icases HI with ⟨HsI, HsB, %g, HsO, %hg⟩
    isplitl [HsI]; · iexact HsI
    isplitl [HsB]; · iexact HsB
    iexists g
    isplitl [HsO]; · iexact HsO
    ipureintro
    funext j
    have h64 : Scf.trips k0_t3_loop.lb k0_t3_loop.ub k0_t3_loop.st = 64 := t3_trips
    rw [hg j, h64]
    exact if_pos (show (j 0).val < 64 * 64 from (j 0).isLt)

end Inner

end Cert.Proof.KB

end
-- ==== Proof.RowValB.lean ====
/-
  What one trip leaves in the staged row, and why it is the row of the result. A trip gathers the low half of its pair's
  row of the transposed tables at the indices capped at the half's last entry, then overwrites, where the index lies in
  the high half, with the gather of the high half at the index less the split. Every index names a row of its table, so
  the two cases cover it and the outcome is the table's row at the index: the entry of the result.
-/
import proofs.«207324_g17738214933191_cont_8to1_1167_12_alg».proof.Proof.ViewsB
import proofs.«207324_g17738214933191_cont_8to1_1167_12_alg».proof.Proof.SpecB

noncomputable section

namespace Cert.Proof.KB

open Cert.Kernel Cert.Kernel.Gen
open Idealize.ShloMosaic
open Idealize.ShloMosaic.ValueIdx (ix1 ix2 ix3)

variable {F : FTy → Type} [FloatOps F]

variable (m : (ℓ : Loc nD τ sig) → Buf (Elt F) ℓ) (d : Dev nD)

/-! ## What the body's memrefs read off the arrays at the call -/

theorem idxRow_read (L : grid0.Coords) (t : Fin k0_t1_loop.trips) (b : S4096.Idx) :
    (idxRow L t).view.read (Elt F) (idxT m d) b
      = idxT m d (ix2 ⟨(q0 L + t.val) / 16, field_lt L t⟩ ⟨(b 0).val, b_lt b⟩) := by
  rw [View.read_apply, idxRow_emb]; rfl

theorem tabLo_read (L : grid0.Coords) (t : Fin k0_t1_loop.trips) (j : S50176.Idx) :
    (tabLo L t).view.read (Elt F) (tabT m d) j
      = tabT m d (ix3 ⟨(q0 L + t.val) / 16, field_lt L t⟩ ⟨(q0 L + t.val) % 16, col_lt _⟩ ⟨(j 0).val, lo_lt j⟩) := by
  rw [View.read_apply, tabLo_emb]; rfl

theorem tabHi_read (L : grid0.Coords) (t : Fin k0_t1_loop.trips) (j : S49824.Idx) :
    (tabHi L t).view.read (Elt F) (tabT m d) j
      = tabT m d (ix3 ⟨(q0 L + t.val) / 16, field_lt L t⟩ ⟨(q0 L + t.val) % 16, col_lt _⟩ ⟨50176 + (j 0).val, hi_lt j⟩) := by
  rw [View.read_apply, tabHi_emb]; rfl

/-! ## The two halves cover a row -/

theorem halves_aux (T : S26x16x100000.Idx → Elt F .f32) (a : Fin 26) (e : Fin 16) (I : BitVec 32) (hI : I.toNat ≤ 99999) :
    (if 50176 ≤ I.toNat then T (ix3 a e ⟨50176 + min (I.toNat - 50176) 49823, by omega⟩)
      else T (ix3 a e ⟨min I.toNat 50175, by omega⟩))
      = T (ix3 a e ⟨min I.toNat 99999, by omega⟩) := by
  split
  · rename_i h
    have e1 : (⟨50176 + min (I.toNat - 50176) 49823, by omega⟩ : Fin 100000) = ⟨min I.toNat 99999, by omega⟩ :=
      Fin.ext (by show 50176 + min (I.toNat - 50176) 49823 = min I.toNat 99999; omega)
    rw [e1]
  · rename_i h
    have e1 : (⟨min I.toNat 50175, by omega⟩ : Fin 100000) = ⟨min I.toNat 99999, by omega⟩ :=
      Fin.ext (by show min I.toNat 50175 = min I.toNat 99999; omega)
    rw [e1]

/-- Every index of the field's row names a row of the table. -/
theorem idx_row_le (hpre : PreOK m) (L : grid0.Coords) (t : Fin k0_t1_loop.trips) :
    ∀ b, ((idxRow L t).view.read (Elt F) (idxT m d) b).toNat ≤ 99999 := by
  intro b
  rw [idxRow_read]
  exact hpre d _

/-- The staged row after both gathers is the trip's row of the result. -/
theorem row_val (hpre : PreOK m) (L : grid0.Coords) (t : Fin k0_t1_loop.trips) (b : S4096.Idx) :
    hiSpec ((idxRow L t).view.read (Elt F) (idxT m d)) ((tabHi L t).view.read (Elt F) (tabT m d))
        (loSpec ((idxRow L t).view.read (Elt F) (idxT m d)) ((tabLo L t).view.read (Elt F) (tabT m d))) b
      = OUT m d ((outRow L t).view.emb b) := by
  have hI := hpre d (ix2 ⟨(q0 L + t.val) / 16, field_lt L t⟩ ⟨(b 0).val, b_lt b⟩)
  have hIdx := idxRow_read m d L t
  have hLo := tabLo_read m d L t
  have hHi := tabHi_read m d L t
  rw [outRow_emb]
  generalize (idxRow L t).view.read (Elt F) (idxT m d) = gI at hIdx ⊢
  generalize (tabLo L t).view.read (Elt F) (tabT m d) = gA at hLo ⊢
  generalize (tabHi L t).view.read (Elt F) (tabT m d) = gB at hHi ⊢
  unfold hiSpec loSpec
  simp only [hIdx, hLo, hHi]
  exact halves_aux (tabT m d) _ _ _ hI

end Cert.Proof.KB

end
-- ==== Proof.OuterCB.lean ====
/-
  The low half of a pair: the wait for its transfer, its gather into the row scratch, and the next pair's low half
  started if there is a next pair.
-/
import proofs.«207324_g17738214933191_cont_8to1_1167_12_alg».proof.Proof.OuterStmtB
import proofs.«207324_g17738214933191_cont_8to1_1167_12_alg».proof.Proof.InnerB
import proofs.«207324_g17738214933191_cont_8to1_1167_12_alg».proof.Proof.RowValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section SegC

variable (d : Dev nD) (L : grid0.Coords) (O : CellTallies nD τ sig (HIx 1)) (W : Waits sig (HIx 1))

theorem stA_pos (t : Fin TR) : stA m d L t.val
    = iprop(flA m d L t ∗ ((tW).view.loc (thr d L) ↦[Finset.univ \ (tabLo L t).view.set]{tokA L} tabT m d)) := by
  unfold stA; rw [dif_pos t.isLt]
theorem stA_next (t : Fin TR) (h : t.val + 1 < TR) : stA m d L (t.val + 1)
    = iprop(flA m d L ⟨t.val + 1, h⟩ ∗ ((tW).view.loc (thr d L) ↦[Finset.univ \ (tabLo L ⟨t.val + 1, h⟩).view.set]{tokA L} tabT m d)) := by
  unfold stA; rw [dif_pos h]
theorem stA_last (t : Fin TR) (h : ¬ t.val + 1 < TR) : stA m d L (t.val + 1)
    = iprop(semVal (semA d L) 0 ∗ (∃ g, (sA).view.loc (thr d L) ↦{fullShare} g) ∗ ((tW).view.loc (thr d L) ↦{tokA L} tabT m d)) := by
  unfold stA; rw [dif_neg h]

/-- The low-half side with a transfer in flight, by the offsets of the half-row it reads: the transfer and the rest of
    that share of the tables. -/
def stAp (off : Fin 3 → ℕ) (inb : ∀ a, off a + S1x1x50176.size a ≤ S26x16x100000.size a) : sProp 𝕄 :=
  iprop(Transfers.Flight countersEmb (thr d L) (SemLoc.dma cc0_scratch4.sem) (default : HIx 1) 1605632
      iprop(((sA).view.loc (thr d L) ↦{fullShare}
          (((tW).slice (Rect.unit (s := S26x16x100000) off S1x1x50176.size inb) (fun _ => rfl)).squeeze S50176 squeezes_S1x1x50176_S50176).view.read (Elt F) (tabT m d))
        ∗ ((tW).view.loc (thr d L) ↦[(((tW).slice (Rect.unit (s := S26x16x100000) off S1x1x50176.size inb) (fun _ => rfl)).squeeze S50176 squeezes_S1x1x50176_S50176).view.set]{tokA L} tabT m d))
    ∗ ((tW).view.loc (thr d L) ↦[Finset.univ \ (((tW).slice (Rect.unit (s := S26x16x100000) off S1x1x50176.size inb) (fun _ => rfl)).squeeze S50176 squeezes_S1x1x50176_S50176).view.set]{tokA L} tabT m d))

theorem stAp_congr {off off' : Fin 3 → ℕ} (inb : ∀ a, off a + S1x1x50176.size a ≤ S26x16x100000.size a)
    (inb' : ∀ a, off' a + S1x1x50176.size a ≤ S26x16x100000.size a) (h : off = off') : stAp m d L off inb = stAp m d L off' inb' := by
  subst h; rfl

theorem stA_eq_stAp (t : Fin TR) : stA m d L t.val = stAp m d L (k0_off5 L t) (k0_off5_inb L t) := by
  rw [stA_pos]; rfl

theorem stA_nextN (t : Fin TR) (h3 : k0_cond3 t = 1#1) (hlt : t.val + 1 < TR) :
    stA m d L (t.val + 1) = stAp m d L (k0_off11 L t) (k0_off11_inb L t h3) := by
  rw [show stA m d L (t.val + 1) = stA m d L (⟨t.val + 1, hlt⟩ : Fin TR).val from rfl, stA_eq_stAp]
  exact stAp_congr m d L _ _ (by rw [off5_eq, off11_eq]; show ![(q0 L + (t.val + 1)) / 16, (q0 L + (t.val + 1)) % 16, 0] = _; rw [show q0 L + (t.val + 1) = q0 L + t.val + 1 from (Nat.add_assoc _ _ _).symm])

/-- After the wait: the low half landed, that share of the tables whole again. -/
def MidC1 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ (semVal (semA d L) 0 ∗ ((sA).view.loc (thr d L) ↦{fullShare} rdLo m d L t) ∗ ((tW).view.loc (thr d L) ↦{tokA L} tabT m d))
    ∗ stB m d L t.val
    ∗ (semVal (semO d L) 0 ∗ ∃ g, (sO).view.loc (thr d L) ↦{fullShare} g)
    ∗ bigSep (fromIdx 13 t.val) (rowTodo m d L) ∗ bigSep (belowIdx 13 t.val) (rowDone m d L)
    ∗ owesW d L O W)
/-- After the gather: the row scratch at the low gather. -/
def MidC2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ (semVal (semA d L) 0 ∗ ((sA).view.loc (thr d L) ↦{fullShare} rdLo m d L t) ∗ ((tW).view.loc (thr d L) ↦{tokA L} tabT m d))
    ∗ stB m d L t.val
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)

theorem segC_wait (t : Fin TR) :
    Cut2 m d L O W t ⊢ wp frame (wpE (defs₀ (F := F)) 𝒱₀ (thr d L) none) Set.univ
      (Prog.lift (.waitDma2 cc0_scratch4.sem (tabLo L t) (sA) ((View.wordExact_bits rfl).reshape _ _) (Memref.isWhole_whole _).wordExact))
      (fun _ => MidC1 m d L O W t) := by
  unfold Cut2 MidC1 owesW
  rw [stA_pos]; unfold flA
  iintro ⟨#Hmw, Hi, HI, ⟨Hfl, Hrest⟩, HstB, HsO, Htodo, Hdone, %W', %hW', HO⟩
  ihave Hmw1 := (Transfers.MayWaits.elim (SemLoc.dma cc0_scratch4.sem)) $$ Hmw
  iapply (Transfers.wp_waitLocalO countersEmb 𝒱₀ (thr d L) none (default : HIx 1) (N := 1605632) rfl) $$ [Hfl HO Hmw1]
  · isplitl [Hfl]; · iexact Hfl
    isplitl [HO]; · iexact HO
    iexact Hmw1
  iintro ⟨⟨HsA, Hlo⟩, HsemA, HO⟩
  rw [wp_ret]; imodintro
  ihave Ht := (pointsTo_split_subset (Finset.subset_univ _)).2 $$ [Hlo Hrest]
  · isplitl [Hlo]; · iexact Hlo
    iexact Hrest
  isplitr; · iexact Hmw
  isplitl [Hi]; · iexact Hi
  isplitl [HI]; · iexact HI
  isplitl [HsemA HsA Ht]
  · isplitl [HsemA]; · iexact HsemA
    isplitl [HsA]; · iexact HsA
    iexact Ht
  isplitl [HstB]; · iexact HstB
  isplitl [HsO]; · iexact HsO
  isplitl [Htodo]; · iexact Htodo
  isplitl [Hdone]; · iexact Hdone
  iexists (insert (SemLoc.dma cc0_scratch4.sem, (default : HIx 1)) W'); isplitr
  · ipureintro; intro p hp
    rcases Finset.mem_insert.mp hp with hp | hp
    · exact .inr (hp ▸ rfl)
    · exact hW' p hp
  · iexact HO

theorem segC_loop (hpre : PreOK m) (t : Fin TR) :
    MidC1 m d L O W t ⊢ wp frame (wpE (defs₀ (F := F)) 𝒱₀ (thr d L) none) Set.univ
      (Scf.Loop.for k0_t2_loop k0_t2_ok ⟨⟩
        (k0_t2_body L iW (Memref.isWhole_whole _) tW (Memref.isWhole_whole _) oW (Memref.isWhole_whole _)
          sI (Memref.isWhole_whole _) sO (Memref.isWhole_whole _) sA (Memref.isWhole_whole _) sB (Memref.isWhole_whole _)
          cc0_scratch4 cc0_scratch5 cc0_scratch6 cc0_scoped0))
      (fun _ => MidC2 m d L O W t) := by
  unfold MidC1 MidC2
  iintro ⟨#Hmw, Hi, ⟨HsemI, HsI⟩, ⟨HsemA, HsA, Ht⟩, HstB, ⟨HsemO, %gO, HsO⟩, Htodo, Hdone, Howes⟩
  iapply (wp_wand _ _ _) $$ [HsI HsA HsO]
  · iapply (grp0_loop d L (rdIx m d L t) (rdLo m d L t) gO (idx_row_le m d hpre L t))
    isplitl [HsI]; · iexact HsI
    isplitl [HsA]; · iexact HsA
    iexact HsO
  iintro %_ ⟨HsI, HsA, %g, HsO, %hg⟩
  subst hg
  isplitr; · iexact Hmw
  isplitl [Hi]; · iexact Hi
  isplitl [HsemI HsI]; · isplitl [HsemI]; · iexact HsemI
                         iexact HsI
  isplitl [HsemA HsA Ht]
  · isplitl [HsemA]; · iexact HsemA
    isplitl [HsA]; · iexact HsA
    iexact Ht
  isplitl [HstB]; · iexact HstB
  isplitl [HsemO HsO]; · isplitl [HsemO]; · iexact HsemO
                         iexact HsO
  isplitl [Htodo]; · iexact Htodo
  isplitl [Hdone]; · iexact Hdone
  iexact Howes

theorem segC_arm (t : Fin TR) (h3 : k0_cond3 t = 1#1) :
    MidC2 m d L O W t ⊢ wp frame (wpE (defs₀ (F := F)) 𝒱₀ (thr d L) none) Set.univ (ARMC (F := F) L t h3) (fun _ => Cut3 m d L O W t) := by
  have hlt : t.val + 1 < TR := by have h := (cond3_iff t).1 h3; show t.val + 1 < k0_t1_loop.trips; rw [trips_eq]; omega
  unfold MidC2 Cut3 ARMC armC
  rw [stA_nextN m d L t h3 hlt]; unfold stAp
  iintro ⟨#Hmw, Hi, HI, ⟨HsemA, HsA, Ht⟩, HstB, HsO, Htodo, Hdone, Howes⟩
  sl_exec
  rw [wp_ret]; imodintro
  ihave Hfl := (Transfers.Flight_mono _ _ (D' := iprop(((sA).view.loc (thr d L) ↦{fullShare} (tabLoN L t h3).view.read (Elt F) (tabT m d))
      ∗ ((tW).view.loc (thr d L) ↦[(tabLoN L t h3).view.set]{tokA L} tabT m d))) (by rw [View.write_whole_univ]; exact .rfl)) $$ HsemA
  isplitr; · iexact Hmw
  isplitl [Hi]; · iexact Hi
  isplitl [HI]; · iexact HI
  isplitl [Hfl Ht]
  · isplitl [Hfl]; · iexact Hfl
    iexact Ht
  isplitl [HstB]; · iexact HstB
  isplitl [HsO]; · iexact HsO
  isplitl [Htodo]; · iexact Htodo
  isplitl [Hdone]; · iexact Hdone
  iexact Howes

theorem midC2_last (t : Fin TR) (h3 : ¬ k0_cond3 t = 1#1) : MidC2 m d L O W t ⊢ Cut3 m d L O W t := by
  have hlt : ¬ t.val + 1 < TR := by
    have h := mt (cond3_iff t).2 h3; have ht := t_lt t; show ¬ t.val + 1 < k0_t1_loop.trips; rw [trips_eq]; omega
  unfold MidC2 Cut3
  rw [stA_last m d L t hlt]
  iintro ⟨#Hmw, Hi, HI, ⟨HsemA, HsA, Ht⟩, HstB, HsO, Htodo, Hdone, Howes⟩
  isplitr; · iexact Hmw
  isplitl [Hi]; · iexact Hi
  isplitl [HI]; · iexact HI
  isplitl [HsemA HsA Ht]
  · isplitl [HsemA]; · iexact HsemA
    isplitl [HsA]; · iexists _; iexact HsA
    iexact Ht
  isplitl [HstB]; · iexact HstB
  isplitl [HsO]; · iexact HsO
  isplitl [Htodo]; · iexact Htodo
  isplitl [Hdone]; · iexact Hdone
  iexact Howes

/-- The low half's part of pair `t`, given the high half's. -/
theorem thC (hpre : PreOK m) (t : Fin TR)
    (hD : Cut3 m d L O W t ⊢ wp frame (wpE (defs₀ (F := F)) 𝒱₀ (thr d L) none) Set.univ (SEGD (F := F) L t (fld L t)) (Inv m d L O W (t.val + 1))) :
    Cut2 m d L O W t ⊢ wp frame (wpE (defs₀ (F := F)) 𝒱₀ (thr d L) none) Set.univ (SEGC (F := F) L t (fld L t)) (Inv m d L O W (t.val + 1)) := by
  unfold SEGC segC
  refine wp_seq _ _ _ (fun _ => MidC1 m d L O W t) (segC_wait m d L O W t) (fun _ => ?_)
  refine wp_seq _ _ _ (fun _ => MidC2 m d L O W t) (segC_loop m d L O W hpre t) (fun _ => ?_)
  refine wp_dite _ _ _ (fun h3 => ?_) (fun h3 => ?_)
  · exact wp_seq _ _ _ (fun _ => Cut3 m d L O W t) (segC_arm m d L O W t h3) (fun _ => hD)
  · exact (midC2_last m d L O W t h3).trans hD

end SegC

end Cert.Proof.KB

end
-- ==== Proof.OuterDB.lean ====
/-
  The high half of a pair: the wait for its transfer, its gather laid over the low half's in the row scratch, and the
  next pair's high half started if there is a next pair.
-/
import proofs.«207324_g17738214933191_cont_8to1_1167_12_alg».proof.Proof.OuterStmtB
import proofs.«207324_g17738214933191_cont_8to1_1167_12_alg».proof.Proof.InnerB
import proofs.«207324_g17738214933191_cont_8to1_1167_12_alg».proof.Proof.RowValB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section SegD

variable (d : Dev nD) (L : grid0.Coords) (O : CellTallies nD τ sig (HIx 1)) (W : Waits sig (HIx 1))

theorem stB_pos (t : Fin TR) : stB m d L t.val
    = iprop(flB m d L t ∗ ((tW).view.loc (thr d L) ↦[Finset.univ \ (tabHi L t).view.set]{tokB L} tabT m d)) := by
  unfold stB; rw [dif_pos t.isLt]
theorem stB_last (t : Fin TR) (h : ¬ t.val + 1 < TR) : stB m d L (t.val + 1)
    = iprop(semVal (semB d L) 0 ∗ (∃ g, (sB).view.loc (thr d L) ↦{fullShare} g) ∗ ((tW).view.loc (thr d L) ↦{tokB L} tabT m d)) := by
  unfold stB; rw [dif_neg h]

/-- The high-half side with a transfer in flight, by the offsets of the half-row it reads: the transfer and the rest of
    that share of the tables. -/
def stBp (off : Fin 3 → ℕ) (inb : ∀ a, off a + S1x1x49824.size a ≤ S26x16x100000.size a) : sProp 𝕄 :=
  iprop(Transfers.Flight countersEmb (thr d L) (SemLoc.dma cc0_scratch5.sem) (default : HIx 1) 1594368
      iprop(((sB).view.loc (thr d L) ↦{fullShare}
          (((tW).slice (Rect.unit (s := S26x16x100000) off S1x1x49824.size inb) (fun _ => rfl)).squeeze S49824 squeezes_S1x1x49824_S49824).view.read (Elt F) (tabT m d))
        ∗ ((tW).view.loc (thr d L) ↦[(((tW).slice (Rect.unit (s := S26x16x100000) off S1x1x49824.size inb) (fun _ => rfl)).squeeze S49824 squeezes_S1x1x49824_S49824).view.set]{tokB L} tabT m d))
    ∗ ((tW).view.loc (thr d L) ↦[Finset.univ \ (((tW).slice (Rect.unit (s := S26x16x100000) off S1x1x49824.size inb) (fun _ => rfl)).squeeze S49824 squeezes_S1x1x49824_S49824).view.set]{tokB L} tabT m d))

theorem stBp_congr {off off' : Fin 3 → ℕ} (inb : ∀ a, off a + S1x1x49824.size a ≤ S26x16x100000.size a)
    (inb' : ∀ a, off' a + S1x1x49824.size a ≤ S26x16x100000.size a) (h : off = off') : stBp m d L off inb = stBp m d L off' inb' := by
  subst h; rfl

theorem stB_eq_stBp (t : Fin TR) : stB m d L t.val = stBp m d L (k0_off12 L t) (k0_off12_inb L t) := by
  rw [stB_pos]; rfl

theorem stB_nextN (t : Fin TR) (h4 : k0_cond4 t = 1#1) (hlt : t.val + 1 < TR) :
    stB m d L (t.val + 1) = stBp m d L (k0_off18 L t) (k0_off18_inb L t h4) := by
  rw [show stB m d L (t.val + 1) = stB m d L (⟨t.val + 1, hlt⟩ : Fin TR).val from rfl, stB_eq_stBp]
  exact stBp_congr m d L _ _ (by rw [off12_eq, off18_eq]; show ![(q0 L + (t.val + 1)) / 16, (q0 L + (t.val + 1)) % 16, 50176] = _; rw [show q0 L + (t.val + 1) = q0 L + t.val + 1 from (Nat.add_assoc _ _ _).symm])

/-- After the wait: the high half landed, that share of the tables whole again. -/
def MidD1 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1)
    ∗ (semVal (semB d L) 0 ∗ ((sB).view.loc (thr d L) ↦{fullShare} rdHi m d L t) ∗ ((tW).view.loc (thr d L) ↦{tokB L} tabT m d))
    ∗ (semVal (semO d L) 0 ∗ ((sO).view.loc (thr d L) ↦{fullShare} loSpec (rdIx m d L t) (rdLo m d L t)))
    ∗ bigSep (fromIdx 13 t.val) (rowTodo m d L) ∗ bigSep (belowIdx 13 t.val) (rowDone m d L)
    ∗ owesW d L O W)
/-- After the gather: the row scratch at the pair's row. -/
def MidD2 (t : Fin TR) : sProp 𝕄 :=
  iprop(Transfers.MayWaits (thr d L) (none : HIx 1) O
    ∗ ((iW).view.loc (thr d L) ↦{tok L} idxT m d)
    ∗ (semVal (semI d L) 0 ∗ ((sI).view.loc (thr d L) ↦{fullShare} rdIx m d L t))
    ∗ stA m d L (t.val + 1)
    ∗ (semVal (semB d L) 0 ∗ ((sB).view.loc (thr d L) ↦{fullShare} rdHi m d L t) ∗ ((tW).view.loc (thr d L) ↦{tokB L} tabT m d))
    ∗ (semVal (semO d L) 0 ∗ ((sO).view.loc (thr d L) ↦{fullShare} hiSpec (rdIx m d L t) (rdHi m d L t) (loSpec (rdIx m d L t) (rdLo m d L t))))
    ∗ bigSep (fromIdx 13 t.val) (rowTodo m d L) ∗ bigSep (belowIdx 13 t.val) (rowDone m d L)
    ∗ owesW d L O W)

theorem segD_wait (t : Fin TR) :
    Cut3 m d L O W t ⊢ wp frame (wpE (defs₀ (F := F)) 𝒱₀ (thr d L) none) Set.univ
      (Prog.lift (.waitDma2 cc0_scratch5.sem (tabHi L t) (sB) ((View.wordExact_bits rfl).reshape _ _) (Memref.isWhole_whole _).wordExact))
      (fun _ => MidD1 m d L O W t) := by
  unfold Cut3 MidD1 owesW
  rw [stB_pos]; unfold flB
  iintro ⟨#Hmw, Hi, HI, HstA, ⟨Hfl, Hrest⟩, HsO, Htodo, Hdone, %W', %hW', HO⟩
  ihave Hmw1 := (Transfers.MayWaits.elim (SemLoc.dma cc0_scratch5.sem)) $$ Hmw
  iapply (Transfers.wp_waitLocalO countersEmb 𝒱₀ (thr d L) none (default : HIx 1) (N := 1594368) rfl) $$ [Hfl HO Hmw1]
  · isplitl [Hfl]; · iexact Hfl
    isplitl [HO]; · iexact HO
    iexact Hmw1
  iintro ⟨⟨HsB, Hhi⟩, HsemB, HO⟩
  rw [wp_ret]; imodintro
  ihave Ht := (pointsTo_split_subset (Finset.subset_univ _)).2 $$ [Hhi Hrest]
  · isplitl [Hhi]; · iexact Hhi
    iexact Hrest
  isplitr; · iexact Hmw
  isplitl [Hi]; · iexact Hi
  isplitl [HI]; · iexact HI
  isplitl [HstA]; · iexact HstA
  isplitl [HsemB HsB Ht]
  · isplitl [HsemB]; · iexact HsemB
    isplitl [HsB]; · iexact HsB
    iexact Ht
  isplitl [HsO]; · iexact HsO
  isplitl [Htodo]; · iexact Htodo
  isplitl [Hdone]; · iexact Hdone
  iexists (insert (SemLoc.dma cc0_scratch5.sem, (default : HIx 1)) W'); isplitr
  · ipureintro; intro p hp
    rcases Finset.mem_insert.mp hp with hp | hp
    · exact .inr (hp ▸ rfl)
    · exact hW' p hp
  · iexact HO

theorem segD_loop (hpre : PreOK m) (t : Fin TR) :
    MidD1 m d L O W t ⊢ wp frame (wpE (defs₀ (F := F)) 𝒱₀ (thr d L) none) Set.univ
      (Scf.Loop.for k0_t3_loop k0_t3_ok ⟨⟩
        (k0_t3_body L iW (Memref.isWhole_whole _) tW (Memref.isWhole_whole _) oW (Memref.isWhole_whole _)
          sI (Memref.isWhole_whole _) sO (Memref.isWhole_whole _) sA (Memref.isWhole_whole _) sB (Memref.isWhole_whole _)
          cc0_scratch4 cc0_scratch5 cc0_scratch6 cc0_scoped0))
      (fun _ => MidD2 m d L O W t) := by
  unfold MidD1 MidD2
  iintro ⟨#Hmw, Hi, ⟨HsemI, HsI⟩, HstA, ⟨HsemB, HsB, Ht⟩, ⟨HsemO, HsO⟩, Htodo, Hdone, Howes⟩
  iapply (wp_wand _ _ _) $$ [HsI HsB HsO]
  · iapply (grp1_loop d L (rdIx m d L t) (rdHi m d L t) (loSpec (rdIx m d L t) (rdLo m d L t)) (idx_row_le m d hpre L t))
    isplitl [HsI]; · iexact HsI
    isplitl [HsB]; · iexact HsB
    iexact HsO
  iintro %_ ⟨HsI, HsB, %g, HsO, %hg⟩
  subst hg
  isplitr; · iexact Hmw
  isplitl [Hi]; · iexact Hi
  isplitl [HsemI HsI]; · isplitl [HsemI]; · iexact HsemI
                         iexact HsI
  isplitl [HstA]; · iexact HstA
  isplitl [HsemB HsB Ht]
  · isplitl [HsemB]; · iexact HsemB
    isplitl [HsB]; · iexact HsB
    iexact Ht
  isplitl [HsemO HsO]; · isplitl [HsemO]; · iexact HsemO
                         iexact HsO
  isplitl [Htodo]; · iexact Htodo
  isplitl [Hdone]; · iexact Hdone
  iexact Howes

theorem segD_arm (t : Fin TR) (h4 : k0_cond4 t = 1#1) :
    MidD2 m d L O W t ⊢ wp frame (wpE (defs₀ (F := F)) 𝒱₀ (thr d L) none) Set.univ (ARMD (F := F) L t h4) (fun _ => Cut4 m d L O W t) := by
  have hlt : t.val + 1 < TR := by have h := (cond4_iff t).1 h4; show t.val + 1 < k0_t1_loop.trips; rw [trips_eq]; omega
  unfold MidD2 Cut4 ARMD armD
  rw [stB_nextN m d L t h4 hlt]; unfold stBp
  iintro ⟨#Hmw, Hi, HI, HstA, ⟨HsemB, HsB, Ht⟩, HsO, Htodo, Hdone, Howes⟩
  sl_exec
  rw [wp_ret]; imodintro
  ihave Hfl := (Transfers.Flight_mono _ _ (D' := iprop(((sB).view.loc (thr d L) ↦{fullShare} (tabHiN L t h4).view.read (Elt F) (tabT m d))
      ∗ ((tW).view.loc (thr d L) ↦[(tabHiN L t h4).view.set]{tokB L} tabT m d))) (by rw [View.write_whole_univ]; exact .rfl)) $$ HsemB
  isplitr; · iexact Hmw
  isplitl [Hi]; · iexact Hi
  isplitl [HI]; · iexact HI
  isplitl [HstA]; · iexact HstA
  isplitl [Hfl Ht]
  · isplitl [Hfl]; · iexact Hfl
    iexact Ht
  isplitl [HsO]; · iexact HsO
  isplitl [Htodo]; · iexact Htodo
  isplitl [Hdone]; · iexact Hdone
  iexact Howes

theorem midD2_last (t : Fin TR) (h4 : ¬ k0_cond4 t = 1#1) : MidD2 m d L O W t ⊢ Cut4 m d L O W t := by
  have hlt : ¬ t.val + 1 < TR := by
    have h := mt (cond4_iff t).2 h4; have ht := t_lt t; show ¬ t.val + 1 < k0_t1_loop.trips; rw [trips_eq]; omega
  unfold MidD2 Cut4
  rw [stB_last m d L t hlt]
  iintro ⟨#Hmw, Hi, HI, HstA, ⟨HsemB, HsB, Ht⟩, HsO, Htodo, Hdone, Howes⟩
  isplitr; · iexact Hmw
  isplitl [Hi]; · iexact Hi
  isplitl [HI]; · iexact HI
  isplitl [HstA]; · iexact HstA
  isplitl [HsemB HsB Ht]
  · isplitl [HsemB]; · iexact HsemB
    isplitl [HsB]; · iexists _; iexact HsB
    iexact Ht
  isplitl [HsO]; · iexact HsO
  isplitl [Htodo]; · iexact Htodo
  isplitl [Hdone]; · iexact Hdone
  iexact Howes

/-- The high half's part of pair `t`, given the last part. -/
theorem thD (hpre : PreOK m) (t : Fin TR)
    (hE : Cut4 m d L O W t ⊢ wp frame (wpE (defs₀ (F := F)) 𝒱₀ (thr d L) none) Set.univ (SEGE (F := F) L t (fld L t)) (Inv m d L O W (t.val + 1))) :
    Cut3 m d L O W t ⊢ wp frame (wpE (defs₀ (F := F)) 𝒱₀ (thr d L) none) Set.univ (SEGD (F := F) L t (fld L t)) (Inv m d L O W (t.val + 1)) := by
  unfold SEGD segD
  refine wp_seq _ _ _ (fun _ => MidD1 m d L O W t) (segD_wait m d L O W t) (fun _ => ?_)
  refine wp_seq _ _ _ (fun _ => MidD2 m d L O W t) (segD_loop m d L O W hpre t) (fun _ => ?_)
  refine wp_dite _ _ _ (fun h4 => ?_) (fun h4 => ?_)
  · exact wp_seq _ _ _ (fun _ => Cut4 m d L O W t) (segD_arm m d L O W t h4) (fun _ => hE)
  · exact (midD2_last m d L O W t h4).trans hE

end SegD

end Cert.Proof.KB

end
-- ==== Proof.OuterEB.lean ====
/-
  The last part of a pair's work: the row scratch, holding the pair's row of the result, is sent out to that row. The
  row is taken out of the rows not yet written; the transfer, once it lands, leaves there the row scratch's contents,
  which are the result's closed form on that row (the two gathers cover every index, each naming a row of its table);
  the row scratch comes back with it. With the two next halves already in flight this is what the task holds before
  the next pair, the carried field being this pair's.
-/
import proofs.«207324_g17738214933191_cont_8to1_1167_12_alg».proof.Proof.OuterStmtB
import proofs.«207324_g17738214933191_cont_8to1_1167_12_alg».proof.Proof.RowValB
import proofs.«207324_g17738214933191_cont_8to1_1167_12_alg».proof.Proof.ViewsB
import proofs.«207324_g17738214933191_cont_8to1_1167_12_alg».proof.Proof.OffsetsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section SegE

variable (d : Dev nD) (L : grid0.Coords) (O : CellTallies nD τ sig (HIx 1)) (W : Waits sig (HIx 1))

omit [FloatOps F] in
/-- Row `t` of the result, not yet written, as the memref of the row holds it. -/
theorem rowTodo_eq (t : Fin TR) :
    (rowTodo m d L ⟨t.val, t_lt t⟩ : sProp 𝕄)
      = ((outRow L t).view.loc (thr d L) ↦[(outRow L t).view.set]{fullShare} m (v2Loc d)) := by
  unfold rowTodo
  rw [outRow_set]

/-- What the row's transfer delivers: the row scratch written over the row of the result leaves there the row of the
    result's closed form (every index names a row of its table), and the row scratch comes back. -/
theorem deliverE (hpre : PreOK m) (t : Fin TR) (w : (Rect.whole S4096).shape.Idx → Elt F .f32)
    (hw : w = hiSpec (rdIx m d L t) (rdHi m d L t) (loSpec (rdIx m d L t) (rdLo m d L t)))
    (G : Buf (Elt F) ((thr d L).loc cc0_scratch1)) :
    (iprop(((outRow L t).view.loc (thr d L) ↦[(outRow L t).view.set]{fullShare}
          (outRow L t).view.writes (Elt F) (m (v2Loc d)) [⟨Rect.whole S4096, w⟩])
        ∗ ((sO).view.loc (thr d L) ↦[(sO).view.set]{fullShare} G)) : sProp 𝕄)
      ⊢ iprop(rowDone m d L ⟨t.val, t_lt t⟩ ∗ ∃ g, (sO).view.loc (thr d L) ↦{fullShare} g) := by
  have hc : ∀ i ∈ (outRow L t).view.set,
      (outRow L t).view.writes (Elt F) (m (v2Loc d)) [⟨Rect.whole S4096, w⟩] i = OUT m d i := by
    intro i hi
    obtain ⟨b, -, rfl⟩ := Finset.mem_map.mp hi
    have h1 := View.read_writes_cons_emb (v := (outRow L t).view) (f := m (v2Loc d)) (Rect.whole S4096) w [] b
    rw [Rect.emb_whole_apply, View.read_apply] at h1
    have h3 := row_val m d hpre L t b
    generalize (outRow L t).view.writes (Elt F) (m (v2Loc d)) [⟨Rect.whole S4096, w⟩] ((outRow L t).view.emb b) = X at h1 ⊢
    generalize OUT m d ((outRow L t).view.emb b) = Y at h3 ⊢
    rw [cast_eq] at h1
    rw [h1, hw]
    exact h3
  rw [pointsTo_congr hc]
  unfold rowDone
  rw [← outRow_set L t, View.set_whole]
  iintro ⟨Hr, Hs⟩
  isplitl [Hr]; · iexact Hr
  iexists G
  iexact Hs

theorem thE (hpre : PreOK m) (t : Fin TR) :
    Cut4 m d L O W t ⊢ wp frame (wpE (defs₀ (F := F)) 𝒱₀ (thr d L) none) Set.univ (SEGE (F := F) L t (fld L t)) (Inv m d L O W (t.val + 1)) := by
  unfold Cut4
  rw [bigSep_from_head (rowTodo m d L) t.val (t_lt t), rowTodo_eq]
  unfold SEGE segE
  iintro ⟨Hmw, Hi, ⟨HsemI, HsI⟩, HstA, HstB, ⟨HsemO, HsO⟩, ⟨Hrow, Htodo⟩, Hdone, HO⟩
  sl_exec
  iapply (Idealize.SL.Sem.le_wp_ret _ _)
  ihave Hfl := (Transfers.Flight_mono countersEmb (thr d L) (deliverE m d L hpre t (thE.sl.dma0 m d L t)
      (by unfold thE.sl.dma0; rw [ReadAs.apply_same]; rfl) _)) $$ HsemO
  iclear HsO
  unfold Inv
  isplitl [Hmw]; · iexact Hmw
  isplitl [Hi]; · iexact Hi
  isplitl [HsemI HsI]
  · unfold stI
    isplitl [HsemI]; · iexact HsemI
    iexists rdIx m d L t
    isplitl [HsI]; · iexact HsI
    ipureintro
    exact Or.inr ⟨⟨Nat.succ_pos _, t.isLt⟩, rfl, rfl⟩
  isplitl [HstA]; · iexact HstA
  isplitl [HstB]; · iexact HstB
  isplitl [Hfl]
  · unfold stO
    rw [dif_pos (⟨Nat.succ_pos _, t_lt t⟩ : 0 < t.val + 1 ∧ t.val + 1 - 1 < 13)]
    unfold flO
    iexact Hfl
  isplitl [Htodo]; · iexact Htodo
  isplitl [Hdone]; · iexact Hdone
  iexact HO

end SegE

end Cert.Proof.KB

end
-- ==== Proof.TileB.lean ====
/-
  A vector subcore's whole task: both halves of its first pair's table row started, the loop over its thirteen pairs by
  the invariant, the wait for the last row to have left, and what the task hands back: its shares of the transposed
  indices and tables, and its thirteen rows of the result at the lookup's values.
-/
import proofs.«207324_g17738214933191_cont_8to1_1167_12_alg».proof.Proof.OuterAB
import proofs.«207324_g17738214933191_cont_8to1_1167_12_alg».proof.Proof.OuterBB
import proofs.«207324_g17738214933191_cont_8to1_1167_12_alg».proof.Proof.OuterCB
import proofs.«207324_g17738214933191_cont_8to1_1167_12_alg».proof.Proof.OuterDB
import proofs.«207324_g17738214933191_cont_8to1_1167_12_alg».proof.Proof.OuterEB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTokN shareDrop)
open Idealize.ShloMosaic.Tactic
open Cert.Lib.RangePool

variable {F : FTy → Type}

local notation "𝕄" => MT nD τ sig (HIx 1) (Elt F) ℕ UU ℕ

variable (m : (ℓ : Loc nD τ sig) → Buf (Elt F) ℓ) (ρ : Dev nD → PrngReg)
variable [FloatOps F]

local notation "iW" => (Memref.whole Cert.Kernel.main_v0_scv : Memref Cert.Kernel.sig Kind.scVector Space.hbm Cert.Kernel.S26x4096 EltTy.i32)
local notation "tW" => (Memref.whole Cert.Kernel.main_v1_scv : Memref Cert.Kernel.sig Kind.scVector Space.hbm Cert.Kernel.S26x16x100000 EltTy.f32)
local notation "oW" => (Memref.whole Cert.Kernel.main_v2_scv : Memref Cert.Kernel.sig Kind.scVector Space.hbm Cert.Kernel.S26x16x4096 EltTy.f32)
local notation "sI" => (Memref.whole Cert.Kernel.cc0_scratch0 : Memref Cert.Kernel.sig Kind.scVector Space.vmem Cert.Kernel.S4096 EltTy.i32)
local notation "sO" => (Memref.whole Cert.Kernel.cc0_scratch1 : Memref Cert.Kernel.sig Kind.scVector Space.vmem Cert.Kernel.S4096 EltTy.f32)
local notation "sA" => (Memref.whole Cert.Kernel.cc0_scratch2 : Memref Cert.Kernel.sig Kind.scVector Space.vmem Cert.Kernel.S50176 EltTy.f32)
local notation "sB" => (Memref.whole Cert.Kernel.cc0_scratch3 : Memref Cert.Kernel.sig Kind.scVector Space.vmem Cert.Kernel.S49824 EltTy.f32)

section Task

variable (d : Dev nD) (L : grid0.Coords) (O : CellTallies nD τ sig (HIx 1)) (W : Waits sig (HIx 1))

omit [FloatOps F] in
/-- A share of an array cut in three: what is kept aside, and two pieces to lend. -/
theorem share_three (q : PosShare TreeShare) (ℓ : Loc nD τ sig) (f : Buf (Elt F) ℓ) :
    (ℓ ↦{q} f : sProp 𝕄) ⊣⊢ iprop((ℓ ↦{shareDrop q 2} f) ∗ (ℓ ↦{shareTokN q 0} f) ∗ (ℓ ↦{shareTokN q 1} f)) := by
  have h := Transfers.pointsTo_toks_range (nD := nD) (τ := τ) (sig := sig) (Ix := HIx 1) (Val := Elt F) (Name := ℕ) (U := UU) (Lvl := ℕ)
    (ℓ := ℓ) (S := Finset.univ) (f := f) q 2
  rw [show Finset.range 2 = insert 0 {1} from by decide, SparseCore.bigSep_insert' (by decide), bigSep_singleton] at h
  exact h

theorem stA_zero : stA m d L 0 = stAp m d L (k0_off1 L) (k0_off1_inb L) := by
  have h0 : 0 < TR := by show 0 < k0_t1_loop.trips; rw [trips_eq]; omega
  rw [show stA m d L 0 = stA m d L (⟨0, h0⟩ : Fin TR).val from rfl, stA_eq_stAp]
  exact stAp_congr m d L _ _ (by rw [off5_eq, off1_eq]; rfl)
theorem stB_zero : stB m d L 0 = stBp m d L (k0_off2 L) (k0_off2_inb L) := by
  have h0 : 0 < TR := by show 0 < k0_t1_loop.trips; rw [trips_eq]; omega
  rw [show stB m d L 0 = stB m d L (⟨0, h0⟩ : Fin TR).val from rfl, stB_eq_stBp]
  exact stBp_congr m d L _ _ (by rw [off12_eq, off2_eq]; rfl)
theorem stA_end : stA m d L TR
    = iprop(semVal (semA d L) 0 ∗ (∃ g, (sA).view.loc (thr d L) ↦{fullShare} g) ∗ ((tW).view.loc (thr d L) ↦{tokA L} tabT m d)) := by
  unfold stA; rw [dif_neg (Nat.lt_irrefl _)]
theorem stB_end : stB m d L TR
    = iprop(semVal (semB d L) 0 ∗ (∃ g, (sB).view.loc (thr d L) ↦{fullShare} g) ∗ ((tW).view.loc (thr d L) ↦{tokB L} tabT m d)) := by
  unfold stB; rw [dif_neg (Nat.lt_irrefl _)]

/-- One pair's work takes the invariant before it to the invariant after it. -/
theorem outer_trip (hpre : PreOK m) (t : Fin TR) (acc : BitVec 32) :
    Inv m d L O W t.val acc ⊢ wp frame (wpE (defs₀ (F := F)) 𝒱₀ (thr d L) none) Set.univ
      (k0_t1_body L iW (Memref.isWhole_whole _) tW (Memref.isWhole_whole _) oW (Memref.isWhole_whole _)
        sI (Memref.isWhole_whole _) sO (Memref.isWhole_whole _) sA (Memref.isWhole_whole _) sB (Memref.isWhole_whole _)
        cc0_scratch4 cc0_scratch5 cc0_scratch6 cc0_scoped0 (v2w L) t acc)
      (Inv m d L O W (t.val + 1)) := by
  rw [t1_body_eq, part2_eq]
  exact thA m d L O W t acc (thB m d L O W t acc (thC m d L O W hpre t (thD m d L O W hpre t (thE m d L O W hpre t))))

theorem tile_body (hF : (K (F := F)).Facts) (hpre : PreOK m) (hO : ∀ g, O g none = 0) :
    iprop(levAts (K (F := F)).L (K (F := F)).lev ∗ emp ∗ tileIn m d (L 0).val (L 1).val
        ∗ scopedBufs (thr d L) ∗ scopedSems0 (thr d L) ∗ owes (thr d L) O W)
      ⊢ wp frame (wpE (defs₀ (F := F)) 𝒱₀ (thr d L) none) Set.univ
          (cc0__body L iW (Memref.isWhole_whole _) tW (Memref.isWhole_whole _) oW (Memref.isWhole_whole _)
            sI (Memref.isWhole_whole _) sO (Memref.isWhole_whole _) sA (Memref.isWhole_whole _) sB (Memref.isWhole_whole _)
            cc0_scratch4 cc0_scratch5 cc0_scratch6 cc0_scoped0)
          fun _ => iprop(tileOut m d (L 0).val (L 1).val ∗ scopedBufs (thr d L) ∗ scopedSems0 (thr d L)
            ∗ ∃ W', ⌜∀ p ∈ W', p ∈ W ∨ p.2 = none⌝ ∗ owes (thr d L) O W') := by
  simp only [cc0__body_eq_skeleton]; unfold cc0__body_skel
  simp only [k0_part3_eq_skeleton]; unfold k0_part3_skel
  rw [(K (F := F)).scopedBufs_V hF d (cV L) (jV L), SparseCore.Cfg.scopedSems0_V (Val := Elt F) d (cV L) (jV L), ownSems0_V, ownBufs_V]
  unfold tileIn
  iintro ⟨#Hlv, -, ⟨Hi, Ht, Ho⟩, ⟨⟨%fI, HsI⟩, ⟨%fO, HsO⟩, ⟨%fA, HsA⟩, ⟨%fB, HsB⟩, Hbufs⟩, ⟨HsemA, HsemB, HsemO, HsemI, Hsems⟩, HO⟩
  ihave Hmw := ((K (F := F)).mayWaits_none (thr := thr d L) hO) $$ Hlv
  ihave Ht3 := (share_three (F := F) (tok L) (v1Loc d) (tabT m d)).1 $$ Ht
  icases Ht3 with ⟨HtD, HtA, HtB⟩
  ihave Hi' := (Entails.of_eq (pts_i (F := F) d L (tok L) (idxT m d)).symm) $$ Hi
  ihave HtA' := (Entails.of_eq (pts_t (F := F) d L (shareTokN (tok L) 0) (tabT m d)).symm) $$ HtA
  ihave HtB' := (Entails.of_eq (pts_t (F := F) d L (shareTokN (tok L) 1) (tabT m d)).symm) $$ HtB
  ihave HsI' := (Entails.of_eq (pts_sI (F := F) d L fI).symm) $$ HsI
  ihave HsO' := (Entails.of_eq (pts_sO (F := F) d L fO).symm) $$ HsO
  ihave HsA' := (Entails.of_eq (pts_sA (F := F) d L fA).symm) $$ HsA
  ihave HsB' := (Entails.of_eq (pts_sB (F := F) d L fB).symm) $$ HsB
  sl_exec
  rw [bind_assoc]
  ihave HflA := (Transfers.Flight_mono _ _ (D' := iprop(((sA).view.loc (thr d L) ↦{fullShare} (tabLo0 L).view.read (Elt F) (tabT m d))
      ∗ ((tW).view.loc (thr d L) ↦[(tabLo0 L).view.set]{tokA L} tabT m d))) (by rw [View.write_whole_univ]; exact .rfl)) $$ HsemA
  ihave HflB := (Transfers.Flight_mono _ _ (D' := iprop(((sB).view.loc (thr d L) ↦{fullShare} (tabHi0 L).view.read (Elt F) (tabT m d))
      ∗ ((tW).view.loc (thr d L) ↦[(tabHi0 L).view.set]{tokB L} tabT m d))) (by rw [View.write_whole_univ]; exact .rfl)) $$ HsemB
  sl_for (Inv m d L O W) $$ [Hmw Hi' HsI' HsemI HflA HtA' HflB HtB' HsemO HsO' Ho HO]
  case region =>
    intro t acc
    exact outer_trip m d L O W hpre t acc
  · unfold Inv
    isplitr; · iexact Hmw
    isplitl [Hi']; · iexact Hi'
    isplitl [HsemI HsI']
    · unfold stI
      isplitl [HsemI]; · iexact HsemI
      iexists fI
      isplitl [HsI']; · iexact HsI'
      ipureintro; exact .inl ⟨rfl, rfl⟩
    isplitl [HflA HtA']
    · rw [stA_zero]; unfold stAp
      isplitl [HflA]
      · iexact HflA
      · iexact HtA'
    isplitl [HflB HtB']
    · rw [stB_zero]; unfold stBp
      isplitl [HflB]
      · iexact HflB
      · iexact HtB'
    isplitl [HsemO HsO']
    · rw [stO_zero]
      isplitl [HsemO]; · iexact HsemO
      iexists fO; iexact HsO'
    isplitl [Ho]
    · rw [fromIdx_zero]; unfold rowTodo; iexact Ho
    isplitr
    · rw [show (0 : ℕ) - 1 = 0 from rfl, belowIdx_zero, bigSep_empty]; iempintro
    unfold owesW
    iexists W; isplitr
    · ipureintro; exact fun p hp => .inl hp
    · iexact HO
  iintro %acc HI
  have h13 : TR = 13 := trips_eq
  rw [show Scf.trips k0_t1_loop.lb k0_t1_loop.ub k0_t1_loop.st = TR from rfl]
  unfold Inv
  rw [stA_end, stB_end, stO_pos m d L TR ⟨by omega, by omega⟩]
  unfold stI flO owesW
  icases HI with ⟨-, Hi, ⟨HsemI, %gI, HsI, -⟩, ⟨HsemA, ⟨%gA, HsA⟩, HtA⟩, ⟨HsemB, ⟨%gB, HsB⟩, HtB⟩, Hfl, -, Hdone, %W', %hW', HO⟩
  sl_exec
  ihave Hmw1 := (Transfers.MayWaits.elim (SemLoc.dma cc0_scratch6.sem)) $$ Hmw
  iapply (Transfers.wp_waitLocalO countersEmb 𝒱₀ (thr d L) none (default : HIx 1) (N := 131072) rfl) $$ [Hfl HO Hmw1]
  · isplitl [Hfl]; · iexact Hfl
    isplitl [HO]; · iexact HO
    iexact Hmw1
  iintro ⟨⟨Hrow, %gO, HsO⟩, HsemO, HO⟩
  rw [Prog.pure_eq_ret, wp_ret]; imodintro
  unfold tileOut
  isplitl [Hi HtD HtA HtB Hdone Hrow]
  · isplitl [Hi]; · iapply (Entails.of_eq (pts_i (F := F) d L (tok L) (idxT m d))); iexact Hi
    isplitl [HtD HtA HtB]
    · iapply (share_three (F := F) (tok L) (v1Loc d) (tabT m d)).2
      isplitl [HtD]; · iexact HtD
      isplitl [HtA]; · iapply (Entails.of_eq (pts_t (F := F) d L (shareTokN (tok L) 0) (tabT m d))); iexact HtA
      iapply (Entails.of_eq (pts_t (F := F) d L (shareTokN (tok L) 1) (tabT m d))); iexact HtB
    · iapply (Entails.of_eq (show iprop(rowDone m d L ⟨TR - 1, by omega⟩ ∗ bigSep (belowIdx 13 (TR - 1)) (rowDone m d L))
          = bigSep Finset.univ (fun t : Fin 13 => v2Loc d ↦[rowSet (qOf (L 0).val (L 1).val t.val)]{fullShare} OUT m d) from by
            rw [← bigSep_below_last (rowDone m d L) (TR - 1) (by omega), belowIdx_all (by omega)]; rfl))
      isplitl [Hrow]; · iexact Hrow
      iexact Hdone
  isplitl [HsI HsO HsA HsB Hbufs]
  · isplitl [HsI]; · iexists gI; iexact HsI
    isplitl [HsO]; · iexists gO; iexact HsO
    isplitl [HsA]; · iexists gA; iexact HsA
    isplitl [HsB]; · iexists gB; iexact HsB
    iexact Hbufs
  isplitl [HsemA HsemB HsemO HsemI Hsems]
  · isplitl [HsemA]; · iexact HsemA
    isplitl [HsemB]; · iexact HsemB
    isplitl [HsemO]; · iexact HsemO
    isplitl [HsemI]; · iexact HsemI
    iexact Hsems
  iexists (insert ((SemLoc.dma cc0_scratch6.sem : SemLoc sig), (default : HIx 1)) W'); isplitr
  · ipureintro; intro p hp
    rcases Finset.mem_insert.mp hp with hp | hp
    · exact .inr (hp ▸ rfl)
    · exact hW' p hp
  · iexact HO

end Task

end Cert.Proof.KB

end
-- ==== Proof.LaunchI.lean ====
/-
  The launch of the embedding lookup's one vector-subcore call: how the call's operands split among the thirty-two tasks
  and gather back, the launch element of the ghost state, the host program around the call (two transposes before it,
  one after), how the final memory reads the claim, and the program's run from the task's body obligation.
-/
import proofs.«207324_g17738214933191_cont_8to1_1167_12_alg».proof.Proof.CommonI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands are its tasks' -/

/-- What the call hands a SparseCore IS its sixteen tasks' holdings, and what it takes back theirs. -/
theorem vecSplit : (K (F := F)).VecSplit' (P m) 0 := by
  intro d c
  show (bigSep Finset.univ fun i : Fin ((K (F := F)).nSub 0) => tileIn m d c.val i.val) ⊢ |={Set.univ}=> iprop(
      (bigSep Finset.univ fun i : Fin ((K (F := F)).nSub 0) => tileIn m d c.val i.val)
      ∗ ((bigSep Finset.univ fun i : Fin ((K (F := F)).nSub 0) => tileOut m d c.val i.val)
          -∗ bigSep Finset.univ fun i : Fin ((K (F := F)).nSub 0) => tileOut m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Thirty-two tasks as two SparseCores of sixteen; the result as its 416 rows -/

omit [FloatOps F] in
/-- A family over the thirty-two tasks, by SparseCore and subcore: task `(c, i)` is number `i + 16 c`. -/
theorem bigSep_tasks (Φ : ℕ → sProp 𝕄) :
    (bigSep Finset.univ fun c : Fin 2 => bigSep Finset.univ fun i : Fin 16 => Φ (i.val + 16 * c.val))
      = bigSep Finset.univ fun j : Fin 32 => Φ j.val := by
  rw [← bigSep_univ_prod (fun x : Fin 2 × Fin 16 => Φ (x.2.val + 16 * x.1.val)),
    bigSep_univ_equiv (finProdFinEquiv : Fin 2 × Fin 16 ≃ Fin (2 * 16)) (fun j : Fin 32 => Φ j.val)]
  rfl

/-- The pairs of a task, by SparseCore, subcore and position. -/
abbrev rowOf (x : Fin 2 × Fin 16 × Fin 13) : Finset S26x16x4096.Idx := rowSet (qOf x.1.val x.2.1.val x.2.2.val)

omit [FloatOps F] in
/-- Different (SparseCore, subcore, position) name different pairs, so their rows are disjoint; -/
theorem rows_disjoint : ∀ x ∈ (Finset.univ : Finset (Fin 2 × Fin 16 × Fin 13)), ∀ y ∈ (Finset.univ : Finset (Fin 2 × Fin 16 × Fin 13)),
    x ≠ y → Disjoint (rowOf x) (rowOf y) := by
  intro x _ y _ hxy
  unfold rowOf rowSet
  refine Finset.disjoint_filter.mpr fun j _ h1 h2 => hxy ?_
  obtain ⟨c, s, t⟩ := x; obtain ⟨c', s', t'⟩ := y
  dsimp only at h1 h2
  have e : 13 * (2 * s.val + c.val) + t.val = 13 * (2 * s'.val + c'.val) + t'.val := h1.symm.trans h2
  have := c.isLt; have := c'.isLt; have := s.isLt; have := s'.isLt; have := t.isLt; have := t'.isLt
  exact Prod.ext (Fin.ext (by dsimp only; omega)) (Prod.ext (Fin.ext (by dsimp only; omega)) (Fin.ext (by dsimp only; omega)))

omit [FloatOps F] in
/-- and every entry `(f, e, ·)` lies in the row of pair `16 f + e < 416 = 32 · 13`. -/
theorem rows_cover : (Finset.univ : Finset (Fin 2 × Fin 16 × Fin 13)).biUnion rowOf = Finset.univ := by
  refine Finset.eq_univ_iff_forall.mpr fun j => Finset.mem_biUnion.mpr ?_
  have h0 : (j 0).val < 26 := (j 0).isLt
  have h1 : (j 1).val < 16 := (j 1).isLt
  obtain ⟨n, hn⟩ : ∃ n, n = (j 0).val * 16 + (j 1).val := ⟨_, rfl⟩
  refine ⟨(⟨n / 13 % 2, by omega⟩, ⟨n / 13 / 2, by omega⟩, ⟨n % 13, by omega⟩), Finset.mem_univ _, ?_⟩
  unfold rowOf rowSet
  refine Finset.mem_filter.mpr ⟨Finset.mem_univ _, ?_⟩
  show (j 0).val * 16 + (j 1).val = 13 * (2 * (n / 13 / 2) + n / 13 % 2) + n % 13
  omega

omit [FloatOps F] in
/-- The result whole is its rows, by SparseCore, subcore and position. -/
theorem v2_rows (d : Dev nD) (g : Buf (Elt F) (v2Loc d)) :
    (bigSep Finset.univ fun c : Fin 2 => bigSep Finset.univ fun i : Fin 16 => bigSep Finset.univ fun t : Fin 13 =>
        (v2Loc d ↦[rowSet (qOf c.val i.val t.val)]{fullShare} g : sProp 𝕄))
      = v2Loc d ↦{fullShare} g := by
  have e : (v2Loc d ↦{fullShare} g : sProp 𝕄) = bigSep Finset.univ fun x : Fin 2 × Fin 16 × Fin 13 => v2Loc d ↦[rowOf x]{fullShare} g := by
    rw [← pointsTo_biUnion Finset.univ (ℓ := v2Loc d) rowOf rows_disjoint, rows_cover]; try rfl
  rw [e, bigSep_univ_prod]
  refine bigSep_congr fun c _ => ?_
  rw [bigSep_univ_prod]

omit [FloatOps F] in
/-- Every task's holdings, at `g` for the result: the thirty-two read shares of the transposed indices, those of the
    transposed tables, and the result whole. -/
theorem tiles_eq (d : Dev nD) (g : Buf (Elt F) (v2Loc d)) :
    (bigSep Finset.univ fun c : Fin 2 => bigSep Finset.univ fun i : Fin 16 =>
      iprop((v0Loc d ↦{tokOf c.val i.val} idxT m d) ∗ (v1Loc d ↦{tokOf c.val i.val} tabT m d)
        ∗ bigSep Finset.univ fun t : Fin 13 => v2Loc d ↦[rowSet (qOf c.val i.val t.val)]{fullShare} g) : sProp 𝕄)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} g) := by
  simp only [bigSep_sep']
  rw [bigSep_tasks (fun n => v0Loc d ↦{shareTokN fullShare n} idxT m d), bigSep_tasks (fun n => v1Loc d ↦{shareTokN fullShare n} tabT m d), v2_rows]

/-- What the call takes for the two SparseCores, and what it hands back. -/
theorem st0_eq (d : Dev nD) :
    (bigSep Finset.univ fun c : Fin ((K (F := F)).nCore 0) => (P m).st 0 d c)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} m (v2Loc d)) := by
  rw [← tiles_eq m d (m (v2Loc d))]
  show (bigSep Finset.univ fun c : Fin 2 => bigSep Finset.univ fun i : Fin 16 => tileIn m d c.val i.val) = _
  unfold tileIn; rfl
theorem dn0_eq (d : Dev nD) :
    (bigSep Finset.univ fun c : Fin ((K (F := F)).nCore 0) => (P m).dn 0 d c)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} OUT m d) := by
  rw [← tiles_eq m d (OUT m d)]
  show (bigSep Finset.univ fun c : Fin 2 => bigSep Finset.univ fun i : Fin 16 => tileOut m d c.val i.val) = _
  unfold tileOut; rfl

/-! ## @main on the TensorCore -/

/-- The TensorCore's arrays, all unscoped. -/
abbrev S6 : Finset (DevRef τ sig) := {a0', a1', r0', r1', r2', r3'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (v0Loc d ↦{fullShare} W r0')
      ∗ (v1Loc d ↦{fullShare} W r1') ∗ (v2Loc d ↦{fullShare} W r2') ∗ v3Loc d ↦{fullShare} W r3') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ v3Loc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (W0 m d) := by
  rw [unscopedBufs_eq, held_S6]; rfl

/-- Each transpose leaves every array but its result as it was. -/
theorem opI_ne (W : Valuation τ sig (Elt F)) {b : DevRef τ sig} (h : b ∉ ({r0'} : Finset (DevRef τ sig))) : (opI (F := F)).result W b = W b :=
  (opI (F := F)).result_of_not_mem W h
theorem opT_ne (W : Valuation τ sig (Elt F)) {b : DevRef τ sig} (h : b ∉ ({r1'} : Finset (DevRef τ sig))) : (opT (F := F)).result W b = W b :=
  (opT (F := F)).result_of_not_mem W h
theorem opO_ne (W : Valuation τ sig (Elt F)) {b : DevRef τ sig} (h : b ∉ ({r3'} : Finset (DevRef τ sig))) : (opO (F := F)).result W b = W b :=
  (opO (F := F)).result_of_not_mem W h

theorem hI : (opI (F := F)).bufs ⊆ S6 := show ({a0', r0'} : Finset (DevRef τ sig)) ⊆ S6 by decide
theorem hT : (opT (F := F)).bufs ⊆ S6 := show ({a1', r1'} : Finset (DevRef τ sig)) ⊆ S6 by decide
theorem hO : (opO (F := F)).bufs ⊆ S6 := show ({r2', r3'} : Finset (DevRef τ sig)) ⊆ S6 by decide

/-- When the call is made: the arguments and the two untouched arrays at their launch contents, the transposes at theirs. -/
theorem W2_a0 (d : Dev nD) : W2 m d a0' = m (a0Loc d) := by
  unfold W2; rw [opT_ne _ (by decide), opI_ne _ (by decide)]; rfl
theorem W2_a1 (d : Dev nD) : W2 m d a1' = m (a1Loc d) := by
  unfold W2; rw [opT_ne _ (by decide), opI_ne _ (by decide)]; rfl
theorem W2_r2 (d : Dev nD) : W2 m d r2' = m (v2Loc d) := by
  unfold W2; rw [opT_ne _ (by decide), opI_ne _ (by decide)]; rfl
theorem W2_r3 (d : Dev nD) : W2 m d r3' = m (v3Loc d) := by
  unfold W2; rw [opT_ne _ (by decide), opI_ne _ (by decide)]; rfl

theorem held_W2 (d : Dev nD) :
    (held (T d) S6 (W2 m d) : sProp 𝕄) = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} m (v2Loc d)) ∗ v3Loc d ↦{fullShare} m (v3Loc d)) := by
  rw [held_S6, W2_a0, W2_a1, W2_r2, W2_r3]; rfl

/-- After the call: the result array at the gathered rows, the rest as the call found it. -/
theorem held_W3 (d : Dev nD) :
    (held (T d) S6 (W3 m d) : sProp 𝕄) = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} OUT m d) ∗ v3Loc d ↦{fullShare} m (v3Loc d)) := by
  rw [held_S6]
  unfold W3
  rw [Function.update_of_ne (show a0' ≠ r2' by decide), Function.update_of_ne (show a1' ≠ r2' by decide), Function.update_of_ne (show r0' ≠ r2' by decide),
    Function.update_of_ne (show r1' ≠ r2' by decide), Function.update_self, Function.update_of_ne (show r3' ≠ r2' by decide), W2_a0, W2_a1, W2_r3]
  rfl

/-- After the last transpose: the arguments still at their launch contents, the program's result at `RES`. -/
theorem held_W4 (d : Dev nD) :
    (held (T d) S6 ((opO (F := F)).result (W3 m d)) : sProp 𝕄)
      ⊢ iprop((a0Loc d ↦{fullShare} m (a0Loc d)) ∗ (a1Loc d ↦{fullShare} m (a1Loc d)) ∗ v3Loc d ↦{fullShare} RES m d) := by
  rw [held_S6, opO_ne _ (show a0' ∉ ({r3'} : Finset (DevRef τ sig)) by decide), opO_ne _ (show a1' ∉ ({r3'} : Finset (DevRef τ sig)) by decide)]
  unfold W3
  rw [Function.update_of_ne (show a0' ≠ r2' by decide), Function.update_of_ne (show a1' ≠ r2' by decide), W2_a0, W2_a1]
  iintro ⟨H0, H1, -, -, -, H3⟩
  isplitl [H0]; · iexact H0
  isplitl [H1]; · iexact H1
  iexact H3

theorem held_W2' (d : Dev nD) :
    (held (T d) S6 ((opT (F := F)).result ((opI (F := F)).result (W0 m d))) : sProp 𝕄)
      = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} m (v2Loc d)) ∗ v3Loc d ↦{fullShare} m (v3Loc d)) := held_W2 m d

/-- What @main leaves the claim: the arguments at their launch contents, the result at `RES`. -/
abbrev FIN (d : Dev nD) : sProp 𝕄 :=
  iprop((a0Loc d ↦{fullShare} m (a0Loc d)) ∗ (a1Loc d ↦{fullShare} m (a1Loc d)) ∗ v3Loc d ↦{fullShare} RES m d)

/-- @main on device `d`'s TensorCore: the two transposes, the call — each task a read share of the two transposed arrays
    and its thirteen rows of the result —, the last transpose; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.KernelIdeal.main d)
          fun _ => iprop((K (F := F)).tcSt EH d 1 ∗ FIN m d) := by
  unfold SparseCore.Cfg.tcRes
  rw [unscoped_held]
  simp only [Cert.KernelIdeal.main, wp_bind, wp_pure]
  iintro ⟨#Hctx, Hst, ⟨Hb, Hheld, -, -⟩, -⟩
  -- the two transposes
  iapply (wp_hlo_within 𝒱 (SparseCore.T d) none Set.univ (op := opI) (S := S6) hI (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S6) hT (V := (opI (F := F)).result (W0 m d))) $$ [Hb Hheld]
  · isplitl [Hb]; · iexact Hb
    iexact Hheld
  iintro ⟨Hb, Hheld⟩
  rw [wp_ret]; imodintro
  ihave Hh := (Entails.of_eq (held_W2' m d)) $$ Hheld
  icases Hh with ⟨Ha0, Ha1, Hv0, Hv1, Hv2, Hv3⟩
  -- the read shares of the two transposed arrays
  ihave Hv0' := (pointsTo_toks_split fullShare 32) $$ Hv0
  icases Hv0' with ⟨Hv0r, Hv0t⟩
  ihave Hv1' := (pointsTo_toks_split fullShare 32) $$ Hv1
  icases Hv1' with ⟨Hv1r, Hv1t⟩
  -- the call
  iapply ((K (F := F)).wp_run (D (F := F)) 𝒱 (EH := EH) (P := P m) κ d 0) $$ [Hst Hv0t Hv1t Hv2 Ha0 Ha1 Hv0r Hv1r Hv3 Hb]
  isplitr; · iexact Hctx
  isplitl [Hst]; · iexact Hst
  isplitl [Hv0t Hv1t Hv2]
  · rw [st0_eq]
    isplitl [Hv0t]; · iexact Hv0t
    isplitl [Hv1t]; · iexact Hv1t
    iexact Hv2
  iintro ⟨Hst, Hdn⟩
  ihave Hdn' := (Entails.of_eq (dn0_eq m d)) $$ Hdn
  icases Hdn' with ⟨Hv0t, Hv1t, Hv2⟩
  ihave Hv0 := (pointsTo_toks_join fullShare 32) $$ [Hv0r Hv0t]
  · isplitl [Hv0r]; · iexact Hv0r
    iexact Hv0t
  ihave Hv1 := (pointsTo_toks_join fullShare 32) $$ [Hv1r Hv1t]
  · isplitl [Hv1r]; · iexact Hv1r
    iexact Hv1t
  -- the last transpose
  iapply (wp_hlo_within 𝒱 (SparseCore.T d) none Set.univ (op := opO) (S := S6) hO (V := W3 m d)) $$ [Hb Ha0 Ha1 Hv0 Hv1 Hv2 Hv3]
  · isplitl [Hb]; · iexact Hb
    rw [held_W3]
    isplitl [Ha0]; · iexact Ha0
    isplitl [Ha1]; · iexact Ha1
    isplitl [Hv0]; · iexact Hv0
    isplitl [Hv1]; · iexact Hv1
    isplitl [Hv2]; · iexact Hv2
    iexact Hv3
  iintro ⟨Hb, Hheld⟩
  ihave Hh := (held_W4 m d) $$ Hheld
  rw [wp_ret]; imodintro; imodintro
  isplitl [Hst]; · iexact Hst
  iexact Hh

/-! ## The final memory reads the claim -/

def fq (d : Dev nD) (s' : Phys nD τ sig (Elt F)) : Prop :=
  s'.mem.mem (v3Loc d) = RES m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v3Loc d) (I := Finset.univ) (q := fullShare) (f := RES m d)) $$ [HSI H3]
  · isplitl [HSI] <;> iassumption
  icases H with %h3
  ipureintro
  exact ⟨funext fun i => h3 i (Finset.mem_univ i), funext fun i => h0 i (Finset.mem_univ i), funext fun i => h1 i (Finset.mem_univ i)⟩

/-! ## The program's run -/

/-- In the final memory of every device: the result at `RES`, the two arguments at their launch contents. -/
def QC : PUnit × MemSt nD τ sig (Elt F) → Prop := fun r =>
  ∀ c : Dev nD, r.2.mem (v3Loc c) = RES m c ∧ r.2.mem (a0Loc c) = m (a0Loc c) ∧ r.2.mem (a1Loc c) = m (a1Loc c)

/-- The program's run, from the task's body obligation. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ Cert.KernelIdeal.main (fun _ => iprop(emp)) (FIN m) (u₀ (F := F)) (sep_elim_left.trans (hu₀ m)) (hmain m ρ) (fq m) (hfin m) (QC m) (fun _ h => h)

end Cert.Proof.KI

end
-- ==== Proof.OblI.lean ====
/-
  From the task's body, proved once at a symbolic place of the grid, to the launch theorem's obligation for the one
  vector-subcore call: the obligation's thread and program are the body's at the place `(c, i)` of the grid.
-/
import proofs.«207324_g17738214933191_cont_8to1_1167_12_alg».proof.Proof.CommonI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The task's body at the place `L` of the grid, on vector subcore `(L 0, L 1)` of device `d`: from what the task is
    handed (`tileIn`) and the subcore's own storage to what it hands back (`tileOut`), the storage back, every wait
    recorded one of the kernel's own. -/
def BodyOK : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn m d (L 0).val (L 1).val
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0__body L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scoped0)
          fun _ => iprop(tileOut m d (L 0).val (L 1).val ∗ scopedBufs (V d ((L 0).castLE hcore0) ((L 1).castLE hsub0))
            ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W')

/-- The place of the grid of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the call's tasks, from the body. -/
theorem tileObl (hb : BodyOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

end Cert.Proof.KI

end
-- ==== Proof.ValueI.lean ====
/-
  The program's result as one function of its arguments. The host transposes the indices `[4096, 26]` and the tables
  `[26, 100000, 16]`, the call fills the `[26, 16, 4096]` array, and the host transposes that to `[4096, 26, 16]`.
  Reading through the three transposes: entry `(b, f, e)` of the result is entry `(f, i, e)` of the tables at
  `i` the index of field `f` in sample `b`.
-/
import proofs.«207324_g17738214933191_cont_8to1_1167_12_alg».proof.Proof.CommonI
import Idealize.ShloMosaic.Lib.Pipeline.Value

noncomputable section

namespace Cert.Proof.KI

open Cert.KernelIdeal Cert.KernelIdeal.Gen
open Idealize.ShloMosaic
open Idealize.ShloMosaic.ValueIdx (ix1 ix2 ix3)

variable {F : FTy → Type} [FloatOps F]
variable (m : (ℓ : Loc nD τ sig) → Buf (Elt F) ℓ)

/-- The transposed indices read the indices with the coordinates exchanged. -/
theorem idxT_apply (d : Dev nD) (j : S26x4096.Idx) : idxT m d j = m (a0Loc d) (ix2 (j 1) (j 0)) := by
  unfold idxT W2
  rw [StableHlo.unary_result_ne (h := (by decide : main_v0 ≠ main_v1))]
  rw [StableHlo.unary_result]
  exact transpose_apply _ _ _ j _ (by intro b; fin_cases b <;> rfl)

/-- The transposed tables read the tables with the last two coordinates exchanged. -/
theorem tabT_apply (d : Dev nD) (j : S26x16x100000.Idx) : tabT m d j = m (a1Loc d) (ix3 (j 0) (j 2) (j 1)) := by
  unfold tabT W2
  rw [StableHlo.unary_result]
  rw [StableHlo.unary_result_ne (h := (by decide : main_arg1 ≠ main_v0))]
  exact transpose_apply _ _ _ j _ (by intro b; fin_cases b <;> rfl)

/-- Entry `(b, f, e)` of the program's result. -/
theorem RES_apply (d : Dev nD) (j : S4096x26x16.Idx) :
    RES m d j = m (a1Loc d) (ix3 (j 1) ⟨min (m (a0Loc d) (ix2 (j 0) (j 1))).toNat 99999, by omega⟩ (j 2)) := by
  unfold RES
  rw [StableHlo.unary_result]
  have hW : W3 m d r2' = OUT m d := Function.update_self _ _ _
  rw [show W3 m d (Proc.devRef .tc main_v2) = OUT m d from hW]
  refine (transpose_apply _ _ _ j (ix3 (n0 := 26) (n1 := 16) (n2 := 4096) (j 1) (j 2) (j 0))
    (by intro b; fin_cases b <;> rfl)).trans ?_
  unfold OUT
  beta_reduce
  rw [tabT_apply]
  simp only [idxT_apply]
  rfl

end Cert.Proof.KI

end
-- ==== Proof.AssembleI.lean ====
/-
  The claims about the idealized kernel, from the task's body: the precondition gives what the proof asks of the launch
  memory; the program's run with the value dropped is its frame; and the run beside the reference's — whose result is
  the lookup `out[b, f, :] = tables[f, indices[b, f], :]` of the arguments — is the equality of the two results,
  entry by entry, from memories that agree on the arguments.
-/
import proofs.«207324_g17738214933191_cont_8to1_1167_12_alg».proof.Proof.LaunchI
import proofs.«207324_g17738214933191_cont_8to1_1167_12_alg».proof.Proof.OblI
import proofs.«207324_g17738214933191_cont_8to1_1167_12_alg».proof.Proof.ValueI
import proofs.«207324_g17738214933191_cont_8to1_1167_12_alg».proof.Proof.RefSide
import proofs.«207324_g17738214933191_cont_8to1_1167_12_alg».proof.Proof.PreFacts

noncomputable section

namespace Cert.Proof.KI

open Cert.KernelIdeal Cert.KernelIdeal.Gen
open Idealize.ShloMosaic Idealize.SL.Sem
open Idealize.ShloMosaic.ValueIdx (ix2 ix3 eq_ix3)

/-- Under the precondition every index names a row of its table: the transposed indices are the indices, and the
    precondition's second conjunct bounds each of those. -/
theorem preOK_of_pre (m : (ℓ : Loc nD τ sig) → Buf (Elt Ideal) ℓ) (h : Cert.Pre_KernelIdeal m) : PreOK (F := Ideal) m := by
  intro d j
  rw [idxT_apply]
  exact Cert.Proof.PreFacts.idx_range _ _ (h d) _

/-- The idealized kernel's frame: the run, the value dropped. -/
theorem frame_pi (hb : ∀ m : (ℓ : Loc nD τ sig) → Buf (Elt Ideal) ℓ, PreOK (F := Ideal) m → BodyOK (F := Ideal) m) :
    Cert.frame_KernelIdeal := fun m ρ hpre =>
  (θ_run (Cert.KernelIdeal.defs (F := Ideal)) _ _).mono (fun _ h c => (h c).2)
    (run_main (F := Ideal) m ρ (tileObl m (hb m (preOK_of_pre m hpre))))

/-- The idealized kernel and the reference, from memories agreeing on the arguments, end with equal results: the
    kernel's is `RES`, the reference's the lookup of its arguments, and entry `(b, f, e)` of either is entry
    `(f, indices[b, f], e)` of the tables. -/
theorem algebraic (hb : ∀ m : (ℓ : Loc nD τ sig) → Buf (Elt Ideal) ℓ, PreOK (F := Ideal) m → BodyOK (F := Ideal) m) :
    Cert.algebraic_KernelIdeal_ReferenceIdeal := by
  intro m g m' g' hpre hagree
  refine ⟨fun c => RES m c, ?_, ?_⟩
  · exact (θ_run (Cert.KernelIdeal.defs (F := Ideal)) _ _).mono (fun _ h c => h c)
      (run_main (F := Ideal) m g (tileObl m (hb m (preOK_of_pre m hpre))))
  · have hpre' : Cert.Pre_ReferenceIdeal m' := fun c => by
      rw [(hagree c).1, (hagree c).2]; exact hpre c
    refine (θ_run (Cert.ReferenceIdeal.defs (F := Ideal)) _ _).mono (fun _ h c => ⟨?_, (h c).2⟩)
      (Cert.Proof.RefSide.ref_run m' g' hpre')
    rw [(h c).1, (hagree c).1, (hagree c).2]
    funext j
    obtain ⟨b, f, e, rfl⟩ : ∃ (b : Fin 4096) (f : Fin 26) (e : Fin 16), j = ix3 b f e := ⟨j 0, j 1, j 2, eq_ix3 j⟩
    rw [Cert.Proof.RefSide.G_apply]
    exact (RES_apply m c (ix3 b f e)).symm

end Cert.Proof.KI

end
-- ==== Proof.LaunchB.lean ====
/-
  The launch of the embedding lookup's one vector-subcore call: how the call's operands split among the thirty-two tasks
  and gather back, the launch element of the ghost state, the host program around the call (two transposes before it,
  one after), how the final memory reads the claim, and the program's run from the task's body obligation.
-/
import proofs.«207324_g17738214933191_cont_8to1_1167_12_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTokN shareTok shareDrop pointsTo_toks_split pointsTo_toks_join)

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands are its tasks' -/

/-- What the call hands a SparseCore IS its sixteen tasks' holdings, and what it takes back theirs. -/
theorem vecSplit : (K (F := F)).VecSplit' (P m) 0 := by
  intro d c
  show (bigSep Finset.univ fun i : Fin ((K (F := F)).nSub 0) => tileIn m d c.val i.val) ⊢ |={Set.univ}=> iprop(
      (bigSep Finset.univ fun i : Fin ((K (F := F)).nSub 0) => tileIn m d c.val i.val)
      ∗ ((bigSep Finset.univ fun i : Fin ((K (F := F)).nSub 0) => tileOut m d c.val i.val)
          -∗ bigSep Finset.univ fun i : Fin ((K (F := F)).nSub 0) => tileOut m d c.val i.val))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## Thirty-two tasks as two SparseCores of sixteen; the result as its 416 rows -/

omit [FloatOps F] in
/-- A family over the thirty-two tasks, by SparseCore and subcore: task `(c, i)` is number `i + 16 c`. -/
theorem bigSep_tasks (Φ : ℕ → sProp 𝕄) :
    (bigSep Finset.univ fun c : Fin 2 => bigSep Finset.univ fun i : Fin 16 => Φ (i.val + 16 * c.val))
      = bigSep Finset.univ fun j : Fin 32 => Φ j.val := by
  rw [← bigSep_univ_prod (fun x : Fin 2 × Fin 16 => Φ (x.2.val + 16 * x.1.val)),
    bigSep_univ_equiv (finProdFinEquiv : Fin 2 × Fin 16 ≃ Fin (2 * 16)) (fun j : Fin 32 => Φ j.val)]
  rfl

/-- The pairs of a task, by SparseCore, subcore and position. -/
abbrev rowOf (x : Fin 2 × Fin 16 × Fin 13) : Finset S26x16x4096.Idx := rowSet (qOf x.1.val x.2.1.val x.2.2.val)

omit [FloatOps F] in
/-- Different (SparseCore, subcore, position) name different pairs, so their rows are disjoint; -/
theorem rows_disjoint : ∀ x ∈ (Finset.univ : Finset (Fin 2 × Fin 16 × Fin 13)), ∀ y ∈ (Finset.univ : Finset (Fin 2 × Fin 16 × Fin 13)),
    x ≠ y → Disjoint (rowOf x) (rowOf y) := by
  intro x _ y _ hxy
  unfold rowOf rowSet
  refine Finset.disjoint_filter.mpr fun j _ h1 h2 => hxy ?_
  obtain ⟨c, s, t⟩ := x; obtain ⟨c', s', t'⟩ := y
  dsimp only at h1 h2
  have e : 13 * (2 * s.val + c.val) + t.val = 13 * (2 * s'.val + c'.val) + t'.val := h1.symm.trans h2
  have := c.isLt; have := c'.isLt; have := s.isLt; have := s'.isLt; have := t.isLt; have := t'.isLt
  exact Prod.ext (Fin.ext (by dsimp only; omega)) (Prod.ext (Fin.ext (by dsimp only; omega)) (Fin.ext (by dsimp only; omega)))

omit [FloatOps F] in
/-- and every entry `(f, e, ·)` lies in the row of pair `16 f + e < 416 = 32 · 13`. -/
theorem rows_cover : (Finset.univ : Finset (Fin 2 × Fin 16 × Fin 13)).biUnion rowOf = Finset.univ := by
  refine Finset.eq_univ_iff_forall.mpr fun j => Finset.mem_biUnion.mpr ?_
  have h0 : (j 0).val < 26 := (j 0).isLt
  have h1 : (j 1).val < 16 := (j 1).isLt
  obtain ⟨n, hn⟩ : ∃ n, n = (j 0).val * 16 + (j 1).val := ⟨_, rfl⟩
  refine ⟨(⟨n / 13 % 2, by omega⟩, ⟨n / 13 / 2, by omega⟩, ⟨n % 13, by omega⟩), Finset.mem_univ _, ?_⟩
  unfold rowOf rowSet
  refine Finset.mem_filter.mpr ⟨Finset.mem_univ _, ?_⟩
  show (j 0).val * 16 + (j 1).val = 13 * (2 * (n / 13 / 2) + n / 13 % 2) + n % 13
  omega

omit [FloatOps F] in
/-- The result whole is its rows, by SparseCore, subcore and position. -/
theorem v2_rows (d : Dev nD) (g : Buf (Elt F) (v2Loc d)) :
    (bigSep Finset.univ fun c : Fin 2 => bigSep Finset.univ fun i : Fin 16 => bigSep Finset.univ fun t : Fin 13 =>
        (v2Loc d ↦[rowSet (qOf c.val i.val t.val)]{fullShare} g : sProp 𝕄))
      = v2Loc d ↦{fullShare} g := by
  have e : (v2Loc d ↦{fullShare} g : sProp 𝕄) = bigSep Finset.univ fun x : Fin 2 × Fin 16 × Fin 13 => v2Loc d ↦[rowOf x]{fullShare} g := by
    rw [← pointsTo_biUnion Finset.univ (ℓ := v2Loc d) rowOf rows_disjoint, rows_cover]; try rfl
  rw [e, bigSep_univ_prod]
  refine bigSep_congr fun c _ => ?_
  rw [bigSep_univ_prod]

omit [FloatOps F] in
/-- Every task's holdings, at `g` for the result: the thirty-two read shares of the transposed indices, those of the
    transposed tables, and the result whole. -/
theorem tiles_eq (d : Dev nD) (g : Buf (Elt F) (v2Loc d)) :
    (bigSep Finset.univ fun c : Fin 2 => bigSep Finset.univ fun i : Fin 16 =>
      iprop((v0Loc d ↦{tokOf c.val i.val} idxT m d) ∗ (v1Loc d ↦{tokOf c.val i.val} tabT m d)
        ∗ bigSep Finset.univ fun t : Fin 13 => v2Loc d ↦[rowSet (qOf c.val i.val t.val)]{fullShare} g) : sProp 𝕄)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} g) := by
  simp only [bigSep_sep']
  rw [bigSep_tasks (fun n => v0Loc d ↦{shareTokN fullShare n} idxT m d), bigSep_tasks (fun n => v1Loc d ↦{shareTokN fullShare n} tabT m d), v2_rows]

/-- What the call takes for the two SparseCores, and what it hands back. -/
theorem st0_eq (d : Dev nD) :
    (bigSep Finset.univ fun c : Fin ((K (F := F)).nCore 0) => (P m).st 0 d c)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} m (v2Loc d)) := by
  rw [← tiles_eq m d (m (v2Loc d))]
  show (bigSep Finset.univ fun c : Fin 2 => bigSep Finset.univ fun i : Fin 16 => tileIn m d c.val i.val) = _
  unfold tileIn; rfl
theorem dn0_eq (d : Dev nD) :
    (bigSep Finset.univ fun c : Fin ((K (F := F)).nCore 0) => (P m).dn 0 d c)
      = iprop((bigSep Finset.univ fun j : Fin 32 => v0Loc d ↦{shareTok fullShare 32 j} idxT m d)
          ∗ (bigSep Finset.univ fun j : Fin 32 => v1Loc d ↦{shareTok fullShare 32 j} tabT m d) ∗ v2Loc d ↦{fullShare} OUT m d) := by
  rw [← tiles_eq m d (OUT m d)]
  show (bigSep Finset.univ fun c : Fin 2 => bigSep Finset.univ fun i : Fin 16 => tileOut m d c.val i.val) = _
  unfold tileOut; rfl

/-! ## @main on the TensorCore -/

/-- The TensorCore's arrays, all unscoped. -/
abbrev S6 : Finset (DevRef τ sig) := {a0', a1', r0', r1', r2', r3'}

omit [FloatOps F] in
theorem held_S6 (d : Dev nD) (W : Valuation τ sig (Elt F)) :
    (held (T d) S6 W : sProp 𝕄) = iprop((a0Loc d ↦{fullShare} W a0') ∗ (a1Loc d ↦{fullShare} W a1') ∗ (v0Loc d ↦{fullShare} W r0')
      ∗ (v1Loc d ↦{fullShare} W r1') ∗ (v2Loc d ↦{fullShare} W r2') ∗ v3Loc d ↦{fullShare} W r3') := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ v3Loc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S6 (W0 m d) := by
  rw [unscopedBufs_eq, held_S6]; rfl

/-- Each transpose leaves every array but its result as it was. -/
theorem opI_ne (W : Valuation τ sig (Elt F)) {b : DevRef τ sig} (h : b ∉ ({r0'} : Finset (DevRef τ sig))) : (opI (F := F)).result W b = W b :=
  (opI (F := F)).result_of_not_mem W h
theorem opT_ne (W : Valuation τ sig (Elt F)) {b : DevRef τ sig} (h : b ∉ ({r1'} : Finset (DevRef τ sig))) : (opT (F := F)).result W b = W b :=
  (opT (F := F)).result_of_not_mem W h
theorem opO_ne (W : Valuation τ sig (Elt F)) {b : DevRef τ sig} (h : b ∉ ({r3'} : Finset (DevRef τ sig))) : (opO (F := F)).result W b = W b :=
  (opO (F := F)).result_of_not_mem W h

theorem hI : (opI (F := F)).bufs ⊆ S6 := show ({a0', r0'} : Finset (DevRef τ sig)) ⊆ S6 by decide
theorem hT : (opT (F := F)).bufs ⊆ S6 := show ({a1', r1'} : Finset (DevRef τ sig)) ⊆ S6 by decide
theorem hO : (opO (F := F)).bufs ⊆ S6 := show ({r2', r3'} : Finset (DevRef τ sig)) ⊆ S6 by decide

/-- When the call is made: the arguments and the two untouched arrays at their launch contents, the transposes at theirs. -/
theorem W2_a0 (d : Dev nD) : W2 m d a0' = m (a0Loc d) := by
  unfold W2; rw [opT_ne _ (by decide), opI_ne _ (by decide)]; rfl
theorem W2_a1 (d : Dev nD) : W2 m d a1' = m (a1Loc d) := by
  unfold W2; rw [opT_ne _ (by decide), opI_ne _ (by decide)]; rfl
theorem W2_r2 (d : Dev nD) : W2 m d r2' = m (v2Loc d) := by
  unfold W2; rw [opT_ne _ (by decide), opI_ne _ (by decide)]; rfl
theorem W2_r3 (d : Dev nD) : W2 m d r3' = m (v3Loc d) := by
  unfold W2; rw [opT_ne _ (by decide), opI_ne _ (by decide)]; rfl

theorem held_W2 (d : Dev nD) :
    (held (T d) S6 (W2 m d) : sProp 𝕄) = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} m (v2Loc d)) ∗ v3Loc d ↦{fullShare} m (v3Loc d)) := by
  rw [held_S6, W2_a0, W2_a1, W2_r2, W2_r3]; rfl

/-- After the call: the result array at the gathered rows, the rest as the call found it. -/
theorem held_W3 (d : Dev nD) :
    (held (T d) S6 (W3 m d) : sProp 𝕄) = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} OUT m d) ∗ v3Loc d ↦{fullShare} m (v3Loc d)) := by
  rw [held_S6]
  unfold W3
  rw [Function.update_of_ne (show a0' ≠ r2' by decide), Function.update_of_ne (show a1' ≠ r2' by decide), Function.update_of_ne (show r0' ≠ r2' by decide),
    Function.update_of_ne (show r1' ≠ r2' by decide), Function.update_self, Function.update_of_ne (show r3' ≠ r2' by decide), W2_a0, W2_a1, W2_r3]
  rfl

/-- After the last transpose: the arguments still at their launch contents, the program's result at `RES`. -/
theorem held_W4 (d : Dev nD) :
    (held (T d) S6 ((opO (F := F)).result (W3 m d)) : sProp 𝕄)
      ⊢ iprop((a0Loc d ↦{fullShare} m (a0Loc d)) ∗ (a1Loc d ↦{fullShare} m (a1Loc d)) ∗ v3Loc d ↦{fullShare} RES m d) := by
  rw [held_S6, opO_ne _ (show a0' ∉ ({r3'} : Finset (DevRef τ sig)) by decide), opO_ne _ (show a1' ∉ ({r3'} : Finset (DevRef τ sig)) by decide)]
  unfold W3
  rw [Function.update_of_ne (show a0' ≠ r2' by decide), Function.update_of_ne (show a1' ≠ r2' by decide), W2_a0, W2_a1]
  iintro ⟨H0, H1, -, -, -, H3⟩
  isplitl [H0]; · iexact H0
  isplitl [H1]; · iexact H1
  iexact H3

theorem held_W2' (d : Dev nD) :
    (held (T d) S6 ((opT (F := F)).result ((opI (F := F)).result (W0 m d))) : sProp 𝕄)
      = iprop((a0Loc d ↦{fullShare} m (a0Loc d)) ∗ (a1Loc d ↦{fullShare} m (a1Loc d)) ∗ (v0Loc d ↦{fullShare} idxT m d)
      ∗ (v1Loc d ↦{fullShare} tabT m d) ∗ (v2Loc d ↦{fullShare} m (v2Loc d)) ∗ v3Loc d ↦{fullShare} m (v3Loc d)) := held_W2 m d

/-- What @main leaves the claim: the arguments at their launch contents, the result at `RES`. -/
abbrev FIN (d : Dev nD) : sProp 𝕄 :=
  iprop((a0Loc d ↦{fullShare} m (a0Loc d)) ∗ (a1Loc d ↦{fullShare} m (a1Loc d)) ∗ v3Loc d ↦{fullShare} RES m d)

/-- @main on device `d`'s TensorCore: the two transposes, the call — each task a read share of the two transposed arrays
    and its thirteen rows of the result —, the last transpose; the arguments kept. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (Cert.Kernel.main d)
          fun _ => iprop((K (F := F)).tcSt EH d 1 ∗ FIN m d) := by
  unfold SparseCore.Cfg.tcRes
  rw [unscoped_held]
  simp only [Cert.Kernel.main, wp_bind, wp_pure]
  iintro ⟨#Hctx, Hst, ⟨Hb, Hheld, -, -⟩, -⟩
  -- the two transposes
  iapply (wp_hlo_within 𝒱 (SparseCore.T d) none Set.univ (op := opI) (S := S6) hI (V := W0 m d)) $$ [Hb Hheld]
  · isplitl [Hb]; · iexact Hb
    iexact Hheld
  iintro ⟨Hb, Hheld⟩
  rw [wp_ret]; imodintro
  iapply (wp_hlo_within 𝒱 (SparseCore.T d) none Set.univ (op := opT) (S := S6) hT (V := (opI (F := F)).result (W0 m d))) $$ [Hb Hheld]
  · isplitl [Hb]; · iexact Hb
    iexact Hheld
  iintro ⟨Hb, Hheld⟩
  rw [wp_ret]; imodintro
  ihave Hh := (Entails.of_eq (held_W2' m d)) $$ Hheld
  icases Hh with ⟨Ha0, Ha1, Hv0, Hv1, Hv2, Hv3⟩
  -- the read shares of the two transposed arrays
  ihave Hv0' := (pointsTo_toks_split fullShare 32) $$ Hv0
  icases Hv0' with ⟨Hv0r, Hv0t⟩
  ihave Hv1' := (pointsTo_toks_split fullShare 32) $$ Hv1
  icases Hv1' with ⟨Hv1r, Hv1t⟩
  -- the call
  iapply ((K (F := F)).wp_run (D (F := F)) 𝒱 (EH := EH) (P := P m) κ d 0) $$ [Hst Hv0t Hv1t Hv2 Ha0 Ha1 Hv0r Hv1r Hv3 Hb]
  isplitr; · iexact Hctx
  isplitl [Hst]; · iexact Hst
  isplitl [Hv0t Hv1t Hv2]
  · rw [st0_eq]
    isplitl [Hv0t]; · iexact Hv0t
    isplitl [Hv1t]; · iexact Hv1t
    iexact Hv2
  iintro ⟨Hst, Hdn⟩
  ihave Hdn' := (Entails.of_eq (dn0_eq m d)) $$ Hdn
  icases Hdn' with ⟨Hv0t, Hv1t, Hv2⟩
  ihave Hv0 := (pointsTo_toks_join fullShare 32) $$ [Hv0r Hv0t]
  · isplitl [Hv0r]; · iexact Hv0r
    iexact Hv0t
  ihave Hv1 := (pointsTo_toks_join fullShare 32) $$ [Hv1r Hv1t]
  · isplitl [Hv1r]; · iexact Hv1r
    iexact Hv1t
  -- the last transpose
  iapply (wp_hlo_within 𝒱 (SparseCore.T d) none Set.univ (op := opO) (S := S6) hO (V := W3 m d)) $$ [Hb Ha0 Ha1 Hv0 Hv1 Hv2 Hv3]
  · isplitl [Hb]; · iexact Hb
    rw [held_W3]
    isplitl [Ha0]; · iexact Ha0
    isplitl [Ha1]; · iexact Ha1
    isplitl [Hv0]; · iexact Hv0
    isplitl [Hv1]; · iexact Hv1
    isplitl [Hv2]; · iexact Hv2
    iexact Hv3
  iintro ⟨Hb, Hheld⟩
  ihave Hh := (held_W4 m d) $$ Hheld
  rw [wp_ret]; imodintro; imodintro
  isplitl [Hst]; · iexact Hst
  iexact Hh

/-! ## The final memory reads the claim -/

def fq (d : Dev nD) (s' : Phys nD τ sig (Elt F)) : Prop :=
  s'.mem.mem (v3Loc d) = RES m d ∧ s'.mem.mem (a0Loc d) = m (a0Loc d) ∧ s'.mem.mem (a1Loc d) = m (a1Loc d)

theorem hfin (d : Dev nD) (s' : Phys nD τ sig (Elt F)) : iprop(FIN m d ∗ SI s') ⊢ (⌜fq m d s'⌝ : sProp 𝕄) := by
  iintro ⟨⟨H0, H1, H3⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v3Loc d) (I := Finset.univ) (q := fullShare) (f := RES m d)) $$ [HSI H3]
  · isplitl [HSI] <;> iassumption
  icases H with %h3
  ipureintro
  exact ⟨funext fun i => h3 i (Finset.mem_univ i), funext fun i => h0 i (Finset.mem_univ i), funext fun i => h1 i (Finset.mem_univ i)⟩

/-! ## The program's run -/

/-- In the final memory of every device: the result at `RES`, the two arguments at their launch contents. -/
def QC : PUnit × MemSt nD τ sig (Elt F) → Prop := fun r =>
  ∀ c : Dev nD, r.2.mem (v3Loc c) = RES m c ∧ r.2.mem (a0Loc c) = m (a0Loc c) ∧ r.2.mem (a1Loc c) = m (a1Loc c)

/-- The program's run, from the task's body obligation. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ Cert.Kernel.main (fun _ => iprop(emp)) (FIN m) (u₀ (F := F)) (sep_elim_left.trans (hu₀ m)) (hmain m ρ) (fq m) (hfin m) (QC m) (fun _ h => h)

end Cert.Proof.KB

end
-- ==== Proof.OblB.lean ====
/-
  From the task's body, proved once at a symbolic place of the grid, to the launch theorem's obligation for the one
  vector-subcore call: the obligation's thread and program are the body's at the place `(c, i)` of the grid.
-/
import proofs.«207324_g17738214933191_cont_8to1_1167_12_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

variable [FloatOps F]

/-- The task's body at the place `L` of the grid, on vector subcore `(L 0, L 1)` of device `d`: from what the task is
    handed (`tileIn`) and the subcore's own storage to what it hands back (`tileOut`), the storage back, every wait
    recorded one of the kernel's own. -/
def BodyOK : Prop :=
  ∀ (d : Dev nD) (L : grid0.Coords) (O : CellTallies nD τ sig (HIx 1)) (W : Waits sig (HIx 1)), (∀ g, O g none = 0) →
    iprop(levAts (K (F := F)).L (K (F := F)).lev ∗ emp ∗ tileIn m d (L 0).val (L 1).val
        ∗ scopedBufs (V d ((L 0).castLE hcore0) ((L 1).castLE hsub0)) ∗ scopedSems0 (V d ((L 0).castLE hcore0) ((L 1).castLE hsub0))
        ∗ owes (V d ((L 0).castLE hcore0) ((L 1).castLE hsub0)) O W)
      ⊢ wp frame (wpE (defs₀ (F := F)) 𝒱₀ (V d ((L 0).castLE hcore0) ((L 1).castLE hsub0)) none) Set.univ
          (cc0__body L (Memref.whole main_v0_scv) (Memref.isWhole_whole _) (Memref.whole main_v1_scv) (Memref.isWhole_whole _)
            (Memref.whole main_v2_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5 cc0_scratch6 cc0_scoped0)
          fun _ => iprop(tileOut m d (L 0).val (L 1).val ∗ scopedBufs (V d ((L 0).castLE hcore0) ((L 1).castLE hsub0))
            ∗ scopedSems0 (V d ((L 0).castLE hcore0) ((L 1).castLE hsub0))
            ∗ ∃ W', ⌜∀ p ∈ W', p ∈ W ∨ p.2 = none⌝ ∗ owes (V d ((L 0).castLE hcore0) ((L 1).castLE hsub0)) O W')

/-- The place of the grid of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s)
          (Memref.whole main_v0_scv) (Memref.isWhole_whole _) (Memref.whole main_v1_scv) (Memref.isWhole_whole _)
          (Memref.whole main_v2_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The launch theorem's obligation for the call's tasks, from the body. -/
theorem tileObl (hb : BodyOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hb d (coordsV ⟨_, hc.1⟩ ⟨_, hc.2⟩) O W hO).trans (wp_mono frame _ _ fun _ => obl_post)

end Cert.Proof.KB

end
-- ==== Proof.ValueB.lean ====
/-
  The program's result as one function of its arguments. The host transposes the indices `[4096, 26]` and the tables
  `[26, 100000, 16]`, the call fills the `[26, 16, 4096]` array, and the host transposes that to `[4096, 26, 16]`.
  Reading through the three transposes: entry `(b, f, e)` of the result is entry `(f, i, e)` of the tables at
  `i` the index of field `f` in sample `b`.
-/
import proofs.«207324_g17738214933191_cont_8to1_1167_12_alg».proof.Proof.CommonB
import Idealize.ShloMosaic.Lib.Pipeline.Value

noncomputable section

namespace Cert.Proof.KB

open Cert.Kernel Cert.Kernel.Gen
open Idealize.ShloMosaic
open Idealize.ShloMosaic.ValueIdx (ix1 ix2 ix3)

variable {F : FTy → Type} [FloatOps F]
variable (m : (ℓ : Loc nD τ sig) → Buf (Elt F) ℓ)

/-- The transposed indices read the indices with the coordinates exchanged. -/
theorem idxT_apply (d : Dev nD) (j : S26x4096.Idx) : idxT m d j = m (a0Loc d) (ix2 (j 1) (j 0)) := by
  unfold idxT W2
  rw [StableHlo.unary_result_ne (h := (by decide : main_v0 ≠ main_v1))]
  rw [StableHlo.unary_result]
  exact transpose_apply _ _ _ j _ (by intro b; fin_cases b <;> rfl)

/-- The transposed tables read the tables with the last two coordinates exchanged. -/
theorem tabT_apply (d : Dev nD) (j : S26x16x100000.Idx) : tabT m d j = m (a1Loc d) (ix3 (j 0) (j 2) (j 1)) := by
  unfold tabT W2
  rw [StableHlo.unary_result]
  rw [StableHlo.unary_result_ne (h := (by decide : main_arg1 ≠ main_v0))]
  exact transpose_apply _ _ _ j _ (by intro b; fin_cases b <;> rfl)

/-- Entry `(b, f, e)` of the program's result. -/
theorem RES_apply (d : Dev nD) (j : S4096x26x16.Idx) :
    RES m d j = m (a1Loc d) (ix3 (j 1) ⟨min (m (a0Loc d) (ix2 (j 0) (j 1))).toNat 99999, by omega⟩ (j 2)) := by
  unfold RES
  rw [StableHlo.unary_result]
  have hW : W3 m d r2' = OUT m d := Function.update_self _ _ _
  rw [show W3 m d (Proc.devRef .tc main_v2) = OUT m d from hW]
  refine (transpose_apply _ _ _ j (ix3 (n0 := 26) (n1 := 16) (n2 := 4096) (j 1) (j 2) (j 0))
    (by intro b; fin_cases b <;> rfl)).trans ?_
  unfold OUT
  beta_reduce
  rw [tabT_apply]
  simp only [idxT_apply]
  rfl

end Cert.Proof.KB

end
-- ==== Proof.AssembleB.lean ====
/-
  The claim about the kernel as printed, from the task's body: the precondition gives what the proof asks of the launch
  memory, and the program's run with the value dropped is its frame.
-/
import proofs.«207324_g17738214933191_cont_8to1_1167_12_alg».proof.Proof.LaunchB
import proofs.«207324_g17738214933191_cont_8to1_1167_12_alg».proof.Proof.OblB
import proofs.«207324_g17738214933191_cont_8to1_1167_12_alg».proof.Proof.ValueB
import proofs.«207324_g17738214933191_cont_8to1_1167_12_alg».proof.Proof.PreFacts

noncomputable section

namespace Cert.Proof.KB

open Cert.Kernel Cert.Kernel.Gen
open Idealize.ShloMosaic Idealize.SL.Sem

/-- Under the precondition every index names a row of its table: the transposed indices are the indices, and the
    precondition's second conjunct bounds each of those. -/
theorem preOK_of_pre (m : (ℓ : Loc nD τ sig) → Buf (Elt Bits) ℓ) (h : Cert.Pre_Kernel m) : PreOK (F := Bits) m := by
  intro d j
  rw [idxT_apply]
  exact Cert.Proof.PreFacts.idx_range _ _ (h d) _

/-- The kernel's frame: the run, the value dropped. -/
theorem frame_p (hb : ∀ m : (ℓ : Loc nD τ sig) → Buf (Elt Bits) ℓ, PreOK (F := Bits) m → BodyOK (F := Bits) m) :
    Cert.frame_Kernel := fun m ρ hpre =>
  (θ_run (Cert.Kernel.defs (F := Bits)) _ _).mono (fun _ h c => (h c).2)
    (run_main (F := Bits) m ρ (tileObl m (hb m (preOK_of_pre m hpre))))

end Cert.Proof.KB

end
-- ==== Proof.lean ====
/- The proof of `Cert.Claim`. The kernel is an embedding lookup `out[b, f, :] = tables[f, indices[b, f], :]`: the host
   transposes the indices and the tables, one SparseCore call of thirty-two vector-subcore tasks gathers the
   `[26, 16, 4096]` transposed result row by row (task `(c, s)` the thirteen (field, column) pairs
   `13 (2 s + c) + t`, each pair's table row staged in two halves and gathered at the field's indices), and the host
   transposes that back. Under the precondition every index names a row of its table.
   The modules: the program's run from the task's body by the SparseCore launch theorem (`Launch`, `Obl`); the body, a
   loop over the task's pairs cut at its conditionals (`Tile`, `Outer*`) around the two gather loops (`Inner`,
   `Lanes`, `Spec`), with the printed offsets and views read back (`Offsets`, `Views`) and the gathered row
   identified with the result's (`RowVal`); the result as one function of the arguments through the three transposes
   (`Value`); the reference as the same lookup by one gather (`RefSide`); the precondition read back (`PreFacts`).
   Every module about the kernel is written once, generic in the float instance, and stands twice: over the program as
   printed (`…B`, namespace `Cert.Proof.KB`) for its frame, and over the idealized program (`…I`, `Cert.Proof.KI`)
   for its frame and for the equality with the reference (`Assemble`). -/
import proofs.«207324_g17738214933191_cont_8to1_1167_12_alg».proof.Defs
import proofs.«207324_g17738214933191_cont_8to1_1167_12_alg».proof.Proof.Gen.Kernel
import proofs.«207324_g17738214933191_cont_8to1_1167_12_alg».proof.Proof.Gen.Kernel.Skeleton
import proofs.«207324_g17738214933191_cont_8to1_1167_12_alg».proof.Proof.Gen.KernelIdeal
import proofs.«207324_g17738214933191_cont_8to1_1167_12_alg».proof.Proof.Gen.KernelIdeal.Skeleton
import proofs.«207324_g17738214933191_cont_8to1_1167_12_alg».proof.Proof.Gen.ReferenceIdeal
import proofs.«207324_g17738214933191_cont_8to1_1167_12_alg».proof.Proof.Gen.Pre_input_domain
import proofs.«207324_g17738214933191_cont_8to1_1167_12_alg».proof.Proof.Gen.ReferenceIdeal.Read
import proofs.«207324_g17738214933191_cont_8to1_1167_12_alg».proof.Proof.RefSide
import proofs.«207324_g17738214933191_cont_8to1_1167_12_alg».proof.Proof.TileI
import proofs.«207324_g17738214933191_cont_8to1_1167_12_alg».proof.Proof.TileB
import proofs.«207324_g17738214933191_cont_8to1_1167_12_alg».proof.Proof.AssembleI
import proofs.«207324_g17738214933191_cont_8to1_1167_12_alg».proof.Proof.AssembleB
import Idealize.ShloMosaic.Adequacy
import Idealize.ShloMosaic.Init

noncomputable section

namespace Cert.Proof

open Idealize.ShloMosaic Idealize.SL.Sem

/-- The task's body at every place of the grid, idealized and as printed. -/
theorem bodyI (m : (ℓ : Loc Cert.KernelIdeal.nD Cert.KernelIdeal.τ Cert.KernelIdeal.sig) → Buf (Elt Ideal) ℓ)
    (hpre : Cert.Proof.KI.PreOK (F := Ideal) m) : Cert.Proof.KI.BodyOK (F := Ideal) m :=
  fun d L O W hO => Cert.Proof.KI.tile_body m d L O W Cert.Proof.KI.facts hpre hO
theorem bodyB (m : (ℓ : Loc Cert.Kernel.nD Cert.Kernel.τ Cert.Kernel.sig) → Buf (Elt Bits) ℓ)
    (hpre : Cert.Proof.KB.PreOK (F := Bits) m) : Cert.Proof.KB.BodyOK (F := Bits) m :=
  fun d L O W hO => Cert.Proof.KB.tile_body m d L O W Cert.Proof.KB.facts hpre hO

theorem claim : Cert.Claim := ⟨Cert.Kernel.Gen.facts, Cert.KernelIdeal.Gen.facts, Cert.ReferenceIdeal.Gen.facts, Cert.Pre_input_domain.Gen.facts,
  Cert.Proof.KB.frame_p bodyB,
  Cert.Proof.KI.frame_pi bodyI,
  Cert.Proof.RefSide.frame_ri,
  trivial,
  Cert.Proof.KI.algebraic bodyI⟩

end Cert.Proof

end
